-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v376)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v376) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v447) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x262144x3 : Shape := ⟨3, ![4, 262144, 3]⟩
abbrev S32x513x513 : Shape := ⟨3, ![32, 513, 513]⟩
abbrev S_ : Shape := ⟨0, ![]⟩

class Facts : Prop where
  bcast_S_S4x262144x3 : S_.BroadcastsInDim S4x262144x3 (![] : Fin 0 → Fin S4x262144x3.rank)
  reducesTo_S4x262144x3_S_d0_1_2 : S4x262144x3.ReducesTo [0, 1, 2] S_
  h_S_ : 0 < S_.numel
  bcast_S_S32x513x513 : S_.BroadcastsInDim S32x513x513 (![] : Fin 0 → Fin S32x513x513.rank)
  reducesTo_S32x513x513_S_d0_1_2 : S32x513x513.ReducesTo [0, 1, 2] S_

variable [Facts]

def fn_part1 {F : FTy → Type} [FloatOps F] (main_v13 : IVec S_ 1) (main_v16 : IVec S32x513x513 1) : IVec S_ 1 :=
  let main_c_5 : IVec S_ 1 := constantI S_ 1 1#1
  let main_v17 : IVec S_ 1 := (fun x v => Host.reduce IntOp.andi x v reducesTo_S32x513x513_S_d0_1_2 h_S_) main_v16 main_c_5
  let main_v18 : IVec S_ 1 := andi main_v13 main_v17
  main_v18

def fn {F : FTy → Type} [FloatOps F] (main_arg0 : FVec F S4x262144x3 .f32) (main_arg1 : FVec F S32x513x513 .f32) (main_arg2 : FVec F S32x513x513 .f32) (main_arg3 : FVec F S32x513x513 .f32) : IVec S_ 1 :=
  let main_v0 : FVec F S4x262144x3 .f32 := Host.absf main_arg0
  let main_cst : FVec F S_ .f32 := constant S_ .f32 0x7F800000#32
  let main_v1 : FVec F S4x262144x3 .f32 := broadcastInDim S4x262144x3 ![] bcast_S_S4x262144x3 main_cst
  let main_v2 : IVec S4x262144x3 1 := cmpf .olt main_v0 main_v1
  let main_c : IVec S_ 1 := constantI S_ 1 1#1
  let main_v3 : IVec S_ 1 := (fun x v => Host.reduce IntOp.andi x v reducesTo_S4x262144x3_S_d0_1_2 h_S_) main_v2 main_c
  let main_v4 : FVec F S32x513x513 .f32 := Host.absf main_arg1
  let main_cst_0 : FVec F S_ .f32 := constant S_ .f32 0x7F800000#32
  let main_v5 : FVec F S32x513x513 .f32 := broadcastInDim S32x513x513 ![] bcast_S_S32x513x513 main_cst_0
  let main_v6 : IVec S32x513x513 1 := cmpf .olt main_v4 main_v5
  let main_c_1 : IVec S_ 1 := constantI S_ 1 1#1
  let main_v7 : IVec S_ 1 := (fun x v => Host.reduce IntOp.andi x v reducesTo_S32x513x513_S_d0_1_2 h_S_) main_v6 main_c_1
  let main_v8 : IVec S_ 1 := andi main_v3 main_v7
  let main_v9 : FVec F S32x513x513 .f32 := Host.absf main_arg2
  let main_cst_2 : FVec F S_ .f32 := constant S_ .f32 0x7F800000#32
  let main_v10 : FVec F S32x513x513 .f32 := broadcastInDim S32x513x513 ![] bcast_S_S32x513x513 main_cst_2
  let main_v11 : IVec S32x513x513 1 := cmpf .olt main_v9 main_v10
  let main_c_3 : IVec S_ 1 := constantI S_ 1 1#1
  let main_v12 : IVec S_ 1 := (fun x v => Host.reduce IntOp.andi x v reducesTo_S32x513x513_S_d0_1_2 h_S_) main_v11 main_c_3
  let main_v13 : IVec S_ 1 := andi main_v8 main_v12
  let main_v14 : FVec F S32x513x513 .f32 := Host.absf main_arg3
  let main_cst_4 : FVec F S_ .f32 := constant S_ .f32 0x7F800000#32
  let main_v15 : FVec F S32x513x513 .f32 := broadcastInDim S32x513x513 ![] bcast_S_S32x513x513 main_cst_4
  let main_v16 : IVec S32x513x513 1 := cmpf .olt main_v14 main_v15
  fn_part1 (F := F) main_v13 main_v16
-- ==== Kernel.lean ====
abbrev S4x262144x3 : Shape := ⟨3, ![4, 262144, 3]⟩
abbrev S32x513x513 : Shape := ⟨3, ![32, 513, 513]⟩
abbrev S1048576x3 : Shape := ⟨2, ![1048576, 3]⟩
abbrev S1048576x1 : Shape := ⟨2, ![1048576, 1]⟩
abbrev S1048576 : Shape := ⟨1, ![1048576]⟩
abbrev S_ : Shape := ⟨0, ![]⟩
abbrev S1048576x2 : Shape := ⟨2, ![1048576, 2]⟩
abbrev S32x1048576 : Shape := ⟨2, ![32, 1048576]⟩
abbrev S1048576x32 : Shape := ⟨2, ![1048576, 32]⟩
abbrev S1048576x1x32 : Shape := ⟨3, ![1048576, 1, 32]⟩
abbrev S1048576x3x32 : Shape := ⟨3, ![1048576, 3, 32]⟩
abbrev S1048576x3x1 : Shape := ⟨3, ![1048576, 3, 1]⟩
abbrev S512x3x32 : Shape := ⟨3, ![512, 3, 32]⟩
abbrev S512x3x1 : Shape := ⟨3, ![512, 3, 1]⟩
abbrev S4x262144x3x32 : Shape := ⟨4, ![4, 262144, 3, 32]⟩

abbrev nBuf : Space → Nat
  | .hbm => 525
  | .vmem => 14
  | .smem => 0
  | _ => 0

abbrev hbmTy0_0 (i : Nat) : BufTy := match i % 128 with
  | 0 => ⟨S4x262144x3, .f32⟩
  | 1 => ⟨S32x513x513, .f32⟩
  | 2 => ⟨S32x513x513, .f32⟩
  | 3 => ⟨S32x513x513, .f32⟩
  | 4 => ⟨S1048576x3, .f32⟩
  | 5 => ⟨S1048576x1, .f32⟩
  | 6 => ⟨S1048576, .f32⟩
  | 7 => ⟨S1048576x1, .f32⟩
  | 8 => ⟨S1048576, .f32⟩
  | 9 => ⟨S_, .f32⟩
  | 10 => ⟨S1048576, .f32⟩
  | 11 => ⟨S1048576, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S1048576, .f32⟩
  | 19 => ⟨S_, .f32⟩
  | 20 => ⟨S1048576, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S1048576, .f32⟩
  | 27 => ⟨S_, .f32⟩
  | 28 => ⟨S1048576, .f32⟩
  | 29 => ⟨S1048576, .i1⟩
  | 30 => ⟨S_, .f32⟩
  | 31 => ⟨S1048576, .f32⟩
  | 32 => ⟨S1048576, .f32⟩
  | 33 => ⟨S1048576, .f32⟩
  | 34 => ⟨S_, .f32⟩
  | 35 => ⟨S_, .f32⟩
  | 36 => ⟨S_, .f32⟩
  | 37 => ⟨S1048576, .f32⟩
  | 38 => ⟨S1048576, .f32⟩
  | 39 => ⟨S_, .f32⟩
  | 40 => ⟨S1048576, .f32⟩
  | 41 => ⟨S1048576, .f32⟩
  | 42 => ⟨S_, .f32⟩
  | 43 => ⟨S1048576, .f32⟩
  | 44 => ⟨S1048576, .f32⟩
  | 45 => ⟨S_, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S1048576, .f32⟩
  | 52 => ⟨S_, .f32⟩
  | 53 => ⟨S1048576, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S1048576, .f32⟩
  | 60 => ⟨S_, .f32⟩
  | 61 => ⟨S1048576, .f32⟩
  | 62 => ⟨S1048576, .i1⟩
  | 63 => ⟨S_, .f32⟩
  | 64 => ⟨S1048576, .f32⟩
  | 65 => ⟨S1048576, .f32⟩
  | 66 => ⟨S1048576, .f32⟩
  | 67 => ⟨S_, .f32⟩
  | 68 => ⟨S_, .f32⟩
  | 69 => ⟨S_, .f32⟩
  | 70 => ⟨S1048576, .f32⟩
  | 71 => ⟨S1048576, .f32⟩
  | 72 => ⟨S_, .f32⟩
  | 73 => ⟨S1048576, .f32⟩
  | 74 => ⟨S1048576, .f32⟩
  | 75 => ⟨S1048576, .f32⟩
  | 76 => ⟨S1048576, .f32⟩
  | 77 => ⟨S1048576, .f32⟩
  | 78 => ⟨S1048576, .f32⟩
  | 79 => ⟨S1048576, .i32⟩
  | 80 => ⟨S1048576, .i32⟩
  | 81 => ⟨S_, .i32⟩
  | 82 => ⟨S1048576, .i32⟩
  | 83 => ⟨S1048576, .i32⟩
  | 84 => ⟨S_, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x1, .i32⟩
  | 109 => ⟨S1048576x2, .i32⟩
  | 110 => ⟨S32x1048576, .f32⟩
  | 111 => ⟨S1048576x32, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x1, .i32⟩
  | _ => ⟨S4x262144x3, .f32⟩

abbrev hbmTy0_1 (i : Nat) : BufTy := match i % 128 with
  | 0 => ⟨S1048576x2, .i32⟩
  | 1 => ⟨S32x1048576, .f32⟩
  | 2 => ⟨S1048576x32, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S1048576x1, .i32⟩
  | 18 => ⟨S1048576x1, .i32⟩
  | 19 => ⟨S1048576x2, .i32⟩
  | 20 => ⟨S32x1048576, .f32⟩
  | 21 => ⟨S1048576x32, .f32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S1048576x1, .i32⟩
  | 37 => ⟨S1048576x1, .i32⟩
  | 38 => ⟨S1048576x2, .i32⟩
  | 39 => ⟨S32x1048576, .f32⟩
  | 40 => ⟨S1048576x32, .f32⟩
  | 41 => ⟨S1048576x1, .f32⟩
  | 42 => ⟨S1048576, .f32⟩
  | 43 => ⟨S1048576x1, .f32⟩
  | 44 => ⟨S1048576, .f32⟩
  | 45 => ⟨S_, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S_, .f32⟩
  | 52 => ⟨S1048576, .f32⟩
  | 53 => ⟨S1048576, .f32⟩
  | 54 => ⟨S1048576, .f32⟩
  | 55 => ⟨S_, .f32⟩
  | 56 => ⟨S1048576, .f32⟩
  | 57 => ⟨S1048576, .f32⟩
  | 58 => ⟨S1048576, .f32⟩
  | 59 => ⟨S_, .f32⟩
  | 60 => ⟨S1048576, .f32⟩
  | 61 => ⟨S1048576, .f32⟩
  | 62 => ⟨S1048576, .f32⟩
  | 63 => ⟨S_, .f32⟩
  | 64 => ⟨S1048576, .f32⟩
  | 65 => ⟨S1048576, .i1⟩
  | 66 => ⟨S_, .f32⟩
  | 67 => ⟨S1048576, .f32⟩
  | 68 => ⟨S1048576, .f32⟩
  | 69 => ⟨S1048576, .f32⟩
  | 70 => ⟨S_, .f32⟩
  | 71 => ⟨S_, .f32⟩
  | 72 => ⟨S_, .f32⟩
  | 73 => ⟨S1048576, .f32⟩
  | 74 => ⟨S1048576, .f32⟩
  | 75 => ⟨S_, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S1048576, .f32⟩
  | 92 => ⟨S_, .f32⟩
  | 93 => ⟨S1048576, .f32⟩
  | 94 => ⟨S1048576, .f32⟩
  | 95 => ⟨S1048576, .f32⟩
  | 96 => ⟨S_, .f32⟩
  | 97 => ⟨S1048576, .f32⟩
  | 98 => ⟨S1048576, .i1⟩
  | 99 => ⟨S_, .f32⟩
  | 100 => ⟨S1048576, .f32⟩
  | 101 => ⟨S1048576, .f32⟩
  | 102 => ⟨S1048576, .f32⟩
  | 103 => ⟨S_, .f32⟩
  | 104 => ⟨S_, .f32⟩
  | 105 => ⟨S_, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S1048576, .f32⟩
  | 112 => ⟨S1048576, .f32⟩
  | 113 => ⟨S1048576, .f32⟩
  | 114 => ⟨S1048576, .f32⟩
  | 115 => ⟨S1048576, .i32⟩
  | 116 => ⟨S1048576, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S_, .i32⟩
  | 124 => ⟨S1048576, .i32⟩
  | 125 => ⟨S1048576, .i32⟩
  | 126 => ⟨S_, .i32⟩
  | 127 => ⟨S1048576, .i32⟩
  | _ => ⟨S4x262144x3, .f32⟩

abbrev hbmTy0_2 (i : Nat) : BufTy := match i % 128 with
  | 0 => ⟨S1048576, .i32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S1048576x1, .i32⟩
  | 16 => ⟨S1048576x1, .i32⟩
  | 17 => ⟨S1048576x2, .i32⟩
  | 18 => ⟨S32x1048576, .f32⟩
  | 19 => ⟨S1048576x32, .f32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S1048576x1, .i32⟩
  | 36 => ⟨S1048576x2, .i32⟩
  | 37 => ⟨S32x1048576, .f32⟩
  | 38 => ⟨S1048576x32, .f32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S1048576x1, .i32⟩
  | 54 => ⟨S1048576x1, .i32⟩
  | 55 => ⟨S1048576x2, .i32⟩
  | 56 => ⟨S32x1048576, .f32⟩
  | 57 => ⟨S1048576x32, .f32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S1048576x1, .i32⟩
  | 73 => ⟨S1048576x1, .i32⟩
  | 74 => ⟨S1048576x2, .i32⟩
  | 75 => ⟨S32x1048576, .f32⟩
  | 76 => ⟨S1048576x32, .f32⟩
  | 77 => ⟨S1048576x1, .f32⟩
  | 78 => ⟨S1048576, .f32⟩
  | 79 => ⟨S1048576x1, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S1048576, .f32⟩
  | 91 => ⟨S_, .f32⟩
  | 92 => ⟨S1048576, .f32⟩
  | 93 => ⟨S1048576, .f32⟩
  | 94 => ⟨S1048576, .f32⟩
  | 95 => ⟨S_, .f32⟩
  | 96 => ⟨S1048576, .f32⟩
  | 97 => ⟨S1048576, .f32⟩
  | 98 => ⟨S1048576, .f32⟩
  | 99 => ⟨S_, .f32⟩
  | 100 => ⟨S1048576, .f32⟩
  | 101 => ⟨S1048576, .i1⟩
  | 102 => ⟨S_, .f32⟩
  | 103 => ⟨S1048576, .f32⟩
  | 104 => ⟨S1048576, .f32⟩
  | 105 => ⟨S1048576, .f32⟩
  | 106 => ⟨S_, .f32⟩
  | 107 => ⟨S_, .f32⟩
  | 108 => ⟨S_, .f32⟩
  | 109 => ⟨S1048576, .f32⟩
  | 110 => ⟨S1048576, .f32⟩
  | 111 => ⟨S_, .f32⟩
  | 112 => ⟨S1048576, .f32⟩
  | 113 => ⟨S1048576, .f32⟩
  | 114 => ⟨S_, .f32⟩
  | 115 => ⟨S1048576, .f32⟩
  | 116 => ⟨S1048576, .f32⟩
  | 117 => ⟨S_, .f32⟩
  | 118 => ⟨S1048576, .f32⟩
  | 119 => ⟨S1048576, .f32⟩
  | 120 => ⟨S_, .f32⟩
  | 121 => ⟨S1048576, .f32⟩
  | 122 => ⟨S1048576, .f32⟩
  | 123 => ⟨S1048576, .f32⟩
  | 124 => ⟨S_, .f32⟩
  | 125 => ⟨S1048576, .f32⟩
  | 126 => ⟨S1048576, .f32⟩
  | 127 => ⟨S1048576, .f32⟩
  | _ => ⟨S4x262144x3, .f32⟩

abbrev hbmTy0_3 (i : Nat) : BufTy := match i % 128 with
  | 0 => ⟨S_, .f32⟩
  | 1 => ⟨S1048576, .f32⟩
  | 2 => ⟨S1048576, .f32⟩
  | 3 => ⟨S1048576, .f32⟩
  | 4 => ⟨S_, .f32⟩
  | 5 => ⟨S1048576, .f32⟩
  | 6 => ⟨S1048576, .i1⟩
  | 7 => ⟨S_, .f32⟩
  | 8 => ⟨S1048576, .f32⟩
  | 9 => ⟨S1048576, .f32⟩
  | 10 => ⟨S1048576, .f32⟩
  | 11 => ⟨S_, .f32⟩
  | 12 => ⟨S_, .f32⟩
  | 13 => ⟨S_, .f32⟩
  | 14 => ⟨S1048576, .f32⟩
  | 15 => ⟨S1048576, .f32⟩
  | 16 => ⟨S_, .f32⟩
  | 17 => ⟨S1048576, .f32⟩
  | 18 => ⟨S1048576, .f32⟩
  | 19 => ⟨S1048576, .f32⟩
  | 20 => ⟨S1048576, .f32⟩
  | 21 => ⟨S1048576, .f32⟩
  | 22 => ⟨S1048576, .f32⟩
  | 23 => ⟨S1048576, .i32⟩
  | 24 => ⟨S1048576, .i32⟩
  | 25 => ⟨S_, .i32⟩
  | 26 => ⟨S1048576, .i32⟩
  | 27 => ⟨S1048576, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x1, .i32⟩
  | 53 => ⟨S1048576x2, .i32⟩
  | 54 => ⟨S32x1048576, .f32⟩
  | 55 => ⟨S1048576x32, .f32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S1048576x1, .i32⟩
  | 71 => ⟨S1048576x1, .i32⟩
  | 72 => ⟨S1048576x2, .i32⟩
  | 73 => ⟨S32x1048576, .f32⟩
  | 74 => ⟨S1048576x32, .f32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576x1, .i32⟩
  | 91 => ⟨S1048576x2, .i32⟩
  | 92 => ⟨S32x1048576, .f32⟩
  | 93 => ⟨S1048576x32, .f32⟩
  | 94 => ⟨S_, .i32⟩
  | 95 => ⟨S1048576, .i32⟩
  | 96 => ⟨S1048576, .i1⟩
  | 97 => ⟨S_, .i32⟩
  | 98 => ⟨S1048576, .i32⟩
  | 99 => ⟨S1048576, .i32⟩
  | 100 => ⟨S1048576, .i32⟩
  | 101 => ⟨S_, .i32⟩
  | 102 => ⟨S1048576, .i32⟩
  | 103 => ⟨S1048576, .i1⟩
  | 104 => ⟨S_, .i32⟩
  | 105 => ⟨S1048576, .i32⟩
  | 106 => ⟨S1048576, .i32⟩
  | 107 => ⟨S1048576, .i32⟩
  | 108 => ⟨S1048576x1, .i32⟩
  | 109 => ⟨S1048576x1, .i32⟩
  | 110 => ⟨S1048576x2, .i32⟩
  | 111 => ⟨S32x1048576, .f32⟩
  | 112 => ⟨S1048576x32, .f32⟩
  | 113 => ⟨S1048576x1x32, .f32⟩
  | 114 => ⟨S1048576x1x32, .f32⟩
  | 115 => ⟨S1048576x1x32, .f32⟩
  | 116 => ⟨S1048576x3x32, .f32⟩
  | 117 => ⟨S1048576x1x32, .f32⟩
  | 118 => ⟨S1048576x1x32, .f32⟩
  | 119 => ⟨S1048576x1x32, .f32⟩
  | 120 => ⟨S1048576x3x32, .f32⟩
  | 121 => ⟨S1048576x1x32, .f32⟩
  | 122 => ⟨S1048576x1x32, .f32⟩
  | 123 => ⟨S1048576x1x32, .f32⟩
  | 124 => ⟨S1048576x3x32, .f32⟩
  | 125 => ⟨S1048576x1x32, .f32⟩
  | 126 => ⟨S1048576x1x32, .f32⟩
  | 127 => ⟨S1048576x1x32, .f32⟩
  | _ => ⟨S4x262144x3, .f32⟩

abbrev hbmTy0_4 (i : Nat) : BufTy := match i % 128 with
  | 0 => ⟨S1048576x3x32, .f32⟩
  | 1 => ⟨S1048576x1, .f32⟩
  | 2 => ⟨S1048576x1, .f32⟩
  | 3 => ⟨S1048576x1, .f32⟩
  | 4 => ⟨S1048576x3, .f32⟩
  | 5 => ⟨S1048576x3x1, .f32⟩
  | 6 => ⟨S1048576x1, .f32⟩
  | 7 => ⟨S1048576x1, .f32⟩
  | 8 => ⟨S1048576x1, .f32⟩
  | 9 => ⟨S1048576x3, .f32⟩
  | 10 => ⟨S1048576x3x1, .f32⟩
  | 11 => ⟨S1048576x3x32, .f32⟩
  | 12 => ⟨S4x262144x3x32, .f32⟩
  | _ => ⟨S4x262144x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x262144x3, .f32⟩

abbrev bufTy : (tb : Table) → Fin (tcTables nBuf tb) → BufTy
  | .hbm, ⟨i, _⟩ => hbmTy i
  | .local _ .vmem, ⟨0, _⟩ => ⟨S512x3x32, .f32⟩
  | .local _ .vmem, ⟨1, _⟩ => ⟨S512x3x32, .f32⟩
  | .local _ .vmem, ⟨2, _⟩ => ⟨S512x3x32, .f32⟩
  | .local _ .vmem, ⟨3, _⟩ => ⟨S512x3x32, .f32⟩
  | .local _ .vmem, ⟨4, _⟩ => ⟨S512x3x32, .f32⟩
  | .local _ .vmem, ⟨5, _⟩ => ⟨S512x3x32, .f32⟩
  | .local _ .vmem, ⟨6, _⟩ => ⟨S512x3x32, .f32⟩
  | .local _ .vmem, ⟨7, _⟩ => ⟨S512x3x32, .f32⟩
  | .local _ .vmem, ⟨8, _⟩ => ⟨S512x3x1, .f32⟩
  | .local _ .vmem, ⟨9, _⟩ => ⟨S512x3x1, .f32⟩
  | .local _ .vmem, ⟨10, _⟩ => ⟨S512x3x1, .f32⟩
  | .local _ .vmem, ⟨11, _⟩ => ⟨S512x3x1, .f32⟩
  | .local _ .vmem, ⟨12, _⟩ => ⟨S512x3x32, .f32⟩
  | .local _ .vmem, ⟨13, _⟩ => ⟨S512x3x32, .f32⟩
  | _, _ => ⟨S4x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_13 : Ref sig .tc := ⟨.hbm, 60, rfl⟩
abbrev main_v37 : Ref sig .tc := ⟨.hbm, 61, rfl⟩
abbrev main_v38 : Ref sig .tc := ⟨.hbm, 62, rfl⟩
abbrev main_cst_14 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_15 : Ref sig .tc := ⟨.hbm, 67, rfl⟩
abbrev main_cst_16 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c : Ref sig .tc := ⟨.hbm, 81, rfl⟩
abbrev main_v49 : Ref sig .tc := ⟨.hbm, 82, rfl⟩
abbrev main_v50 : Ref sig .tc := ⟨.hbm, 83, rfl⟩
abbrev main_c_17 : Ref sig .tc := ⟨.hbm, 84, rfl⟩
abbrev main_v51 : Ref sig .tc := ⟨.hbm, 85, rfl⟩
abbrev main_v52 : Ref sig .tc := ⟨.hbm, 86, rfl⟩
abbrev main_c_18 : Ref sig .tc := ⟨.hbm, 87, rfl⟩
abbrev main_v53 : Ref sig .tc := ⟨.hbm, 88, rfl⟩
abbrev main_v54 : Ref sig .tc := ⟨.hbm, 89, rfl⟩
abbrev main_c_19 : Ref sig .tc := ⟨.hbm, 90, rfl⟩
abbrev main_v55 : Ref sig .tc := ⟨.hbm, 91, rfl⟩
abbrev main_v56 : Ref sig .tc := ⟨.hbm, 92, rfl⟩
abbrev main_c_20 : Ref sig .tc := ⟨.hbm, 93, rfl⟩
abbrev main_v57 : Ref sig .tc := ⟨.hbm, 94, rfl⟩
abbrev main_v58 : Ref sig .tc := ⟨.hbm, 95, rfl⟩
abbrev main_c_21 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_22 : Ref sig .tc := ⟨.hbm, 100, rfl⟩
abbrev main_v62 : Ref sig .tc := ⟨.hbm, 101, rfl⟩
abbrev main_v63 : Ref sig .tc := ⟨.hbm, 102, rfl⟩
abbrev main_c_23 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_24 : Ref sig .tc := ⟨.hbm, 112, rfl⟩
abbrev main_v72 : Ref sig .tc := ⟨.hbm, 113, rfl⟩
abbrev main_v73 : Ref sig .tc := ⟨.hbm, 114, rfl⟩
abbrev main_c_25 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_26 : Ref sig .tc := ⟨.hbm, 119, rfl⟩
abbrev main_v77 : Ref sig .tc := ⟨.hbm, 120, rfl⟩
abbrev main_v78 : Ref sig .tc := ⟨.hbm, 121, rfl⟩
abbrev main_c_27 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_28 : Ref sig .tc := ⟨.hbm, 131, rfl⟩
abbrev main_v87 : Ref sig .tc := ⟨.hbm, 132, rfl⟩
abbrev main_v88 : Ref sig .tc := ⟨.hbm, 133, rfl⟩
abbrev main_c_29 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_30 : Ref sig .tc := ⟨.hbm, 138, rfl⟩
abbrev main_v92 : Ref sig .tc := ⟨.hbm, 139, rfl⟩
abbrev main_v93 : Ref sig .tc := ⟨.hbm, 140, rfl⟩
abbrev main_c_31 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_32 : Ref sig .tc := ⟨.hbm, 150, rfl⟩
abbrev main_v102 : Ref sig .tc := ⟨.hbm, 151, rfl⟩
abbrev main_v103 : Ref sig .tc := ⟨.hbm, 152, rfl⟩
abbrev main_c_33 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_34 : Ref sig .tc := ⟨.hbm, 157, rfl⟩
abbrev main_v107 : Ref sig .tc := ⟨.hbm, 158, rfl⟩
abbrev main_v108 : Ref sig .tc := ⟨.hbm, 159, rfl⟩
abbrev main_c_35 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_36 : Ref sig .tc := ⟨.hbm, 173, rfl⟩
abbrev main_v121 : Ref sig .tc := ⟨.hbm, 174, rfl⟩
abbrev main_v122 : Ref sig .tc := ⟨.hbm, 175, rfl⟩
abbrev main_cst_37 : Ref sig .tc := ⟨.hbm, 176, rfl⟩
abbrev main_v123 : Ref sig .tc := ⟨.hbm, 177, rfl⟩
abbrev main_v124 : Ref sig .tc := ⟨.hbm, 178, rfl⟩
abbrev main_cst_38 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_39 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_40 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_41 : Ref sig .tc := ⟨.hbm, 191, rfl⟩
abbrev main_v134 : Ref sig .tc := ⟨.hbm, 192, rfl⟩
abbrev main_v135 : Ref sig .tc := ⟨.hbm, 193, rfl⟩
abbrev main_cst_42 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_43 : Ref sig .tc := ⟨.hbm, 198, rfl⟩
abbrev main_cst_44 : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_v139 : Ref sig .tc := ⟨.hbm, 205, rfl⟩
abbrev main_cst_45 : Ref sig .tc := ⟨.hbm, 206, rfl⟩
abbrev main_v140 : Ref sig .tc := ⟨.hbm, 207, rfl⟩
abbrev main_v141 : Ref sig .tc := ⟨.hbm, 208, rfl⟩
abbrev main_cst_46 : Ref sig .tc := ⟨.hbm, 209, rfl⟩
abbrev main_v142 : Ref sig .tc := ⟨.hbm, 210, rfl⟩
abbrev main_v143 : Ref sig .tc := ⟨.hbm, 211, rfl⟩
abbrev main_cst_47 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_48 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_49 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_50 : Ref sig .tc := ⟨.hbm, 224, rfl⟩
abbrev main_v153 : Ref sig .tc := ⟨.hbm, 225, rfl⟩
abbrev main_v154 : Ref sig .tc := ⟨.hbm, 226, rfl⟩
abbrev main_cst_51 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_52 : Ref sig .tc := ⟨.hbm, 231, rfl⟩
abbrev main_cst_53 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_c_54 : Ref sig .tc := ⟨.hbm, 245, rfl⟩
abbrev main_v165 : Ref sig .tc := ⟨.hbm, 246, rfl⟩
abbrev main_v166 : Ref sig .tc := ⟨.hbm, 247, rfl⟩
abbrev main_c_55 : Ref sig .tc := ⟨.hbm, 248, rfl⟩
abbrev main_v167 : Ref sig .tc := ⟨.hbm, 249, rfl⟩
abbrev main_v168 : Ref sig .tc := ⟨.hbm, 250, rfl⟩
abbrev main_c_56 : Ref sig .tc := ⟨.hbm, 251, rfl⟩
abbrev main_v169 : Ref sig .tc := ⟨.hbm, 252, rfl⟩
abbrev main_v170 : Ref sig .tc := ⟨.hbm, 253, rfl⟩
abbrev main_c_57 : Ref sig .tc := ⟨.hbm, 254, rfl⟩
abbrev main_v171 : Ref sig .tc := ⟨.hbm, 255, rfl⟩
abbrev main_v172 : Ref sig .tc := ⟨.hbm, 256, rfl⟩
abbrev main_c_58 : Ref sig .tc := ⟨.hbm, 257, rfl⟩
abbrev main_v173 : Ref sig .tc := ⟨.hbm, 258, rfl⟩
abbrev main_v174 : Ref sig .tc := ⟨.hbm, 259, rfl⟩
abbrev main_c_59 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_c_60 : Ref sig .tc := ⟨.hbm, 264, rfl⟩
abbrev main_v178 : Ref sig .tc := ⟨.hbm, 265, rfl⟩
abbrev main_v179 : Ref sig .tc := ⟨.hbm, 266, rfl⟩
abbrev main_c_61 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_c_62 : Ref sig .tc := ⟨.hbm, 276, rfl⟩
abbrev main_v188 : Ref sig .tc := ⟨.hbm, 277, rfl⟩
abbrev main_v189 : Ref sig .tc := ⟨.hbm, 278, rfl⟩
abbrev main_c_63 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_c_64 : Ref sig .tc := ⟨.hbm, 283, rfl⟩
abbrev main_v193 : Ref sig .tc := ⟨.hbm, 284, rfl⟩
abbrev main_v194 : Ref sig .tc := ⟨.hbm, 285, rfl⟩
abbrev main_c_65 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_c_66 : Ref sig .tc := ⟨.hbm, 295, rfl⟩
abbrev main_v203 : Ref sig .tc := ⟨.hbm, 296, rfl⟩
abbrev main_v204 : Ref sig .tc := ⟨.hbm, 297, rfl⟩
abbrev main_c_67 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_c_68 : Ref sig .tc := ⟨.hbm, 302, rfl⟩
abbrev main_v208 : Ref sig .tc := ⟨.hbm, 303, rfl⟩
abbrev main_v209 : Ref sig .tc := ⟨.hbm, 304, rfl⟩
abbrev main_c_69 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_c_70 : Ref sig .tc := ⟨.hbm, 314, rfl⟩
abbrev main_v218 : Ref sig .tc := ⟨.hbm, 315, rfl⟩
abbrev main_v219 : Ref sig .tc := ⟨.hbm, 316, rfl⟩
abbrev main_c_71 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_c_72 : Ref sig .tc := ⟨.hbm, 321, rfl⟩
abbrev main_v223 : Ref sig .tc := ⟨.hbm, 322, rfl⟩
abbrev main_v224 : Ref sig .tc := ⟨.hbm, 323, rfl⟩
abbrev main_c_73 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_cst_74 : Ref sig .tc := ⟨.hbm, 337, rfl⟩
abbrev main_v237 : Ref sig .tc := ⟨.hbm, 338, rfl⟩
abbrev main_v238 : Ref sig .tc := ⟨.hbm, 339, rfl⟩
abbrev main_cst_75 : Ref sig .tc := ⟨.hbm, 340, rfl⟩
abbrev main_v239 : Ref sig .tc := ⟨.hbm, 341, rfl⟩
abbrev main_v240 : Ref sig .tc := ⟨.hbm, 342, rfl⟩
abbrev main_cst_76 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_cst_77 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_cst_78 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_cst_79 : Ref sig .tc := ⟨.hbm, 355, rfl⟩
abbrev main_v250 : Ref sig .tc := ⟨.hbm, 356, rfl⟩
abbrev main_v251 : Ref sig .tc := ⟨.hbm, 357, rfl⟩
abbrev main_cst_80 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_cst_81 : Ref sig .tc := ⟨.hbm, 362, rfl⟩
abbrev main_cst_82 : Ref sig .tc := ⟨.hbm, 363, rfl⟩
abbrev main_call9_v0 : Ref sig .tc := ⟨.hbm, 364, rfl⟩
abbrev main_call9_v1 : Ref sig .tc := ⟨.hbm, 365, rfl⟩
abbrev main_call9_v2 : Ref sig .tc := ⟨.hbm, 366, rfl⟩
abbrev main_call9_v3 : Ref sig .tc := ⟨.hbm, 367, rfl⟩
abbrev main_call9_v4 : Ref sig .tc := ⟨.hbm, 368, rfl⟩
abbrev main_v255 : Ref sig .tc := ⟨.hbm, 369, rfl⟩
abbrev main_cst_83 : Ref sig .tc := ⟨.hbm, 370, rfl⟩
abbrev main_v256 : Ref sig .tc := ⟨.hbm, 371, rfl⟩
abbrev main_v257 : Ref sig .tc := ⟨.hbm, 372, rfl⟩
abbrev main_cst_84 : Ref sig .tc := ⟨.hbm, 373, rfl⟩
abbrev main_v258 : Ref sig .tc := ⟨.hbm, 374, rfl⟩
abbrev main_v259 : Ref sig .tc := ⟨.hbm, 375, rfl⟩
abbrev main_cst_85 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_cst_86 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_cst_87 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_cst_88 : Ref sig .tc := ⟨.hbm, 388, rfl⟩
abbrev main_v269 : Ref sig .tc := ⟨.hbm, 389, rfl⟩
abbrev main_v270 : Ref sig .tc := ⟨.hbm, 390, rfl⟩
abbrev main_cst_89 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_cst_90 : Ref sig .tc := ⟨.hbm, 395, rfl⟩
abbrev main_cst_91 : Ref sig .tc := ⟨.hbm, 396, rfl⟩
abbrev main_call11_v0 : Ref sig .tc := ⟨.hbm, 397, rfl⟩
abbrev main_call11_v1 : Ref sig .tc := ⟨.hbm, 398, rfl⟩
abbrev main_call11_v2 : Ref sig .tc := ⟨.hbm, 399, rfl⟩
abbrev main_call11_v3 : Ref sig .tc := ⟨.hbm, 400, rfl⟩
abbrev main_call11_v4 : Ref sig .tc := ⟨.hbm, 401, rfl⟩
abbrev main_v274 : Ref sig .tc := ⟨.hbm, 402, rfl⟩
abbrev main_v275 : Ref sig .tc := ⟨.hbm, 403, rfl⟩
abbrev main_v276 : Ref sig .tc := ⟨.hbm, 404, rfl⟩
abbrev main_v277 : Ref sig .tc := ⟨.hbm, 405, rfl⟩
abbrev main_v278 : Ref sig .tc := ⟨.hbm, 406, rfl⟩
abbrev main_v279 : Ref sig .tc := ⟨.hbm, 407, rfl⟩
abbrev main_v280 : Ref sig .tc := ⟨.hbm, 408, rfl⟩
abbrev main_c_92 : Ref sig .tc := ⟨.hbm, 409, rfl⟩
abbrev main_v281 : Ref sig .tc := ⟨.hbm, 410, rfl⟩
abbrev main_v282 : Ref sig .tc := ⟨.hbm, 411, rfl⟩
abbrev main_c_93 : Ref sig .tc := ⟨.hbm, 412, rfl⟩
abbrev main_v283 : Ref sig .tc := ⟨.hbm, 413, rfl⟩
abbrev main_v284 : Ref sig .tc := ⟨.hbm, 414, rfl⟩
abbrev main_c_94 : Ref sig .tc := ⟨.hbm, 415, rfl⟩
abbrev main_v285 : Ref sig .tc := ⟨.hbm, 416, rfl⟩
abbrev main_v286 : Ref sig .tc := ⟨.hbm, 417, rfl⟩
abbrev main_c_95 : Ref sig .tc := ⟨.hbm, 418, rfl⟩
abbrev main_v287 : Ref sig .tc := ⟨.hbm, 419, rfl⟩
abbrev main_v288 : Ref sig .tc := ⟨.hbm, 420, rfl⟩
abbrev main_c_96 : Ref sig .tc := ⟨.hbm, 421, rfl⟩
abbrev main_v289 : Ref sig .tc := ⟨.hbm, 422, rfl⟩
abbrev main_v290 : Ref sig .tc := ⟨.hbm, 423, rfl⟩
abbrev main_c_97 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_c_98 : Ref sig .tc := ⟨.hbm, 428, rfl⟩
abbrev main_v294 : Ref sig .tc := ⟨.hbm, 429, rfl⟩
abbrev main_v295 : Ref sig .tc := ⟨.hbm, 430, rfl⟩
abbrev main_c_99 : Ref sig .tc := ⟨.hbm, 431, rfl⟩
abbrev main_v296 : Ref sig .tc := ⟨.hbm, 432, rfl⟩
abbrev main_v297 : Ref sig .tc := ⟨.hbm, 433, rfl⟩
abbrev main_v298 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_v302 : Ref sig .tc := ⟨.hbm, 438, rfl⟩
abbrev main_v303 : Ref sig .tc := ⟨.hbm, 439, rfl⟩
abbrev main_c_100 : Ref sig .tc := ⟨.hbm, 440, rfl⟩
abbrev main_v304 : Ref sig .tc := ⟨.hbm, 441, rfl⟩
abbrev main_v305 : Ref sig .tc := ⟨.hbm, 442, rfl⟩
abbrev main_c_101 : Ref sig .tc := ⟨.hbm, 443, rfl⟩
abbrev main_v306 : Ref sig .tc := ⟨.hbm, 444, rfl⟩
abbrev main_v307 : Ref sig .tc := ⟨.hbm, 445, rfl⟩
abbrev main_v308 : Ref sig .tc := ⟨.hbm, 446, rfl⟩
abbrev main_c_102 : Ref sig .tc := ⟨.hbm, 447, rfl⟩
abbrev main_v309 : Ref sig .tc := ⟨.hbm, 448, rfl⟩
abbrev main_v310 : Ref sig .tc := ⟨.hbm, 449, rfl⟩
abbrev main_c_103 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_v314 : Ref sig .tc := ⟨.hbm, 454, rfl⟩
abbrev main_v315 : Ref sig .tc := ⟨.hbm, 455, rfl⟩
abbrev main_v316 : Ref sig .tc := ⟨.hbm, 456, rfl⟩
abbrev main_v317 : Ref sig .tc := ⟨.hbm, 457, rfl⟩
abbrev main_v318 : Ref sig .tc := ⟨.hbm, 458, rfl⟩
abbrev main_c_104 : Ref sig .tc := ⟨.hbm, 459, rfl⟩
abbrev main_v319 : Ref sig .tc := ⟨.hbm, 460, rfl⟩
abbrev main_v320 : Ref sig .tc := ⟨.hbm, 461, rfl⟩
abbrev main_c_105 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_c_106 : Ref sig .tc := ⟨.hbm, 466, rfl⟩
abbrev main_v324 : Ref sig .tc := ⟨.hbm, 467, rfl⟩
abbrev main_v325 : Ref sig .tc := ⟨.hbm, 468, rfl⟩
abbrev main_c_107 : Ref sig .tc := ⟨.hbm, 469, rfl⟩
abbrev main_v326 : Ref sig .tc := ⟨.hbm, 470, rfl⟩
abbrev main_v327 : Ref sig .tc := ⟨.hbm, 471, rfl⟩
abbrev main_v328 : Ref sig .tc := ⟨.hbm, 472, rfl⟩
abbrev main_v329 : Ref sig .tc := ⟨.hbm, 473, rfl⟩
abbrev main_v330 : Ref sig .tc := ⟨.hbm, 474, rfl⟩
abbrev main_v331 : Ref sig .tc := ⟨.hbm, 475, rfl⟩
abbrev main_v332 : Ref sig .tc := ⟨.hbm, 476, rfl⟩
abbrev main_v333 : Ref sig .tc := ⟨.hbm, 477, rfl⟩
abbrev main_c_108 : Ref sig .tc := ⟨.hbm, 478, rfl⟩
abbrev main_v334 : Ref sig .tc := ⟨.hbm, 479, rfl⟩
abbrev main_v335 : Ref sig .tc := ⟨.hbm, 480, rfl⟩
abbrev main_c_109 : Ref sig .tc := ⟨.hbm, 481, rfl⟩
abbrev main_v336 : Ref sig .tc := ⟨.hbm, 482, rfl⟩
abbrev main_v337 : Ref sig .tc := ⟨.hbm, 483, rfl⟩
abbrev main_v338 : Ref sig .tc := ⟨.hbm, 484, rfl⟩
abbrev main_c_110 : Ref sig .tc := ⟨.hbm, 485, rfl⟩
abbrev main_v339 : Ref sig .tc := ⟨.hbm, 486, rfl⟩
abbrev main_v340 : Ref sig .tc := ⟨.hbm, 487, rfl⟩
abbrev main_c_111 : Ref sig .tc := ⟨.hbm, 488, rfl⟩
abbrev main_v341 : Ref sig .tc := ⟨.hbm, 489, rfl⟩
abbrev main_v342 : Ref sig .tc := ⟨.hbm, 490, rfl⟩
abbrev main_v343 : Ref sig .tc := ⟨.hbm, 491, rfl⟩
abbrev main_v344 : Ref sig .tc := ⟨.hbm, 492, rfl⟩
abbrev main_v345 : Ref sig .tc := ⟨.hbm, 493, rfl⟩
abbrev main_v346 : Ref sig .tc := ⟨.hbm, 494, rfl⟩
abbrev main_v347 : Ref sig .tc := ⟨.hbm, 495, rfl⟩
abbrev main_v348 : Ref sig .tc := ⟨.hbm, 496, rfl⟩
abbrev main_v349 : Ref sig .tc := ⟨.hbm, 497, rfl⟩
abbrev main_v350 : Ref sig .tc := ⟨.hbm, 498, rfl⟩
abbrev main_v351 : Ref sig .tc := ⟨.hbm, 499, rfl⟩
abbrev main_v352 : Ref sig .tc := ⟨.hbm, 500, rfl⟩
abbrev main_v353 : Ref sig .tc := ⟨.hbm, 501, rfl⟩
abbrev main_v354 : Ref sig .tc := ⟨.hbm, 502, rfl⟩
abbrev main_v355 : Ref sig .tc := ⟨.hbm, 503, rfl⟩
abbrev main_v356 : Ref sig .tc := ⟨.hbm, 504, rfl⟩
abbrev main_v357 : Ref sig .tc := ⟨.hbm, 505, rfl⟩
abbrev main_v358 : Ref sig .tc := ⟨.hbm, 506, rfl⟩
abbrev main_v359 : Ref sig .tc := ⟨.hbm, 507, rfl⟩
abbrev main_v360 : Ref sig .tc := ⟨.hbm, 508, rfl⟩
abbrev main_v361 : Ref sig .tc := ⟨.hbm, 509, rfl⟩
abbrev main_v362 : Ref sig .tc := ⟨.hbm, 510, rfl⟩
abbrev main_v363 : Ref sig .tc := ⟨.hbm, 511, rfl⟩
abbrev main_v364 : Ref sig .tc := ⟨.hbm, 512, rfl⟩
abbrev main_v365 : Ref sig .tc := ⟨.hbm, 513, rfl⟩
abbrev main_v366 : Ref sig .tc := ⟨.hbm, 514, rfl⟩
abbrev main_v367 : Ref sig .tc := ⟨.hbm, 515, rfl⟩
abbrev main_v368 : Ref sig .tc := ⟨.hbm, 516, rfl⟩
abbrev main_v369 : Ref sig .tc := ⟨.hbm, 517, rfl⟩
abbrev main_v370 : Ref sig .tc := ⟨.hbm, 518, rfl⟩
abbrev main_v371 : Ref sig .tc := ⟨.hbm, 519, rfl⟩
abbrev main_v372 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_v376 : Ref sig .tc := ⟨.hbm, 524, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x262144x3_S1048576x3 : S4x262144x3.ShapeCasts S1048576x3
  slices_S1048576x3_S1048576x1_0_1 : S1048576x3.Slices ![0, 1] S1048576x1
  shapeCasts_S1048576x1_S1048576 : S1048576x1.ShapeCasts S1048576
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  transposes_S32x1048576_S1048576x32_1_0 : S32x1048576.Transposes [1, 0] S1048576x32
  slices_S1048576x3_S1048576x1_0_0 : S1048576x3.Slices ![0, 0] S1048576x1
  bcast_S1048576x32_S1048576x1x32_0_2 : S1048576x32.BroadcastsInDim S1048576x1x32 (![0, 2] : Fin 2 → Fin S1048576x1x32.rank)
  concatenates_S1048576x1x32_S1048576x1x32_S1048576x1x32_S1048576x3x32_d1 : Shape.Concatenates [S1048576x1x32, S1048576x1x32, S1048576x1x32] S1048576x3x32 1
  concatenates_S1048576x1_S1048576x1_S1048576x1_S1048576x3_d1 : Shape.Concatenates [S1048576x1, S1048576x1, S1048576x1] S1048576x3 1
  bcast_S1048576x3_S1048576x3x1_0_1 : S1048576x3.BroadcastsInDim S1048576x3x1 (![0, 1] : Fin 2 → Fin S1048576x3x1.rank)
  inb_S512x3x1_S512x3x1_0_0_0 : ∀ a, (![0, 0, 0] : Fin 3 → Nat) a + S512x3x1.size a ≤ S512x3x1.size a
  h_S512x3x1 : 0 < S512x3x1.numel
  shapeCasts_S512x3x1_S512x3x1 : S512x3x1.ShapeCasts S512x3x1
  inb_S512x3x32_S512x3x32_0_0_0 : ∀ a, (![0, 0, 0] : Fin 3 → Nat) a + S512x3x32.size a ≤ S512x3x32.size a
  h_S512x3x32 : 0 < S512x3x32.numel
  shapeCasts_S512x3x32_S512x3x32 : S512x3x32.ShapeCasts S512x3x32
  broadcasts_S512x3x1_S512x3x32 : S512x3x1.Broadcasts S512x3x32
  shapeCasts_S1048576x3x32_S4x262144x3x32 : S1048576x3x32.ShapeCasts S4x262144x3x32
  gather_S32x513x513_S1048576x2_S32x1048576_0_12_n_n_12_1_3211_wf : GatherDims.WF S32x513x513 S1048576x2 S32x1048576 [0] [1, 2] [] [1, 2] [] 1 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3x32.size a ≤ S1048576x3x32.size a
  hwx0_0 : ∀ i : grid0.Coords, EltTy.bits .f32 = 32 ∨ (Rect.block (s := S1048576x3x32) S512x3x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3x32.size a ≤ S1048576x3x32.size a
  hwx0_1 : ∀ i : grid0.Coords, EltTy.bits .f32 = 32 ∨ (Rect.block (s := S1048576x3x32) S512x3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3x32.size a ≤ S1048576x3x32.size a
  hwx0_2 : ∀ i : grid0.Coords, EltTy.bits .f32 = 32 ∨ (Rect.block (s := S1048576x3x32) S512x3x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3x32.size a ≤ S1048576x3x32.size a
  hwx0_3 : ∀ i : grid0.Coords, EltTy.bits .f32 = 32 ∨ (Rect.block (s := S1048576x3x32) S512x3x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3x1.size a ≤ S1048576x3x1.size a
  hwx0_4 : ∀ i : grid0.Coords, EltTy.bits .f32 = 32 ∨ (Rect.block (s := S1048576x3x1) S512x3x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3x1.size a ≤ S1048576x3x1.size a
  hwx0_5 : ∀ i : grid0.Coords, EltTy.bits .f32 = 32 ∨ (Rect.block (s := S1048576x3x1) S512x3x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x3x32.size a ≤ S1048576x3x32.size a
  hwx0_6 : ∀ i : grid0.Coords, EltTy.bits .f32 = 32 ∨ (Rect.block (s := S1048576x3x32) S512x3x32.size (cc0_transform_6 i) (hinb0_6 i)).WholeWords (EltTy.packing .f32)

variable [Facts₀]

def gather_S32x513x513_S1048576x2_S32x1048576_0_12_n_n_12_1_3211 : GatherDims S32x513x513 S1048576x2 S32x1048576 where
  offsetDims := [0]
  collapsedSliceDims := [1, 2]
  operandBatchingDims := []
  startIndicesBatchingDims := []
  startIndexMap := [1, 2]
  indexVectorDim := 1
  sliceSizes := ![32, 1, 1]
  wf := gather_S32x513x513_S1048576x2_S32x1048576_0_12_n_n_12_1_3211_wf

abbrev win0_0 : Pipeline.Window sig grid0 :=
  Pipeline.Window.ofSpec (Memref.whole main_v352) S512x3x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v356) S512x3x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v360) S512x3x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v364) S512x3x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v369) S512x3x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v374) S512x3x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v375) S512x3x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x262144x3 : Shape := ⟨3, ![4, 262144, 3]⟩
abbrev S32x513x513 : Shape := ⟨3, ![32, 513, 513]⟩
abbrev S4x262144x1 : Shape := ⟨3, ![4, 262144, 1]⟩
abbrev S4x262144 : Shape := ⟨2, ![4, 262144]⟩
abbrev S_ : Shape := ⟨0, ![]⟩
abbrev S4x262144x2 : Shape := ⟨3, ![4, 262144, 2]⟩
abbrev S32x4x262144 : Shape := ⟨3, ![32, 4, 262144]⟩
abbrev S1x4x262144 : Shape := ⟨3, ![1, 4, 262144]⟩
abbrev S4x262144x32 : Shape := ⟨3, ![4, 262144, 32]⟩
abbrev S4x262144x1x32 : Shape := ⟨4, ![4, 262144, 1, 32]⟩
abbrev S4x262144x3x32 : Shape := ⟨4, ![4, 262144, 3, 32]⟩

abbrev nBuf : Space → Nat
  | .hbm => 608
  | .vmem => 0
  | .smem => 0
  | _ => 0

abbrev hbmTy0_0 (i : Nat) : BufTy := match i % 128 with
  | 0 => ⟨S4x262144x3, .f32⟩
  | 1 => ⟨S32x513x513, .f32⟩
  | 2 => ⟨S32x513x513, .f32⟩
  | 3 => ⟨S32x513x513, .f32⟩
  | 4 => ⟨S4x262144x1, .f32⟩
  | 5 => ⟨S4x262144, .f32⟩
  | 6 => ⟨S4x262144x1, .f32⟩
  | 7 => ⟨S4x262144, .f32⟩
  | 8 => ⟨S_, .f32⟩
  | 9 => ⟨S4x262144, .f32⟩
  | 10 => ⟨S4x262144, .f32⟩
  | 11 => ⟨S_, .f32⟩
  | 12 => ⟨S4x262144, .f32⟩
  | 13 => ⟨S4x262144, .f32⟩
  | 14 => ⟨S_, .f32⟩
  | 15 => ⟨S4x262144, .f32⟩
  | 16 => ⟨S4x262144, .f32⟩
  | 17 => ⟨S4x262144, .f32⟩
  | 18 => ⟨S_, .f32⟩
  | 19 => ⟨S4x262144, .f32⟩
  | 20 => ⟨S4x262144, .f32⟩
  | 21 => ⟨S4x262144, .f32⟩
  | 22 => ⟨S_, .f32⟩
  | 23 => ⟨S4x262144, .f32⟩
  | 24 => ⟨S4x262144, .f32⟩
  | 25 => ⟨S4x262144, .f32⟩
  | 26 => ⟨S_, .f32⟩
  | 27 => ⟨S4x262144, .f32⟩
  | 28 => ⟨S4x262144, .i1⟩
  | 29 => ⟨S_, .f32⟩
  | 30 => ⟨S4x262144, .f32⟩
  | 31 => ⟨S4x262144, .f32⟩
  | 32 => ⟨S4x262144, .f32⟩
  | 33 => ⟨S_, .f32⟩
  | 34 => ⟨S_, .f32⟩
  | 35 => ⟨S_, .f32⟩
  | 36 => ⟨S4x262144, .f32⟩
  | 37 => ⟨S4x262144, .f32⟩
  | 38 => ⟨S_, .f32⟩
  | 39 => ⟨S4x262144, .f32⟩
  | 40 => ⟨S4x262144, .f32⟩
  | 41 => ⟨S_, .f32⟩
  | 42 => ⟨S4x262144, .f32⟩
  | 43 => ⟨S4x262144, .f32⟩
  | 44 => ⟨S_, .f32⟩
  | 45 => ⟨S4x262144, .f32⟩
  | 46 => ⟨S4x262144, .f32⟩
  | 47 => ⟨S_, .f32⟩
  | 48 => ⟨S4x262144, .f32⟩
  | 49 => ⟨S4x262144, .f32⟩
  | 50 => ⟨S4x262144, .f32⟩
  | 51 => ⟨S_, .f32⟩
  | 52 => ⟨S4x262144, .f32⟩
  | 53 => ⟨S4x262144, .f32⟩
  | 54 => ⟨S4x262144, .f32⟩
  | 55 => ⟨S_, .f32⟩
  | 56 => ⟨S4x262144, .f32⟩
  | 57 => ⟨S4x262144, .f32⟩
  | 58 => ⟨S4x262144, .f32⟩
  | 59 => ⟨S_, .f32⟩
  | 60 => ⟨S4x262144, .f32⟩
  | 61 => ⟨S4x262144, .i1⟩
  | 62 => ⟨S_, .f32⟩
  | 63 => ⟨S4x262144, .f32⟩
  | 64 => ⟨S4x262144, .f32⟩
  | 65 => ⟨S4x262144, .f32⟩
  | 66 => ⟨S_, .f32⟩
  | 67 => ⟨S_, .f32⟩
  | 68 => ⟨S_, .f32⟩
  | 69 => ⟨S4x262144, .f32⟩
  | 70 => ⟨S4x262144, .f32⟩
  | 71 => ⟨S_, .f32⟩
  | 72 => ⟨S4x262144, .f32⟩
  | 73 => ⟨S4x262144, .f32⟩
  | 74 => ⟨S4x262144, .f32⟩
  | 75 => ⟨S4x262144, .f32⟩
  | 76 => ⟨S4x262144, .f32⟩
  | 77 => ⟨S4x262144, .f32⟩
  | 78 => ⟨S4x262144, .i32⟩
  | 79 => ⟨S4x262144, .i32⟩
  | 80 => ⟨S_, .i32⟩
  | 81 => ⟨S4x262144, .i32⟩
  | 82 => ⟨S4x262144, .i32⟩
  | 83 => ⟨S_, .i32⟩
  | 84 => ⟨S4x262144, .i32⟩
  | 85 => ⟨S4x262144, .i32⟩
  | 86 => ⟨S_, .i32⟩
  | 87 => ⟨S4x262144, .i32⟩
  | 88 => ⟨S4x262144, .i32⟩
  | 89 => ⟨S_, .i32⟩
  | 90 => ⟨S4x262144, .i32⟩
  | 91 => ⟨S4x262144, .i32⟩
  | 92 => ⟨S_, .i32⟩
  | 93 => ⟨S4x262144, .i32⟩
  | 94 => ⟨S4x262144, .i1⟩
  | 95 => ⟨S_, .i32⟩
  | 96 => ⟨S4x262144, .i32⟩
  | 97 => ⟨S4x262144, .i32⟩
  | 98 => ⟨S4x262144, .i32⟩
  | 99 => ⟨S_, .i32⟩
  | 100 => ⟨S4x262144, .i32⟩
  | 101 => ⟨S4x262144, .i1⟩
  | 102 => ⟨S_, .i32⟩
  | 103 => ⟨S4x262144, .i32⟩
  | 104 => ⟨S4x262144, .i32⟩
  | 105 => ⟨S4x262144, .i32⟩
  | 106 => ⟨S4x262144x1, .i32⟩
  | 107 => ⟨S4x262144x1, .i32⟩
  | 108 => ⟨S4x262144x2, .i32⟩
  | 109 => ⟨S32x4x262144, .f32⟩
  | 110 => ⟨S_, .i32⟩
  | 111 => ⟨S4x262144, .i32⟩
  | 112 => ⟨S4x262144, .i1⟩
  | 113 => ⟨S_, .i32⟩
  | 114 => ⟨S4x262144, .i32⟩
  | 115 => ⟨S4x262144, .i32⟩
  | 116 => ⟨S4x262144, .i32⟩
  | 117 => ⟨S_, .i32⟩
  | 118 => ⟨S4x262144, .i32⟩
  | 119 => ⟨S4x262144, .i1⟩
  | 120 => ⟨S_, .i32⟩
  | 121 => ⟨S4x262144, .i32⟩
  | 122 => ⟨S4x262144, .i32⟩
  | 123 => ⟨S4x262144, .i32⟩
  | 124 => ⟨S4x262144x1, .i32⟩
  | 125 => ⟨S4x262144x1, .i32⟩
  | 126 => ⟨S4x262144x2, .i32⟩
  | 127 => ⟨S32x4x262144, .f32⟩
  | _ => ⟨S4x262144x3, .f32⟩

abbrev hbmTy0_1 (i : Nat) : BufTy := match i % 128 with
  | 0 => ⟨S_, .i32⟩
  | 1 => ⟨S4x262144, .i32⟩
  | 2 => ⟨S4x262144, .i1⟩
  | 3 => ⟨S_, .i32⟩
  | 4 => ⟨S4x262144, .i32⟩
  | 5 => ⟨S4x262144, .i32⟩
  | 6 => ⟨S4x262144, .i32⟩
  | 7 => ⟨S_, .i32⟩
  | 8 => ⟨S4x262144, .i32⟩
  | 9 => ⟨S4x262144, .i1⟩
  | 10 => ⟨S_, .i32⟩
  | 11 => ⟨S4x262144, .i32⟩
  | 12 => ⟨S4x262144, .i32⟩
  | 13 => ⟨S4x262144, .i32⟩
  | 14 => ⟨S4x262144x1, .i32⟩
  | 15 => ⟨S4x262144x1, .i32⟩
  | 16 => ⟨S4x262144x2, .i32⟩
  | 17 => ⟨S32x4x262144, .f32⟩
  | 18 => ⟨S_, .i32⟩
  | 19 => ⟨S4x262144, .i32⟩
  | 20 => ⟨S4x262144, .i1⟩
  | 21 => ⟨S_, .i32⟩
  | 22 => ⟨S4x262144, .i32⟩
  | 23 => ⟨S4x262144, .i32⟩
  | 24 => ⟨S4x262144, .i32⟩
  | 25 => ⟨S_, .i32⟩
  | 26 => ⟨S4x262144, .i32⟩
  | 27 => ⟨S4x262144, .i1⟩
  | 28 => ⟨S_, .i32⟩
  | 29 => ⟨S4x262144, .i32⟩
  | 30 => ⟨S4x262144, .i32⟩
  | 31 => ⟨S4x262144, .i32⟩
  | 32 => ⟨S4x262144x1, .i32⟩
  | 33 => ⟨S4x262144x1, .i32⟩
  | 34 => ⟨S4x262144x2, .i32⟩
  | 35 => ⟨S32x4x262144, .f32⟩
  | 36 => ⟨S_, .f32⟩
  | 37 => ⟨S4x262144, .f32⟩
  | 38 => ⟨S4x262144, .f32⟩
  | 39 => ⟨S1x4x262144, .f32⟩
  | 40 => ⟨S32x4x262144, .f32⟩
  | 41 => ⟨S32x4x262144, .f32⟩
  | 42 => ⟨S_, .f32⟩
  | 43 => ⟨S4x262144, .f32⟩
  | 44 => ⟨S4x262144, .f32⟩
  | 45 => ⟨S1x4x262144, .f32⟩
  | 46 => ⟨S32x4x262144, .f32⟩
  | 47 => ⟨S32x4x262144, .f32⟩
  | 48 => ⟨S1x4x262144, .f32⟩
  | 49 => ⟨S32x4x262144, .f32⟩
  | 50 => ⟨S32x4x262144, .f32⟩
  | 51 => ⟨S_, .f32⟩
  | 52 => ⟨S4x262144, .f32⟩
  | 53 => ⟨S4x262144, .f32⟩
  | 54 => ⟨S1x4x262144, .f32⟩
  | 55 => ⟨S32x4x262144, .f32⟩
  | 56 => ⟨S32x4x262144, .f32⟩
  | 57 => ⟨S32x4x262144, .f32⟩
  | 58 => ⟨S_, .f32⟩
  | 59 => ⟨S4x262144, .f32⟩
  | 60 => ⟨S4x262144, .f32⟩
  | 61 => ⟨S1x4x262144, .f32⟩
  | 62 => ⟨S32x4x262144, .f32⟩
  | 63 => ⟨S32x4x262144, .f32⟩
  | 64 => ⟨S1x4x262144, .f32⟩
  | 65 => ⟨S32x4x262144, .f32⟩
  | 66 => ⟨S32x4x262144, .f32⟩
  | 67 => ⟨S32x4x262144, .f32⟩
  | 68 => ⟨S1x4x262144, .f32⟩
  | 69 => ⟨S32x4x262144, .f32⟩
  | 70 => ⟨S32x4x262144, .f32⟩
  | 71 => ⟨S1x4x262144, .f32⟩
  | 72 => ⟨S32x4x262144, .f32⟩
  | 73 => ⟨S32x4x262144, .f32⟩
  | 74 => ⟨S32x4x262144, .f32⟩
  | 75 => ⟨S4x262144x32, .f32⟩
  | 76 => ⟨S4x262144x1, .f32⟩
  | 77 => ⟨S4x262144, .f32⟩
  | 78 => ⟨S4x262144x1, .f32⟩
  | 79 => ⟨S4x262144, .f32⟩
  | 80 => ⟨S_, .f32⟩
  | 81 => ⟨S4x262144, .f32⟩
  | 82 => ⟨S4x262144, .f32⟩
  | 83 => ⟨S_, .f32⟩
  | 84 => ⟨S4x262144, .f32⟩
  | 85 => ⟨S4x262144, .f32⟩
  | 86 => ⟨S_, .f32⟩
  | 87 => ⟨S4x262144, .f32⟩
  | 88 => ⟨S4x262144, .f32⟩
  | 89 => ⟨S4x262144, .f32⟩
  | 90 => ⟨S_, .f32⟩
  | 91 => ⟨S4x262144, .f32⟩
  | 92 => ⟨S4x262144, .f32⟩
  | 93 => ⟨S4x262144, .f32⟩
  | 94 => ⟨S_, .f32⟩
  | 95 => ⟨S4x262144, .f32⟩
  | 96 => ⟨S4x262144, .f32⟩
  | 97 => ⟨S4x262144, .f32⟩
  | 98 => ⟨S_, .f32⟩
  | 99 => ⟨S4x262144, .f32⟩
  | 100 => ⟨S4x262144, .i1⟩
  | 101 => ⟨S_, .f32⟩
  | 102 => ⟨S4x262144, .f32⟩
  | 103 => ⟨S4x262144, .f32⟩
  | 104 => ⟨S4x262144, .f32⟩
  | 105 => ⟨S_, .f32⟩
  | 106 => ⟨S_, .f32⟩
  | 107 => ⟨S_, .f32⟩
  | 108 => ⟨S4x262144, .f32⟩
  | 109 => ⟨S4x262144, .f32⟩
  | 110 => ⟨S_, .f32⟩
  | 111 => ⟨S4x262144, .f32⟩
  | 112 => ⟨S4x262144, .f32⟩
  | 113 => ⟨S_, .f32⟩
  | 114 => ⟨S4x262144, .f32⟩
  | 115 => ⟨S4x262144, .f32⟩
  | 116 => ⟨S_, .f32⟩
  | 117 => ⟨S4x262144, .f32⟩
  | 118 => ⟨S4x262144, .f32⟩
  | 119 => ⟨S_, .f32⟩
  | 120 => ⟨S4x262144, .f32⟩
  | 121 => ⟨S4x262144, .f32⟩
  | 122 => ⟨S4x262144, .f32⟩
  | 123 => ⟨S_, .f32⟩
  | 124 => ⟨S4x262144, .f32⟩
  | 125 => ⟨S4x262144, .f32⟩
  | 126 => ⟨S4x262144, .f32⟩
  | 127 => ⟨S_, .f32⟩
  | _ => ⟨S4x262144x3, .f32⟩

abbrev hbmTy0_2 (i : Nat) : BufTy := match i % 128 with
  | 0 => ⟨S4x262144, .f32⟩
  | 1 => ⟨S4x262144, .f32⟩
  | 2 => ⟨S4x262144, .f32⟩
  | 3 => ⟨S_, .f32⟩
  | 4 => ⟨S4x262144, .f32⟩
  | 5 => ⟨S4x262144, .i1⟩
  | 6 => ⟨S_, .f32⟩
  | 7 => ⟨S4x262144, .f32⟩
  | 8 => ⟨S4x262144, .f32⟩
  | 9 => ⟨S4x262144, .f32⟩
  | 10 => ⟨S_, .f32⟩
  | 11 => ⟨S_, .f32⟩
  | 12 => ⟨S_, .f32⟩
  | 13 => ⟨S4x262144, .f32⟩
  | 14 => ⟨S4x262144, .f32⟩
  | 15 => ⟨S_, .f32⟩
  | 16 => ⟨S4x262144, .f32⟩
  | 17 => ⟨S4x262144, .f32⟩
  | 18 => ⟨S4x262144, .f32⟩
  | 19 => ⟨S4x262144, .f32⟩
  | 20 => ⟨S4x262144, .f32⟩
  | 21 => ⟨S4x262144, .f32⟩
  | 22 => ⟨S4x262144, .i32⟩
  | 23 => ⟨S4x262144, .i32⟩
  | 24 => ⟨S_, .i32⟩
  | 25 => ⟨S4x262144, .i32⟩
  | 26 => ⟨S4x262144, .i32⟩
  | 27 => ⟨S_, .i32⟩
  | 28 => ⟨S4x262144, .i32⟩
  | 29 => ⟨S4x262144, .i32⟩
  | 30 => ⟨S_, .i32⟩
  | 31 => ⟨S4x262144, .i32⟩
  | 32 => ⟨S4x262144, .i32⟩
  | 33 => ⟨S_, .i32⟩
  | 34 => ⟨S4x262144, .i32⟩
  | 35 => ⟨S4x262144, .i32⟩
  | 36 => ⟨S_, .i32⟩
  | 37 => ⟨S4x262144, .i32⟩
  | 38 => ⟨S4x262144, .i1⟩
  | 39 => ⟨S_, .i32⟩
  | 40 => ⟨S4x262144, .i32⟩
  | 41 => ⟨S4x262144, .i32⟩
  | 42 => ⟨S4x262144, .i32⟩
  | 43 => ⟨S_, .i32⟩
  | 44 => ⟨S4x262144, .i32⟩
  | 45 => ⟨S4x262144, .i1⟩
  | 46 => ⟨S_, .i32⟩
  | 47 => ⟨S4x262144, .i32⟩
  | 48 => ⟨S4x262144, .i32⟩
  | 49 => ⟨S4x262144, .i32⟩
  | 50 => ⟨S4x262144x1, .i32⟩
  | 51 => ⟨S4x262144x1, .i32⟩
  | 52 => ⟨S4x262144x2, .i32⟩
  | 53 => ⟨S32x4x262144, .f32⟩
  | 54 => ⟨S_, .i32⟩
  | 55 => ⟨S4x262144, .i32⟩
  | 56 => ⟨S4x262144, .i1⟩
  | 57 => ⟨S_, .i32⟩
  | 58 => ⟨S4x262144, .i32⟩
  | 59 => ⟨S4x262144, .i32⟩
  | 60 => ⟨S4x262144, .i32⟩
  | 61 => ⟨S_, .i32⟩
  | 62 => ⟨S4x262144, .i32⟩
  | 63 => ⟨S4x262144, .i1⟩
  | 64 => ⟨S_, .i32⟩
  | 65 => ⟨S4x262144, .i32⟩
  | 66 => ⟨S4x262144, .i32⟩
  | 67 => ⟨S4x262144, .i32⟩
  | 68 => ⟨S4x262144x1, .i32⟩
  | 69 => ⟨S4x262144x1, .i32⟩
  | 70 => ⟨S4x262144x2, .i32⟩
  | 71 => ⟨S32x4x262144, .f32⟩
  | 72 => ⟨S_, .i32⟩
  | 73 => ⟨S4x262144, .i32⟩
  | 74 => ⟨S4x262144, .i1⟩
  | 75 => ⟨S_, .i32⟩
  | 76 => ⟨S4x262144, .i32⟩
  | 77 => ⟨S4x262144, .i32⟩
  | 78 => ⟨S4x262144, .i32⟩
  | 79 => ⟨S_, .i32⟩
  | 80 => ⟨S4x262144, .i32⟩
  | 81 => ⟨S4x262144, .i1⟩
  | 82 => ⟨S_, .i32⟩
  | 83 => ⟨S4x262144, .i32⟩
  | 84 => ⟨S4x262144, .i32⟩
  | 85 => ⟨S4x262144, .i32⟩
  | 86 => ⟨S4x262144x1, .i32⟩
  | 87 => ⟨S4x262144x1, .i32⟩
  | 88 => ⟨S4x262144x2, .i32⟩
  | 89 => ⟨S32x4x262144, .f32⟩
  | 90 => ⟨S_, .i32⟩
  | 91 => ⟨S4x262144, .i32⟩
  | 92 => ⟨S4x262144, .i1⟩
  | 93 => ⟨S_, .i32⟩
  | 94 => ⟨S4x262144, .i32⟩
  | 95 => ⟨S4x262144, .i32⟩
  | 96 => ⟨S4x262144, .i32⟩
  | 97 => ⟨S_, .i32⟩
  | 98 => ⟨S4x262144, .i32⟩
  | 99 => ⟨S4x262144, .i1⟩
  | 100 => ⟨S_, .i32⟩
  | 101 => ⟨S4x262144, .i32⟩
  | 102 => ⟨S4x262144, .i32⟩
  | 103 => ⟨S4x262144, .i32⟩
  | 104 => ⟨S4x262144x1, .i32⟩
  | 105 => ⟨S4x262144x1, .i32⟩
  | 106 => ⟨S4x262144x2, .i32⟩
  | 107 => ⟨S32x4x262144, .f32⟩
  | 108 => ⟨S_, .f32⟩
  | 109 => ⟨S4x262144, .f32⟩
  | 110 => ⟨S4x262144, .f32⟩
  | 111 => ⟨S1x4x262144, .f32⟩
  | 112 => ⟨S32x4x262144, .f32⟩
  | 113 => ⟨S32x4x262144, .f32⟩
  | 114 => ⟨S_, .f32⟩
  | 115 => ⟨S4x262144, .f32⟩
  | 116 => ⟨S4x262144, .f32⟩
  | 117 => ⟨S1x4x262144, .f32⟩
  | 118 => ⟨S32x4x262144, .f32⟩
  | 119 => ⟨S32x4x262144, .f32⟩
  | 120 => ⟨S1x4x262144, .f32⟩
  | 121 => ⟨S32x4x262144, .f32⟩
  | 122 => ⟨S32x4x262144, .f32⟩
  | 123 => ⟨S_, .f32⟩
  | 124 => ⟨S4x262144, .f32⟩
  | 125 => ⟨S4x262144, .f32⟩
  | 126 => ⟨S1x4x262144, .f32⟩
  | 127 => ⟨S32x4x262144, .f32⟩
  | _ => ⟨S4x262144x3, .f32⟩

abbrev hbmTy0_3 (i : Nat) : BufTy := match i % 128 with
  | 0 => ⟨S32x4x262144, .f32⟩
  | 1 => ⟨S32x4x262144, .f32⟩
  | 2 => ⟨S_, .f32⟩
  | 3 => ⟨S4x262144, .f32⟩
  | 4 => ⟨S4x262144, .f32⟩
  | 5 => ⟨S1x4x262144, .f32⟩
  | 6 => ⟨S32x4x262144, .f32⟩
  | 7 => ⟨S32x4x262144, .f32⟩
  | 8 => ⟨S1x4x262144, .f32⟩
  | 9 => ⟨S32x4x262144, .f32⟩
  | 10 => ⟨S32x4x262144, .f32⟩
  | 11 => ⟨S32x4x262144, .f32⟩
  | 12 => ⟨S1x4x262144, .f32⟩
  | 13 => ⟨S32x4x262144, .f32⟩
  | 14 => ⟨S32x4x262144, .f32⟩
  | 15 => ⟨S1x4x262144, .f32⟩
  | 16 => ⟨S32x4x262144, .f32⟩
  | 17 => ⟨S32x4x262144, .f32⟩
  | 18 => ⟨S32x4x262144, .f32⟩
  | 19 => ⟨S4x262144x32, .f32⟩
  | 20 => ⟨S4x262144x1, .f32⟩
  | 21 => ⟨S4x262144, .f32⟩
  | 22 => ⟨S4x262144x1, .f32⟩
  | 23 => ⟨S4x262144, .f32⟩
  | 24 => ⟨S_, .f32⟩
  | 25 => ⟨S4x262144, .f32⟩
  | 26 => ⟨S4x262144, .f32⟩
  | 27 => ⟨S_, .f32⟩
  | 28 => ⟨S4x262144, .f32⟩
  | 29 => ⟨S4x262144, .f32⟩
  | 30 => ⟨S_, .f32⟩
  | 31 => ⟨S4x262144, .f32⟩
  | 32 => ⟨S4x262144, .f32⟩
  | 33 => ⟨S4x262144, .f32⟩
  | 34 => ⟨S_, .f32⟩
  | 35 => ⟨S4x262144, .f32⟩
  | 36 => ⟨S4x262144, .f32⟩
  | 37 => ⟨S4x262144, .f32⟩
  | 38 => ⟨S_, .f32⟩
  | 39 => ⟨S4x262144, .f32⟩
  | 40 => ⟨S4x262144, .f32⟩
  | 41 => ⟨S4x262144, .f32⟩
  | 42 => ⟨S_, .f32⟩
  | 43 => ⟨S4x262144, .f32⟩
  | 44 => ⟨S4x262144, .i1⟩
  | 45 => ⟨S_, .f32⟩
  | 46 => ⟨S4x262144, .f32⟩
  | 47 => ⟨S4x262144, .f32⟩
  | 48 => ⟨S4x262144, .f32⟩
  | 49 => ⟨S_, .f32⟩
  | 50 => ⟨S_, .f32⟩
  | 51 => ⟨S_, .f32⟩
  | 52 => ⟨S4x262144, .f32⟩
  | 53 => ⟨S4x262144, .f32⟩
  | 54 => ⟨S_, .f32⟩
  | 55 => ⟨S4x262144, .f32⟩
  | 56 => ⟨S4x262144, .f32⟩
  | 57 => ⟨S_, .f32⟩
  | 58 => ⟨S4x262144, .f32⟩
  | 59 => ⟨S4x262144, .f32⟩
  | 60 => ⟨S_, .f32⟩
  | 61 => ⟨S4x262144, .f32⟩
  | 62 => ⟨S4x262144, .f32⟩
  | 63 => ⟨S_, .f32⟩
  | 64 => ⟨S4x262144, .f32⟩
  | 65 => ⟨S4x262144, .f32⟩
  | 66 => ⟨S4x262144, .f32⟩
  | 67 => ⟨S_, .f32⟩
  | 68 => ⟨S4x262144, .f32⟩
  | 69 => ⟨S4x262144, .f32⟩
  | 70 => ⟨S4x262144, .f32⟩
  | 71 => ⟨S_, .f32⟩
  | 72 => ⟨S4x262144, .f32⟩
  | 73 => ⟨S4x262144, .f32⟩
  | 74 => ⟨S4x262144, .f32⟩
  | 75 => ⟨S_, .f32⟩
  | 76 => ⟨S4x262144, .f32⟩
  | 77 => ⟨S4x262144, .i1⟩
  | 78 => ⟨S_, .f32⟩
  | 79 => ⟨S4x262144, .f32⟩
  | 80 => ⟨S4x262144, .f32⟩
  | 81 => ⟨S4x262144, .f32⟩
  | 82 => ⟨S_, .f32⟩
  | 83 => ⟨S_, .f32⟩
  | 84 => ⟨S_, .f32⟩
  | 85 => ⟨S4x262144, .f32⟩
  | 86 => ⟨S4x262144, .f32⟩
  | 87 => ⟨S_, .f32⟩
  | 88 => ⟨S4x262144, .f32⟩
  | 89 => ⟨S4x262144, .f32⟩
  | 90 => ⟨S4x262144, .f32⟩
  | 91 => ⟨S4x262144, .f32⟩
  | 92 => ⟨S4x262144, .f32⟩
  | 93 => ⟨S4x262144, .f32⟩
  | 94 => ⟨S4x262144, .i32⟩
  | 95 => ⟨S4x262144, .i32⟩
  | 96 => ⟨S_, .i32⟩
  | 97 => ⟨S4x262144, .i32⟩
  | 98 => ⟨S4x262144, .i32⟩
  | 99 => ⟨S_, .i32⟩
  | 100 => ⟨S4x262144, .i32⟩
  | 101 => ⟨S4x262144, .i32⟩
  | 102 => ⟨S_, .i32⟩
  | 103 => ⟨S4x262144, .i32⟩
  | 104 => ⟨S4x262144, .i32⟩
  | 105 => ⟨S_, .i32⟩
  | 106 => ⟨S4x262144, .i32⟩
  | 107 => ⟨S4x262144, .i32⟩
  | 108 => ⟨S_, .i32⟩
  | 109 => ⟨S4x262144, .i32⟩
  | 110 => ⟨S4x262144, .i1⟩
  | 111 => ⟨S_, .i32⟩
  | 112 => ⟨S4x262144, .i32⟩
  | 113 => ⟨S4x262144, .i32⟩
  | 114 => ⟨S4x262144, .i32⟩
  | 115 => ⟨S_, .i32⟩
  | 116 => ⟨S4x262144, .i32⟩
  | 117 => ⟨S4x262144, .i1⟩
  | 118 => ⟨S_, .i32⟩
  | 119 => ⟨S4x262144, .i32⟩
  | 120 => ⟨S4x262144, .i32⟩
  | 121 => ⟨S4x262144, .i32⟩
  | 122 => ⟨S4x262144x1, .i32⟩
  | 123 => ⟨S4x262144x1, .i32⟩
  | 124 => ⟨S4x262144x2, .i32⟩
  | 125 => ⟨S32x4x262144, .f32⟩
  | 126 => ⟨S_, .i32⟩
  | 127 => ⟨S4x262144, .i32⟩
  | _ => ⟨S4x262144x3, .f32⟩

abbrev hbmTy0_4 (i : Nat) : BufTy := match i % 128 with
  | 0 => ⟨S4x262144, .i1⟩
  | 1 => ⟨S_, .i32⟩
  | 2 => ⟨S4x262144, .i32⟩
  | 3 => ⟨S4x262144, .i32⟩
  | 4 => ⟨S4x262144, .i32⟩
  | 5 => ⟨S_, .i32⟩
  | 6 => ⟨S4x262144, .i32⟩
  | 7 => ⟨S4x262144, .i1⟩
  | 8 => ⟨S_, .i32⟩
  | 9 => ⟨S4x262144, .i32⟩
  | 10 => ⟨S4x262144, .i32⟩
  | 11 => ⟨S4x262144, .i32⟩
  | 12 => ⟨S4x262144x1, .i32⟩
  | 13 => ⟨S4x262144x1, .i32⟩
  | 14 => ⟨S4x262144x2, .i32⟩
  | 15 => ⟨S32x4x262144, .f32⟩
  | 16 => ⟨S_, .i32⟩
  | 17 => ⟨S4x262144, .i32⟩
  | 18 => ⟨S4x262144, .i1⟩
  | 19 => ⟨S_, .i32⟩
  | 20 => ⟨S4x262144, .i32⟩
  | 21 => ⟨S4x262144, .i32⟩
  | 22 => ⟨S4x262144, .i32⟩
  | 23 => ⟨S_, .i32⟩
  | 24 => ⟨S4x262144, .i32⟩
  | 25 => ⟨S4x262144, .i1⟩
  | 26 => ⟨S_, .i32⟩
  | 27 => ⟨S4x262144, .i32⟩
  | 28 => ⟨S4x262144, .i32⟩
  | 29 => ⟨S4x262144, .i32⟩
  | 30 => ⟨S4x262144x1, .i32⟩
  | 31 => ⟨S4x262144x1, .i32⟩
  | 32 => ⟨S4x262144x2, .i32⟩
  | 33 => ⟨S32x4x262144, .f32⟩
  | 34 => ⟨S_, .i32⟩
  | 35 => ⟨S4x262144, .i32⟩
  | 36 => ⟨S4x262144, .i1⟩
  | 37 => ⟨S_, .i32⟩
  | 38 => ⟨S4x262144, .i32⟩
  | 39 => ⟨S4x262144, .i32⟩
  | 40 => ⟨S4x262144, .i32⟩
  | 41 => ⟨S_, .i32⟩
  | 42 => ⟨S4x262144, .i32⟩
  | 43 => ⟨S4x262144, .i1⟩
  | 44 => ⟨S_, .i32⟩
  | 45 => ⟨S4x262144, .i32⟩
  | 46 => ⟨S4x262144, .i32⟩
  | 47 => ⟨S4x262144, .i32⟩
  | 48 => ⟨S4x262144x1, .i32⟩
  | 49 => ⟨S4x262144x1, .i32⟩
  | 50 => ⟨S4x262144x2, .i32⟩
  | 51 => ⟨S32x4x262144, .f32⟩
  | 52 => ⟨S_, .f32⟩
  | 53 => ⟨S4x262144, .f32⟩
  | 54 => ⟨S4x262144, .f32⟩
  | 55 => ⟨S1x4x262144, .f32⟩
  | 56 => ⟨S32x4x262144, .f32⟩
  | 57 => ⟨S32x4x262144, .f32⟩
  | 58 => ⟨S_, .f32⟩
  | 59 => ⟨S4x262144, .f32⟩
  | 60 => ⟨S4x262144, .f32⟩
  | 61 => ⟨S1x4x262144, .f32⟩
  | 62 => ⟨S32x4x262144, .f32⟩
  | 63 => ⟨S32x4x262144, .f32⟩
  | 64 => ⟨S1x4x262144, .f32⟩
  | 65 => ⟨S32x4x262144, .f32⟩
  | 66 => ⟨S32x4x262144, .f32⟩
  | 67 => ⟨S_, .f32⟩
  | 68 => ⟨S4x262144, .f32⟩
  | 69 => ⟨S4x262144, .f32⟩
  | 70 => ⟨S1x4x262144, .f32⟩
  | 71 => ⟨S32x4x262144, .f32⟩
  | 72 => ⟨S32x4x262144, .f32⟩
  | 73 => ⟨S32x4x262144, .f32⟩
  | 74 => ⟨S_, .f32⟩
  | 75 => ⟨S4x262144, .f32⟩
  | 76 => ⟨S4x262144, .f32⟩
  | 77 => ⟨S1x4x262144, .f32⟩
  | 78 => ⟨S32x4x262144, .f32⟩
  | 79 => ⟨S32x4x262144, .f32⟩
  | 80 => ⟨S1x4x262144, .f32⟩
  | 81 => ⟨S32x4x262144, .f32⟩
  | 82 => ⟨S32x4x262144, .f32⟩
  | 83 => ⟨S32x4x262144, .f32⟩
  | 84 => ⟨S1x4x262144, .f32⟩
  | 85 => ⟨S32x4x262144, .f32⟩
  | 86 => ⟨S32x4x262144, .f32⟩
  | 87 => ⟨S1x4x262144, .f32⟩
  | 88 => ⟨S32x4x262144, .f32⟩
  | 89 => ⟨S32x4x262144, .f32⟩
  | 90 => ⟨S32x4x262144, .f32⟩
  | 91 => ⟨S4x262144x32, .f32⟩
  | 92 => ⟨S4x262144x1x32, .f32⟩
  | 93 => ⟨S4x262144x1x32, .f32⟩
  | 94 => ⟨S4x262144x1x32, .f32⟩
  | 95 => ⟨S4x262144x3x32, .f32⟩
  | _ => ⟨S4x262144x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x262144x3, .f32⟩

abbrev bufTy : (tb : Table) → Fin (tcTables nBuf tb) → BufTy
  | .hbm, ⟨i, _⟩ => hbmTy i
  | _, _ => ⟨S4x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_v26 : Ref sig .tc := ⟨.hbm, 46, rfl⟩
abbrev main_cst_10 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_15 : Ref sig .tc := ⟨.hbm, 66, rfl⟩
abbrev main_cst_16 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c : Ref sig .tc := ⟨.hbm, 80, rfl⟩
abbrev main_v48 : Ref sig .tc := ⟨.hbm, 81, rfl⟩
abbrev main_v49 : Ref sig .tc := ⟨.hbm, 82, rfl⟩
abbrev main_c_17 : Ref sig .tc := ⟨.hbm, 83, rfl⟩
abbrev main_v50 : Ref sig .tc := ⟨.hbm, 84, rfl⟩
abbrev main_v51 : Ref sig .tc := ⟨.hbm, 85, rfl⟩
abbrev main_c_18 : Ref sig .tc := ⟨.hbm, 86, rfl⟩
abbrev main_v52 : Ref sig .tc := ⟨.hbm, 87, rfl⟩
abbrev main_v53 : Ref sig .tc := ⟨.hbm, 88, rfl⟩
abbrev main_c_19 : Ref sig .tc := ⟨.hbm, 89, rfl⟩
abbrev main_v54 : Ref sig .tc := ⟨.hbm, 90, rfl⟩
abbrev main_v55 : Ref sig .tc := ⟨.hbm, 91, rfl⟩
abbrev main_c_20 : Ref sig .tc := ⟨.hbm, 92, rfl⟩
abbrev main_v56 : Ref sig .tc := ⟨.hbm, 93, rfl⟩
abbrev main_v57 : Ref sig .tc := ⟨.hbm, 94, rfl⟩
abbrev main_c_21 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_22 : Ref sig .tc := ⟨.hbm, 99, rfl⟩
abbrev main_v61 : Ref sig .tc := ⟨.hbm, 100, rfl⟩
abbrev main_v62 : Ref sig .tc := ⟨.hbm, 101, rfl⟩
abbrev main_c_23 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_24 : Ref sig .tc := ⟨.hbm, 110, rfl⟩
abbrev main_v70 : Ref sig .tc := ⟨.hbm, 111, rfl⟩
abbrev main_v71 : Ref sig .tc := ⟨.hbm, 112, rfl⟩
abbrev main_c_25 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_26 : Ref sig .tc := ⟨.hbm, 117, rfl⟩
abbrev main_v75 : Ref sig .tc := ⟨.hbm, 118, rfl⟩
abbrev main_v76 : Ref sig .tc := ⟨.hbm, 119, rfl⟩
abbrev main_c_27 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_28 : Ref sig .tc := ⟨.hbm, 128, rfl⟩
abbrev main_v84 : Ref sig .tc := ⟨.hbm, 129, rfl⟩
abbrev main_v85 : Ref sig .tc := ⟨.hbm, 130, rfl⟩
abbrev main_c_29 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_30 : Ref sig .tc := ⟨.hbm, 135, rfl⟩
abbrev main_v89 : Ref sig .tc := ⟨.hbm, 136, rfl⟩
abbrev main_v90 : Ref sig .tc := ⟨.hbm, 137, rfl⟩
abbrev main_c_31 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_32 : Ref sig .tc := ⟨.hbm, 146, rfl⟩
abbrev main_v98 : Ref sig .tc := ⟨.hbm, 147, rfl⟩
abbrev main_v99 : Ref sig .tc := ⟨.hbm, 148, rfl⟩
abbrev main_c_33 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_34 : Ref sig .tc := ⟨.hbm, 153, rfl⟩
abbrev main_v103 : Ref sig .tc := ⟨.hbm, 154, rfl⟩
abbrev main_v104 : Ref sig .tc := ⟨.hbm, 155, rfl⟩
abbrev main_c_35 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_36 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_37 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_38 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_39 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_40 : Ref sig .tc := ⟨.hbm, 208, rfl⟩
abbrev main_v152 : Ref sig .tc := ⟨.hbm, 209, rfl⟩
abbrev main_v153 : Ref sig .tc := ⟨.hbm, 210, rfl⟩
abbrev main_cst_41 : Ref sig .tc := ⟨.hbm, 211, rfl⟩
abbrev main_v154 : Ref sig .tc := ⟨.hbm, 212, rfl⟩
abbrev main_v155 : Ref sig .tc := ⟨.hbm, 213, rfl⟩
abbrev main_cst_42 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_43 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_44 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_45 : Ref sig .tc := ⟨.hbm, 226, rfl⟩
abbrev main_v165 : Ref sig .tc := ⟨.hbm, 227, rfl⟩
abbrev main_v166 : Ref sig .tc := ⟨.hbm, 228, rfl⟩
abbrev main_cst_46 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_47 : Ref sig .tc := ⟨.hbm, 233, rfl⟩
abbrev main_cst_48 : Ref sig .tc := ⟨.hbm, 234, rfl⟩
abbrev main_call5_v0 : Ref sig .tc := ⟨.hbm, 235, rfl⟩
abbrev main_call5_v1 : Ref sig .tc := ⟨.hbm, 236, rfl⟩
abbrev main_call5_v2 : Ref sig .tc := ⟨.hbm, 237, rfl⟩
abbrev main_call5_v3 : Ref sig .tc := ⟨.hbm, 238, rfl⟩
abbrev main_call5_v4 : Ref sig .tc := ⟨.hbm, 239, rfl⟩
abbrev main_v170 : Ref sig .tc := ⟨.hbm, 240, rfl⟩
abbrev main_cst_49 : Ref sig .tc := ⟨.hbm, 241, rfl⟩
abbrev main_v171 : Ref sig .tc := ⟨.hbm, 242, rfl⟩
abbrev main_v172 : Ref sig .tc := ⟨.hbm, 243, rfl⟩
abbrev main_cst_50 : Ref sig .tc := ⟨.hbm, 244, rfl⟩
abbrev main_v173 : Ref sig .tc := ⟨.hbm, 245, rfl⟩
abbrev main_v174 : Ref sig .tc := ⟨.hbm, 246, rfl⟩
abbrev main_cst_51 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_cst_52 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_cst_53 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_cst_54 : Ref sig .tc := ⟨.hbm, 259, rfl⟩
abbrev main_v184 : Ref sig .tc := ⟨.hbm, 260, rfl⟩
abbrev main_v185 : Ref sig .tc := ⟨.hbm, 261, rfl⟩
abbrev main_cst_55 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_cst_56 : Ref sig .tc := ⟨.hbm, 266, rfl⟩
abbrev main_cst_57 : Ref sig .tc := ⟨.hbm, 267, rfl⟩
abbrev main_call7_v0 : Ref sig .tc := ⟨.hbm, 268, rfl⟩
abbrev main_call7_v1 : Ref sig .tc := ⟨.hbm, 269, rfl⟩
abbrev main_call7_v2 : Ref sig .tc := ⟨.hbm, 270, rfl⟩
abbrev main_call7_v3 : Ref sig .tc := ⟨.hbm, 271, rfl⟩
abbrev main_call7_v4 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_c_58 : Ref sig .tc := ⟨.hbm, 280, rfl⟩
abbrev main_v196 : Ref sig .tc := ⟨.hbm, 281, rfl⟩
abbrev main_v197 : Ref sig .tc := ⟨.hbm, 282, rfl⟩
abbrev main_c_59 : Ref sig .tc := ⟨.hbm, 283, rfl⟩
abbrev main_v198 : Ref sig .tc := ⟨.hbm, 284, rfl⟩
abbrev main_v199 : Ref sig .tc := ⟨.hbm, 285, rfl⟩
abbrev main_c_60 : Ref sig .tc := ⟨.hbm, 286, rfl⟩
abbrev main_v200 : Ref sig .tc := ⟨.hbm, 287, rfl⟩
abbrev main_v201 : Ref sig .tc := ⟨.hbm, 288, rfl⟩
abbrev main_c_61 : Ref sig .tc := ⟨.hbm, 289, rfl⟩
abbrev main_v202 : Ref sig .tc := ⟨.hbm, 290, rfl⟩
abbrev main_v203 : Ref sig .tc := ⟨.hbm, 291, rfl⟩
abbrev main_c_62 : Ref sig .tc := ⟨.hbm, 292, rfl⟩
abbrev main_v204 : Ref sig .tc := ⟨.hbm, 293, rfl⟩
abbrev main_v205 : Ref sig .tc := ⟨.hbm, 294, rfl⟩
abbrev main_c_63 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_c_64 : Ref sig .tc := ⟨.hbm, 299, rfl⟩
abbrev main_v209 : Ref sig .tc := ⟨.hbm, 300, rfl⟩
abbrev main_v210 : Ref sig .tc := ⟨.hbm, 301, rfl⟩
abbrev main_c_65 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_c_66 : Ref sig .tc := ⟨.hbm, 310, rfl⟩
abbrev main_v218 : Ref sig .tc := ⟨.hbm, 311, rfl⟩
abbrev main_v219 : Ref sig .tc := ⟨.hbm, 312, rfl⟩
abbrev main_c_67 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_c_68 : Ref sig .tc := ⟨.hbm, 317, rfl⟩
abbrev main_v223 : Ref sig .tc := ⟨.hbm, 318, rfl⟩
abbrev main_v224 : Ref sig .tc := ⟨.hbm, 319, rfl⟩
abbrev main_c_69 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_c_70 : Ref sig .tc := ⟨.hbm, 328, rfl⟩
abbrev main_v232 : Ref sig .tc := ⟨.hbm, 329, rfl⟩
abbrev main_v233 : Ref sig .tc := ⟨.hbm, 330, rfl⟩
abbrev main_c_71 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_c_72 : Ref sig .tc := ⟨.hbm, 335, rfl⟩
abbrev main_v237 : Ref sig .tc := ⟨.hbm, 336, rfl⟩
abbrev main_v238 : Ref sig .tc := ⟨.hbm, 337, rfl⟩
abbrev main_c_73 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_c_74 : Ref sig .tc := ⟨.hbm, 346, rfl⟩
abbrev main_v246 : Ref sig .tc := ⟨.hbm, 347, rfl⟩
abbrev main_v247 : Ref sig .tc := ⟨.hbm, 348, rfl⟩
abbrev main_c_75 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_c_76 : Ref sig .tc := ⟨.hbm, 353, rfl⟩
abbrev main_v251 : Ref sig .tc := ⟨.hbm, 354, rfl⟩
abbrev main_v252 : Ref sig .tc := ⟨.hbm, 355, rfl⟩
abbrev main_c_77 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_cst_78 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_cst_79 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_cst_80 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_cst_81 : Ref sig .tc := ⟨.hbm, 386, rfl⟩
abbrev main_v279 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_cst_82 : Ref sig .tc := ⟨.hbm, 408, rfl⟩
abbrev main_v300 : Ref sig .tc := ⟨.hbm, 409, rfl⟩
abbrev main_v301 : Ref sig .tc := ⟨.hbm, 410, rfl⟩
abbrev main_cst_83 : Ref sig .tc := ⟨.hbm, 411, rfl⟩
abbrev main_v302 : Ref sig .tc := ⟨.hbm, 412, rfl⟩
abbrev main_v303 : Ref sig .tc := ⟨.hbm, 413, rfl⟩
abbrev main_cst_84 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_cst_85 : Ref sig .tc := ⟨.hbm, 418, rfl⟩
abbrev main_v307 : Ref sig .tc := ⟨.hbm, 419, rfl⟩
abbrev main_v308 : Ref sig .tc := ⟨.hbm, 420, rfl⟩
abbrev main_v309 : Ref sig .tc := ⟨.hbm, 421, rfl⟩
abbrev main_cst_86 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_cst_87 : Ref sig .tc := ⟨.hbm, 426, rfl⟩
abbrev main_v313 : Ref sig .tc := ⟨.hbm, 427, rfl⟩
abbrev main_v314 : Ref sig .tc := ⟨.hbm, 428, rfl⟩
abbrev main_cst_88 : Ref sig .tc := ⟨.hbm, 429, rfl⟩
abbrev main_v315 : Ref sig .tc := ⟨.hbm, 430, rfl⟩
abbrev main_v316 : Ref sig .tc := ⟨.hbm, 431, rfl⟩
abbrev main_v317 : Ref sig .tc := ⟨.hbm, 432, rfl⟩
abbrev main_cst_89 : Ref sig .tc := ⟨.hbm, 433, rfl⟩
abbrev main_cst_90 : Ref sig .tc := ⟨.hbm, 434, rfl⟩
abbrev main_call9_v0 : Ref sig .tc := ⟨.hbm, 435, rfl⟩
abbrev main_call9_v1 : Ref sig .tc := ⟨.hbm, 436, rfl⟩
abbrev main_call9_v2 : Ref sig .tc := ⟨.hbm, 437, rfl⟩
abbrev main_call9_v3 : Ref sig .tc := ⟨.hbm, 438, rfl⟩
abbrev main_call9_v4 : Ref sig .tc := ⟨.hbm, 439, rfl⟩
abbrev main_v318 : Ref sig .tc := ⟨.hbm, 440, rfl⟩
abbrev main_cst_91 : Ref sig .tc := ⟨.hbm, 441, rfl⟩
abbrev main_v319 : Ref sig .tc := ⟨.hbm, 442, rfl⟩
abbrev main_v320 : Ref sig .tc := ⟨.hbm, 443, rfl⟩
abbrev main_cst_92 : Ref sig .tc := ⟨.hbm, 444, rfl⟩
abbrev main_v321 : Ref sig .tc := ⟨.hbm, 445, rfl⟩
abbrev main_v322 : Ref sig .tc := ⟨.hbm, 446, rfl⟩
abbrev main_cst_93 : Ref sig .tc := ⟨.hbm, 447, rfl⟩
abbrev main_v323 : Ref sig .tc := ⟨.hbm, 448, rfl⟩
abbrev main_v324 : Ref sig .tc := ⟨.hbm, 449, rfl⟩
abbrev main_v325 : Ref sig .tc := ⟨.hbm, 450, rfl⟩
abbrev main_cst_94 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_cst_95 : Ref sig .tc := ⟨.hbm, 455, rfl⟩
abbrev main_v329 : Ref sig .tc := ⟨.hbm, 456, rfl⟩
abbrev main_v330 : Ref sig .tc := ⟨.hbm, 457, rfl⟩
abbrev main_v331 : Ref sig .tc := ⟨.hbm, 458, rfl⟩
abbrev main_cst_96 : Ref sig .tc := ⟨.hbm, 459, rfl⟩
abbrev main_v332 : Ref sig .tc := ⟨.hbm, 460, rfl⟩
abbrev main_v333 : Ref sig .tc := ⟨.hbm, 461, rfl⟩
abbrev main_cst_97 : Ref sig .tc := ⟨.hbm, 462, rfl⟩
abbrev main_v334 : Ref sig .tc := ⟨.hbm, 463, rfl⟩
abbrev main_v335 : Ref sig .tc := ⟨.hbm, 464, rfl⟩
abbrev main_v336 : Ref sig .tc := ⟨.hbm, 465, rfl⟩
abbrev main_cst_98 : Ref sig .tc := ⟨.hbm, 466, rfl⟩
abbrev main_cst_99 : Ref sig .tc := ⟨.hbm, 467, rfl⟩
abbrev main_call11_v0 : Ref sig .tc := ⟨.hbm, 468, rfl⟩
abbrev main_call11_v1 : Ref sig .tc := ⟨.hbm, 469, rfl⟩
abbrev main_call11_v2 : Ref sig .tc := ⟨.hbm, 470, rfl⟩
abbrev main_call11_v3 : Ref sig .tc := ⟨.hbm, 471, rfl⟩
abbrev main_call11_v4 : Ref sig .tc := ⟨.hbm, 472, rfl⟩
abbrev main_v337 : Ref sig .tc := ⟨.hbm, 473, rfl⟩
abbrev main_v338 : Ref sig .tc := ⟨.hbm, 474, rfl⟩
abbrev main_v339 : Ref sig .tc := ⟨.hbm, 475, rfl⟩
abbrev main_v340 : Ref sig .tc := ⟨.hbm, 476, rfl⟩
abbrev main_v341 : Ref sig .tc := ⟨.hbm, 477, rfl⟩
abbrev main_v342 : Ref sig .tc := ⟨.hbm, 478, rfl⟩
abbrev main_v343 : Ref sig .tc := ⟨.hbm, 479, rfl⟩
abbrev main_c_100 : Ref sig .tc := ⟨.hbm, 480, rfl⟩
abbrev main_v344 : Ref sig .tc := ⟨.hbm, 481, rfl⟩
abbrev main_v345 : Ref sig .tc := ⟨.hbm, 482, rfl⟩
abbrev main_c_101 : Ref sig .tc := ⟨.hbm, 483, rfl⟩
abbrev main_v346 : Ref sig .tc := ⟨.hbm, 484, rfl⟩
abbrev main_v347 : Ref sig .tc := ⟨.hbm, 485, rfl⟩
abbrev main_c_102 : Ref sig .tc := ⟨.hbm, 486, rfl⟩
abbrev main_v348 : Ref sig .tc := ⟨.hbm, 487, rfl⟩
abbrev main_v349 : Ref sig .tc := ⟨.hbm, 488, rfl⟩
abbrev main_c_103 : Ref sig .tc := ⟨.hbm, 489, rfl⟩
abbrev main_v350 : Ref sig .tc := ⟨.hbm, 490, rfl⟩
abbrev main_v351 : Ref sig .tc := ⟨.hbm, 491, rfl⟩
abbrev main_c_104 : Ref sig .tc := ⟨.hbm, 492, rfl⟩
abbrev main_v352 : Ref sig .tc := ⟨.hbm, 493, rfl⟩
abbrev main_v353 : Ref sig .tc := ⟨.hbm, 494, rfl⟩
abbrev main_c_105 : Ref sig .tc := ⟨.hbm, 495, rfl⟩
abbrev main_v354 : Ref sig .tc := ⟨.hbm, 496, rfl⟩
abbrev main_v355 : Ref sig .tc := ⟨.hbm, 497, rfl⟩
abbrev main_v356 : Ref sig .tc := ⟨.hbm, 498, rfl⟩
abbrev main_c_106 : Ref sig .tc := ⟨.hbm, 499, rfl⟩
abbrev main_v357 : Ref sig .tc := ⟨.hbm, 500, rfl⟩
abbrev main_v358 : Ref sig .tc := ⟨.hbm, 501, rfl⟩
abbrev main_c_107 : Ref sig .tc := ⟨.hbm, 502, rfl⟩
abbrev main_v359 : Ref sig .tc := ⟨.hbm, 503, rfl⟩
abbrev main_v360 : Ref sig .tc := ⟨.hbm, 504, rfl⟩
abbrev main_v361 : Ref sig .tc := ⟨.hbm, 505, rfl⟩
abbrev main_v362 : Ref sig .tc := ⟨.hbm, 506, rfl⟩
abbrev main_v363 : Ref sig .tc := ⟨.hbm, 507, rfl⟩
abbrev main_v364 : Ref sig .tc := ⟨.hbm, 508, rfl⟩
abbrev main_v365 : Ref sig .tc := ⟨.hbm, 509, rfl⟩
abbrev main_c_108 : Ref sig .tc := ⟨.hbm, 510, rfl⟩
abbrev main_v366 : Ref sig .tc := ⟨.hbm, 511, rfl⟩
abbrev main_v367 : Ref sig .tc := ⟨.hbm, 512, rfl⟩
abbrev main_c_109 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_c_110 : Ref sig .tc := ⟨.hbm, 517, rfl⟩
abbrev main_v371 : Ref sig .tc := ⟨.hbm, 518, rfl⟩
abbrev main_v372 : Ref sig .tc := ⟨.hbm, 519, rfl⟩
abbrev main_c_111 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_v376 : Ref sig .tc := ⟨.hbm, 524, rfl⟩
abbrev main_v377 : Ref sig .tc := ⟨.hbm, 525, rfl⟩
abbrev main_v378 : Ref sig .tc := ⟨.hbm, 526, rfl⟩
abbrev main_v379 : Ref sig .tc := ⟨.hbm, 527, rfl⟩
abbrev main_c_112 : Ref sig .tc := ⟨.hbm, 528, rfl⟩
abbrev main_v380 : Ref sig .tc := ⟨.hbm, 529, rfl⟩
abbrev main_v381 : Ref sig .tc := ⟨.hbm, 530, rfl⟩
abbrev main_c_113 : Ref sig .tc := ⟨.hbm, 531, rfl⟩
abbrev main_v382 : Ref sig .tc := ⟨.hbm, 532, rfl⟩
abbrev main_v383 : Ref sig .tc := ⟨.hbm, 533, rfl⟩
abbrev main_v384 : Ref sig .tc := ⟨.hbm, 534, rfl⟩
abbrev main_c_114 : Ref sig .tc := ⟨.hbm, 535, rfl⟩
abbrev main_v385 : Ref sig .tc := ⟨.hbm, 536, rfl⟩
abbrev main_v386 : Ref sig .tc := ⟨.hbm, 537, rfl⟩
abbrev main_c_115 : Ref sig .tc := ⟨.hbm, 538, rfl⟩
abbrev main_v387 : Ref sig .tc := ⟨.hbm, 539, rfl⟩
abbrev main_v388 : Ref sig .tc := ⟨.hbm, 540, rfl⟩
abbrev main_v389 : Ref sig .tc := ⟨.hbm, 541, rfl⟩
abbrev main_v390 : Ref sig .tc := ⟨.hbm, 542, rfl⟩
abbrev main_v391 : Ref sig .tc := ⟨.hbm, 543, rfl⟩
abbrev main_v392 : Ref sig .tc := ⟨.hbm, 544, rfl⟩
abbrev main_v393 : Ref sig .tc := ⟨.hbm, 545, rfl⟩
abbrev main_c_116 : Ref sig .tc := ⟨.hbm, 546, rfl⟩
abbrev main_v394 : Ref sig .tc := ⟨.hbm, 547, rfl⟩
abbrev main_v395 : Ref sig .tc := ⟨.hbm, 548, rfl⟩
abbrev main_c_117 : Ref sig .tc := ⟨.hbm, 549, rfl⟩
abbrev main_v396 : Ref sig .tc := ⟨.hbm, 550, rfl⟩
abbrev main_v397 : Ref sig .tc := ⟨.hbm, 551, rfl⟩
abbrev main_v398 : Ref sig .tc := ⟨.hbm, 552, rfl⟩
abbrev main_c_118 : Ref sig .tc := ⟨.hbm, 553, rfl⟩
abbrev main_v399 : Ref sig .tc := ⟨.hbm, 554, rfl⟩
abbrev main_v400 : Ref sig .tc := ⟨.hbm, 555, rfl⟩
abbrev main_c_119 : Ref sig .tc := ⟨.hbm, 556, rfl⟩
abbrev main_v401 : Ref sig .tc := ⟨.hbm, 557, rfl⟩
abbrev main_v402 : Ref sig .tc := ⟨.hbm, 558, rfl⟩
abbrev main_v403 : Ref sig .tc := ⟨.hbm, 559, rfl⟩
abbrev main_v404 : Ref sig .tc := ⟨.hbm, 560, rfl⟩
abbrev main_v405 : Ref sig .tc := ⟨.hbm, 561, rfl⟩
abbrev main_v406 : Ref sig .tc := ⟨.hbm, 562, rfl⟩
abbrev main_v407 : Ref sig .tc := ⟨.hbm, 563, rfl⟩
abbrev main_cst_120 : Ref sig .tc := ⟨.hbm, 564, rfl⟩
abbrev main_v408 : Ref sig .tc := ⟨.hbm, 565, rfl⟩
abbrev main_v409 : Ref sig .tc := ⟨.hbm, 566, rfl⟩
abbrev main_v410 : Ref sig .tc := ⟨.hbm, 567, rfl⟩
abbrev main_v411 : Ref sig .tc := ⟨.hbm, 568, rfl⟩
abbrev main_v412 : Ref sig .tc := ⟨.hbm, 569, rfl⟩
abbrev main_cst_121 : Ref sig .tc := ⟨.hbm, 570, rfl⟩
abbrev main_v413 : Ref sig .tc := ⟨.hbm, 571, rfl⟩
abbrev main_v414 : Ref sig .tc := ⟨.hbm, 572, rfl⟩
abbrev main_v415 : Ref sig .tc := ⟨.hbm, 573, rfl⟩
abbrev main_v416 : Ref sig .tc := ⟨.hbm, 574, rfl⟩
abbrev main_v417 : Ref sig .tc := ⟨.hbm, 575, rfl⟩
abbrev main_v418 : Ref sig .tc := ⟨.hbm, 576, rfl⟩
abbrev main_v419 : Ref sig .tc := ⟨.hbm, 577, rfl⟩
abbrev main_v420 : Ref sig .tc := ⟨.hbm, 578, rfl⟩
abbrev main_cst_122 : Ref sig .tc := ⟨.hbm, 579, rfl⟩
abbrev main_v421 : Ref sig .tc := ⟨.hbm, 580, rfl⟩
abbrev main_v422 : Ref sig .tc := ⟨.hbm, 581, rfl⟩
abbrev main_v423 : Ref sig .tc := ⟨.hbm, 582, rfl⟩
abbrev main_v424 : Ref sig .tc := ⟨.hbm, 583, rfl⟩
abbrev main_v425 : Ref sig .tc := ⟨.hbm, 584, rfl⟩
abbrev main_v426 : Ref sig .tc := ⟨.hbm, 585, rfl⟩
abbrev main_cst_123 : Ref sig .tc := ⟨.hbm, 586, rfl⟩
abbrev main_v427 : Ref sig .tc := ⟨.hbm, 587, rfl⟩
abbrev main_v428 : Ref sig .tc := ⟨.hbm, 588, rfl⟩
abbrev main_v429 : Ref sig .tc := ⟨.hbm, 589, rfl⟩
abbrev main_v430 : Ref sig .tc := ⟨.hbm, 590, rfl⟩
abbrev main_v431 : Ref sig .tc := ⟨.hbm, 591, rfl⟩
abbrev main_v432 : Ref sig .tc := ⟨.hbm, 592, rfl⟩
abbrev main_v433 : Ref sig .tc := ⟨.hbm, 593, rfl⟩
abbrev main_v434 : Ref sig .tc := ⟨.hbm, 594, rfl⟩
abbrev main_v435 : Ref sig .tc := ⟨.hbm, 595, rfl⟩
abbrev main_v436 : Ref sig .tc := ⟨.hbm, 596, rfl⟩
abbrev main_v437 : Ref sig .tc := ⟨.hbm, 597, rfl⟩
abbrev main_v438 : Ref sig .tc := ⟨.hbm, 598, rfl⟩
abbrev main_v439 : Ref sig .tc := ⟨.hbm, 599, rfl⟩
abbrev main_v440 : Ref sig .tc := ⟨.hbm, 600, rfl⟩
abbrev main_v441 : Ref sig .tc := ⟨.hbm, 601, rfl⟩
abbrev main_v442 : Ref sig .tc := ⟨.hbm, 602, rfl⟩
abbrev main_v443 : Ref sig .tc := ⟨.hbm, 603, rfl⟩
abbrev main_v444 : Ref sig .tc := ⟨.hbm, 604, rfl⟩
abbrev main_v445 : Ref sig .tc := ⟨.hbm, 605, rfl⟩
abbrev main_v446 : Ref sig .tc := ⟨.hbm, 606, rfl⟩
abbrev main_v447 : Ref sig .tc := ⟨.hbm, 607, rfl⟩

abbrev nD : Nat := 1
abbrev τ : Topo := Topo.v7x

variable {F : FTy → Type} [FloatOps F]

class Facts₀ : Prop where
  slices_S4x262144x3_S4x262144x1_0_0_1 : S4x262144x3.Slices ![0, 0, 1] S4x262144x1
  shapeCasts_S4x262144x1_S4x262144 : S4x262144x1.ShapeCasts S4x262144
  slices_S4x262144x3_S4x262144x1_0_0_2 : S4x262144x3.Slices ![0, 0, 2] S4x262144x1
  bcast_S_S4x262144 : S_.BroadcastsInDim S4x262144 (![] : Fin 0 → Fin S4x262144.rank)
  bcast_S4x262144_S4x262144x1_0_1 : S4x262144.BroadcastsInDim S4x262144x1 (![0, 1] : Fin 2 → Fin S4x262144x1.rank)
  concatenates_S4x262144x1_S4x262144x1_S4x262144x2_d2 : Shape.Concatenates [S4x262144x1, S4x262144x1] S4x262144x2 2
  bcast_S4x262144_S1x4x262144_1_2 : S4x262144.BroadcastsInDim S1x4x262144 (![1, 2] : Fin 2 → Fin S1x4x262144.rank)
  bcast_S1x4x262144_S32x4x262144_0_1_2 : S1x4x262144.BroadcastsInDim S32x4x262144 (![0, 1, 2] : Fin 3 → Fin S32x4x262144.rank)
  transposes_S32x4x262144_S4x262144x32_1_2_0 : S32x4x262144.Transposes [1, 2, 0] S4x262144x32
  slices_S4x262144x3_S4x262144x1_0_0_0 : S4x262144x3.Slices ![0, 0, 0] S4x262144x1
  bcast_S4x262144x32_S4x262144x1x32_0_1_3 : S4x262144x32.BroadcastsInDim S4x262144x1x32 (![0, 1, 3] : Fin 3 → Fin S4x262144x1x32.rank)
  concatenates_S4x262144x1x32_S4x262144x1x32_S4x262144x1x32_S4x262144x3x32_d2 : Shape.Concatenates [S4x262144x1x32, S4x262144x1x32, S4x262144x1x32] S4x262144x3x32 2
  gather_S32x513x513_S4x262144x2_S32x4x262144_0_12_n_n_12_2_3211_wf : GatherDims.WF S32x513x513 S4x262144x2 S32x4x262144 [0] [1, 2] [] [1, 2] [] 2 ![32, 1, 1]

variable [Facts₀]

def gather_S32x513x513_S4x262144x2_S32x4x262144_0_12_n_n_12_2_3211 : GatherDims S32x513x513 S4x262144x2 S32x4x262144 where
  offsetDims := [0]
  collapsedSliceDims := [1, 2]
  operandBatchingDims := []
  startIndicesBatchingDims := []
  startIndexMap := [1, 2]
  indexVectorDim := 2
  sliceSizes := ![32, 1, 1]
  wf := gather_S32x513x513_S4x262144x2_S32x4x262144_0_12_n_n_12_2_3211_wf

class Facts : Prop extends Facts₀ where

variable [Facts]
-- ==== Proof.KBMain.lean ====
/-
  The program's entry function around its one kernel region: twenty-five stretches of host operations, the region,
  and one last host operation (the reshape of the region's result). Here: the contents of every buffer when the
  region is entered (the fold of the host operations over the launch memory), the fact that the entry function
  reduces to the region continued by the last operation at those contents, and that no host operation before the
  region writes an argument array.
-/
import proofs.«174118_j37812892074356_2_alg».proof.Proof.Gen.Kernel.Launch
import proofs.«174118_j37812892074356_2_alg».proof.Proof.Gen.Kernel.Skeleton
import proofs.«174118_j37812892074356_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- Core `c`'s buffers when the region is entered: the host operations before it folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem pre_sub : (pre (F := F)).Forall fun ops => ops.Forall fun op => op.bufs ⊆ StableHlo.tcRefs τ sig := by
  simp only [pre, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩

theorem pre_fresh : (pre (F := F)).Forall fun ops => ops.Forall fun op => op.fresh = ∅ := by
  simp only [pre, List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩

/-- The entry function reduces to the region continued by the last host operation, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The operation after the region touches the region's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's arrays (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

end Cert.Kernel.Hand

end
-- ==== Proof.KBBody.lean ====
/-
  The kernel region. At grid point `t` the body reads the six input blocks (four corner blocks of 512 × 3 × 32 and two
  weight blocks of 512 × 3 × 1) and stores one 512 × 3 × 32 block: the weighted sum of the corners. Here: what the
  output's staging buffer holds after the body as a function of the input blocks (`outBlk`), the body's run, the
  proof data of the pipeline, and the run of the whole entry function: every array of the region ends at what the
  write-backs leave, every other buffer at what the host operations computed.
-/
import proofs.«174118_j37812892074356_2_alg».proof.Proof.KBMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the region-entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the region-entry
    contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the region-entry
    contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data whose array is the region-entry
    contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data whose array is the region-entry
    contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data whose array is the region-entry
    contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rC : Rect S512x3x32 := Rect.unit (s := S512x3x32) ![0, 0, 0] S512x3x32.size inb_S512x3x32_S512x3x32_0_0_0
abbrev rW : Rect S512x3x1 := Rect.unit (s := S512x3x1) ![0, 0, 0] S512x3x1.size inb_S512x3x1_S512x3x1_0_0_0

/-- The output's staging buffer after the body, from the input blocks: its one store. -/
def outBlk (x0 x1 x2 x3 : Vec F S512x3x32 .f32) (x4 x5 : Vec F S512x3x1 .f32) : Vec F S512x3x32 .f32 :=
  View.canon [⟨rC, k0_pay1 (View.ld x4 rW) (View.ld x5 rW) (View.ld x0 rC) (View.ld x1 rC) (View.ld x2 rC) (View.ld x3 rC)⟩]

/-- The store is the whole block, so it covers the buffer. -/
theorem coverOut (p0 : Vec F S512x3x32 .f32) (y : S512x3x32.Idx) :
    ∃ pc ∈ ([⟨rC, p0⟩] : List (View.Piece (Elt F) S512x3x32 .f32)), y ∈ pc.1.set :=
  View.cover_of_tiled [⟨rC, p0⟩] S512x3x32.size (by rfl) y

set_option maxHeartbeats 2000000 in
/-- The body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S512x3x32 .f32) (harg1 : arg1.IsWhole) (arg2 : Memref sig .tc .vmem S512x3x32 .f32) (harg2 : arg2.IsWhole)
    (arg3 : Memref sig .tc .vmem S512x3x32 .f32) (harg3 : arg3.IsWhole) (arg4 : Memref sig .tc .vmem S512x3x32 .f32) (harg4 : arg4.IsWhole)
    (arg5 : Memref sig .tc .vmem S512x3x1 .f32) (harg5 : arg5.IsWhole) (arg6 : Memref sig .tc .vmem S512x3x1 .f32) (harg6 : arg6.IsWhole)
    (arg7 : Memref sig .tc .vmem S512x3x32 .f32) (harg7 : arg7.IsWhole)
    (x0 x1 x2 x3 : Vec F S512x3x32 .f32) (x4 x5 : Vec F S512x3x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- The proof data of the pipeline on core `c`: the arrays as the region finds them; after the body at point `t` each
    input's buffer at its block and the output's at `outBlk` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the entry function terminates, and every final
    state has every array of the region at what the write-backs leave and every other unscoped buffer at what the host
    operations leave, the one after the region included. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Hand

end
-- ==== Proof.KBKeep.lean ====
/-
  No host operation before the region writes an argument array: each operation writes its own result buffer only,
  and no result buffer is an argument. So the region finds the four argument arrays as launched.
-/
import proofs.«174118_j37812892074356_2_alg».proof.Proof.KBMain

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- One of the four argument arrays. -/
abbrev IsArg (b : Ref sig .tc) : Prop := b = main_arg0 ∨ b = main_arg1 ∨ b = main_arg2 ∨ b = main_arg3

theorem keep_hostOps0 (b : Ref sig .tc) (hb : IsArg b) :
    ∀ op ∈ (hostOps0 : List (HloOp τ sig (Elt F))), Proc.devRef (τ := τ) .tc b ∉ op.writes :=
  List.forall_iff_forall_mem.mp (by
    simp only [hostOps0, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_1 (b : Ref sig .tc) (hb : IsArg b) :
    ∀ op ∈ (hostOps0_1 : List (HloOp τ sig (Elt F))), Proc.devRef (τ := τ) .tc b ∉ op.writes :=
  List.forall_iff_forall_mem.mp (by
    simp only [hostOps0_1, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_2 (b : Ref sig .tc) (hb : IsArg b) :
    ∀ op ∈ (hostOps0_2 : List (HloOp τ sig (Elt F))), Proc.devRef (τ := τ) .tc b ∉ op.writes :=
  List.forall_iff_forall_mem.mp (by
    simp only [hostOps0_2, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_3 (b : Ref sig .tc) (hb : IsArg b) :
    ∀ op ∈ (hostOps0_3 : List (HloOp τ sig (Elt F))), Proc.devRef (τ := τ) .tc b ∉ op.writes :=
  List.forall_iff_forall_mem.mp (by
    simp only [hostOps0_3, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_4 (b : Ref sig .tc) (hb : IsArg b) :
    ∀ op ∈ (hostOps0_4 : List (HloOp τ sig (Elt F))), Proc.devRef (τ := τ) .tc b ∉ op.writes :=
  List.forall_iff_forall_mem.mp (by
    simp only [hostOps0_4, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_5 (b : Ref sig .tc) (hb : IsArg b) :
    ∀ op ∈ (hostOps0_5 : List (HloOp τ sig (Elt F))), Proc.devRef (τ := τ) .tc b ∉ op.writes :=
  List.forall_iff_forall_mem.mp (by
    simp only [hostOps0_5, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_6 (b : Ref sig .tc) (hb : IsArg b) :
    ∀ op ∈ (hostOps0_6 : List (HloOp τ sig (Elt F))), Proc.devRef (τ := τ) .tc b ∉ op.writes :=
  List.forall_iff_forall_mem.mp (by
    simp only [hostOps0_6, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_7 (b : Ref sig .tc) (hb : IsArg b) :
    ∀ op ∈ (hostOps0_7 : List (HloOp τ sig (Elt F))), Proc.devRef (τ := τ) .tc b ∉ op.writes :=
  List.forall_iff_forall_mem.mp (by
    simp only [hostOps0_7, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_8 (b : Ref sig .tc) (hb : IsArg b) :
    ∀ op ∈ (hostOps0_8 : List (HloOp τ sig (Elt F))), Proc.devRef (τ := τ) .tc b ∉ op.writes :=
  List.forall_iff_forall_mem.mp (by
    simp only [hostOps0_8, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_9 (b : Ref sig .tc) (hb : IsArg b) :
    ∀ op ∈ (hostOps0_9 : List (HloOp τ sig (Elt F))), Proc.devRef (τ := τ) .tc b ∉ op.writes :=
  List.forall_iff_forall_mem.mp (by
    simp only [hostOps0_9, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_10 (b : Ref sig .tc) (hb : IsArg b) :
    ∀ op ∈ (hostOps0_10 : List (HloOp τ sig (Elt F))), Proc.devRef (τ := τ) .tc b ∉ op.writes :=
  List.forall_iff_forall_mem.mp (by
    simp only [hostOps0_10, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_11 (b : Ref sig .tc) (hb : IsArg b) :
    ∀ op ∈ (hostOps0_11 : List (HloOp τ sig (Elt F))), Proc.devRef (τ := τ) .tc b ∉ op.writes :=
  List.forall_iff_forall_mem.mp (by
    simp only [hostOps0_11, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_12 (b : Ref sig .tc) (hb : IsArg b) :
    ∀ op ∈ (hostOps0_12 : List (HloOp τ sig (Elt F))), Proc.devRef (τ := τ) .tc b ∉ op.writes :=
  List.forall_iff_forall_mem.mp (by
    simp only [hostOps0_12, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_13 (b : Ref sig .tc) (hb : IsArg b) :
    ∀ op ∈ (hostOps0_13 : List (HloOp τ sig (Elt F))), Proc.devRef (τ := τ) .tc b ∉ op.writes :=
  List.forall_iff_forall_mem.mp (by
    simp only [hostOps0_13, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_14 (b : Ref sig .tc) (hb : IsArg b) :
    ∀ op ∈ (hostOps0_14 : List (HloOp τ sig (Elt F))), Proc.devRef (τ := τ) .tc b ∉ op.writes :=
  List.forall_iff_forall_mem.mp (by
    simp only [hostOps0_14, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_15 (b : Ref sig .tc) (hb : IsArg b) :
    ∀ op ∈ (hostOps0_15 : List (HloOp τ sig (Elt F))), Proc.devRef (τ := τ) .tc b ∉ op.writes :=
  List.forall_iff_forall_mem.mp (by
    simp only [hostOps0_15, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_16 (b : Ref sig .tc) (hb : IsArg b) :
    ∀ op ∈ (hostOps0_16 : List (HloOp τ sig (Elt F))), Proc.devRef (τ := τ) .tc b ∉ op.writes :=
  List.forall_iff_forall_mem.mp (by
    simp only [hostOps0_16, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_17 (b : Ref sig .tc) (hb : IsArg b) :
    ∀ op ∈ (hostOps0_17 : List (HloOp τ sig (Elt F))), Proc.devRef (τ := τ) .tc b ∉ op.writes :=
  List.forall_iff_forall_mem.mp (by
    simp only [hostOps0_17, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_18 (b : Ref sig .tc) (hb : IsArg b) :
    ∀ op ∈ (hostOps0_18 : List (HloOp τ sig (Elt F))), Proc.devRef (τ := τ) .tc b ∉ op.writes :=
  List.forall_iff_forall_mem.mp (by
    simp only [hostOps0_18, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_19 (b : Ref sig .tc) (hb : IsArg b) :
    ∀ op ∈ (hostOps0_19 : List (HloOp τ sig (Elt F))), Proc.devRef (τ := τ) .tc b ∉ op.writes :=
  List.forall_iff_forall_mem.mp (by
    simp only [hostOps0_19, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_20 (b : Ref sig .tc) (hb : IsArg b) :
    ∀ op ∈ (hostOps0_20 : List (HloOp τ sig (Elt F))), Proc.devRef (τ := τ) .tc b ∉ op.writes :=
  List.forall_iff_forall_mem.mp (by
    simp only [hostOps0_20, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_21 (b : Ref sig .tc) (hb : IsArg b) :
    ∀ op ∈ (hostOps0_21 : List (HloOp τ sig (Elt F))), Proc.devRef (τ := τ) .tc b ∉ op.writes :=
  List.forall_iff_forall_mem.mp (by
    simp only [hostOps0_21, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_22 (b : Ref sig .tc) (hb : IsArg b) :
    ∀ op ∈ (hostOps0_22 : List (HloOp τ sig (Elt F))), Proc.devRef (τ := τ) .tc b ∉ op.writes :=
  List.forall_iff_forall_mem.mp (by
    simp only [hostOps0_22, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_23 (b : Ref sig .tc) (hb : IsArg b) :
    ∀ op ∈ (hostOps0_23 : List (HloOp τ sig (Elt F))), Proc.devRef (τ := τ) .tc b ∉ op.writes :=
  List.forall_iff_forall_mem.mp (by
    simp only [hostOps0_23, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_24 (b : Ref sig .tc) (hb : IsArg b) :
    ∀ op ∈ (hostOps0_24 : List (HloOp τ sig (Elt F))), Proc.devRef (τ := τ) .tc b ∉ op.writes :=
  List.forall_iff_forall_mem.mp (by
    simp only [hostOps0_24, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))

/-- The region finds an argument array as launched. -/
theorem V_arg (c : Dev nD) (b : Ref sig .tc) (hb : IsArg b) : V m c b = m ((c : Thread nD τ).loc b) :=
  StableHlo.after_of_forall_not_mem (b := Proc.devRef .tc b) _ _ (fun op hop => by
    obtain ⟨ops, hops, hop'⟩ := List.mem_flatten.mp hop
    simp only [pre, List.mem_cons, List.mem_nil_iff, or_false] at hops
    rcases hops with rfl | rfl | rfl | rfl | rfl | rfl | rfl | rfl | rfl | rfl | rfl | rfl | rfl | rfl | rfl | rfl | rfl | rfl | rfl | rfl | rfl | rfl | rfl | rfl | rfl
    · exact keep_hostOps0 b hb op hop'
    · exact keep_hostOps0_1 b hb op hop'
    · exact keep_hostOps0_2 b hb op hop'
    · exact keep_hostOps0_3 b hb op hop'
    · exact keep_hostOps0_4 b hb op hop'
    · exact keep_hostOps0_5 b hb op hop'
    · exact keep_hostOps0_6 b hb op hop'
    · exact keep_hostOps0_7 b hb op hop'
    · exact keep_hostOps0_8 b hb op hop'
    · exact keep_hostOps0_9 b hb op hop'
    · exact keep_hostOps0_10 b hb op hop'
    · exact keep_hostOps0_11 b hb op hop'
    · exact keep_hostOps0_12 b hb op hop'
    · exact keep_hostOps0_13 b hb op hop'
    · exact keep_hostOps0_14 b hb op hop'
    · exact keep_hostOps0_15 b hb op hop'
    · exact keep_hostOps0_16 b hb op hop'
    · exact keep_hostOps0_17 b hb op hop'
    · exact keep_hostOps0_18 b hb op hop'
    · exact keep_hostOps0_19 b hb op hop'
    · exact keep_hostOps0_20 b hb op hop'
    · exact keep_hostOps0_21 b hb op hop'
    · exact keep_hostOps0_22 b hb op hop'
    · exact keep_hostOps0_23 b hb op hop'
    · exact keep_hostOps0_24 b hb op hop')

end Cert.Kernel.Hand

end
-- ==== Proof.KBFrame.lean ====
/-
  The frame of the entry function: it runs, nothing faulting, and its four argument arrays end as launched — no
  window of the region stages an argument, no host operation before the region writes one, and the operation after the
  region writes the final result only.
-/
import proofs.«174118_j37812892074356_2_alg».proof.Proof.KBBody
import proofs.«174118_j37812892074356_2_alg».proof.Proof.KBKeep

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- An argument array is no array of the region and the operation after the region does not write it: it ends as the
    region found it, which is as launched. -/
theorem kept_arg (r : PUnit × MemSt nD τ sig (Elt F))
    (h : Pipeline.FramePost cfgs (dats m) 0 (Pipeline.afterTail₀ cfgs (dats m) 0 (V0 m) [hostOps1]) r) (c : Dev nD)
    (b : Ref sig .tc) (hb : IsArg b) (hmem : b ∈ Pipeline.restRefs sig spec0) (harr : ∀ w, Pipeline.arrRef spec0 w ≠ b) (hne : b ≠ main_v376) :
    r.2.mem ((c : Thread nD τ).loc b) = m ((c : Thread nD τ).loc b) := by
  refine ((h c).2 b hmem).trans ?_
  unfold Pipeline.afterTail₀
  rw [StableHlo.after_of_forall_not_mem _ _ (fun op hop => by
    simp only [hostOps1, List.flatten_cons, List.flatten_nil, List.append_nil, List.mem_cons, List.mem_nil_iff, or_false] at hop
    subst hop
    rw [StableHlo.reshape_writes, Finset.mem_singleton]
    exact StableHlo.devRef_ne_of_ne hne),
    Pipeline.withArrays_of_ne _ c (V0 m c) _ b harr]
  exact V_arg m c b hb

/-- The frame: the entry function runs and its argument arrays end unchanged. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      kept_arg m r h c main_arg0 (.inl rfl) (Pipeline.mem_restRefs_of main_arg0 (by decide) (by decide)) (by decide) (by decide),
      kept_arg m r h c main_arg1 (.inr (.inl rfl)) (Pipeline.mem_restRefs_of main_arg1 (by decide) (by decide)) (by decide) (by decide),
      kept_arg m r h c main_arg2 (.inr (.inr (.inl rfl))) (Pipeline.mem_restRefs_of main_arg2 (by decide) (by decide)) (by decide) (by decide),
      kept_arg m r h c main_arg3 (.inr (.inr (.inr rfl))) (Pipeline.mem_restRefs_of main_arg3 (by decide) (by decide)) (by decide) (by decide)⟩)
    (run_main m ρ)

end Cert.Kernel.Hand

end
-- ==== Proof.KIMain.lean ====
/-
  The program's entry function around its one kernel region: twenty-five stretches of host operations, the region,
  and one last host operation (the reshape of the region's result). Here: the contents of every buffer when the
  region is entered (the fold of the host operations over the launch memory), the fact that the entry function
  reduces to the region continued by the last operation at those contents, and that no host operation before the
  region writes an argument array.
-/
import proofs.«174118_j37812892074356_2_alg».proof.Proof.Gen.KernelIdeal.Launch
import proofs.«174118_j37812892074356_2_alg».proof.Proof.Gen.KernelIdeal.Skeleton
import proofs.«174118_j37812892074356_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- Core `c`'s buffers when the region is entered: the host operations before it folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem pre_sub : (pre (F := F)).Forall fun ops => ops.Forall fun op => op.bufs ⊆ StableHlo.tcRefs τ sig := by
  simp only [pre, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩

theorem pre_fresh : (pre (F := F)).Forall fun ops => ops.Forall fun op => op.fresh = ∅ := by
  simp only [pre, List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩

/-- The entry function reduces to the region continued by the last host operation, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The operation after the region touches the region's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's arrays (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

end Cert.KernelIdeal.Hand

end
-- ==== Proof.KIBody.lean ====
/-
  The kernel region. At grid point `t` the body reads the six input blocks (four corner blocks of 512 × 3 × 32 and two
  weight blocks of 512 × 3 × 1) and stores one 512 × 3 × 32 block: the weighted sum of the corners. Here: what the
  output's staging buffer holds after the body as a function of the input blocks (`outBlk`), the body's run, the
  proof data of the pipeline, and the run of the whole entry function: every array of the region ends at what the
  write-backs leave, every other buffer at what the host operations computed.
-/
import proofs.«174118_j37812892074356_2_alg».proof.Proof.KIMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the region-entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the region-entry
    contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the region-entry
    contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data whose array is the region-entry
    contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data whose array is the region-entry
    contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data whose array is the region-entry
    contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rC : Rect S512x3x32 := Rect.unit (s := S512x3x32) ![0, 0, 0] S512x3x32.size inb_S512x3x32_S512x3x32_0_0_0
abbrev rW : Rect S512x3x1 := Rect.unit (s := S512x3x1) ![0, 0, 0] S512x3x1.size inb_S512x3x1_S512x3x1_0_0_0

/-- The output's staging buffer after the body, from the input blocks: its one store. -/
def outBlk (x0 x1 x2 x3 : Vec F S512x3x32 .f32) (x4 x5 : Vec F S512x3x1 .f32) : Vec F S512x3x32 .f32 :=
  View.canon [⟨rC, k0_pay1 (View.ld x4 rW) (View.ld x5 rW) (View.ld x0 rC) (View.ld x1 rC) (View.ld x2 rC) (View.ld x3 rC)⟩]

/-- The store is the whole block, so it covers the buffer. -/
theorem coverOut (p0 : Vec F S512x3x32 .f32) (y : S512x3x32.Idx) :
    ∃ pc ∈ ([⟨rC, p0⟩] : List (View.Piece (Elt F) S512x3x32 .f32)), y ∈ pc.1.set :=
  View.cover_of_tiled [⟨rC, p0⟩] S512x3x32.size (by rfl) y

set_option maxHeartbeats 2000000 in
/-- The body on whole staging memrefs, the inputs' at read contents and the output's at anything, runs to the
    continuation holding the inputs' as they were and the output's at `outBlk` of the inputs'. -/
theorem sound_kernel (c : Dev nD) (E : Set ℕ) (i : grid0.Coords)
    (arg1 : Memref sig .tc .vmem S512x3x32 .f32) (harg1 : arg1.IsWhole) (arg2 : Memref sig .tc .vmem S512x3x32 .f32) (harg2 : arg2.IsWhole)
    (arg3 : Memref sig .tc .vmem S512x3x32 .f32) (harg3 : arg3.IsWhole) (arg4 : Memref sig .tc .vmem S512x3x32 .f32) (harg4 : arg4.IsWhole)
    (arg5 : Memref sig .tc .vmem S512x3x1 .f32) (harg5 : arg5.IsWhole) (arg6 : Memref sig .tc .vmem S512x3x1 .f32) (harg6 : arg6.IsWhole)
    (arg7 : Memref sig .tc .vmem S512x3x32 .f32) (harg7 : arg7.IsWhole)
    (x0 x1 x2 x3 : Vec F S512x3x32 .f32) (x4 x5 : Vec F S512x3x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- The proof data of the pipeline on core `c`: the arrays as the region finds them; after the body at point `t` each
    input's buffer at its block and the output's at `outBlk` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the entry function terminates, and every final
    state has every array of the region at what the write-backs leave and every other unscoped buffer at what the host
    operations leave, the one after the region included. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Hand

end
-- ==== Proof.KIValue.lean ====
/-
  From blocks to arrays. Grid point `t` of the 2048 writes back rows 512·t … 512·t + 511 of the region's result, and
  reads the same rows of the four corner arrays and the two weight arrays; the blocks tile the result. So the
  result array is ONE function of the six arrays the region reads, index by index: at (n, p, ch) the weighted sum
  `comb` of the four corners at (n, p, ch) with the two weights at (n, p, 0). The program's final result is that array
  reshaped from [1048576, 3, 32] to [4, 262144, 3, 32]; the argument arrays end as launched.
-/
import proofs.«174118_j37812892074356_2_alg».proof.Proof.KIBody
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The weighted sum of four corners: each corner times the product of its two weights, summed left to right. -/
def comb (a0 a1 a2 a3 wx wy : F .f32) : F .f32 :=
  FloatOps.addf (FloatOps.addf (FloatOps.addf
    (FloatOps.mulf a0 (FloatOps.mulf (FloatOps.subf (Scalar.ofBits .f32 0x3F800000#32) wx) (FloatOps.subf (Scalar.ofBits .f32 0x3F800000#32) wy)))
    (FloatOps.mulf a1 (FloatOps.mulf wx (FloatOps.subf (Scalar.ofBits .f32 0x3F800000#32) wy))))
    (FloatOps.mulf a2 (FloatOps.mulf (FloatOps.subf (Scalar.ofBits .f32 0x3F800000#32) wx) wy)))
    (FloatOps.mulf a3 (FloatOps.mulf wx wy))

/-- The weight index under a corner index of a block: the same row and plane, channel 0. -/
def lowW (j : S512x3x32.Idx) : S512x3x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The weight index under a corner index of an array. -/
def lowA (i : S1048576x3x32.Idx) : S1048576x3x1.Idx := fun a => match a with
  | ⟨0, _⟩ => ⟨(i 0).val, (i 0).isLt⟩
  | ⟨1, _⟩ => ⟨(i 1).val, (i 1).isLt⟩
  | ⟨2, _⟩ => ⟨0, Nat.one_pos⟩

/-- A weight block broadcast over the channels, read at an index. -/
theorem bcastW_apply (v : S512x3x1.Idx → F .f32) (j : S512x3x32.Idx) :
    broadcastTo S512x3x32 v broadcasts_S512x3x1_S512x3x32 j = v (lowW j) :=
  broadcastTo_apply v broadcasts_S512x3x1_S512x3x32 j (lowW j) (fun a => by
    match a with
    | ⟨0, _⟩ => rfl
    | ⟨1, _⟩ => rfl
    | ⟨2, _⟩ => rfl)

/-- The body's arithmetic at an index of the block. -/
theorem pay_apply (x4 x5 : Vec F S512x3x1 .f32) (x0 x1 x2 x3 : Vec F S512x3x32 .f32) (j : S512x3x32.Idx) :
    k0_pay1 x4 x5 x0 x1 x2 x3 j = comb (x0 j) (x1 j) (x2 j) (x3 j) (x4 (lowW j)) (x5 (lowW j)) := by
  unfold k0_pay1
  simp only [shapeCast_self]
  show FloatOps.addf (FloatOps.addf (FloatOps.addf
      (FloatOps.mulf (x0 j) (broadcastTo S512x3x32 _ broadcasts_S512x3x1_S512x3x32 j))
      (FloatOps.mulf (x1 j) (broadcastTo S512x3x32 _ broadcasts_S512x3x1_S512x3x32 j)))
      (FloatOps.mulf (x2 j) (broadcastTo S512x3x32 _ broadcasts_S512x3x1_S512x3x32 j)))
      (FloatOps.mulf (x3 j) (broadcastTo S512x3x32 _ broadcasts_S512x3x1_S512x3x32 j)) = _
  rw [bcastW_apply, bcastW_apply, bcastW_apply, bcastW_apply]
  rfl

theorem hz3 : (![0, 0, 0] : Fin 3 → Nat) = fun _ => 0 := funext fun a => by fin_cases a <;> rfl

/-- What the result array ends holding, as one function of the six arrays the region reads. -/
abbrev G (a0 a1 a2 a3 : S1048576x3x32.Idx → Elt F .f32) (a4 a5 : S1048576x3x1.Idx → Elt F .f32) : S1048576x3x32.Idx → Elt F .f32 :=
  fun i => comb (a0 i) (a1 i) (a2 i) (a3 i) (a4 (lowA i)) (a5 (lowA i))

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The body's store at point `t`, from the blocks of ANY six arrays, is block `t` of `G` of those arrays. -/
theorem blk_eq (a0 a1 a2 a3 : S1048576x3x32.Idx → Elt F .f32) (a4 a5 : S1048576x3x1.Idx → Elt F .f32) (t : Fin cfg0.N) :
    outBlk (((cfg0.win 0).blk t).view.read (Elt F) a0) (((cfg0.win 1).blk t).view.read (Elt F) a1)
        (((cfg0.win 2).blk t).view.read (Elt F) a2) (((cfg0.win 3).blk t).view.read (Elt F) a3)
        (((cfg0.win 4).blk t).view.read (Elt F) a4) (((cfg0.win 5).blk t).view.read (Elt F) a5)
      = ((cfg0.win 6).blk t).view.read (Elt F) (G a0 a1 a2 a3 a4 a5) := by
  unfold outBlk
  rw [View.canon_unit_zero hz3]
  simp only [View.ld_unit_zero (S := S512x3x32) hz3, View.ld_unit_zero (S := S512x3x1) hz3]
  obtain ⟨e00, e01, e02, e10, e11, e12, e20, e21, e22, e30, e31, e32, e40, e41, e42, e50, e51, e52, e60, e61, e62⟩ := idx_facts t
  funext j
  rw [pay_apply]
  show comb (a0 (((cfg0.win 0).blk t).view.emb j)) (a1 (((cfg0.win 1).blk t).view.emb j))
      (a2 (((cfg0.win 2).blk t).view.emb j)) (a3 (((cfg0.win 3).blk t).view.emb j))
      (a4 (((cfg0.win 4).blk t).view.emb (lowW j))) (a5 (((cfg0.win 5).blk t).view.emb (lowW j)))
    = comb (a0 (((cfg0.win 6).blk t).view.emb j)) (a1 (((cfg0.win 6).blk t).view.emb j))
      (a2 (((cfg0.win 6).blk t).view.emb j)) (a3 (((cfg0.win 6).blk t).view.emb j))
      (a4 (lowA (((cfg0.win 6).blk t).view.emb j))) (a5 (lowA (((cfg0.win 6).blk t).view.emb j)))
  have hj0 : (j 0).val < 512 := (j 0).isLt
  have hj1 : (j 1).val < 3 := (j 1).isLt
  have hj2 : (j 2).val < 32 := (j 2).isLt
  have h0 : ((cfg0.win 0).blk t).view.emb j = ((cfg0.win 6).blk t).view.emb j := by
    funext a; apply Fin.ext
    match a with
    | ⟨0, _⟩ => show win0_0.index t (0 : Fin 3) * 512 + 1 * (j 0).val = win0_6.index t (0 : Fin 3) * 512 + 1 * (j 0).val; omega
    | ⟨1, _⟩ => show win0_0.index t (1 : Fin 3) * 3 + 1 * (j 1).val = win0_6.index t (1 : Fin 3) * 3 + 1 * (j 1).val; omega
    | ⟨2, _⟩ => show win0_0.index t (2 : Fin 3) * 32 + 1 * (j 2).val = win0_6.index t (2 : Fin 3) * 32 + 1 * (j 2).val; omega
  have h1 : ((cfg0.win 1).blk t).view.emb j = ((cfg0.win 6).blk t).view.emb j := by
    funext a; apply Fin.ext
    match a with
    | ⟨0, _⟩ => show win0_1.index t (0 : Fin 3) * 512 + 1 * (j 0).val = win0_6.index t (0 : Fin 3) * 512 + 1 * (j 0).val; omega
    | ⟨1, _⟩ => show win0_1.index t (1 : Fin 3) * 3 + 1 * (j 1).val = win0_6.index t (1 : Fin 3) * 3 + 1 * (j 1).val; omega
    | ⟨2, _⟩ => show win0_1.index t (2 : Fin 3) * 32 + 1 * (j 2).val = win0_6.index t (2 : Fin 3) * 32 + 1 * (j 2).val; omega
  have h2 : ((cfg0.win 2).blk t).view.emb j = ((cfg0.win 6).blk t).view.emb j := by
    funext a; apply Fin.ext
    match a with
    | ⟨0, _⟩ => show win0_2.index t (0 : Fin 3) * 512 + 1 * (j 0).val = win0_6.index t (0 : Fin 3) * 512 + 1 * (j 0).val; omega
    | ⟨1, _⟩ => show win0_2.index t (1 : Fin 3) * 3 + 1 * (j 1).val = win0_6.index t (1 : Fin 3) * 3 + 1 * (j 1).val; omega
    | ⟨2, _⟩ => show win0_2.index t (2 : Fin 3) * 32 + 1 * (j 2).val = win0_6.index t (2 : Fin 3) * 32 + 1 * (j 2).val; omega
  have h3 : ((cfg0.win 3).blk t).view.emb j = ((cfg0.win 6).blk t).view.emb j := by
    funext a; apply Fin.ext
    match a with
    | ⟨0, _⟩ => show win0_3.index t (0 : Fin 3) * 512 + 1 * (j 0).val = win0_6.index t (0 : Fin 3) * 512 + 1 * (j 0).val; omega
    | ⟨1, _⟩ => show win0_3.index t (1 : Fin 3) * 3 + 1 * (j 1).val = win0_6.index t (1 : Fin 3) * 3 + 1 * (j 1).val; omega
    | ⟨2, _⟩ => show win0_3.index t (2 : Fin 3) * 32 + 1 * (j 2).val = win0_6.index t (2 : Fin 3) * 32 + 1 * (j 2).val; omega
  have h4 : ((cfg0.win 4).blk t).view.emb (lowW j) = lowA (((cfg0.win 6).blk t).view.emb j) := by
    funext a; apply Fin.ext
    match a with
    | ⟨0, _⟩ => show win0_4.index t (0 : Fin 3) * 512 + 1 * (j 0).val = win0_6.index t (0 : Fin 3) * 512 + 1 * (j 0).val; omega
    | ⟨1, _⟩ => show win0_4.index t (1 : Fin 3) * 3 + 1 * (j 1).val = win0_6.index t (1 : Fin 3) * 3 + 1 * (j 1).val; omega
    | ⟨2, _⟩ => show win0_4.index t (2 : Fin 3) * 1 + 1 * 0 = 0; omega
  have h5 : ((cfg0.win 5).blk t).view.emb (lowW j) = lowA (((cfg0.win 6).blk t).view.emb j) := by
    funext a; apply Fin.ext
    match a with
    | ⟨0, _⟩ => show win0_5.index t (0 : Fin 3) * 512 + 1 * (j 0).val = win0_6.index t (0 : Fin 3) * 512 + 1 * (j 0).val; omega
    | ⟨1, _⟩ => show win0_5.index t (1 : Fin 3) * 3 + 1 * (j 1).val = win0_6.index t (1 : Fin 3) * 3 + 1 * (j 1).val; omega
    | ⟨2, _⟩ => show win0_5.index t (2 : Fin 3) * 1 + 1 * 0 = 0; omega
  exact congr (congr (congr (congr (congr (congrArg comb (congrArg a0 h0)) (congrArg a1 h1)) (congrArg a2 h2)) (congrArg a3 h3)) (congrArg a4 h4)) (congrArg a5 h5)

/-- What point `t` writes back is block `t` of `G` of the arrays as the region finds them. -/
theorem flushed_eq (c : Dev nD) (t : Fin cfg0.N) :
    (dats m 0 c).flushed 6 t = ((cfg0.win 6).blk t).view.read (Elt F)
      (G (V m c main_v352) (V m c main_v356) (V m c main_v360) (V m c main_v364) (V m c main_v369) (V m c main_v374)) := by
  show (cfg0.win 6).cut (grid0.coords t) ((dats m 0 c).after 6 t) = _
  rw [after6]
  exact blk_eq (V m c main_v352) (V m c main_v356) (V m c main_v360) (V m c main_v364) (V m c main_v369) (V m c main_v374) t

/-- An index of the result array is in point `t`'s block iff each coordinate is in the block's range on its axis. -/
theorem mem_blk (t : Fin cfg0.N) (i : S1048576x3x32.Idx) :
    i ∈ ((cfg0.win 6).blk t).view.set ↔ ∀ a : Fin 3, win0_6.index t a * S512x3x32.size a ≤ (i a).val ∧ (i a).val < win0_6.index t a * S512x3x32.size a + S512x3x32.size a := by
  show i ∈ ((View.whole main_v375).slice (win0_6.rect t)).set ↔ _
  rw [View.set_slice_whole, Rect.mem_set_unit]
  exact Iff.rfl

/-- Every index of the result array is in the block of the point its row belongs to. -/
theorem cover (i : S1048576x3x32.Idx) :
    ∃ t : Fin cfg0.N, (cfg0.win 6).flush t = true ∧ i ∈ ((cfg0.win 6).blk t).view.set := by
  have hi0 : (i 0).val < 1048576 := (i 0).isLt
  have hi1 : (i 1).val < 3 := (i 1).isLt
  have hi2 : (i 2).val < 32 := (i 2).isLt
  have hN : cfg0.N = 2048 := N_0
  refine ⟨⟨(i 0).val / 512, by rw [hN]; omega⟩, flush0_6 _, ?_⟩
  rw [mem_blk]
  obtain ⟨-, -, -, -, -, -, -, -, -, -, -, -, -, -, -, -, -, -, e60, e61, e62⟩ := idx_facts ⟨(i 0).val / 512, by rw [hN]; omega⟩
  intro a
  match a with
  | ⟨0, _⟩ => show win0_6.index _ (0 : Fin 3) * 512 ≤ (i 0).val ∧ (i 0).val < win0_6.index _ (0 : Fin 3) * 512 + 512; rw [e60]; show (i 0).val / 512 * 512 ≤ (i 0).val ∧ (i 0).val < (i 0).val / 512 * 512 + 512; omega
  | ⟨1, _⟩ => show win0_6.index _ (1 : Fin 3) * 3 ≤ (i 1).val ∧ (i 1).val < win0_6.index _ (1 : Fin 3) * 3 + 3; rw [e61]; omega
  | ⟨2, _⟩ => show win0_6.index _ (2 : Fin 3) * 32 ≤ (i 2).val ∧ (i 2).val < win0_6.index _ (2 : Fin 3) * 32 + 32; rw [e62]; omega

/-- The result array after the run. -/
theorem final (c : Dev nD) : (dats m 0 c).arrAt 6 cfg0.N
    = G (V m c main_v352) (V m c main_v356) (V m c main_v360) (V m c main_v364) (V m c main_v369) (V m c main_v374) :=
  (dats m 0 c).arrAt_eq_of_cover 6 _ (fun t _ => flushed_eq m c t) cover

end Cert.KernelIdeal.Hand

end
-- ==== Proof.KIKeep.lean ====
/-
  No host operation before the region writes an argument array: each operation writes its own result buffer only,
  and no result buffer is an argument. So the region finds the four argument arrays as launched.
-/
import proofs.«174118_j37812892074356_2_alg».proof.Proof.KIMain

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- One of the four argument arrays. -/
abbrev IsArg (b : Ref sig .tc) : Prop := b = main_arg0 ∨ b = main_arg1 ∨ b = main_arg2 ∨ b = main_arg3

theorem keep_hostOps0 (b : Ref sig .tc) (hb : IsArg b) :
    ∀ op ∈ (hostOps0 : List (HloOp τ sig (Elt F))), Proc.devRef (τ := τ) .tc b ∉ op.writes :=
  List.forall_iff_forall_mem.mp (by
    simp only [hostOps0, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_1 (b : Ref sig .tc) (hb : IsArg b) :
    ∀ op ∈ (hostOps0_1 : List (HloOp τ sig (Elt F))), Proc.devRef (τ := τ) .tc b ∉ op.writes :=
  List.forall_iff_forall_mem.mp (by
    simp only [hostOps0_1, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_2 (b : Ref sig .tc) (hb : IsArg b) :
    ∀ op ∈ (hostOps0_2 : List (HloOp τ sig (Elt F))), Proc.devRef (τ := τ) .tc b ∉ op.writes :=
  List.forall_iff_forall_mem.mp (by
    simp only [hostOps0_2, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_3 (b : Ref sig .tc) (hb : IsArg b) :
    ∀ op ∈ (hostOps0_3 : List (HloOp τ sig (Elt F))), Proc.devRef (τ := τ) .tc b ∉ op.writes :=
  List.forall_iff_forall_mem.mp (by
    simp only [hostOps0_3, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_4 (b : Ref sig .tc) (hb : IsArg b) :
    ∀ op ∈ (hostOps0_4 : List (HloOp τ sig (Elt F))), Proc.devRef (τ := τ) .tc b ∉ op.writes :=
  List.forall_iff_forall_mem.mp (by
    simp only [hostOps0_4, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_5 (b : Ref sig .tc) (hb : IsArg b) :
    ∀ op ∈ (hostOps0_5 : List (HloOp τ sig (Elt F))), Proc.devRef (τ := τ) .tc b ∉ op.writes :=
  List.forall_iff_forall_mem.mp (by
    simp only [hostOps0_5, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_6 (b : Ref sig .tc) (hb : IsArg b) :
    ∀ op ∈ (hostOps0_6 : List (HloOp τ sig (Elt F))), Proc.devRef (τ := τ) .tc b ∉ op.writes :=
  List.forall_iff_forall_mem.mp (by
    simp only [hostOps0_6, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_7 (b : Ref sig .tc) (hb : IsArg b) :
    ∀ op ∈ (hostOps0_7 : List (HloOp τ sig (Elt F))), Proc.devRef (τ := τ) .tc b ∉ op.writes :=
  List.forall_iff_forall_mem.mp (by
    simp only [hostOps0_7, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_8 (b : Ref sig .tc) (hb : IsArg b) :
    ∀ op ∈ (hostOps0_8 : List (HloOp τ sig (Elt F))), Proc.devRef (τ := τ) .tc b ∉ op.writes :=
  List.forall_iff_forall_mem.mp (by
    simp only [hostOps0_8, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_9 (b : Ref sig .tc) (hb : IsArg b) :
    ∀ op ∈ (hostOps0_9 : List (HloOp τ sig (Elt F))), Proc.devRef (τ := τ) .tc b ∉ op.writes :=
  List.forall_iff_forall_mem.mp (by
    simp only [hostOps0_9, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_10 (b : Ref sig .tc) (hb : IsArg b) :
    ∀ op ∈ (hostOps0_10 : List (HloOp τ sig (Elt F))), Proc.devRef (τ := τ) .tc b ∉ op.writes :=
  List.forall_iff_forall_mem.mp (by
    simp only [hostOps0_10, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_11 (b : Ref sig .tc) (hb : IsArg b) :
    ∀ op ∈ (hostOps0_11 : List (HloOp τ sig (Elt F))), Proc.devRef (τ := τ) .tc b ∉ op.writes :=
  List.forall_iff_forall_mem.mp (by
    simp only [hostOps0_11, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_12 (b : Ref sig .tc) (hb : IsArg b) :
    ∀ op ∈ (hostOps0_12 : List (HloOp τ sig (Elt F))), Proc.devRef (τ := τ) .tc b ∉ op.writes :=
  List.forall_iff_forall_mem.mp (by
    simp only [hostOps0_12, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_13 (b : Ref sig .tc) (hb : IsArg b) :
    ∀ op ∈ (hostOps0_13 : List (HloOp τ sig (Elt F))), Proc.devRef (τ := τ) .tc b ∉ op.writes :=
  List.forall_iff_forall_mem.mp (by
    simp only [hostOps0_13, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_14 (b : Ref sig .tc) (hb : IsArg b) :
    ∀ op ∈ (hostOps0_14 : List (HloOp τ sig (Elt F))), Proc.devRef (τ := τ) .tc b ∉ op.writes :=
  List.forall_iff_forall_mem.mp (by
    simp only [hostOps0_14, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_15 (b : Ref sig .tc) (hb : IsArg b) :
    ∀ op ∈ (hostOps0_15 : List (HloOp τ sig (Elt F))), Proc.devRef (τ := τ) .tc b ∉ op.writes :=
  List.forall_iff_forall_mem.mp (by
    simp only [hostOps0_15, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_16 (b : Ref sig .tc) (hb : IsArg b) :
    ∀ op ∈ (hostOps0_16 : List (HloOp τ sig (Elt F))), Proc.devRef (τ := τ) .tc b ∉ op.writes :=
  List.forall_iff_forall_mem.mp (by
    simp only [hostOps0_16, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_17 (b : Ref sig .tc) (hb : IsArg b) :
    ∀ op ∈ (hostOps0_17 : List (HloOp τ sig (Elt F))), Proc.devRef (τ := τ) .tc b ∉ op.writes :=
  List.forall_iff_forall_mem.mp (by
    simp only [hostOps0_17, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_18 (b : Ref sig .tc) (hb : IsArg b) :
    ∀ op ∈ (hostOps0_18 : List (HloOp τ sig (Elt F))), Proc.devRef (τ := τ) .tc b ∉ op.writes :=
  List.forall_iff_forall_mem.mp (by
    simp only [hostOps0_18, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_19 (b : Ref sig .tc) (hb : IsArg b) :
    ∀ op ∈ (hostOps0_19 : List (HloOp τ sig (Elt F))), Proc.devRef (τ := τ) .tc b ∉ op.writes :=
  List.forall_iff_forall_mem.mp (by
    simp only [hostOps0_19, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_20 (b : Ref sig .tc) (hb : IsArg b) :
    ∀ op ∈ (hostOps0_20 : List (HloOp τ sig (Elt F))), Proc.devRef (τ := τ) .tc b ∉ op.writes :=
  List.forall_iff_forall_mem.mp (by
    simp only [hostOps0_20, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_21 (b : Ref sig .tc) (hb : IsArg b) :
    ∀ op ∈ (hostOps0_21 : List (HloOp τ sig (Elt F))), Proc.devRef (τ := τ) .tc b ∉ op.writes :=
  List.forall_iff_forall_mem.mp (by
    simp only [hostOps0_21, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_22 (b : Ref sig .tc) (hb : IsArg b) :
    ∀ op ∈ (hostOps0_22 : List (HloOp τ sig (Elt F))), Proc.devRef (τ := τ) .tc b ∉ op.writes :=
  List.forall_iff_forall_mem.mp (by
    simp only [hostOps0_22, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_23 (b : Ref sig .tc) (hb : IsArg b) :
    ∀ op ∈ (hostOps0_23 : List (HloOp τ sig (Elt F))), Proc.devRef (τ := τ) .tc b ∉ op.writes :=
  List.forall_iff_forall_mem.mp (by
    simp only [hostOps0_23, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))
theorem keep_hostOps0_24 (b : Ref sig .tc) (hb : IsArg b) :
    ∀ op ∈ (hostOps0_24 : List (HloOp τ sig (Elt F))), Proc.devRef (τ := τ) .tc b ∉ op.writes :=
  List.forall_iff_forall_mem.mp (by
    simp only [hostOps0_24, List.Forall, StableHlo.nullary_writes, StableHlo.unary_writes, StableHlo.binary_writes, StableHlo.ternary_writes, StableHlo.reshape_writes, StableHlo.nary_writes, Finset.mem_singleton]
    rcases hb with rfl | rfl | rfl | rfl <;> (repeat' apply And.intro) <;> exact StableHlo.devRef_ne_of_ne (by decide))

/-- The region finds an argument array as launched. -/
theorem V_arg (c : Dev nD) (b : Ref sig .tc) (hb : IsArg b) : V m c b = m ((c : Thread nD τ).loc b) :=
  StableHlo.after_of_forall_not_mem (b := Proc.devRef .tc b) _ _ (fun op hop => by
    obtain ⟨ops, hops, hop'⟩ := List.mem_flatten.mp hop
    simp only [pre, List.mem_cons, List.mem_nil_iff, or_false] at hops
    rcases hops with rfl | rfl | rfl | rfl | rfl | rfl | rfl | rfl | rfl | rfl | rfl | rfl | rfl | rfl | rfl | rfl | rfl | rfl | rfl | rfl | rfl | rfl | rfl | rfl | rfl
    · exact keep_hostOps0 b hb op hop'
    · exact keep_hostOps0_1 b hb op hop'
    · exact keep_hostOps0_2 b hb op hop'
    · exact keep_hostOps0_3 b hb op hop'
    · exact keep_hostOps0_4 b hb op hop'
    · exact keep_hostOps0_5 b hb op hop'
    · exact keep_hostOps0_6 b hb op hop'
    · exact keep_hostOps0_7 b hb op hop'
    · exact keep_hostOps0_8 b hb op hop'
    · exact keep_hostOps0_9 b hb op hop'
    · exact keep_hostOps0_10 b hb op hop'
    · exact keep_hostOps0_11 b hb op hop'
    · exact keep_hostOps0_12 b hb op hop'
    · exact keep_hostOps0_13 b hb op hop'
    · exact keep_hostOps0_14 b hb op hop'
    · exact keep_hostOps0_15 b hb op hop'
    · exact keep_hostOps0_16 b hb op hop'
    · exact keep_hostOps0_17 b hb op hop'
    · exact keep_hostOps0_18 b hb op hop'
    · exact keep_hostOps0_19 b hb op hop'
    · exact keep_hostOps0_20 b hb op hop'
    · exact keep_hostOps0_21 b hb op hop'
    · exact keep_hostOps0_22 b hb op hop'
    · exact keep_hostOps0_23 b hb op hop'
    · exact keep_hostOps0_24 b hb op hop')

end Cert.KernelIdeal.Hand

end
-- ==== Proof.KIRun.lean ====
/-
  The run of the whole entry function, read at its result and at its arguments: the final result buffer holds the
  region's result array — the weighted sum `G` of the six arrays the host operations computed — reshaped from
  [1048576, 3, 32] to [4, 262144, 3, 32], and the four argument arrays are as launched.
-/
import proofs.«174118_j37812892074356_2_alg».proof.Proof.KIValue
import proofs.«174118_j37812892074356_2_alg».proof.Proof.KIKeep

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- An argument array is no array of the region and the operation after the region does not write it: it ends as the
    region found it, which is as launched. -/
theorem kept_arg (r : PUnit × MemSt nD τ sig (Elt F))
    (h : Pipeline.FramePost cfgs (dats m) 0 (Pipeline.afterTail₀ cfgs (dats m) 0 (V0 m) [hostOps1]) r) (c : Dev nD)
    (b : Ref sig .tc) (hb : IsArg b) (hmem : b ∈ Pipeline.restRefs sig spec0) (harr : ∀ w, Pipeline.arrRef spec0 w ≠ b) (hne : b ≠ main_v376) :
    r.2.mem ((c : Thread nD τ).loc b) = m ((c : Thread nD τ).loc b) := by
  refine ((h c).2 b hmem).trans ?_
  unfold Pipeline.afterTail₀
  rw [StableHlo.after_of_forall_not_mem _ _ (fun op hop => by
    simp only [hostOps1, List.flatten_cons, List.flatten_nil, List.append_nil, List.mem_cons, List.mem_nil_iff, or_false] at hop
    subst hop
    rw [StableHlo.reshape_writes, Finset.mem_singleton]
    exact StableHlo.devRef_ne_of_ne hne),
    Pipeline.withArrays_of_ne _ c (V0 m c) _ b harr]
  exact V_arg m c b hb

/-- The final result buffer: the region's result array, reshaped. -/
theorem post_out (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v376)
      = shapeCast S4x262144x3x32 (G (V m c main_v352) (V m c main_v356) (V m c main_v360) (V m c main_v364) (V m c main_v369) (V m c main_v374))
          shapeCasts_S1048576x3x32_S4x262144x3x32 := by
  refine ((h c).2 main_v376 (Pipeline.mem_restRefs_of main_v376 (by decide) (by decide))).trans ?_
  unfold Pipeline.afterTail₀
  show StableHlo.after hostOps1 _ (Proc.devRef .tc main_v376) = _
  after_results
  rw [Pipeline.withArrays_arr spec0 launch0.win.arr_inj c _ _ 6, final]
  rfl

/-- The run, read: the result at the reshaped weighted sum, the arguments unchanged. -/
theorem run_val : θ_run defs (onTc (τ := τ) (main (F := F))) ⟨m, fun _ => 0, ρ⟩ fun r => ∀ c : Dev nD,
      r.2.mem ((c : Thread nD τ).loc main_v376)
        = shapeCast S4x262144x3x32 (G (V m c main_v352) (V m c main_v356) (V m c main_v360) (V m c main_v364) (V m c main_v369) (V m c main_v374))
            shapeCasts_S1048576x3x32_S4x262144x3x32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post_out m r h c,
      kept_arg m r h c main_arg0 (.inl rfl) (Pipeline.mem_restRefs_of main_arg0 (by decide) (by decide)) (by decide) (by decide),
      kept_arg m r h c main_arg1 (.inr (.inl rfl)) (Pipeline.mem_restRefs_of main_arg1 (by decide) (by decide)) (by decide) (by decide),
      kept_arg m r h c main_arg2 (.inr (.inr (.inl rfl))) (Pipeline.mem_restRefs_of main_arg2 (by decide) (by decide)) (by decide) (by decide),
      kept_arg m r h c main_arg3 (.inr (.inr (.inr rfl))) (Pipeline.mem_restRefs_of main_arg3 (by decide) (by decide)) (by decide) (by decide)⟩)
    (run_main m ρ)

/-- The frame: the entry function runs and its argument arrays end unchanged. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => (h c).2) (run_val m ρ)

end Cert.KernelIdeal.Hand

end
-- ==== Proof.HostLib.lean ====
/-
  Layout operations of the host program read at an index, for the shapes of this program: the reshape of the
  batch of points to one long list, a column of it, a column as a vector, a vector as a column, two columns side by
  side, three blocks side by side, a matrix transposed, and the gather of one plane element per point.
-/
import Idealize.ShloMosaic.Lib.Pipeline.Value
import Idealize.ShloMosaic.Lib.ValueIdx
import Idealize.ShloMosaic.Lib.ValueLayout
import Idealize.ShloMosaic.Lib.IdealHost

noncomputable section

namespace Cert.Tri.Lay

open Idealize.ShloMosaic Idealize.ShloMosaic.ValueIdx

variable {α : Type}

/-- The batch `[4, 262144, 3]` flattened to `[1048576, 3]`: row `n` is point `(n / 262144, n % 262144)`. -/
theorem reshape_x_apply (x : (⟨3, ![4, 262144, 3]⟩ : Shape).Idx → α)
    (h : (⟨3, ![4, 262144, 3]⟩ : Shape).ShapeCasts ⟨2, ![1048576, 3]⟩) (n : Fin 1048576) (col : Fin 3) :
    shapeCast ⟨2, ![1048576, 3]⟩ x h (ix2 n col)
      = x (ix3 (⟨n.val / 262144, by omega⟩ : Fin 4) (⟨n.val % 262144, by omega⟩ : Fin 262144) col) :=
  shapeCast_apply x h _ _ (by
    rw [Shape.rowMajor_val_three, Shape.rowMajor_val_two]
    show (n.val / 262144 * 262144 + n.val % 262144) * 3 + col.val = n.val * 3 + col.val
    omega)

/-- Column `c` of an `[N, 3]` array, as an `[N, 1]` array. -/
theorem col_apply {N : Nat} (c : Nat) (x : (⟨2, ![N, 3]⟩ : Shape).Idx → α)
    (h : (⟨2, ![N, 3]⟩ : Shape).Slices ![0, c] ⟨2, ![N, 1]⟩) (n : Fin N) (k : Fin 3) (hk : k.val = c) :
    extractStridedSlice ⟨2, ![N, 1]⟩ ![0, c] x h (ix2 n (0 : Fin 1)) = x (ix2 n k) :=
  slice2_axis1_apply c x h n 0 k (by rw [hk]; rfl)

/-- An `[N, 1]` array as a vector. -/
theorem vec_of_col_apply {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n (0 : Fin 1)) :=
  shapeCast_apply x h _ _ (by
    rw [Shape.rowMajor_val_two, Shape.rowMajor_val_one]
    show n.val * 1 + 0 = n.val
    omega)

/-- A vector as an `[N, 1]` array. -/
theorem col_of_vec_apply (x : (⟨1, ![1048576]⟩ : Shape).Idx → α)
    (h : (⟨1, ![1048576]⟩ : Shape).BroadcastsInDim ⟨2, ![1048576, 1]⟩ ![0]) (n : Fin 1048576) (u : Fin 1) :
    broadcastInDim ⟨2, ![1048576, 1]⟩ ![0] h x (ix2 n u) = x (ix1 n) :=
  broadcastInDim_apply _ h x _ _ (fun a => match a with | ⟨0, _⟩ => rfl)

/-- Two columns side by side: the first. -/
theorem pair_apply_0 {N : Nat} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (0 : Fin 2)) = a (ix2 n (0 : Fin 1)) :=
  concatenate_pair_apply_left 1 a b h _ rfl _ (fun c => match c with | ⟨0, _⟩ => rfl | ⟨1, _⟩ => rfl)

/-- Two columns side by side: the second. -/
theorem pair_apply_1 {N : Nat} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (1 : Fin 2)) = b (ix2 n (0 : Fin 1)) :=
  concatenate_pair_apply_right 1 a b h _ rfl rfl _
    (fun c hc => match c, hc with | ⟨0, _⟩, _ => rfl | ⟨1, _⟩, hc => absurd rfl hc) rfl

/-- A matrix `[N, 32]` with a unit axis put in the middle. -/
theorem mid_unit_apply (x : (⟨2, ![1048576, 32]⟩ : Shape).Idx → α)
    (h : (⟨2, ![1048576, 32]⟩ : Shape).BroadcastsInDim ⟨3, ![1048576, 1, 32]⟩ ![0, 2]) (n : Fin 1048576) (u : Fin 1) (ch : Fin 32) :
    broadcastInDim ⟨3, ![1048576, 1, 32]⟩ ![0, 2] h x (ix3 n u ch) = x (ix2 n ch) :=
  broadcastInDim_apply _ h x _ _ (fun a => match a with | ⟨0, _⟩ => rfl | ⟨1, _⟩ => rfl)

/-- A matrix `[N, 3]` with a unit axis put last. -/
theorem last_unit_apply (x : (⟨2, ![1048576, 3]⟩ : Shape).Idx → α)
    (h : (⟨2, ![1048576, 3]⟩ : Shape).BroadcastsInDim ⟨3, ![1048576, 3, 1]⟩ ![0, 1]) (n : Fin 1048576) (p : Fin 3) (u : Fin 1) :
    broadcastInDim ⟨3, ![1048576, 3, 1]⟩ ![0, 1] h x (ix3 n p u) = x (ix2 n p) :=
  broadcastInDim_apply _ h x _ _ (fun a => match a with | ⟨0, _⟩ => rfl | ⟨1, _⟩ => rfl)

/-- Three `[N, 1, M]` blocks side by side along the middle axis: block `p` at the middle coordinate `p`. -/
theorem triple3_apply {N M : Nat} (u : Fin 3 → (⟨3, ![N, 1, M]⟩ : Shape).Idx → α)
    (h : Shape.Concatenates [(⟨3, ![N, 1, M]⟩ : Shape), ⟨3, ![N, 1, M]⟩, ⟨3, ![N, 1, M]⟩] ⟨3, ![N, 3, M]⟩ 1)
    (n : Fin N) (p : Fin 3) (ch : Fin M) :
    concatenate ⟨3, ![N, 3, M]⟩ 1 [⟨⟨3, ![N, 1, M]⟩, u 0⟩, ⟨⟨3, ![N, 1, M]⟩, u 1⟩, ⟨⟨3, ![N, 1, M]⟩, u 2⟩] h (ix3 n p ch)
      = u p (ix3 n (0 : Fin 1) ch) := by
  match p with
  | ⟨0, _⟩ =>
    exact concatenate_apply_piece 1 [⟨⟨3, ![N, 1, M]⟩, u 0⟩, ⟨⟨3, ![N, 1, M]⟩, u 1⟩, ⟨⟨3, ![N, 1, M]⟩, u 2⟩] h _ 0 (by show (0 : Nat) < 3; omega) _ (u 0) rfl rfl 0 rfl (ix3 n (0 : Fin 1) ch)
      (fun b hb => match b, hb with | ⟨0, _⟩, _ => rfl | ⟨1, _⟩, hb => absurd rfl hb | ⟨2, _⟩, _ => rfl) rfl
  | ⟨1, _⟩ =>
    exact concatenate_apply_piece 1 [⟨⟨3, ![N, 1, M]⟩, u 0⟩, ⟨⟨3, ![N, 1, M]⟩, u 1⟩, ⟨⟨3, ![N, 1, M]⟩, u 2⟩] h _ 1 (by show (1 : Nat) < 3; omega) _ (u 1) rfl rfl 1 rfl (ix3 n (0 : Fin 1) ch)
      (fun b hb => match b, hb with | ⟨0, _⟩, _ => rfl | ⟨1, _⟩, hb => absurd rfl hb | ⟨2, _⟩, _ => rfl) rfl
  | ⟨2, _⟩ =>
    exact concatenate_apply_piece 1 [⟨⟨3, ![N, 1, M]⟩, u 0⟩, ⟨⟨3, ![N, 1, M]⟩, u 1⟩, ⟨⟨3, ![N, 1, M]⟩, u 2⟩] h _ 2 (by show (2 : Nat) < 3; omega) _ (u 2) rfl rfl 2 rfl (ix3 n (0 : Fin 1) ch)
      (fun b hb => match b, hb with | ⟨0, _⟩, _ => rfl | ⟨1, _⟩, hb => absurd rfl hb | ⟨2, _⟩, _ => rfl) rfl

/-- Three columns side by side: column `p`. -/
theorem triple2_apply {N : Nat} (u : Fin 3 → (⟨2, ![N, 1]⟩ : Shape).Idx → α)
    (h : Shape.Concatenates [(⟨2, ![N, 1]⟩ : Shape), ⟨2, ![N, 1]⟩, ⟨2, ![N, 1]⟩] ⟨2, ![N, 3]⟩ 1)
    (n : Fin N) (p : Fin 3) :
    concatenate ⟨2, ![N, 3]⟩ 1 [⟨⟨2, ![N, 1]⟩, u 0⟩, ⟨⟨2, ![N, 1]⟩, u 1⟩, ⟨⟨2, ![N, 1]⟩, u 2⟩] h (ix2 n p)
      = u p (ix2 n (0 : Fin 1)) := by
  match p with
  | ⟨0, _⟩ =>
    exact concatenate_apply_piece 1 [⟨⟨2, ![N, 1]⟩, u 0⟩, ⟨⟨2, ![N, 1]⟩, u 1⟩, ⟨⟨2, ![N, 1]⟩, u 2⟩] h _ 0 (by show (0 : Nat) < 3; omega) _ (u 0) rfl rfl 0 rfl (ix2 n (0 : Fin 1))
      (fun b hb => match b, hb with | ⟨0, _⟩, _ => rfl | ⟨1, _⟩, hb => absurd rfl hb) rfl
  | ⟨1, _⟩ =>
    exact concatenate_apply_piece 1 [⟨⟨2, ![N, 1]⟩, u 0⟩, ⟨⟨2, ![N, 1]⟩, u 1⟩, ⟨⟨2, ![N, 1]⟩, u 2⟩] h _ 1 (by show (1 : Nat) < 3; omega) _ (u 1) rfl rfl 1 rfl (ix2 n (0 : Fin 1))
      (fun b hb => match b, hb with | ⟨0, _⟩, _ => rfl | ⟨1, _⟩, hb => absurd rfl hb) rfl
  | ⟨2, _⟩ =>
    exact concatenate_apply_piece 1 [⟨⟨2, ![N, 1]⟩, u 0⟩, ⟨⟨2, ![N, 1]⟩, u 1⟩, ⟨⟨2, ![N, 1]⟩, u 2⟩] h _ 2 (by show (2 : Nat) < 3; omega) _ (u 2) rfl rfl 2 rfl (ix2 n (0 : Fin 1))
      (fun b hb => match b, hb with | ⟨0, _⟩, _ => rfl | ⟨1, _⟩, hb => absurd rfl hb) rfl

/-- The dimension numbers of the gather of one plane element per point and channel: the result's axis 0 is the
    channel, the two entries of a row of the index array are the plane's row and column. -/
abbrev planeDims (N : Nat)
    (wf : GatherDims.WF ⟨3, ![32, 513, 513]⟩ ⟨2, ![N, 2]⟩ ⟨2, ![32, N]⟩ [0] [1, 2] [] [1, 2] [] 1 ![32, 1, 1]) :
    GatherDims ⟨3, ![32, 513, 513]⟩ ⟨2, ![N, 2]⟩ ⟨2, ![32, N]⟩ where
  offsetDims := [0]
  collapsedSliceDims := [1, 2]
  operandBatchingDims := []
  startIndicesBatchingDims := []
  startIndexMap := [1, 2]
  indexVectorDim := 1
  sliceSizes := ![32, 1, 1]
  wf := wf

theorem f0_not_mem : ∀ h : 0 < 3, (⟨0, h⟩ : Fin 3) ∉ [(1 : Fin 3), 2] := by decide
theorem f1_mem : ∀ h : 1 < 3, (⟨1, h⟩ : Fin 3) ∈ [(1 : Fin 3), 2] := by decide
theorem f2_mem : ∀ h : 2 < 3, (⟨2, h⟩ : Fin 3) ∈ [(1 : Fin 3), 2] := by decide

/-- The gather read at `(ch, n)`: the plane at channel `ch`, row `idx[n, 0]` and column `idx[n, 1]`, each read
    signed and clamped into `[0, 512]`. -/
theorem gather_plane_apply {N w : Nat}
    (wf : GatherDims.WF ⟨3, ![32, 513, 513]⟩ ⟨2, ![N, 2]⟩ ⟨2, ![32, N]⟩ [0] [1, 2] [] [1, 2] [] 1 ![32, 1, 1])
    (x : (⟨3, ![32, 513, 513]⟩ : Shape).Idx → α) (idx : IVec ⟨2, ![N, 2]⟩ w) (ch : Fin 32) (n : Fin N) :
    Host.gather (planeDims N wf) x idx (ix2 ch n)
      = x (ix3 ch (⟨min (idx (ix2 n (0 : Fin 2))).toInt.toNat 512, by omega⟩ : Fin 513)
            (⟨min (idx (ix2 n (1 : Fin 2))).toInt.toNat 512, by omega⟩ : Fin 513)) := by
  unfold Host.gather
  congr 1
  funext a
  refine Fin.ext ?_
  show (planeDims N wf).start (ix2 ch n) idx a + (planeDims N wf).batchCoord (ix2 ch n) a
    + (planeDims N wf).offCoord (ix2 ch n) a = _
  rw [GatherDims.batchCoord_eq_zero _ _ _ List.not_mem_nil, Nat.add_zero]
  obtain ⟨a, ha⟩ := a
  match a, ha with
  | 0, ha =>
    unfold GatherDims.start
    rw [dif_neg (show (⟨0, ha⟩ : Fin 3) ∉ (planeDims N wf).startIndexMap from f0_not_mem ha)]
    unfold GatherDims.offCoord
    rw [dif_pos (show (⟨0, ha⟩ : Fin 3) ∈ (planeDims N wf).sKept from
      (GatherDims.mem_sKept _ _).mpr ⟨f0_not_mem ha, List.not_mem_nil⟩), Nat.zero_add]
    rfl
  | 1, ha =>
    rw [GatherDims.offCoord_eq_zero _ _ _ (fun h => ((GatherDims.mem_sKept _ _).mp h).1 (f1_mem ha)), Nat.add_zero]
    unfold GatherDims.start
    rw [dif_pos (show (⟨1, ha⟩ : Fin 3) ∈ (planeDims N wf).startIndexMap from f1_mem ha)]
    have hsi : (planeDims N wf).siIdx (ix2 ch n) ⟨List.idxOf (⟨1, ha⟩ : Fin 3) (planeDims N wf).startIndexMap,
        List.idxOf_lt_length_iff.2 (f1_mem ha)⟩ = ix2 n (0 : Fin 2) := by
      funext b; refine Fin.ext ?_
      match b with
      | ⟨0, _⟩ => rfl
      | ⟨1, _⟩ => rfl
    rw [hsi]
    rfl
  | 2, ha =>
    rw [GatherDims.offCoord_eq_zero _ _ _ (fun h => ((GatherDims.mem_sKept _ _).mp h).1 (f2_mem ha)), Nat.add_zero]
    unfold GatherDims.start
    rw [dif_pos (show (⟨2, ha⟩ : Fin 3) ∈ (planeDims N wf).startIndexMap from f2_mem ha)]
    have hsi : (planeDims N wf).siIdx (ix2 ch n) ⟨List.idxOf (⟨2, ha⟩ : Fin 3) (planeDims N wf).startIndexMap,
        List.idxOf_lt_length_iff.2 (f2_mem ha)⟩ = ix2 n (1 : Fin 2) := by
      funext b; refine Fin.ext ?_
      match b with
      | ⟨0, _⟩ => rfl
      | ⟨1, _⟩ => rfl
    rw [hsi]
    rfl

/-! ## The program's terms, vector by vector

The same operations, in the program's order, as functions of whole vectors: the coordinate map (`vpix`), the weight, the
two corner words, the wrap of a negative word, the gather of one corner, and the stacking of the three planes' results.
Each is read at an index below. -/

section Vec

variable {F : FTy → Type} [FloatOps F]

section Pointwise
variable (s : Shape) (hb : (⟨0, ![]⟩ : Shape).BroadcastsInDim s (![] : Fin 0 → Fin s.rank))

/-- A float constant at every index. -/
def splat (b : BitVec 32) : FVec F s .f32 := broadcastInDim s ![] hb (constant ⟨0, ![]⟩ .f32 b)
/-- A word constant at every index. -/
def splatI (b : BitVec 32) : IVec s 32 := broadcastInDim s ![] hb (constantI ⟨0, ![]⟩ 32 b)

/-- `|(g + 1) · ½ · 512|`. -/
def vt (g : FVec F s .f32) : FVec F s .f32 :=
  Host.absf (mulf (mulf (addf g (splat s hb 0x3F800000#32)) (splat s hb 0x3F000000#32)) (splat s hb 0x44000000#32))
/-- Its remainder modulo 1024. -/
def vr (g : FVec F s .f32) : FVec F s .f32 :=
  subf (vt s hb g) (mulf (splat s hb 0x44800000#32) (Host.floor (Host.divf (vt s hb g) (splat s hb 0x44800000#32))))
/-- Reflected and clipped into `[0, 512]`. -/
def vpix (g : FVec F s .f32) : FVec F s .f32 :=
  minimumf (splat s hb 0x44000000#32) (maximumf (splat s hb 0x00000000#32)
    (select (cmpf .ogt (vr s hb g) (splat s hb 0x44000000#32)) (subf (splat s hb 0x44800000#32) (vr s hb g)) (vr s hb g)))

/-- The weight of the high corner. -/
def vfrac (p : FVec F s .f32) : FVec F s .f32 := subf p (Host.floor p)
/-- The low corner as a signed word. -/
def vloI (p : FVec F s .f32) : IVec s 32 := fptosi 32 (Host.floor p)
/-- The high corner as a signed word. -/
def vhiI (p : FVec F s .f32) : IVec s 32 := minsi (addi (vloI s p) (splatI s hb 1#32)) (splatI s hb 512#32)
/-- A negative word wrapped by 513. -/
def vwrap (k : IVec s 32) : IVec s 32 := select (cmpi .slt k (splatI s hb 0#32)) (addi k (splatI s hb 513#32)) k

theorem splat_apply (b : BitVec 32) (i : s.Idx) : splat (F := F) s hb b i = FloatOps.ofBits .f32 b := rfl
theorem splatI_apply (b : BitVec 32) (i : s.Idx) : splatI s hb b i = b := rfl

end Pointwise

/-- The batch as one long list of points. -/
def vflat (h : (⟨3, ![4, 262144, 3]⟩ : Shape).ShapeCasts ⟨2, ![1048576, 3]⟩)
    (x : FVec F ⟨3, ![4, 262144, 3]⟩ .f32) : FVec F ⟨2, ![1048576, 3]⟩ .f32 :=
  fun i => shapeCast ⟨2, ![1048576, 3]⟩ x h i

/-- Coordinate `c` of every point. -/
def vcol (c : Nat) (hs : (⟨2, ![1048576, 3]⟩ : Shape).Slices ![0, c] ⟨2, ![1048576, 1]⟩)
    (hc : (⟨2, ![1048576, 1]⟩ : Shape).ShapeCasts ⟨1, ![1048576]⟩)
    (x0 : FVec F ⟨2, ![1048576, 3]⟩ .f32) : FVec F ⟨1, ![1048576]⟩ .f32 :=
  fun i => shapeCast ⟨1, ![1048576]⟩ (extractStridedSlice ⟨2, ![1048576, 1]⟩ ![0, c] x0 hs) hc i

theorem vflat_apply (h : (⟨3, ![4, 262144, 3]⟩ : Shape).ShapeCasts ⟨2, ![1048576, 3]⟩)
    (x : FVec F ⟨3, ![4, 262144, 3]⟩ .f32) (n : Fin 1048576) (col : Fin 3) :
    vflat h x (ix2 n col) = x (ix3 (⟨n.val / 262144, by omega⟩ : Fin 4) (⟨n.val % 262144, by omega⟩ : Fin 262144) col) :=
  reshape_x_apply x h n col

theorem vcol_apply (c : Nat) (hs : (⟨2, ![1048576, 3]⟩ : Shape).Slices ![0, c] ⟨2, ![1048576, 1]⟩)
    (hc : (⟨2, ![1048576, 1]⟩ : Shape).ShapeCasts ⟨1, ![1048576]⟩)
    (x0 : FVec F ⟨2, ![1048576, 3]⟩ .f32) (n : Fin 1048576) (k : Fin 3) (hk : k.val = c) :
    vcol c hs hc x0 (ix1 n) = x0 (ix2 n k) :=
  (vec_of_col_apply _ hc n).trans (col_apply c x0 hs n k hk)

/-- One corner of every point, channel by channel: the plane gathered at the rows `ky` and columns `kx`. -/
def vcorner (hcol : (⟨1, ![1048576]⟩ : Shape).BroadcastsInDim ⟨2, ![1048576, 1]⟩ ![0])
    (hc : Shape.Concatenates [(⟨2, ![1048576, 1]⟩ : Shape), ⟨2, ![1048576, 1]⟩] ⟨2, ![1048576, 2]⟩ 1)
    (gd : GatherDims ⟨3, ![32, 513, 513]⟩ ⟨2, ![1048576, 2]⟩ ⟨2, ![32, 1048576]⟩)
    (ht : (⟨2, ![32, 1048576]⟩ : Shape).Transposes [1, 0] ⟨2, ![1048576, 32]⟩)
    (plane : FVec F ⟨3, ![32, 513, 513]⟩ .f32) (ky kx : IVec ⟨1, ![1048576]⟩ 32) : FVec F ⟨2, ![1048576, 32]⟩ .f32 :=
  transpose ⟨2, ![1048576, 32]⟩ [1, 0]
    (Host.gather gd plane
      (concatenate ⟨2, ![1048576, 2]⟩ 1
        [⟨⟨2, ![1048576, 1]⟩, broadcastInDim ⟨2, ![1048576, 1]⟩ ![0] hcol ky⟩,
         ⟨⟨2, ![1048576, 1]⟩, broadcastInDim ⟨2, ![1048576, 1]⟩ ![0] hcol kx⟩] hc)) ht

theorem vcorner_apply (hcol : (⟨1, ![1048576]⟩ : Shape).BroadcastsInDim ⟨2, ![1048576, 1]⟩ ![0])
    (hc : Shape.Concatenates [(⟨2, ![1048576, 1]⟩ : Shape), ⟨2, ![1048576, 1]⟩] ⟨2, ![1048576, 2]⟩ 1)
    (wf : GatherDims.WF ⟨3, ![32, 513, 513]⟩ ⟨2, ![1048576, 2]⟩ ⟨2, ![32, 1048576]⟩ [0] [1, 2] [] [1, 2] [] 1 ![32, 1, 1])
    (ht : (⟨2, ![32, 1048576]⟩ : Shape).Transposes [1, 0] ⟨2, ![1048576, 32]⟩)
    (plane : FVec F ⟨3, ![32, 513, 513]⟩ .f32) (ky kx : IVec ⟨1, ![1048576]⟩ 32) (n : Fin 1048576) (ch : Fin 32) :
    vcorner hcol hc (planeDims 1048576 wf) ht plane ky kx (ix2 n ch)
      = plane (ix3 ch (⟨min (ky (ix1 n)).toInt.toNat 512, by omega⟩ : Fin 513)
          (⟨min (kx (ix1 n)).toInt.toNat 512, by omega⟩ : Fin 513)) := by
  unfold vcorner
  rw [transpose_ix2_apply, gather_plane_apply]
  have e0 := (pair_apply_0 (broadcastInDim ⟨2, ![1048576, 1]⟩ ![0] hcol ky) (broadcastInDim ⟨2, ![1048576, 1]⟩ ![0] hcol kx) hc n).trans
    (col_of_vec_apply ky hcol n 0)
  have e1 := (pair_apply_1 (broadcastInDim ⟨2, ![1048576, 1]⟩ ![0] hcol ky) (broadcastInDim ⟨2, ![1048576, 1]⟩ ![0] hcol kx) hc n).trans
    (col_of_vec_apply kx hcol n 0)
  simp only [e0, e1]

/-- The three planes' corners stacked along a new middle axis. -/
def stack32 (hm : (⟨2, ![1048576, 32]⟩ : Shape).BroadcastsInDim ⟨3, ![1048576, 1, 32]⟩ ![0, 2])
    (h3 : Shape.Concatenates [(⟨3, ![1048576, 1, 32]⟩ : Shape), ⟨3, ![1048576, 1, 32]⟩, ⟨3, ![1048576, 1, 32]⟩]
      ⟨3, ![1048576, 3, 32]⟩ 1)
    (a b c : FVec F ⟨2, ![1048576, 32]⟩ .f32) : FVec F ⟨3, ![1048576, 3, 32]⟩ .f32 :=
  concatenate ⟨3, ![1048576, 3, 32]⟩ 1
    [⟨⟨3, ![1048576, 1, 32]⟩, broadcastInDim ⟨3, ![1048576, 1, 32]⟩ ![0, 2] hm a⟩,
     ⟨⟨3, ![1048576, 1, 32]⟩, broadcastInDim ⟨3, ![1048576, 1, 32]⟩ ![0, 2] hm b⟩,
     ⟨⟨3, ![1048576, 1, 32]⟩, broadcastInDim ⟨3, ![1048576, 1, 32]⟩ ![0, 2] hm c⟩] h3

theorem stack32_apply (hm : (⟨2, ![1048576, 32]⟩ : Shape).BroadcastsInDim ⟨3, ![1048576, 1, 32]⟩ ![0, 2])
    (h3 : Shape.Concatenates [(⟨3, ![1048576, 1, 32]⟩ : Shape), ⟨3, ![1048576, 1, 32]⟩, ⟨3, ![1048576, 1, 32]⟩]
      ⟨3, ![1048576, 3, 32]⟩ 1)
    (a b c : FVec F ⟨2, ![1048576, 32]⟩ .f32) (n : Fin 1048576) (p : Fin 3) (ch : Fin 32) :
    stack32 hm h3 a b c (ix3 n p ch) = (![a, b, c] : Fin 3 → FVec F ⟨2, ![1048576, 32]⟩ .f32) p (ix2 n ch) := by
  have e := triple3_apply (N := 1048576) (M := 32)
    (fun k : Fin 3 => broadcastInDim ⟨3, ![1048576, 1, 32]⟩ ![0, 2] hm ((![a, b, c] : Fin 3 → FVec F ⟨2, ![1048576, 32]⟩ .f32) k)) h3 n p ch
  exact e.trans (mid_unit_apply _ hm n 0 ch)

/-- The three planes' weights stacked, with a unit axis last. -/
def stackW (hcol : (⟨1, ![1048576]⟩ : Shape).BroadcastsInDim ⟨2, ![1048576, 1]⟩ ![0])
    (h3 : Shape.Concatenates [(⟨2, ![1048576, 1]⟩ : Shape), ⟨2, ![1048576, 1]⟩, ⟨2, ![1048576, 1]⟩] ⟨2, ![1048576, 3]⟩ 1)
    (hl : (⟨2, ![1048576, 3]⟩ : Shape).BroadcastsInDim ⟨3, ![1048576, 3, 1]⟩ ![0, 1])
    (a b c : FVec F ⟨1, ![1048576]⟩ .f32) : FVec F ⟨3, ![1048576, 3, 1]⟩ .f32 :=
  broadcastInDim ⟨3, ![1048576, 3, 1]⟩ ![0, 1] hl
    (concatenate ⟨2, ![1048576, 3]⟩ 1
      [⟨⟨2, ![1048576, 1]⟩, broadcastInDim ⟨2, ![1048576, 1]⟩ ![0] hcol a⟩,
       ⟨⟨2, ![1048576, 1]⟩, broadcastInDim ⟨2, ![1048576, 1]⟩ ![0] hcol b⟩,
       ⟨⟨2, ![1048576, 1]⟩, broadcastInDim ⟨2, ![1048576, 1]⟩ ![0] hcol c⟩] h3)

theorem stackW_apply (hcol : (⟨1, ![1048576]⟩ : Shape).BroadcastsInDim ⟨2, ![1048576, 1]⟩ ![0])
    (h3 : Shape.Concatenates [(⟨2, ![1048576, 1]⟩ : Shape), ⟨2, ![1048576, 1]⟩, ⟨2, ![1048576, 1]⟩] ⟨2, ![1048576, 3]⟩ 1)
    (hl : (⟨2, ![1048576, 3]⟩ : Shape).BroadcastsInDim ⟨3, ![1048576, 3, 1]⟩ ![0, 1])
    (a b c : FVec F ⟨1, ![1048576]⟩ .f32) (n : Fin 1048576) (p : Fin 3) (u : Fin 1) :
    stackW hcol h3 hl a b c (ix3 n p u) = (![a, b, c] : Fin 3 → FVec F ⟨1, ![1048576]⟩ .f32) p (ix1 n) := by
  unfold stackW
  rw [last_unit_apply]
  have e := triple2_apply (N := 1048576)
    (fun k : Fin 3 => broadcastInDim ⟨2, ![1048576, 1]⟩ ![0] hcol ((![a, b, c] : Fin 3 → FVec F ⟨1, ![1048576]⟩ .f32) k)) h3 n p
  exact e.trans (col_of_vec_apply _ hcol n 0)

end Vec

end Cert.Tri.Lay

end
-- ==== Proof.HostBlocks.lean ====
/-
  The host program before the region, cut into four blocks — the work of plane 0, of plane 1, of plane 2, and the
  stacking of the three planes' results — and, for each block run from ANY contents `V` of the buffers, what it leaves in
  each buffer a later block reads: a named vector-level term (HostLib) of `V` at the buffers the block reads, and `V`
  itself at a buffer the block does not write.
-/
import proofs.«174118_j37812892074356_2_alg».proof.Proof.Gen.KernelIdeal.Launch
import proofs.«174118_j37812892074356_2_alg».proof.Proof.HostLib
import Idealize.ShloMosaic.Lib.StableHlo.Run
import Idealize.ShloMosaic.Lib.Pipeline.Frame

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The host operations before the region, cut at the three points where one plane's work ends. -/
abbrev P0 : List (HloOp τ sig (Elt F)) :=
  [
    StableHlo.reshape main_arg0 main_v0 rfl shapeCasts_S4x262144x3_S1048576x3,
    StableHlo.unary main_v0 main_v1 ((extractStridedSlice S1048576x1 ![0, 1] · slices_S1048576x3_S1048576x1_0_1) : (⟨S1048576x3, .f32⟩ : BufTy).Contents (Elt F) → (⟨S1048576x1, .f32⟩ : BufTy).Contents (Elt F)),
    StableHlo.reshape main_v1 main_v2 rfl shapeCasts_S1048576x1_S1048576,
    StableHlo.unary main_v0 main_v3 ((extractStridedSlice S1048576x1 ![0, 2] · slices_S1048576x3_S1048576x1_0_2) : (⟨S1048576x3, .f32⟩ : BufTy).Contents (Elt F) → (⟨S1048576x1, .f32⟩ : BufTy).Contents (Elt F)),
    StableHlo.reshape main_v3 main_v4 rfl shapeCasts_S1048576x1_S1048576,
    StableHlo.nullary main_cst (constant S_ .f32 0x3F800000#32),
    StableHlo.unary main_cst main_v5 (broadcastInDim S1048576 ![] bcast_S_S1048576 : (⟨S_, .f32⟩ : BufTy).Contents (Elt F) → (⟨S1048576, .f32⟩ : BufTy).Contents (Elt F)),
    StableHlo.binary main_v2 main_v5 main_v6 (addf : (⟨S1048576, .f32⟩ : BufTy).Contents (Elt F) → (⟨S1048576, .f32⟩ : BufTy).Contents (Elt F) → (⟨S1048576, .f32⟩ : BufTy).Contents (Elt F)),
    StableHlo.nullary main_cst_0 (constant S_ .f32 0x3F000000#32),
    StableHlo.unary main_cst_0 main_v7 (broadcastInDim S1048576 ![] bcast_S_S1048576 : (⟨S_, .f32⟩ : BufTy).Contents (Elt F) → (⟨S1048576, .f32⟩ : BufTy).Contents (Elt F)),
    StableHlo.binary main_v6 main_v7 main_v8 (mulf : (⟨S1048576, .f32⟩ : BufTy).Contents (Elt F) → (⟨S1048576, .f32⟩ : BufTy).Contents (Elt F) → (⟨S1048576, .f32⟩ : BufTy).Contents (Elt F)),
    StableHlo.nullary main_cst_1 (constant S_ .f32 0x44000000#32),
    StableHlo.unary main_cst_1 main_v9 (broadcastInDim S1048576 ![] bcast_S_S1048576 : (⟨S_, .f32⟩ : BufTy).Contents (Elt F) → (⟨S1048576, .f32⟩ : BufTy).Contents (Elt F)),
    StableHlo.binary main_v8 main_v9 main_v10 (mulf : (⟨S1048576, .f32⟩ : BufTy).Contents (Elt F) → (⟨S1048576, .f32⟩ : BufTy).Contents (Elt F) → (⟨S1048576, .f32⟩ : BufTy).Contents (Elt F)),
    StableHlo.unary main_v10 main_v11 (Host.absf : (⟨S1048576, .f32⟩ : BufTy).Contents (Elt F) → (⟨S1048576, .f32⟩ : BufTy).Contents (Elt F)),
    StableHlo.nullary main_cst_2 (constant S_ .f32 0x44800000#32),
    StableHlo.unary main_cst_2 main_v12 (broadcastInDim S1048576 ![] bcast_S_S1048576 : (⟨S_, .f32⟩ : BufTy).Contents (Elt F) → (⟨S1048576, .f32⟩ : BufTy).Contents (Elt F)),
    StableHlo.binary main_v11 main_v12 main_v13 (Host.divf : (⟨S1048576, .f32⟩ : BufTy).Contents (Elt F) → (⟨S1048576, .f32⟩ : BufTy).Contents (Elt F) → (⟨S1048576, .f32⟩ : BufTy).Contents (Elt F)),
    StableHlo.unary main_v13 main_v14 (Host.floor : (⟨S1048576, .f32⟩ : BufTy).Contents (Elt F) → (⟨S1048576, .f32⟩ : BufTy).Contents (Elt F)),
    StableHlo.nullary main_cst_3 (constant S_ .f32 0x44800000#32),
    StableHlo.unary main_cst_3 main_v15 (broadcastInDim S1048576 ![] bcast_S_S1048576 : (⟨S_, .f32⟩ : BufTy).Contents (Elt F) → (⟨S1048576, .f32⟩ : BufTy).Contents (Elt F)),
    StableHlo.binary main_v15 main_v14 main_v16 (mulf : (⟨S1048576, .f32⟩ : BufTy).Contents (Elt F) → (⟨S1048576, .f32⟩ : BufTy).Contents (Elt F) → (⟨S1048576, .f32⟩ : BufTy).Contents (Elt F)),
    StableHlo.binary main_v11 main_v16 main_v17 (subf : (⟨S1048576, .f32⟩ : BufTy).Contents (Elt F) → (⟨S1048576, .f32⟩ : BufTy).Contents (Elt F) → (⟨S1048576, .f32⟩ : BufTy).Contents (Elt F)),
    StableHlo.nullary main_cst_4 (constant S_ .f32 0x44000000#32),
    StableHlo.unary main_cst_4 main_v18 (broadcastInDim S1048576 ![] bcast_S_S1048576 : (⟨S_, .f32⟩ : BufTy).Contents (Elt F) → (⟨S1048576, .f32⟩ : BufTy).Contents (Elt F)),
    StableHlo.binary main_v17 main_v18 main_v19 (cmpf .ogt : (⟨S1048576, .f32⟩ : BufTy).Contents (Elt F) → (⟨S1048576, .f32⟩ : BufTy).Contents (Elt F) → (⟨S1048576, .i1⟩ : BufTy).Contents (Elt F)),
    StableHlo.nullary main_cst_5 (constant S_ .f32 0x44800000#32),
    StableHlo.unary main_cst_5 main_v20 (broadcastInDim S1048576 ![] bcast_S_S1048576 : (⟨S_, .f32⟩ : BufTy).Contents (Elt F) → (⟨S1048576, .f32⟩ : BufTy).Contents (Elt F)),
    StableHlo.binary main_v20 main_v17 main_v21 (subf : (⟨S1048576, .f32⟩ : BufTy).Contents (Elt F) → (⟨S1048576, .f32⟩ : BufTy).Contents (Elt F) → (⟨S1048576, .f32⟩ : BufTy).Contents (Elt F)),
    StableHlo.TRef.ternary (.of main_v19 : StableHlo.TRef sig ⟨S1048576, .i1⟩) (.of main_v21 : StableHlo.TRef sig ⟨S1048576, .f32⟩) (.of main_v17 : StableHlo.TRef sig ⟨S1048576, .f32⟩) (.of main_v22 : StableHlo.TRef sig ⟨S1048576, .f32⟩) select,
    StableHlo.nullary main_cst_6 (constant S_ .f32 0x00000000#32),
    StableHlo.nullary main_cst_7 (constant S_ .f32 0x44000000#32),
    StableHlo.TRef.unary (.of main_cst_6 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S1048576, .f32⟩) (broadcastInDim S1048576 ![] bcast_S_S1048576),
    StableHlo.TRef.binary (.of main_call1_v1 : StableHlo.TRef sig ⟨S1048576, .f32⟩) (.of main_v22 : StableHlo.TRef sig ⟨S1048576, .f32⟩) (.of main_call1_v2 : StableHlo.TRef sig ⟨S1048576, .f32⟩) maximumf,
    StableHlo.TRef.unary (.of main_cst_7 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S1048576, .f32⟩) (broadcastInDim S1048576 ![] bcast_S_S1048576),
    StableHlo.TRef.binary (.of main_call1_v4 : StableHlo.TRef sig ⟨S1048576, .f32⟩) (.of main_call1_v2 : StableHlo.TRef sig ⟨S1048576, .f32⟩) (.of main_v23 : StableHlo.TRef sig ⟨S1048576, .f32⟩) minimumf,
    StableHlo.nullary main_cst_8 (constant S_ .f32 0x3F800000#32),
    StableHlo.unary main_cst_8 main_v24 (broadcastInDim S1048576 ![] bcast_S_S1048576 : (⟨S_, .f32⟩ : BufTy).Contents (Elt F) → (⟨S1048576, .f32⟩ : BufTy).Contents (Elt F)),
    StableHlo.binary main_v4 main_v24 main_v25 (addf : (⟨S1048576, .f32⟩ : BufTy).Contents (Elt F) → (⟨S1048576, .f32⟩ : BufTy).Contents (Elt F) → (⟨S1048576, .f32⟩ : BufTy).Contents (Elt F)),
    StableHlo.nullary main_cst_9 (constant S_ .f32 0x3F000000#32),
    StableHlo.unary main_cst_9 main_v26 (broadcastInDim S1048576 ![] bcast_S_S1048576 : (⟨S_, .f32⟩ : BufTy).Contents (Elt F) → (⟨S1048576, .f32⟩ : BufTy).Contents (Elt F)),
    StableHlo.binary main_v25 main_v26 main_v27 (mulf : (⟨S1048576, .f32⟩ : BufTy).Contents (Elt F) → (⟨S1048576, .f32⟩ : BufTy).Contents (Elt F) → (⟨S1048576, .f32⟩ : BufTy).Contents (Elt F)),
    StableHlo.nullary main_cst_10 (constant S_ .f32 0x44000000#32),
    StableHlo.unary main_cst_10 main_v28 (broadcastInDim S1048576 ![] bcast_S_S1048576 : (⟨S_, .f32⟩ : BufTy).Contents (Elt F) → (⟨S1048576, .f32⟩ : BufTy).Contents (Elt F)),
    StableHlo.binary main_v27 main_v28 main_v29 (mulf : (⟨S1048576, .f32⟩ : BufTy).Contents (Elt F) → (⟨S1048576, .f32⟩ : BufTy).Contents (Elt F) → (⟨S1048576, .f32⟩ : BufTy).Contents (Elt F)),
    StableHlo.unary main_v29 main_v30 (Host.absf : (⟨S1048576, .f32⟩ : BufTy).Contents (Elt F) → (⟨S1048576, .f32⟩ : BufTy).Contents (Elt F)),
    StableHlo.nullary main_cst_11 (constant S_ .f32 0x44800000#32),
    StableHlo.unary main_cst_11 main_v31 (broadcastInDim S1048576 ![] bcast_S_S1048576 : (⟨S_, .f32⟩ : BufTy).Contents (Elt F) → (⟨S1048576, .f32⟩ : BufTy).Contents (Elt F)),
    StableHlo.binary main_v30 main_v31 main_v32 (Host.divf : (⟨S1048576, .f32⟩ : BufTy).Contents (Elt F) → (⟨S1048576, .f32⟩ : BufTy).Contents (Elt F) → (⟨S1048576, .f32⟩ : BufTy).Contents (Elt F)),
    StableHlo.unary main_v32 main_v33 (Host.floor : (⟨S1048576, .f32⟩ : BufTy).Contents (Elt F) → (⟨S1048576, .f32⟩ : BufTy).Contents (Elt F)),
    StableHlo.nullary main_cst_12 (constant S_ .f32 0x44800000#32),
    StableHlo.unary main_cst_12 main_v34 (broadcastInDim S1048576 ![] bcast_S_S1048576 : (⟨S_, .f32⟩ : BufTy).Contents (Elt F) → (⟨S1048576, .f32⟩ : BufTy).Contents (Elt F)),
    StableHlo.binary main_v34 main_v33 main_v35 (mulf : (⟨S1048576, .f32⟩ : BufTy).Contents (Elt F) → (⟨S1048576, .f32⟩ : BufTy).Contents (Elt F) → (⟨S1048576, .f32⟩ : BufTy).Contents (Elt F)),
    StableHlo.binary main_v30 main_v35 main_v36 (subf : (⟨S1048576, .f32⟩ : BufTy).Contents (Elt F) → (⟨S1048576, .f32⟩ : BufTy).Contents (Elt F) → (⟨S1048576, .f32⟩ : BufTy).Contents (Elt F)),
    StableHlo.nullary main_cst_13 (constant S_ .f32 0x44000000#32),
    StableHlo.unary main_cst_13 main_v37 (broadcastInDim S1048576 ![] bcast_S_S1048576 : (⟨S_, .f32⟩ : BufTy).Contents (Elt F) → (⟨S1048576, .f32⟩ : BufTy).Contents (Elt F)),
    StableHlo.binary main_v36 main_v37 main_v38 (cmpf .ogt : (⟨S1048576, .f32⟩ : BufTy).Contents (Elt F) → (⟨S1048576, .f32⟩ : BufTy).Contents (Elt F) → (⟨S1048576, .i1⟩ : BufTy).Contents (Elt F)),
    StableHlo.nullary main_cst_14 (constant S_ .f32 0x44800000#32),
    StableHlo.unary main_cst_14 main_v39 (broadcastInDim S1048576 ![] bcast_S_S1048576 : (⟨S_, .f32⟩ : BufTy).Contents (Elt F) → (⟨S1048576, .f32⟩ : BufTy).Contents (Elt F)),
    StableHlo.binary main_v39 main_v36 main_v40 (subf : (⟨S1048576, .f32⟩ : BufTy).Contents (Elt F) → (⟨S1048576, .f32⟩ : BufTy).Contents (Elt F) → (⟨S1048576, .f32⟩ : BufTy).Contents (Elt F)),
    StableHlo.TRef.ternary (.of main_v38 : StableHlo.TRef sig ⟨S1048576, .i1⟩) (.of main_v40 : StableHlo.TRef sig ⟨S1048576, .f32⟩) (.of main_v36 : StableHlo.TRef sig ⟨S1048576, .f32⟩) (.of main_v41 : StableHlo.TRef sig ⟨S1048576, .f32⟩) select,
    StableHlo.nullary main_cst_15 (constant S_ .f32 0x00000000#32),
    StableHlo.nullary main_cst_16 (constant S_ .f32 0x44000000#32),
    StableHlo.TRef.unary (.of main_cst_15 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S1048576, .f32⟩) (broadcastInDim S1048576 ![] bcast_S_S1048576),
    StableHlo.TRef.binary (.of main_call3_v1 : StableHlo.TRef sig ⟨S1048576, .f32⟩) (.of main_v41 : StableHlo.TRef sig ⟨S1048576, .f32⟩) (.of main_call3_v2 : StableHlo.TRef sig ⟨S1048576, .f32⟩) maximumf,
    StableHlo.TRef.unary (.of main_cst_16 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S1048576, .f32⟩) (broadcastInDim S1048576 ![] bcast_S_S1048576),
    StableHlo.TRef.binary (.of main_call3_v4 : StableHlo.TRef sig ⟨S1048576, .f32⟩) (.of main_call3_v2 : StableHlo.TRef sig ⟨S1048576, .f32⟩) (.of main_v42 : StableHlo.TRef sig ⟨S1048576, .f32⟩) minimumf,
    StableHlo.unary main_v23 main_v43 (Host.floor : (⟨S1048576, .f32⟩ : BufTy).Contents (Elt F) → (⟨S1048576, .f32⟩ : BufTy).Contents (Elt F)),
    StableHlo.unary main_v42 main_v44 (Host.floor : (⟨S1048576, .f32⟩ : BufTy).Contents (Elt F) → (⟨S1048576, .f32⟩ : BufTy).Contents (Elt F)),
    StableHlo.binary main_v23 main_v43 main_v45 (subf : (⟨S1048576, .f32⟩ : BufTy).Contents (Elt F) → (⟨S1048576, .f32⟩ : BufTy).Contents (Elt F) → (⟨S1048576, .f32⟩ : BufTy).Contents (Elt F)),
    StableHlo.binary main_v42 main_v44 main_v46 (subf : (⟨S1048576, .f32⟩ : BufTy).Contents (Elt F) → (⟨S1048576, .f32⟩ : BufTy).Contents (Elt F) → (⟨S1048576, .f32⟩ : BufTy).Contents (Elt F)),
    StableHlo.unary main_v43 main_v47 (fptosi 32 : (⟨S1048576, .f32⟩ : BufTy).Contents (Elt F) → (⟨S1048576, .i32⟩ : BufTy).Contents (Elt F)),
    StableHlo.unary main_v44 main_v48 (fptosi 32 : (⟨S1048576, .f32⟩ : BufTy).Contents (Elt F) → (⟨S1048576, .i32⟩ : BufTy).Contents (Elt F)),
    StableHlo.nullary main_c (constantI S_ 32 1#32),
    StableHlo.unary main_c main_v49 (broadcastInDim S1048576 ![] bcast_S_S1048576 : (⟨S_, .i32⟩ : BufTy).Contents (Elt F) → (⟨S1048576, .i32⟩ : BufTy).Contents (Elt F)),
    StableHlo.binary main_v47 main_v49 main_v50 (addi : (⟨S1048576, .i32⟩ : BufTy).Contents (Elt F) → (⟨S1048576, .i32⟩ : BufTy).Contents (Elt F) → (⟨S1048576, .i32⟩ : BufTy).Contents (Elt F)),
    StableHlo.nullary main_c_17 (constantI S_ 32 512#32),
    StableHlo.unary main_c_17 main_v51 (broadcastInDim S1048576 ![] bcast_S_S1048576 : (⟨S_, .i32⟩ : BufTy).Contents (Elt F) → (⟨S1048576, .i32⟩ : BufTy).Contents (Elt F)),
    StableHlo.binary main_v50 main_v51 main_v52 (minsi : (⟨S1048576, .i32⟩ : BufTy).Contents (Elt F) → (⟨S1048576, .i32⟩ : BufTy).Contents (Elt F) → (⟨S1048576, .i32⟩ : BufTy).Contents (Elt F)),
    StableHlo.nullary main_c_18 (constantI S_ 32 1#32),
    StableHlo.unary main_c_18 main_v53 (broadcastInDim S1048576 ![] bcast_S_S1048576 : (⟨S_, .i32⟩ : BufTy).Contents (Elt F) → (⟨S1048576, .i32⟩ : BufTy).Contents (Elt F)),
    StableHlo.binary main_v48 main_v53 main_v54 (addi : (⟨S1048576, .i32⟩ : BufTy).Contents (Elt F) → (⟨S1048576, .i32⟩ : BufTy).Contents (Elt F) → (⟨S1048576, .i32⟩ : BufTy).Contents (Elt F)),
    StableHlo.nullary main_c_19 (constantI S_ 32 512#32),
    StableHlo.unary main_c_19 main_v55 (broadcastInDim S1048576 ![] bcast_S_S1048576 : (⟨S_, .i32⟩ : BufTy).Contents (Elt F) → (⟨S1048576, .i32⟩ : BufTy).Contents (Elt F)),
    StableHlo.binary main_v54 main_v55 main_v56 (minsi : (⟨S1048576, .i32⟩ : BufTy).Contents (Elt F) → (⟨S1048576, .i32⟩ : BufTy).Contents (Elt F) → (⟨S1048576, .i32⟩ : BufTy).Contents (Elt F)),
    StableHlo.nullary main_c_20 (constantI S_ 32 0#32),
    StableHlo.unary main_c_20 main_v57 (broadcastInDim S1048576 ![] bcast_S_S1048576 : (⟨S_, .i32⟩ : BufTy).Contents (Elt F) → (⟨S1048576, .i32⟩ : BufTy).Contents (Elt F)),
    StableHlo.binary main_v48 main_v57 main_v58 (cmpi .slt : (⟨S1048576, .i32⟩ : BufTy).Contents (Elt F) → (⟨S1048576, .i32⟩ : BufTy).Contents (Elt F) → (⟨S1048576, .i1⟩ : BufTy).Contents (Elt F)),
    StableHlo.nullary main_c_21 (constantI S_ 32 513#32),
    StableHlo.unary main_c_21 main_v59 (broadcastInDim S1048576 ![] bcast_S_S1048576 : (⟨S_, .i32⟩ : BufTy).Contents (Elt F) → (⟨S1048576, .i32⟩ : BufTy).Contents (Elt F)),
    StableHlo.binary main_v48 main_v59 main_v60 (addi : (⟨S1048576, .i32⟩ : BufTy).Contents (Elt F) → (⟨S1048576, .i32⟩ : BufTy).Contents (Elt F) → (⟨S1048576, .i32⟩ : BufTy).Contents (Elt F)),
    StableHlo.ternary main_v58 main_v60 main_v48 main_v61 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_22 (constantI S_ 32 0#32),
    StableHlo.unary main_c_22 main_v62 (broadcastInDim S1048576 ![] bcast_S_S1048576 : (⟨S_, .i32⟩ : BufTy).Contents (Elt F) → (⟨S1048576, .i32⟩ : BufTy).Contents (Elt F)),
    StableHlo.binary main_v47 main_v62 main_v63 (cmpi .slt : (⟨S1048576, .i32⟩ : BufTy).Contents (Elt F) → (⟨S1048576, .i32⟩ : BufTy).Contents (Elt F) → (⟨S1048576, .i1⟩ : BufTy).Contents (Elt F)),
    StableHlo.nullary main_c_23 (constantI S_ 32 513#32),
    StableHlo.unary main_c_23 main_v64 (broadcastInDim S1048576 ![] bcast_S_S1048576 : (⟨S_, .i32⟩ : BufTy).Contents (Elt F) → (⟨S1048576, .i32⟩ : BufTy).Contents (Elt F)),
    StableHlo.binary main_v47 main_v64 main_v65 (addi : (⟨S1048576, .i32⟩ : BufTy).Contents (Elt F) → (⟨S1048576, .i32⟩ : BufTy).Contents (Elt F) → (⟨S1048576, .i32⟩ : BufTy).Contents (Elt F)),
    StableHlo.ternary main_v63 main_v65 main_v47 main_v66 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v61 main_v67 (broadcastInDim S1048576x1 ![0] bcast_S1048576_S1048576x1_0 : (⟨S1048576, .i32⟩ : BufTy).Contents (Elt F) → (⟨S1048576x1, .i32⟩ : BufTy).Contents (Elt F)),
    StableHlo.unary main_v66 main_v68 (broadcastInDim S1048576x1 ![0] bcast_S1048576_S1048576x1_0 : (⟨S1048576, .i32⟩ : BufTy).Contents (Elt F) → (⟨S1048576x1, .i32⟩ : BufTy).Contents (Elt F)),
    StableHlo.binary main_v67 main_v68 main_v69 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v69 main_v70 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v70 main_v71 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_24 (constantI S_ 32 0#32),
    StableHlo.unary main_c_24 main_v72 (broadcastInDim S1048576 ![] bcast_S_S1048576 : (⟨S_, .i32⟩ : BufTy).Contents (Elt F) → (⟨S1048576, .i32⟩ : BufTy).Contents (Elt F)),
    StableHlo.binary main_v48 main_v72 main_v73 (cmpi .slt : (⟨S1048576, .i32⟩ : BufTy).Contents (Elt F) → (⟨S1048576, .i32⟩ : BufTy).Contents (Elt F) → (⟨S1048576, .i1⟩ : BufTy).Contents (Elt F)),
    StableHlo.nullary main_c_25 (constantI S_ 32 513#32),
    StableHlo.unary main_c_25 main_v74 (broadcastInDim S1048576 ![] bcast_S_S1048576 : (⟨S_, .i32⟩ : BufTy).Contents (Elt F) → (⟨S1048576, .i32⟩ : BufTy).Contents (Elt F)),
    StableHlo.binary main_v48 main_v74 main_v75 (addi : (⟨S1048576, .i32⟩ : BufTy).Contents (Elt F) → (⟨S1048576, .i32⟩ : BufTy).Contents (Elt F) → (⟨S1048576, .i32⟩ : BufTy).Contents (Elt F)),
    StableHlo.ternary main_v73 main_v75 main_v48 main_v76 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_26 (constantI S_ 32 0#32),
    StableHlo.unary main_c_26 main_v77 (broadcastInDim S1048576 ![] bcast_S_S1048576 : (⟨S_, .i32⟩ : BufTy).Contents (Elt F) → (⟨S1048576, .i32⟩ : BufTy).Contents (Elt F)),
    StableHlo.binary main_v52 main_v77 main_v78 (cmpi .slt : (⟨S1048576, .i32⟩ : BufTy).Contents (Elt F) → (⟨S1048576, .i32⟩ : BufTy).Contents (Elt F) → (⟨S1048576, .i1⟩ : BufTy).Contents (Elt F)),
    StableHlo.nullary main_c_27 (constantI S_ 32 513#32),
    StableHlo.unary main_c_27 main_v79 (broadcastInDim S1048576 ![] bcast_S_S1048576 : (⟨S_, .i32⟩ : BufTy).Contents (Elt F) → (⟨S1048576, .i32⟩ : BufTy).Contents (Elt F)),
    StableHlo.binary main_v52 main_v79 main_v80 (addi : (⟨S1048576, .i32⟩ : BufTy).Contents (Elt F) → (⟨S1048576, .i32⟩ : BufTy).Contents (Elt F) → (⟨S1048576, .i32⟩ : BufTy).Contents (Elt F)),
    StableHlo.ternary main_v78 main_v80 main_v52 main_v81 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v76 main_v82 (broadcastInDim S1048576x1 ![0] bcast_S1048576_S1048576x1_0 : (⟨S1048576, .i32⟩ : BufTy).Contents (Elt F) → (⟨S1048576x1, .i32⟩ : BufTy).Contents (Elt F)),
    StableHlo.unary main_v81 main_v83 (broadcastInDim S1048576x1 ![0] bcast_S1048576_S1048576x1_0 : (⟨S1048576, .i32⟩ : BufTy).Contents (Elt F) → (⟨S1048576x1, .i32⟩ : BufTy).Contents (Elt F)),
    StableHlo.binary main_v82 main_v83 main_v84 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v84 main_v85 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v85 main_v86 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_28 (constantI S_ 32 0#32),
    StableHlo.unary main_c_28 main_v87 (broadcastInDim S1048576 ![] bcast_S_S1048576 : (⟨S_, .i32⟩ : BufTy).Contents (Elt F) → (⟨S1048576, .i32⟩ : BufTy).Contents (Elt F)),
    StableHlo.binary main_v56 main_v87 main_v88 (cmpi .slt : (⟨S1048576, .i32⟩ : BufTy).Contents (Elt F) → (⟨S1048576, .i32⟩ : BufTy).Contents (Elt F) → (⟨S1048576, .i1⟩ : BufTy).Contents (Elt F)),
    StableHlo.nullary main_c_29 (constantI S_ 32 513#32),
    StableHlo.unary main_c_29 main_v89 (broadcastInDim S1048576 ![] bcast_S_S1048576 : (⟨S_, .i32⟩ : BufTy).Contents (Elt F) → (⟨S1048576, .i32⟩ : BufTy).Contents (Elt F)),
    StableHlo.binary main_v56 main_v89 main_v90 (addi : (⟨S1048576, .i32⟩ : BufTy).Contents (Elt F) → (⟨S1048576, .i32⟩ : BufTy).Contents (Elt F) → (⟨S1048576, .i32⟩ : BufTy).Contents (Elt F)),
    StableHlo.ternary main_v88 main_v90 main_v56 main_v91 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_30 (constantI S_ 32 0#32),
    StableHlo.unary main_c_30 main_v92 (broadcastInDim S1048576 ![] bcast_S_S1048576 : (⟨S_, .i32⟩ : BufTy).Contents (Elt F) → (⟨S1048576, .i32⟩ : BufTy).Contents (Elt F)),
    StableHlo.binary main_v47 main_v92 main_v93 (cmpi .slt : (⟨S1048576, .i32⟩ : BufTy).Contents (Elt F) → (⟨S1048576, .i32⟩ : BufTy).Contents (Elt F) → (⟨S1048576, .i1⟩ : BufTy).Contents (Elt F)),
    StableHlo.nullary main_c_31 (constantI S_ 32 513#32),
    StableHlo.unary main_c_31 main_v94 (broadcastInDim S1048576 ![] bcast_S_S1048576 : (⟨S_, .i32⟩ : BufTy).Contents (Elt F) → (⟨S1048576, .i32⟩ : BufTy).Contents (Elt F)),
    StableHlo.binary main_v47 main_v94 main_v95 (addi : (⟨S1048576, .i32⟩ : BufTy).Contents (Elt F) → (⟨S1048576, .i32⟩ : BufTy).Contents (Elt F) → (⟨S1048576, .i32⟩ : BufTy).Contents (Elt F)),
    StableHlo.ternary main_v93 main_v95 main_v47 main_v96 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v91 main_v97 (broadcastInDim S1048576x1 ![0] bcast_S1048576_S1048576x1_0 : (⟨S1048576, .i32⟩ : BufTy).Contents (Elt F) → (⟨S1048576x1, .i32⟩ : BufTy).Contents (Elt F)),
    StableHlo.unary main_v96 main_v98 (broadcastInDim S1048576x1 ![0] bcast_S1048576_S1048576x1_0 : (⟨S1048576, .i32⟩ : BufTy).Contents (Elt F) → (⟨S1048576x1, .i32⟩ : BufTy).Contents (Elt F)),
    StableHlo.binary main_v97 main_v98 main_v99 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v99 main_v100 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v100 main_v101 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_32 (constantI S_ 32 0#32),
    StableHlo.unary main_c_32 main_v102 (broadcastInDim S1048576 ![] bcast_S_S1048576 : (⟨S_, .i32⟩ : BufTy).Contents (Elt F) → (⟨S1048576, .i32⟩ : BufTy).Contents (Elt F)),
    StableHlo.binary main_v56 main_v102 main_v103 (cmpi .slt : (⟨S1048576, .i32⟩ : BufTy).Contents (Elt F) → (⟨S1048576, .i32⟩ : BufTy).Contents (Elt F) → (⟨S1048576, .i1⟩ : BufTy).Contents (Elt F)),
    StableHlo.nullary main_c_33 (constantI S_ 32 513#32),
    StableHlo.unary main_c_33 main_v104 (broadcastInDim S1048576 ![] bcast_S_S1048576 : (⟨S_, .i32⟩ : BufTy).Contents (Elt F) → (⟨S1048576, .i32⟩ : BufTy).Contents (Elt F)),
    StableHlo.binary main_v56 main_v104 main_v105 (addi : (⟨S1048576, .i32⟩ : BufTy).Contents (Elt F) → (⟨S1048576, .i32⟩ : BufTy).Contents (Elt F) → (⟨S1048576, .i32⟩ : BufTy).Contents (Elt F)),
    StableHlo.ternary main_v103 main_v105 main_v56 main_v106 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_34 (constantI S_ 32 0#32),
    StableHlo.unary main_c_34 main_v107 (broadcastInDim S1048576 ![] bcast_S_S1048576 : (⟨S_, .i32⟩ : BufTy).Contents (Elt F) → (⟨S1048576, .i32⟩ : BufTy).Contents (Elt F)),
    StableHlo.binary main_v52 main_v107 main_v108 (cmpi .slt : (⟨S1048576, .i32⟩ : BufTy).Contents (Elt F) → (⟨S1048576, .i32⟩ : BufTy).Contents (Elt F) → (⟨S1048576, .i1⟩ : BufTy).Contents (Elt F)),
    StableHlo.nullary main_c_35 (constantI S_ 32 513#32),
    StableHlo.unary main_c_35 main_v109 (broadcastInDim S1048576 ![] bcast_S_S1048576 : (⟨S_, .i32⟩ : BufTy).Contents (Elt F) → (⟨S1048576, .i32⟩ : BufTy).Contents (Elt F)),
    StableHlo.binary main_v52 main_v109 main_v110 (addi : (⟨S1048576, .i32⟩ : BufTy).Contents (Elt F) → (⟨S1048576, .i32⟩ : BufTy).Contents (Elt F) → (⟨S1048576, .i32⟩ : BufTy).Contents (Elt F)),
    StableHlo.ternary main_v108 main_v110 main_v52 main_v111 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v106 main_v112 (broadcastInDim S1048576x1 ![0] bcast_S1048576_S1048576x1_0 : (⟨S1048576, .i32⟩ : BufTy).Contents (Elt F) → (⟨S1048576x1, .i32⟩ : BufTy).Contents (Elt F)),
    StableHlo.unary main_v111 main_v113 (broadcastInDim S1048576x1 ![0] bcast_S1048576_S1048576x1_0 : (⟨S1048576, .i32⟩ : BufTy).Contents (Elt F) → (⟨S1048576x1, .i32⟩ : BufTy).Contents (Elt F)),
    StableHlo.binary main_v112 main_v113 main_v114 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v114 main_v115 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v115 main_v116 ((transpose S1048576x32 [1, 0] · transposes_S32x1048576_S1048576x32_1_0) : (⟨S32x1048576, .f32⟩ : BufTy).Contents (Elt F) → (⟨S1048576x32, .f32⟩ : BufTy).Contents (Elt F)) ]
abbrev P1 : List (HloOp τ sig (Elt F)) :=
  [
    StableHlo.unary main_v0 main_v117 ((extractStridedSlice S1048576x1 ![0, 0] · slices_S1048576x3_S1048576x1_0_0) : (⟨S1048576x3, .f32⟩ : BufTy).Contents (Elt F) → (⟨S1048576x1, .f32⟩ : BufTy).Contents (Elt F)),
    StableHlo.reshape main_v117 main_v118 rfl shapeCasts_S1048576x1_S1048576,
    StableHlo.unary main_v0 main_v119 ((extractStridedSlice S1048576x1 ![0, 2] · slices_S1048576x3_S1048576x1_0_2) : (⟨S1048576x3, .f32⟩ : BufTy).Contents (Elt F) → (⟨S1048576x1, .f32⟩ : BufTy).Contents (Elt F)),
    StableHlo.reshape main_v119 main_v120 rfl shapeCasts_S1048576x1_S1048576,
    StableHlo.nullary main_cst_36 (constant S_ .f32 0x3F800000#32),
    StableHlo.unary main_cst_36 main_v121 (broadcastInDim S1048576 ![] bcast_S_S1048576 : (⟨S_, .f32⟩ : BufTy).Contents (Elt F) → (⟨S1048576, .f32⟩ : BufTy).Contents (Elt F)),
    StableHlo.binary main_v118 main_v121 main_v122 (addf : (⟨S1048576, .f32⟩ : BufTy).Contents (Elt F) → (⟨S1048576, .f32⟩ : BufTy).Contents (Elt F) → (⟨S1048576, .f32⟩ : BufTy).Contents (Elt F)),
    StableHlo.nullary main_cst_37 (constant S_ .f32 0x3F000000#32),
    StableHlo.unary main_cst_37 main_v123 (broadcastInDim S1048576 ![] bcast_S_S1048576 : (⟨S_, .f32⟩ : BufTy).Contents (Elt F) → (⟨S1048576, .f32⟩ : BufTy).Contents (Elt F)),
    StableHlo.binary main_v122 main_v123 main_v124 (mulf : (⟨S1048576, .f32⟩ : BufTy).Contents (Elt F) → (⟨S1048576, .f32⟩ : BufTy).Contents (Elt F) → (⟨S1048576, .f32⟩ : BufTy).Contents (Elt F)),
    StableHlo.nullary main_cst_38 (constant S_ .f32 0x44000000#32),
    StableHlo.unary main_cst_38 main_v125 (broadcastInDim S1048576 ![] bcast_S_S1048576 : (⟨S_, .f32⟩ : BufTy).Contents (Elt F) → (⟨S1048576, .f32⟩ : BufTy).Contents (Elt F)),
    StableHlo.binary main_v124 main_v125 main_v126 (mulf : (⟨S1048576, .f32⟩ : BufTy).Contents (Elt F) → (⟨S1048576, .f32⟩ : BufTy).Contents (Elt F) → (⟨S1048576, .f32⟩ : BufTy).Contents (Elt F)),
    StableHlo.unary main_v126 main_v127 (Host.absf : (⟨S1048576, .f32⟩ : BufTy).Contents (Elt F) → (⟨S1048576, .f32⟩ : BufTy).Contents (Elt F)),
    StableHlo.nullary main_cst_39 (constant S_ .f32 0x44800000#32),
    StableHlo.unary main_cst_39 main_v128 (broadcastInDim S1048576 ![] bcast_S_S1048576 : (⟨S_, .f32⟩ : BufTy).Contents (Elt F) → (⟨S1048576, .f32⟩ : BufTy).Contents (Elt F)),
    StableHlo.binary main_v127 main_v128 main_v129 (Host.divf : (⟨S1048576, .f32⟩ : BufTy).Contents (Elt F) → (⟨S1048576, .f32⟩ : BufTy).Contents (Elt F) → (⟨S1048576, .f32⟩ : BufTy).Contents (Elt F)),
    StableHlo.unary main_v129 main_v130 (Host.floor : (⟨S1048576, .f32⟩ : BufTy).Contents (Elt F) → (⟨S1048576, .f32⟩ : BufTy).Contents (Elt F)),
    StableHlo.nullary main_cst_40 (constant S_ .f32 0x44800000#32),
    StableHlo.unary main_cst_40 main_v131 (broadcastInDim S1048576 ![] bcast_S_S1048576 : (⟨S_, .f32⟩ : BufTy).Contents (Elt F) → (⟨S1048576, .f32⟩ : BufTy).Contents (Elt F)),
    StableHlo.binary main_v131 main_v130 main_v132 (mulf : (⟨S1048576, .f32⟩ : BufTy).Contents (Elt F) → (⟨S1048576, .f32⟩ : BufTy).Contents (Elt F) → (⟨S1048576, .f32⟩ : BufTy).Contents (Elt F)),
    StableHlo.binary main_v127 main_v132 main_v133 (subf : (⟨S1048576, .f32⟩ : BufTy).Contents (Elt F) → (⟨S1048576, .f32⟩ : BufTy).Contents (Elt F) → (⟨S1048576, .f32⟩ : BufTy).Contents (Elt F)),
    StableHlo.nullary main_cst_41 (constant S_ .f32 0x44000000#32),
    StableHlo.unary main_cst_41 main_v134 (broadcastInDim S1048576 ![] bcast_S_S1048576 : (⟨S_, .f32⟩ : BufTy).Contents (Elt F) → (⟨S1048576, .f32⟩ : BufTy).Contents (Elt F)),
    StableHlo.binary main_v133 main_v134 main_v135 (cmpf .ogt : (⟨S1048576, .f32⟩ : BufTy).Contents (Elt F) → (⟨S1048576, .f32⟩ : BufTy).Contents (Elt F) → (⟨S1048576, .i1⟩ : BufTy).Contents (Elt F)),
    StableHlo.nullary main_cst_42 (constant S_ .f32 0x44800000#32),
    StableHlo.unary main_cst_42 main_v136 (broadcastInDim S1048576 ![] bcast_S_S1048576 : (⟨S_, .f32⟩ : BufTy).Contents (Elt F) → (⟨S1048576, .f32⟩ : BufTy).Contents (Elt F)),
    StableHlo.binary main_v136 main_v133 main_v137 (subf : (⟨S1048576, .f32⟩ : BufTy).Contents (Elt F) → (⟨S1048576, .f32⟩ : BufTy).Contents (Elt F) → (⟨S1048576, .f32⟩ : BufTy).Contents (Elt F)),
    StableHlo.TRef.ternary (.of main_v135 : StableHlo.TRef sig ⟨S1048576, .i1⟩) (.of main_v137 : StableHlo.TRef sig ⟨S1048576, .f32⟩) (.of main_v133 : StableHlo.TRef sig ⟨S1048576, .f32⟩) (.of main_v138 : StableHlo.TRef sig ⟨S1048576, .f32⟩) select,
    StableHlo.nullary main_cst_43 (constant S_ .f32 0x00000000#32),
    StableHlo.nullary main_cst_44 (constant S_ .f32 0x44000000#32),
    StableHlo.TRef.unary (.of main_cst_43 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S1048576, .f32⟩) (broadcastInDim S1048576 ![] bcast_S_S1048576),
    StableHlo.TRef.binary (.of main_call5_v1 : StableHlo.TRef sig ⟨S1048576, .f32⟩) (.of main_v138 : StableHlo.TRef sig ⟨S1048576, .f32⟩) (.of main_call5_v2 : StableHlo.TRef sig ⟨S1048576, .f32⟩) maximumf,
    StableHlo.TRef.unary (.of main_cst_44 : StableHlo.TRef sig ⟨S_, .f32⟩) (.of main_call5_v3 : StableHlo.TRef sig ⟨S_, .f32⟩) id,
    StableHlo.TRef.unary (.of main_call5_v3 : StableHlo.TRef sig ⟨S_, .f32⟩) (.of main_call5_v4 : StableHlo.TRef sig ⟨S1048576, .f32⟩) (broadcastInDim S1048576 ![] bcast_S_S1048576),
    StableHlo.TRef.binary (.of main_call5_v4 : StableHlo.TRef sig ⟨S1048576, .f32⟩) (.of main_call5_v2 : StableHlo.TRef sig ⟨S1048576, .f32⟩) (.of main_v139 : StableHlo.TRef sig ⟨S1048576, .f32⟩) minimumf,
    StableHlo.nullary main_cst_45 (constant S_ .f32 0x3F800000#32),
    StableHlo.unary main_cst_45 main_v140 (broadcastInDim S1048576 ![] bcast_S_S1048576 : (⟨S_, .f32⟩ : BufTy).Contents (Elt F) → (⟨S1048576, .f32⟩ : BufTy).Contents (Elt F)),
    StableHlo.binary main_v120 main_v140 main_v141 (addf : (⟨S1048576, .f32⟩ : BufTy).Contents (Elt F) → (⟨S1048576, .f32⟩ : BufTy).Contents (Elt F) → (⟨S1048576, .f32⟩ : BufTy).Contents (Elt F)),
    StableHlo.nullary main_cst_46 (constant S_ .f32 0x3F000000#32),
    StableHlo.unary main_cst_46 main_v142 (broadcastInDim S1048576 ![] bcast_S_S1048576 : (⟨S_, .f32⟩ : BufTy).Contents (Elt F) → (⟨S1048576, .f32⟩ : BufTy).Contents (Elt F)),
    StableHlo.binary main_v141 main_v142 main_v143 (mulf : (⟨S1048576, .f32⟩ : BufTy).Contents (Elt F) → (⟨S1048576, .f32⟩ : BufTy).Contents (Elt F) → (⟨S1048576, .f32⟩ : BufTy).Contents (Elt F)),
    StableHlo.nullary main_cst_47 (constant S_ .f32 0x44000000#32),
    StableHlo.unary main_cst_47 main_v144 (broadcastInDim S1048576 ![] bcast_S_S1048576 : (⟨S_, .f32⟩ : BufTy).Contents (Elt F) → (⟨S1048576, .f32⟩ : BufTy).Contents (Elt F)),
    StableHlo.binary main_v143 main_v144 main_v145 (mulf : (⟨S1048576, .f32⟩ : BufTy).Contents (Elt F) → (⟨S1048576, .f32⟩ : BufTy).Contents (Elt F) → (⟨S1048576, .f32⟩ : BufTy).Contents (Elt F)),
    StableHlo.unary main_v145 main_v146 (Host.absf : (⟨S1048576, .f32⟩ : BufTy).Contents (Elt F) → (⟨S1048576, .f32⟩ : BufTy).Contents (Elt F)),
    StableHlo.nullary main_cst_48 (constant S_ .f32 0x44800000#32),
    StableHlo.unary main_cst_48 main_v147 (broadcastInDim S1048576 ![] bcast_S_S1048576 : (⟨S_, .f32⟩ : BufTy).Contents (Elt F) → (⟨S1048576, .f32⟩ : BufTy).Contents (Elt F)),
    StableHlo.binary main_v146 main_v147 main_v148 (Host.divf : (⟨S1048576, .f32⟩ : BufTy).Contents (Elt F) → (⟨S1048576, .f32⟩ : BufTy).Contents (Elt F) → (⟨S1048576, .f32⟩ : BufTy).Contents (Elt F)),
    StableHlo.unary main_v148 main_v149 (Host.floor : (⟨S1048576, .f32⟩ : BufTy).Contents (Elt F) → (⟨S1048576, .f32⟩ : BufTy).Contents (Elt F)),
    StableHlo.nullary main_cst_49 (constant S_ .f32 0x44800000#32),
    StableHlo.unary main_cst_49 main_v150 (broadcastInDim S1048576 ![] bcast_S_S1048576 : (⟨S_, .f32⟩ : BufTy).Contents (Elt F) → (⟨S1048576, .f32⟩ : BufTy).Contents (Elt F)),
    StableHlo.binary main_v150 main_v149 main_v151 (mulf : (⟨S1048576, .f32⟩ : BufTy).Contents (Elt F) → (⟨S1048576, .f32⟩ : BufTy).Contents (Elt F) → (⟨S1048576, .f32⟩ : BufTy).Contents (Elt F)),
    StableHlo.binary main_v146 main_v151 main_v152 (subf : (⟨S1048576, .f32⟩ : BufTy).Contents (Elt F) → (⟨S1048576, .f32⟩ : BufTy).Contents (Elt F) → (⟨S1048576, .f32⟩ : BufTy).Contents (Elt F)),
    StableHlo.nullary main_cst_50 (constant S_ .f32 0x44000000#32),
    StableHlo.unary main_cst_50 main_v153 (broadcastInDim S1048576 ![] bcast_S_S1048576 : (⟨S_, .f32⟩ : BufTy).Contents (Elt F) → (⟨S1048576, .f32⟩ : BufTy).Contents (Elt F)),
    StableHlo.binary main_v152 main_v153 main_v154 (cmpf .ogt : (⟨S1048576, .f32⟩ : BufTy).Contents (Elt F) → (⟨S1048576, .f32⟩ : BufTy).Contents (Elt F) → (⟨S1048576, .i1⟩ : BufTy).Contents (Elt F)),
    StableHlo.nullary main_cst_51 (constant S_ .f32 0x44800000#32),
    StableHlo.unary main_cst_51 main_v155 (broadcastInDim S1048576 ![] bcast_S_S1048576 : (⟨S_, .f32⟩ : BufTy).Contents (Elt F) → (⟨S1048576, .f32⟩ : BufTy).Contents (Elt F)),
    StableHlo.binary main_v155 main_v152 main_v156 (subf : (⟨S1048576, .f32⟩ : BufTy).Contents (Elt F) → (⟨S1048576, .f32⟩ : BufTy).Contents (Elt F) → (⟨S1048576, .f32⟩ : BufTy).Contents (Elt F)),
    StableHlo.TRef.ternary (.of main_v154 : StableHlo.TRef sig ⟨S1048576, .i1⟩) (.of main_v156 : StableHlo.TRef sig ⟨S1048576, .f32⟩) (.of main_v152 : StableHlo.TRef sig ⟨S1048576, .f32⟩) (.of main_v157 : StableHlo.TRef sig ⟨S1048576, .f32⟩) select,
    StableHlo.nullary main_cst_52 (constant S_ .f32 0x00000000#32),
    StableHlo.nullary main_cst_53 (constant S_ .f32 0x44000000#32),
    StableHlo.TRef.unary (.of main_cst_52 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S1048576, .f32⟩) (broadcastInDim S1048576 ![] bcast_S_S1048576),
    StableHlo.TRef.binary (.of main_call7_v1 : StableHlo.TRef sig ⟨S1048576, .f32⟩) (.of main_v157 : StableHlo.TRef sig ⟨S1048576, .f32⟩) (.of main_call7_v2 : StableHlo.TRef sig ⟨S1048576, .f32⟩) maximumf,
    StableHlo.TRef.unary (.of main_cst_53 : StableHlo.TRef sig ⟨S_, .f32⟩) (.of main_call7_v3 : StableHlo.TRef sig ⟨S_, .f32⟩) id,
    StableHlo.TRef.unary (.of main_call7_v3 : StableHlo.TRef sig ⟨S_, .f32⟩) (.of main_call7_v4 : StableHlo.TRef sig ⟨S1048576, .f32⟩) (broadcastInDim S1048576 ![] bcast_S_S1048576),
    StableHlo.TRef.binary (.of main_call7_v4 : StableHlo.TRef sig ⟨S1048576, .f32⟩) (.of main_call7_v2 : StableHlo.TRef sig ⟨S1048576, .f32⟩) (.of main_v158 : StableHlo.TRef sig ⟨S1048576, .f32⟩) minimumf,
    StableHlo.unary main_v139 main_v159 (Host.floor : (⟨S1048576, .f32⟩ : BufTy).Contents (Elt F) → (⟨S1048576, .f32⟩ : BufTy).Contents (Elt F)),
    StableHlo.unary main_v158 main_v160 (Host.floor : (⟨S1048576, .f32⟩ : BufTy).Contents (Elt F) → (⟨S1048576, .f32⟩ : BufTy).Contents (Elt F)),
    StableHlo.binary main_v139 main_v159 main_v161 (subf : (⟨S1048576, .f32⟩ : BufTy).Contents (Elt F) → (⟨S1048576, .f32⟩ : BufTy).Contents (Elt F) → (⟨S1048576, .f32⟩ : BufTy).Contents (Elt F)),
    StableHlo.binary main_v158 main_v160 main_v162 (subf : (⟨S1048576, .f32⟩ : BufTy).Contents (Elt F) → (⟨S1048576, .f32⟩ : BufTy).Contents (Elt F) → (⟨S1048576, .f32⟩ : BufTy).Contents (Elt F)),
    StableHlo.unary main_v159 main_v163 (fptosi 32 : (⟨S1048576, .f32⟩ : BufTy).Contents (Elt F) → (⟨S1048576, .i32⟩ : BufTy).Contents (Elt F)),
    StableHlo.unary main_v160 main_v164 (fptosi 32 : (⟨S1048576, .f32⟩ : BufTy).Contents (Elt F) → (⟨S1048576, .i32⟩ : BufTy).Contents (Elt F)),
    StableHlo.nullary main_c_54 (constantI S_ 32 1#32),
    StableHlo.unary main_c_54 main_v165 (broadcastInDim S1048576 ![] bcast_S_S1048576 : (⟨S_, .i32⟩ : BufTy).Contents (Elt F) → (⟨S1048576, .i32⟩ : BufTy).Contents (Elt F)),
    StableHlo.binary main_v163 main_v165 main_v166 (addi : (⟨S1048576, .i32⟩ : BufTy).Contents (Elt F) → (⟨S1048576, .i32⟩ : BufTy).Contents (Elt F) → (⟨S1048576, .i32⟩ : BufTy).Contents (Elt F)),
    StableHlo.nullary main_c_55 (constantI S_ 32 512#32),
    StableHlo.unary main_c_55 main_v167 (broadcastInDim S1048576 ![] bcast_S_S1048576 : (⟨S_, .i32⟩ : BufTy).Contents (Elt F) → (⟨S1048576, .i32⟩ : BufTy).Contents (Elt F)),
    StableHlo.binary main_v166 main_v167 main_v168 (minsi : (⟨S1048576, .i32⟩ : BufTy).Contents (Elt F) → (⟨S1048576, .i32⟩ : BufTy).Contents (Elt F) → (⟨S1048576, .i32⟩ : BufTy).Contents (Elt F)),
    StableHlo.nullary main_c_56 (constantI S_ 32 1#32),
    StableHlo.unary main_c_56 main_v169 (broadcastInDim S1048576 ![] bcast_S_S1048576 : (⟨S_, .i32⟩ : BufTy).Contents (Elt F) → (⟨S1048576, .i32⟩ : BufTy).Contents (Elt F)),
    StableHlo.binary main_v164 main_v169 main_v170 (addi : (⟨S1048576, .i32⟩ : BufTy).Contents (Elt F) → (⟨S1048576, .i32⟩ : BufTy).Contents (Elt F) → (⟨S1048576, .i32⟩ : BufTy).Contents (Elt F)),
    StableHlo.nullary main_c_57 (constantI S_ 32 512#32),
    StableHlo.unary main_c_57 main_v171 (broadcastInDim S1048576 ![] bcast_S_S1048576 : (⟨S_, .i32⟩ : BufTy).Contents (Elt F) → (⟨S1048576, .i32⟩ : BufTy).Contents (Elt F)),
    StableHlo.binary main_v170 main_v171 main_v172 (minsi : (⟨S1048576, .i32⟩ : BufTy).Contents (Elt F) → (⟨S1048576, .i32⟩ : BufTy).Contents (Elt F) → (⟨S1048576, .i32⟩ : BufTy).Contents (Elt F)),
    StableHlo.nullary main_c_58 (constantI S_ 32 0#32),
    StableHlo.unary main_c_58 main_v173 (broadcastInDim S1048576 ![] bcast_S_S1048576 : (⟨S_, .i32⟩ : BufTy).Contents (Elt F) → (⟨S1048576, .i32⟩ : BufTy).Contents (Elt F)),
    StableHlo.binary main_v164 main_v173 main_v174 (cmpi .slt : (⟨S1048576, .i32⟩ : BufTy).Contents (Elt F) → (⟨S1048576, .i32⟩ : BufTy).Contents (Elt F) → (⟨S1048576, .i1⟩ : BufTy).Contents (Elt F)),
    StableHlo.nullary main_c_59 (constantI S_ 32 513#32),
    StableHlo.unary main_c_59 main_v175 (broadcastInDim S1048576 ![] bcast_S_S1048576 : (⟨S_, .i32⟩ : BufTy).Contents (Elt F) → (⟨S1048576, .i32⟩ : BufTy).Contents (Elt F)),
    StableHlo.binary main_v164 main_v175 main_v176 (addi : (⟨S1048576, .i32⟩ : BufTy).Contents (Elt F) → (⟨S1048576, .i32⟩ : BufTy).Contents (Elt F) → (⟨S1048576, .i32⟩ : BufTy).Contents (Elt F)),
    StableHlo.ternary main_v174 main_v176 main_v164 main_v177 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_60 (constantI S_ 32 0#32),
    StableHlo.unary main_c_60 main_v178 (broadcastInDim S1048576 ![] bcast_S_S1048576 : (⟨S_, .i32⟩ : BufTy).Contents (Elt F) → (⟨S1048576, .i32⟩ : BufTy).Contents (Elt F)),
    StableHlo.binary main_v163 main_v178 main_v179 (cmpi .slt : (⟨S1048576, .i32⟩ : BufTy).Contents (Elt F) → (⟨S1048576, .i32⟩ : BufTy).Contents (Elt F) → (⟨S1048576, .i1⟩ : BufTy).Contents (Elt F)),
    StableHlo.nullary main_c_61 (constantI S_ 32 513#32),
    StableHlo.unary main_c_61 main_v180 (broadcastInDim S1048576 ![] bcast_S_S1048576 : (⟨S_, .i32⟩ : BufTy).Contents (Elt F) → (⟨S1048576, .i32⟩ : BufTy).Contents (Elt F)),
    StableHlo.binary main_v163 main_v180 main_v181 (addi : (⟨S1048576, .i32⟩ : BufTy).Contents (Elt F) → (⟨S1048576, .i32⟩ : BufTy).Contents (Elt F) → (⟨S1048576, .i32⟩ : BufTy).Contents (Elt F)),
    StableHlo.ternary main_v179 main_v181 main_v163 main_v182 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v177 main_v183 (broadcastInDim S1048576x1 ![0] bcast_S1048576_S1048576x1_0 : (⟨S1048576, .i32⟩ : BufTy).Contents (Elt F) → (⟨S1048576x1, .i32⟩ : BufTy).Contents (Elt F)),
    StableHlo.unary main_v182 main_v184 (broadcastInDim S1048576x1 ![0] bcast_S1048576_S1048576x1_0 : (⟨S1048576, .i32⟩ : BufTy).Contents (Elt F) → (⟨S1048576x1, .i32⟩ : BufTy).Contents (Elt F)),
    StableHlo.binary main_v183 main_v184 main_v185 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v185 main_v186 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v186 main_v187 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_62 (constantI S_ 32 0#32),
    StableHlo.unary main_c_62 main_v188 (broadcastInDim S1048576 ![] bcast_S_S1048576 : (⟨S_, .i32⟩ : BufTy).Contents (Elt F) → (⟨S1048576, .i32⟩ : BufTy).Contents (Elt F)),
    StableHlo.binary main_v164 main_v188 main_v189 (cmpi .slt : (⟨S1048576, .i32⟩ : BufTy).Contents (Elt F) → (⟨S1048576, .i32⟩ : BufTy).Contents (Elt F) → (⟨S1048576, .i1⟩ : BufTy).Contents (Elt F)),
    StableHlo.nullary main_c_63 (constantI S_ 32 513#32),
    StableHlo.unary main_c_63 main_v190 (broadcastInDim S1048576 ![] bcast_S_S1048576 : (⟨S_, .i32⟩ : BufTy).Contents (Elt F) → (⟨S1048576, .i32⟩ : BufTy).Contents (Elt F)),
    StableHlo.binary main_v164 main_v190 main_v191 (addi : (⟨S1048576, .i32⟩ : BufTy).Contents (Elt F) → (⟨S1048576, .i32⟩ : BufTy).Contents (Elt F) → (⟨S1048576, .i32⟩ : BufTy).Contents (Elt F)),
    StableHlo.ternary main_v189 main_v191 main_v164 main_v192 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_64 (constantI S_ 32 0#32),
    StableHlo.unary main_c_64 main_v193 (broadcastInDim S1048576 ![] bcast_S_S1048576 : (⟨S_, .i32⟩ : BufTy).Contents (Elt F) → (⟨S1048576, .i32⟩ : BufTy).Contents (Elt F)),
    StableHlo.binary main_v168 main_v193 main_v194 (cmpi .slt : (⟨S1048576, .i32⟩ : BufTy).Contents (Elt F) → (⟨S1048576, .i32⟩ : BufTy).Contents (Elt F) → (⟨S1048576, .i1⟩ : BufTy).Contents (Elt F)),
    StableHlo.nullary main_c_65 (constantI S_ 32 513#32),
    StableHlo.unary main_c_65 main_v195 (broadcastInDim S1048576 ![] bcast_S_S1048576 : (⟨S_, .i32⟩ : BufTy).Contents (Elt F) → (⟨S1048576, .i32⟩ : BufTy).Contents (Elt F)),
    StableHlo.binary main_v168 main_v195 main_v196 (addi : (⟨S1048576, .i32⟩ : BufTy).Contents (Elt F) → (⟨S1048576, .i32⟩ : BufTy).Contents (Elt F) → (⟨S1048576, .i32⟩ : BufTy).Contents (Elt F)),
    StableHlo.ternary main_v194 main_v196 main_v168 main_v197 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v192 main_v198 (broadcastInDim S1048576x1 ![0] bcast_S1048576_S1048576x1_0 : (⟨S1048576, .i32⟩ : BufTy).Contents (Elt F) → (⟨S1048576x1, .i32⟩ : BufTy).Contents (Elt F)),
    StableHlo.unary main_v197 main_v199 (broadcastInDim S1048576x1 ![0] bcast_S1048576_S1048576x1_0 : (⟨S1048576, .i32⟩ : BufTy).Contents (Elt F) → (⟨S1048576x1, .i32⟩ : BufTy).Contents (Elt F)),
    StableHlo.binary main_v198 main_v199 main_v200 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v200 main_v201 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v201 main_v202 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_66 (constantI S_ 32 0#32),
    StableHlo.unary main_c_66 main_v203 (broadcastInDim S1048576 ![] bcast_S_S1048576 : (⟨S_, .i32⟩ : BufTy).Contents (Elt F) → (⟨S1048576, .i32⟩ : BufTy).Contents (Elt F)),
    StableHlo.binary main_v172 main_v203 main_v204 (cmpi .slt : (⟨S1048576, .i32⟩ : BufTy).Contents (Elt F) → (⟨S1048576, .i32⟩ : BufTy).Contents (Elt F) → (⟨S1048576, .i1⟩ : BufTy).Contents (Elt F)),
    StableHlo.nullary main_c_67 (constantI S_ 32 513#32),
    StableHlo.unary main_c_67 main_v205 (broadcastInDim S1048576 ![] bcast_S_S1048576 : (⟨S_, .i32⟩ : BufTy).Contents (Elt F) → (⟨S1048576, .i32⟩ : BufTy).Contents (Elt F)),
    StableHlo.binary main_v172 main_v205 main_v206 (addi : (⟨S1048576, .i32⟩ : BufTy).Contents (Elt F) → (⟨S1048576, .i32⟩ : BufTy).Contents (Elt F) → (⟨S1048576, .i32⟩ : BufTy).Contents (Elt F)),
    StableHlo.ternary main_v204 main_v206 main_v172 main_v207 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_68 (constantI S_ 32 0#32),
    StableHlo.unary main_c_68 main_v208 (broadcastInDim S1048576 ![] bcast_S_S1048576 : (⟨S_, .i32⟩ : BufTy).Contents (Elt F) → (⟨S1048576, .i32⟩ : BufTy).Contents (Elt F)),
    StableHlo.binary main_v163 main_v208 main_v209 (cmpi .slt : (⟨S1048576, .i32⟩ : BufTy).Contents (Elt F) → (⟨S1048576, .i32⟩ : BufTy).Contents (Elt F) → (⟨S1048576, .i1⟩ : BufTy).Contents (Elt F)),
    StableHlo.nullary main_c_69 (constantI S_ 32 513#32),
    StableHlo.unary main_c_69 main_v210 (broadcastInDim S1048576 ![] bcast_S_S1048576 : (⟨S_, .i32⟩ : BufTy).Contents (Elt F) → (⟨S1048576, .i32⟩ : BufTy).Contents (Elt F)),
    StableHlo.binary main_v163 main_v210 main_v211 (addi : (⟨S1048576, .i32⟩ : BufTy).Contents (Elt F) → (⟨S1048576, .i32⟩ : BufTy).Contents (Elt F) → (⟨S1048576, .i32⟩ : BufTy).Contents (Elt F)),
    StableHlo.ternary main_v209 main_v211 main_v163 main_v212 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v207 main_v213 (broadcastInDim S1048576x1 ![0] bcast_S1048576_S1048576x1_0 : (⟨S1048576, .i32⟩ : BufTy).Contents (Elt F) → (⟨S1048576x1, .i32⟩ : BufTy).Contents (Elt F)),
    StableHlo.unary main_v212 main_v214 (broadcastInDim S1048576x1 ![0] bcast_S1048576_S1048576x1_0 : (⟨S1048576, .i32⟩ : BufTy).Contents (Elt F) → (⟨S1048576x1, .i32⟩ : BufTy).Contents (Elt F)),
    StableHlo.binary main_v213 main_v214 main_v215 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v215 main_v216 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v216 main_v217 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_70 (constantI S_ 32 0#32),
    StableHlo.unary main_c_70 main_v218 (broadcastInDim S1048576 ![] bcast_S_S1048576 : (⟨S_, .i32⟩ : BufTy).Contents (Elt F) → (⟨S1048576, .i32⟩ : BufTy).Contents (Elt F)),
    StableHlo.binary main_v172 main_v218 main_v219 (cmpi .slt : (⟨S1048576, .i32⟩ : BufTy).Contents (Elt F) → (⟨S1048576, .i32⟩ : BufTy).Contents (Elt F) → (⟨S1048576, .i1⟩ : BufTy).Contents (Elt F)),
    StableHlo.nullary main_c_71 (constantI S_ 32 513#32),
    StableHlo.unary main_c_71 main_v220 (broadcastInDim S1048576 ![] bcast_S_S1048576 : (⟨S_, .i32⟩ : BufTy).Contents (Elt F) → (⟨S1048576, .i32⟩ : BufTy).Contents (Elt F)),
    StableHlo.binary main_v172 main_v220 main_v221 (addi : (⟨S1048576, .i32⟩ : BufTy).Contents (Elt F) → (⟨S1048576, .i32⟩ : BufTy).Contents (Elt F) → (⟨S1048576, .i32⟩ : BufTy).Contents (Elt F)),
    StableHlo.ternary main_v219 main_v221 main_v172 main_v222 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_72 (constantI S_ 32 0#32),
    StableHlo.unary main_c_72 main_v223 (broadcastInDim S1048576 ![] bcast_S_S1048576 : (⟨S_, .i32⟩ : BufTy).Contents (Elt F) → (⟨S1048576, .i32⟩ : BufTy).Contents (Elt F)),
    StableHlo.binary main_v168 main_v223 main_v224 (cmpi .slt : (⟨S1048576, .i32⟩ : BufTy).Contents (Elt F) → (⟨S1048576, .i32⟩ : BufTy).Contents (Elt F) → (⟨S1048576, .i1⟩ : BufTy).Contents (Elt F)),
    StableHlo.nullary main_c_73 (constantI S_ 32 513#32),
    StableHlo.unary main_c_73 main_v225 (broadcastInDim S1048576 ![] bcast_S_S1048576 : (⟨S_, .i32⟩ : BufTy).Contents (Elt F) → (⟨S1048576, .i32⟩ : BufTy).Contents (Elt F)),
    StableHlo.binary main_v168 main_v225 main_v226 (addi : (⟨S1048576, .i32⟩ : BufTy).Contents (Elt F) → (⟨S1048576, .i32⟩ : BufTy).Contents (Elt F) → (⟨S1048576, .i32⟩ : BufTy).Contents (Elt F)),
    StableHlo.ternary main_v224 main_v226 main_v168 main_v227 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v222 main_v228 (broadcastInDim S1048576x1 ![0] bcast_S1048576_S1048576x1_0 : (⟨S1048576, .i32⟩ : BufTy).Contents (Elt F) → (⟨S1048576x1, .i32⟩ : BufTy).Contents (Elt F)),
    StableHlo.unary main_v227 main_v229 (broadcastInDim S1048576x1 ![0] bcast_S1048576_S1048576x1_0 : (⟨S1048576, .i32⟩ : BufTy).Contents (Elt F) → (⟨S1048576x1, .i32⟩ : BufTy).Contents (Elt F)),
    StableHlo.binary main_v228 main_v229 main_v230 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v230 main_v231 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v231 main_v232 ((transpose S1048576x32 [1, 0] · transposes_S32x1048576_S1048576x32_1_0) : (⟨S32x1048576, .f32⟩ : BufTy).Contents (Elt F) → (⟨S1048576x32, .f32⟩ : BufTy).Contents (Elt F)) ]
abbrev P2 : List (HloOp τ sig (Elt F)) :=
  [
    StableHlo.unary main_v0 main_v233 ((extractStridedSlice S1048576x1 ![0, 0] · slices_S1048576x3_S1048576x1_0_0) : (⟨S1048576x3, .f32⟩ : BufTy).Contents (Elt F) → (⟨S1048576x1, .f32⟩ : BufTy).Contents (Elt F)),
    StableHlo.reshape main_v233 main_v234 rfl shapeCasts_S1048576x1_S1048576,
    StableHlo.unary main_v0 main_v235 ((extractStridedSlice S1048576x1 ![0, 1] · slices_S1048576x3_S1048576x1_0_1) : (⟨S1048576x3, .f32⟩ : BufTy).Contents (Elt F) → (⟨S1048576x1, .f32⟩ : BufTy).Contents (Elt F)),
    StableHlo.reshape main_v235 main_v236 rfl shapeCasts_S1048576x1_S1048576,
    StableHlo.nullary main_cst_74 (constant S_ .f32 0x3F800000#32),
    StableHlo.unary main_cst_74 main_v237 (broadcastInDim S1048576 ![] bcast_S_S1048576 : (⟨S_, .f32⟩ : BufTy).Contents (Elt F) → (⟨S1048576, .f32⟩ : BufTy).Contents (Elt F)),
    StableHlo.binary main_v234 main_v237 main_v238 (addf : (⟨S1048576, .f32⟩ : BufTy).Contents (Elt F) → (⟨S1048576, .f32⟩ : BufTy).Contents (Elt F) → (⟨S1048576, .f32⟩ : BufTy).Contents (Elt F)),
    StableHlo.nullary main_cst_75 (constant S_ .f32 0x3F000000#32),
    StableHlo.unary main_cst_75 main_v239 (broadcastInDim S1048576 ![] bcast_S_S1048576 : (⟨S_, .f32⟩ : BufTy).Contents (Elt F) → (⟨S1048576, .f32⟩ : BufTy).Contents (Elt F)),
    StableHlo.binary main_v238 main_v239 main_v240 (mulf : (⟨S1048576, .f32⟩ : BufTy).Contents (Elt F) → (⟨S1048576, .f32⟩ : BufTy).Contents (Elt F) → (⟨S1048576, .f32⟩ : BufTy).Contents (Elt F)),
    StableHlo.nullary main_cst_76 (constant S_ .f32 0x44000000#32),
    StableHlo.unary main_cst_76 main_v241 (broadcastInDim S1048576 ![] bcast_S_S1048576 : (⟨S_, .f32⟩ : BufTy).Contents (Elt F) → (⟨S1048576, .f32⟩ : BufTy).Contents (Elt F)),
    StableHlo.binary main_v240 main_v241 main_v242 (mulf : (⟨S1048576, .f32⟩ : BufTy).Contents (Elt F) → (⟨S1048576, .f32⟩ : BufTy).Contents (Elt F) → (⟨S1048576, .f32⟩ : BufTy).Contents (Elt F)),
    StableHlo.unary main_v242 main_v243 (Host.absf : (⟨S1048576, .f32⟩ : BufTy).Contents (Elt F) → (⟨S1048576, .f32⟩ : BufTy).Contents (Elt F)),
    StableHlo.nullary main_cst_77 (constant S_ .f32 0x44800000#32),
    StableHlo.unary main_cst_77 main_v244 (broadcastInDim S1048576 ![] bcast_S_S1048576 : (⟨S_, .f32⟩ : BufTy).Contents (Elt F) → (⟨S1048576, .f32⟩ : BufTy).Contents (Elt F)),
    StableHlo.binary main_v243 main_v244 main_v245 (Host.divf : (⟨S1048576, .f32⟩ : BufTy).Contents (Elt F) → (⟨S1048576, .f32⟩ : BufTy).Contents (Elt F) → (⟨S1048576, .f32⟩ : BufTy).Contents (Elt F)),
    StableHlo.unary main_v245 main_v246 (Host.floor : (⟨S1048576, .f32⟩ : BufTy).Contents (Elt F) → (⟨S1048576, .f32⟩ : BufTy).Contents (Elt F)),
    StableHlo.nullary main_cst_78 (constant S_ .f32 0x44800000#32),
    StableHlo.unary main_cst_78 main_v247 (broadcastInDim S1048576 ![] bcast_S_S1048576 : (⟨S_, .f32⟩ : BufTy).Contents (Elt F) → (⟨S1048576, .f32⟩ : BufTy).Contents (Elt F)),
    StableHlo.binary main_v247 main_v246 main_v248 (mulf : (⟨S1048576, .f32⟩ : BufTy).Contents (Elt F) → (⟨S1048576, .f32⟩ : BufTy).Contents (Elt F) → (⟨S1048576, .f32⟩ : BufTy).Contents (Elt F)),
    StableHlo.binary main_v243 main_v248 main_v249 (subf : (⟨S1048576, .f32⟩ : BufTy).Contents (Elt F) → (⟨S1048576, .f32⟩ : BufTy).Contents (Elt F) → (⟨S1048576, .f32⟩ : BufTy).Contents (Elt F)),
    StableHlo.nullary main_cst_79 (constant S_ .f32 0x44000000#32),
    StableHlo.unary main_cst_79 main_v250 (broadcastInDim S1048576 ![] bcast_S_S1048576 : (⟨S_, .f32⟩ : BufTy).Contents (Elt F) → (⟨S1048576, .f32⟩ : BufTy).Contents (Elt F)),
    StableHlo.binary main_v249 main_v250 main_v251 (cmpf .ogt : (⟨S1048576, .f32⟩ : BufTy).Contents (Elt F) → (⟨S1048576, .f32⟩ : BufTy).Contents (Elt F) → (⟨S1048576, .i1⟩ : BufTy).Contents (Elt F)),
    StableHlo.nullary main_cst_80 (constant S_ .f32 0x44800000#32),
    StableHlo.unary main_cst_80 main_v252 (broadcastInDim S1048576 ![] bcast_S_S1048576 : (⟨S_, .f32⟩ : BufTy).Contents (Elt F) → (⟨S1048576, .f32⟩ : BufTy).Contents (Elt F)),
    StableHlo.binary main_v252 main_v249 main_v253 (subf : (⟨S1048576, .f32⟩ : BufTy).Contents (Elt F) → (⟨S1048576, .f32⟩ : BufTy).Contents (Elt F) → (⟨S1048576, .f32⟩ : BufTy).Contents (Elt F)),
    StableHlo.TRef.ternary (.of main_v251 : StableHlo.TRef sig ⟨S1048576, .i1⟩) (.of main_v253 : StableHlo.TRef sig ⟨S1048576, .f32⟩) (.of main_v249 : StableHlo.TRef sig ⟨S1048576, .f32⟩) (.of main_v254 : StableHlo.TRef sig ⟨S1048576, .f32⟩) select,
    StableHlo.nullary main_cst_81 (constant S_ .f32 0x00000000#32),
    StableHlo.nullary main_cst_82 (constant S_ .f32 0x44000000#32),
    StableHlo.TRef.unary (.of main_cst_81 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S1048576, .f32⟩) (broadcastInDim S1048576 ![] bcast_S_S1048576),
    StableHlo.TRef.binary (.of main_call9_v1 : StableHlo.TRef sig ⟨S1048576, .f32⟩) (.of main_v254 : StableHlo.TRef sig ⟨S1048576, .f32⟩) (.of main_call9_v2 : StableHlo.TRef sig ⟨S1048576, .f32⟩) maximumf,
    StableHlo.TRef.unary (.of main_cst_82 : StableHlo.TRef sig ⟨S_, .f32⟩) (.of main_call9_v3 : StableHlo.TRef sig ⟨S_, .f32⟩) id,
    StableHlo.TRef.unary (.of main_call9_v3 : StableHlo.TRef sig ⟨S_, .f32⟩) (.of main_call9_v4 : StableHlo.TRef sig ⟨S1048576, .f32⟩) (broadcastInDim S1048576 ![] bcast_S_S1048576),
    StableHlo.TRef.binary (.of main_call9_v4 : StableHlo.TRef sig ⟨S1048576, .f32⟩) (.of main_call9_v2 : StableHlo.TRef sig ⟨S1048576, .f32⟩) (.of main_v255 : StableHlo.TRef sig ⟨S1048576, .f32⟩) minimumf,
    StableHlo.nullary main_cst_83 (constant S_ .f32 0x3F800000#32),
    StableHlo.unary main_cst_83 main_v256 (broadcastInDim S1048576 ![] bcast_S_S1048576 : (⟨S_, .f32⟩ : BufTy).Contents (Elt F) → (⟨S1048576, .f32⟩ : BufTy).Contents (Elt F)),
    StableHlo.binary main_v236 main_v256 main_v257 (addf : (⟨S1048576, .f32⟩ : BufTy).Contents (Elt F) → (⟨S1048576, .f32⟩ : BufTy).Contents (Elt F) → (⟨S1048576, .f32⟩ : BufTy).Contents (Elt F)),
    StableHlo.nullary main_cst_84 (constant S_ .f32 0x3F000000#32),
    StableHlo.unary main_cst_84 main_v258 (broadcastInDim S1048576 ![] bcast_S_S1048576 : (⟨S_, .f32⟩ : BufTy).Contents (Elt F) → (⟨S1048576, .f32⟩ : BufTy).Contents (Elt F)),
    StableHlo.binary main_v257 main_v258 main_v259 (mulf : (⟨S1048576, .f32⟩ : BufTy).Contents (Elt F) → (⟨S1048576, .f32⟩ : BufTy).Contents (Elt F) → (⟨S1048576, .f32⟩ : BufTy).Contents (Elt F)),
    StableHlo.nullary main_cst_85 (constant S_ .f32 0x44000000#32),
    StableHlo.unary main_cst_85 main_v260 (broadcastInDim S1048576 ![] bcast_S_S1048576 : (⟨S_, .f32⟩ : BufTy).Contents (Elt F) → (⟨S1048576, .f32⟩ : BufTy).Contents (Elt F)),
    StableHlo.binary main_v259 main_v260 main_v261 (mulf : (⟨S1048576, .f32⟩ : BufTy).Contents (Elt F) → (⟨S1048576, .f32⟩ : BufTy).Contents (Elt F) → (⟨S1048576, .f32⟩ : BufTy).Contents (Elt F)),
    StableHlo.unary main_v261 main_v262 (Host.absf : (⟨S1048576, .f32⟩ : BufTy).Contents (Elt F) → (⟨S1048576, .f32⟩ : BufTy).Contents (Elt F)),
    StableHlo.nullary main_cst_86 (constant S_ .f32 0x44800000#32),
    StableHlo.unary main_cst_86 main_v263 (broadcastInDim S1048576 ![] bcast_S_S1048576 : (⟨S_, .f32⟩ : BufTy).Contents (Elt F) → (⟨S1048576, .f32⟩ : BufTy).Contents (Elt F)),
    StableHlo.binary main_v262 main_v263 main_v264 (Host.divf : (⟨S1048576, .f32⟩ : BufTy).Contents (Elt F) → (⟨S1048576, .f32⟩ : BufTy).Contents (Elt F) → (⟨S1048576, .f32⟩ : BufTy).Contents (Elt F)),
    StableHlo.unary main_v264 main_v265 (Host.floor : (⟨S1048576, .f32⟩ : BufTy).Contents (Elt F) → (⟨S1048576, .f32⟩ : BufTy).Contents (Elt F)),
    StableHlo.nullary main_cst_87 (constant S_ .f32 0x44800000#32),
    StableHlo.unary main_cst_87 main_v266 (broadcastInDim S1048576 ![] bcast_S_S1048576 : (⟨S_, .f32⟩ : BufTy).Contents (Elt F) → (⟨S1048576, .f32⟩ : BufTy).Contents (Elt F)),
    StableHlo.binary main_v266 main_v265 main_v267 (mulf : (⟨S1048576, .f32⟩ : BufTy).Contents (Elt F) → (⟨S1048576, .f32⟩ : BufTy).Contents (Elt F) → (⟨S1048576, .f32⟩ : BufTy).Contents (Elt F)),
    StableHlo.binary main_v262 main_v267 main_v268 (subf : (⟨S1048576, .f32⟩ : BufTy).Contents (Elt F) → (⟨S1048576, .f32⟩ : BufTy).Contents (Elt F) → (⟨S1048576, .f32⟩ : BufTy).Contents (Elt F)),
    StableHlo.nullary main_cst_88 (constant S_ .f32 0x44000000#32),
    StableHlo.unary main_cst_88 main_v269 (broadcastInDim S1048576 ![] bcast_S_S1048576 : (⟨S_, .f32⟩ : BufTy).Contents (Elt F) → (⟨S1048576, .f32⟩ : BufTy).Contents (Elt F)),
    StableHlo.binary main_v268 main_v269 main_v270 (cmpf .ogt : (⟨S1048576, .f32⟩ : BufTy).Contents (Elt F) → (⟨S1048576, .f32⟩ : BufTy).Contents (Elt F) → (⟨S1048576, .i1⟩ : BufTy).Contents (Elt F)),
    StableHlo.nullary main_cst_89 (constant S_ .f32 0x44800000#32),
    StableHlo.unary main_cst_89 main_v271 (broadcastInDim S1048576 ![] bcast_S_S1048576 : (⟨S_, .f32⟩ : BufTy).Contents (Elt F) → (⟨S1048576, .f32⟩ : BufTy).Contents (Elt F)),
    StableHlo.binary main_v271 main_v268 main_v272 (subf : (⟨S1048576, .f32⟩ : BufTy).Contents (Elt F) → (⟨S1048576, .f32⟩ : BufTy).Contents (Elt F) → (⟨S1048576, .f32⟩ : BufTy).Contents (Elt F)),
    StableHlo.TRef.ternary (.of main_v270 : StableHlo.TRef sig ⟨S1048576, .i1⟩) (.of main_v272 : StableHlo.TRef sig ⟨S1048576, .f32⟩) (.of main_v268 : StableHlo.TRef sig ⟨S1048576, .f32⟩) (.of main_v273 : StableHlo.TRef sig ⟨S1048576, .f32⟩) select,
    StableHlo.nullary main_cst_90 (constant S_ .f32 0x00000000#32),
    StableHlo.nullary main_cst_91 (constant S_ .f32 0x44000000#32),
    StableHlo.TRef.unary (.of main_cst_90 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S1048576, .f32⟩) (broadcastInDim S1048576 ![] bcast_S_S1048576),
    StableHlo.TRef.binary (.of main_call11_v1 : StableHlo.TRef sig ⟨S1048576, .f32⟩) (.of main_v273 : StableHlo.TRef sig ⟨S1048576, .f32⟩) (.of main_call11_v2 : StableHlo.TRef sig ⟨S1048576, .f32⟩) maximumf,
    StableHlo.TRef.unary (.of main_cst_91 : StableHlo.TRef sig ⟨S_, .f32⟩) (.of main_call11_v3 : StableHlo.TRef sig ⟨S_, .f32⟩) id,
    StableHlo.TRef.unary (.of main_call11_v3 : StableHlo.TRef sig ⟨S_, .f32⟩) (.of main_call11_v4 : StableHlo.TRef sig ⟨S1048576, .f32⟩) (broadcastInDim S1048576 ![] bcast_S_S1048576),
    StableHlo.TRef.binary (.of main_call11_v4 : StableHlo.TRef sig ⟨S1048576, .f32⟩) (.of main_call11_v2 : StableHlo.TRef sig ⟨S1048576, .f32⟩) (.of main_v274 : StableHlo.TRef sig ⟨S1048576, .f32⟩) minimumf,
    StableHlo.unary main_v255 main_v275 (Host.floor : (⟨S1048576, .f32⟩ : BufTy).Contents (Elt F) → (⟨S1048576, .f32⟩ : BufTy).Contents (Elt F)),
    StableHlo.unary main_v274 main_v276 (Host.floor : (⟨S1048576, .f32⟩ : BufTy).Contents (Elt F) → (⟨S1048576, .f32⟩ : BufTy).Contents (Elt F)),
    StableHlo.binary main_v255 main_v275 main_v277 (subf : (⟨S1048576, .f32⟩ : BufTy).Contents (Elt F) → (⟨S1048576, .f32⟩ : BufTy).Contents (Elt F) → (⟨S1048576, .f32⟩ : BufTy).Contents (Elt F)),
    StableHlo.binary main_v274 main_v276 main_v278 (subf : (⟨S1048576, .f32⟩ : BufTy).Contents (Elt F) → (⟨S1048576, .f32⟩ : BufTy).Contents (Elt F) → (⟨S1048576, .f32⟩ : BufTy).Contents (Elt F)),
    StableHlo.unary main_v275 main_v279 (fptosi 32 : (⟨S1048576, .f32⟩ : BufTy).Contents (Elt F) → (⟨S1048576, .i32⟩ : BufTy).Contents (Elt F)),
    StableHlo.unary main_v276 main_v280 (fptosi 32 : (⟨S1048576, .f32⟩ : BufTy).Contents (Elt F) → (⟨S1048576, .i32⟩ : BufTy).Contents (Elt F)),
    StableHlo.nullary main_c_92 (constantI S_ 32 1#32),
    StableHlo.unary main_c_92 main_v281 (broadcastInDim S1048576 ![] bcast_S_S1048576 : (⟨S_, .i32⟩ : BufTy).Contents (Elt F) → (⟨S1048576, .i32⟩ : BufTy).Contents (Elt F)),
    StableHlo.binary main_v279 main_v281 main_v282 (addi : (⟨S1048576, .i32⟩ : BufTy).Contents (Elt F) → (⟨S1048576, .i32⟩ : BufTy).Contents (Elt F) → (⟨S1048576, .i32⟩ : BufTy).Contents (Elt F)),
    StableHlo.nullary main_c_93 (constantI S_ 32 512#32),
    StableHlo.unary main_c_93 main_v283 (broadcastInDim S1048576 ![] bcast_S_S1048576 : (⟨S_, .i32⟩ : BufTy).Contents (Elt F) → (⟨S1048576, .i32⟩ : BufTy).Contents (Elt F)),
    StableHlo.binary main_v282 main_v283 main_v284 (minsi : (⟨S1048576, .i32⟩ : BufTy).Contents (Elt F) → (⟨S1048576, .i32⟩ : BufTy).Contents (Elt F) → (⟨S1048576, .i32⟩ : BufTy).Contents (Elt F)),
    StableHlo.nullary main_c_94 (constantI S_ 32 1#32),
    StableHlo.unary main_c_94 main_v285 (broadcastInDim S1048576 ![] bcast_S_S1048576 : (⟨S_, .i32⟩ : BufTy).Contents (Elt F) → (⟨S1048576, .i32⟩ : BufTy).Contents (Elt F)),
    StableHlo.binary main_v280 main_v285 main_v286 (addi : (⟨S1048576, .i32⟩ : BufTy).Contents (Elt F) → (⟨S1048576, .i32⟩ : BufTy).Contents (Elt F) → (⟨S1048576, .i32⟩ : BufTy).Contents (Elt F)),
    StableHlo.nullary main_c_95 (constantI S_ 32 512#32),
    StableHlo.unary main_c_95 main_v287 (broadcastInDim S1048576 ![] bcast_S_S1048576 : (⟨S_, .i32⟩ : BufTy).Contents (Elt F) → (⟨S1048576, .i32⟩ : BufTy).Contents (Elt F)),
    StableHlo.binary main_v286 main_v287 main_v288 (minsi : (⟨S1048576, .i32⟩ : BufTy).Contents (Elt F) → (⟨S1048576, .i32⟩ : BufTy).Contents (Elt F) → (⟨S1048576, .i32⟩ : BufTy).Contents (Elt F)),
    StableHlo.nullary main_c_96 (constantI S_ 32 0#32),
    StableHlo.unary main_c_96 main_v289 (broadcastInDim S1048576 ![] bcast_S_S1048576 : (⟨S_, .i32⟩ : BufTy).Contents (Elt F) → (⟨S1048576, .i32⟩ : BufTy).Contents (Elt F)),
    StableHlo.binary main_v280 main_v289 main_v290 (cmpi .slt : (⟨S1048576, .i32⟩ : BufTy).Contents (Elt F) → (⟨S1048576, .i32⟩ : BufTy).Contents (Elt F) → (⟨S1048576, .i1⟩ : BufTy).Contents (Elt F)),
    StableHlo.nullary main_c_97 (constantI S_ 32 513#32),
    StableHlo.unary main_c_97 main_v291 (broadcastInDim S1048576 ![] bcast_S_S1048576 : (⟨S_, .i32⟩ : BufTy).Contents (Elt F) → (⟨S1048576, .i32⟩ : BufTy).Contents (Elt F)),
    StableHlo.binary main_v280 main_v291 main_v292 (addi : (⟨S1048576, .i32⟩ : BufTy).Contents (Elt F) → (⟨S1048576, .i32⟩ : BufTy).Contents (Elt F) → (⟨S1048576, .i32⟩ : BufTy).Contents (Elt F)),
    StableHlo.ternary main_v290 main_v292 main_v280 main_v293 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_98 (constantI S_ 32 0#32),
    StableHlo.unary main_c_98 main_v294 (broadcastInDim S1048576 ![] bcast_S_S1048576 : (⟨S_, .i32⟩ : BufTy).Contents (Elt F) → (⟨S1048576, .i32⟩ : BufTy).Contents (Elt F)),
    StableHlo.binary main_v279 main_v294 main_v295 (cmpi .slt : (⟨S1048576, .i32⟩ : BufTy).Contents (Elt F) → (⟨S1048576, .i32⟩ : BufTy).Contents (Elt F) → (⟨S1048576, .i1⟩ : BufTy).Contents (Elt F)),
    StableHlo.nullary main_c_99 (constantI S_ 32 513#32),
    StableHlo.unary main_c_99 main_v296 (broadcastInDim S1048576 ![] bcast_S_S1048576 : (⟨S_, .i32⟩ : BufTy).Contents (Elt F) → (⟨S1048576, .i32⟩ : BufTy).Contents (Elt F)),
    StableHlo.binary main_v279 main_v296 main_v297 (addi : (⟨S1048576, .i32⟩ : BufTy).Contents (Elt F) → (⟨S1048576, .i32⟩ : BufTy).Contents (Elt F) → (⟨S1048576, .i32⟩ : BufTy).Contents (Elt F)),
    StableHlo.ternary main_v295 main_v297 main_v279 main_v298 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v293 main_v299 (broadcastInDim S1048576x1 ![0] bcast_S1048576_S1048576x1_0 : (⟨S1048576, .i32⟩ : BufTy).Contents (Elt F) → (⟨S1048576x1, .i32⟩ : BufTy).Contents (Elt F)),
    StableHlo.unary main_v298 main_v300 (broadcastInDim S1048576x1 ![0] bcast_S1048576_S1048576x1_0 : (⟨S1048576, .i32⟩ : BufTy).Contents (Elt F) → (⟨S1048576x1, .i32⟩ : BufTy).Contents (Elt F)),
    StableHlo.binary main_v299 main_v300 main_v301 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v301 main_v302 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v302 main_v303 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_100 (constantI S_ 32 0#32),
    StableHlo.unary main_c_100 main_v304 (broadcastInDim S1048576 ![] bcast_S_S1048576 : (⟨S_, .i32⟩ : BufTy).Contents (Elt F) → (⟨S1048576, .i32⟩ : BufTy).Contents (Elt F)),
    StableHlo.binary main_v280 main_v304 main_v305 (cmpi .slt : (⟨S1048576, .i32⟩ : BufTy).Contents (Elt F) → (⟨S1048576, .i32⟩ : BufTy).Contents (Elt F) → (⟨S1048576, .i1⟩ : BufTy).Contents (Elt F)),
    StableHlo.nullary main_c_101 (constantI S_ 32 513#32),
    StableHlo.unary main_c_101 main_v306 (broadcastInDim S1048576 ![] bcast_S_S1048576 : (⟨S_, .i32⟩ : BufTy).Contents (Elt F) → (⟨S1048576, .i32⟩ : BufTy).Contents (Elt F)),
    StableHlo.binary main_v280 main_v306 main_v307 (addi : (⟨S1048576, .i32⟩ : BufTy).Contents (Elt F) → (⟨S1048576, .i32⟩ : BufTy).Contents (Elt F) → (⟨S1048576, .i32⟩ : BufTy).Contents (Elt F)),
    StableHlo.ternary main_v305 main_v307 main_v280 main_v308 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_102 (constantI S_ 32 0#32),
    StableHlo.unary main_c_102 main_v309 (broadcastInDim S1048576 ![] bcast_S_S1048576 : (⟨S_, .i32⟩ : BufTy).Contents (Elt F) → (⟨S1048576, .i32⟩ : BufTy).Contents (Elt F)),
    StableHlo.binary main_v284 main_v309 main_v310 (cmpi .slt : (⟨S1048576, .i32⟩ : BufTy).Contents (Elt F) → (⟨S1048576, .i32⟩ : BufTy).Contents (Elt F) → (⟨S1048576, .i1⟩ : BufTy).Contents (Elt F)),
    StableHlo.nullary main_c_103 (constantI S_ 32 513#32),
    StableHlo.unary main_c_103 main_v311 (broadcastInDim S1048576 ![] bcast_S_S1048576 : (⟨S_, .i32⟩ : BufTy).Contents (Elt F) → (⟨S1048576, .i32⟩ : BufTy).Contents (Elt F)),
    StableHlo.binary main_v284 main_v311 main_v312 (addi : (⟨S1048576, .i32⟩ : BufTy).Contents (Elt F) → (⟨S1048576, .i32⟩ : BufTy).Contents (Elt F) → (⟨S1048576, .i32⟩ : BufTy).Contents (Elt F)),
    StableHlo.ternary main_v310 main_v312 main_v284 main_v313 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v308 main_v314 (broadcastInDim S1048576x1 ![0] bcast_S1048576_S1048576x1_0 : (⟨S1048576, .i32⟩ : BufTy).Contents (Elt F) → (⟨S1048576x1, .i32⟩ : BufTy).Contents (Elt F)),
    StableHlo.unary main_v313 main_v315 (broadcastInDim S1048576x1 ![0] bcast_S1048576_S1048576x1_0 : (⟨S1048576, .i32⟩ : BufTy).Contents (Elt F) → (⟨S1048576x1, .i32⟩ : BufTy).Contents (Elt F)),
    StableHlo.binary main_v314 main_v315 main_v316 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v316 main_v317 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v317 main_v318 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_104 (constantI S_ 32 0#32),
    StableHlo.unary main_c_104 main_v319 (broadcastInDim S1048576 ![] bcast_S_S1048576 : (⟨S_, .i32⟩ : BufTy).Contents (Elt F) → (⟨S1048576, .i32⟩ : BufTy).Contents (Elt F)),
    StableHlo.binary main_v288 main_v319 main_v320 (cmpi .slt : (⟨S1048576, .i32⟩ : BufTy).Contents (Elt F) → (⟨S1048576, .i32⟩ : BufTy).Contents (Elt F) → (⟨S1048576, .i1⟩ : BufTy).Contents (Elt F)),
    StableHlo.nullary main_c_105 (constantI S_ 32 513#32),
    StableHlo.unary main_c_105 main_v321 (broadcastInDim S1048576 ![] bcast_S_S1048576 : (⟨S_, .i32⟩ : BufTy).Contents (Elt F) → (⟨S1048576, .i32⟩ : BufTy).Contents (Elt F)),
    StableHlo.binary main_v288 main_v321 main_v322 (addi : (⟨S1048576, .i32⟩ : BufTy).Contents (Elt F) → (⟨S1048576, .i32⟩ : BufTy).Contents (Elt F) → (⟨S1048576, .i32⟩ : BufTy).Contents (Elt F)),
    StableHlo.ternary main_v320 main_v322 main_v288 main_v323 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_106 (constantI S_ 32 0#32),
    StableHlo.unary main_c_106 main_v324 (broadcastInDim S1048576 ![] bcast_S_S1048576 : (⟨S_, .i32⟩ : BufTy).Contents (Elt F) → (⟨S1048576, .i32⟩ : BufTy).Contents (Elt F)),
    StableHlo.binary main_v279 main_v324 main_v325 (cmpi .slt : (⟨S1048576, .i32⟩ : BufTy).Contents (Elt F) → (⟨S1048576, .i32⟩ : BufTy).Contents (Elt F) → (⟨S1048576, .i1⟩ : BufTy).Contents (Elt F)),
    StableHlo.nullary main_c_107 (constantI S_ 32 513#32),
    StableHlo.unary main_c_107 main_v326 (broadcastInDim S1048576 ![] bcast_S_S1048576 : (⟨S_, .i32⟩ : BufTy).Contents (Elt F) → (⟨S1048576, .i32⟩ : BufTy).Contents (Elt F)),
    StableHlo.binary main_v279 main_v326 main_v327 (addi : (⟨S1048576, .i32⟩ : BufTy).Contents (Elt F) → (⟨S1048576, .i32⟩ : BufTy).Contents (Elt F) → (⟨S1048576, .i32⟩ : BufTy).Contents (Elt F)),
    StableHlo.ternary main_v325 main_v327 main_v279 main_v328 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v323 main_v329 (broadcastInDim S1048576x1 ![0] bcast_S1048576_S1048576x1_0 : (⟨S1048576, .i32⟩ : BufTy).Contents (Elt F) → (⟨S1048576x1, .i32⟩ : BufTy).Contents (Elt F)),
    StableHlo.unary main_v328 main_v330 (broadcastInDim S1048576x1 ![0] bcast_S1048576_S1048576x1_0 : (⟨S1048576, .i32⟩ : BufTy).Contents (Elt F) → (⟨S1048576x1, .i32⟩ : BufTy).Contents (Elt F)),
    StableHlo.binary main_v329 main_v330 main_v331 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v331 main_v332 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v332 main_v333 ((transpose S1048576x32 [1, 0] · transposes_S32x1048576_S1048576x32_1_0) : (⟨S32x1048576, .f32⟩ : BufTy).Contents (Elt F) → (⟨S1048576x32, .f32⟩ : BufTy).Contents (Elt F)),
    StableHlo.nullary main_c_108 (constantI S_ 32 0#32),
    StableHlo.unary main_c_108 main_v334 (broadcastInDim S1048576 ![] bcast_S_S1048576 : (⟨S_, .i32⟩ : BufTy).Contents (Elt F) → (⟨S1048576, .i32⟩ : BufTy).Contents (Elt F)),
    StableHlo.binary main_v288 main_v334 main_v335 (cmpi .slt : (⟨S1048576, .i32⟩ : BufTy).Contents (Elt F) → (⟨S1048576, .i32⟩ : BufTy).Contents (Elt F) → (⟨S1048576, .i1⟩ : BufTy).Contents (Elt F)),
    StableHlo.nullary main_c_109 (constantI S_ 32 513#32),
    StableHlo.unary main_c_109 main_v336 (broadcastInDim S1048576 ![] bcast_S_S1048576 : (⟨S_, .i32⟩ : BufTy).Contents (Elt F) → (⟨S1048576, .i32⟩ : BufTy).Contents (Elt F)),
    StableHlo.binary main_v288 main_v336 main_v337 (addi : (⟨S1048576, .i32⟩ : BufTy).Contents (Elt F) → (⟨S1048576, .i32⟩ : BufTy).Contents (Elt F) → (⟨S1048576, .i32⟩ : BufTy).Contents (Elt F)),
    StableHlo.ternary main_v335 main_v337 main_v288 main_v338 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_110 (constantI S_ 32 0#32),
    StableHlo.unary main_c_110 main_v339 (broadcastInDim S1048576 ![] bcast_S_S1048576 : (⟨S_, .i32⟩ : BufTy).Contents (Elt F) → (⟨S1048576, .i32⟩ : BufTy).Contents (Elt F)),
    StableHlo.binary main_v284 main_v339 main_v340 (cmpi .slt : (⟨S1048576, .i32⟩ : BufTy).Contents (Elt F) → (⟨S1048576, .i32⟩ : BufTy).Contents (Elt F) → (⟨S1048576, .i1⟩ : BufTy).Contents (Elt F)),
    StableHlo.nullary main_c_111 (constantI S_ 32 513#32),
    StableHlo.unary main_c_111 main_v341 (broadcastInDim S1048576 ![] bcast_S_S1048576 : (⟨S_, .i32⟩ : BufTy).Contents (Elt F) → (⟨S1048576, .i32⟩ : BufTy).Contents (Elt F)),
    StableHlo.binary main_v284 main_v341 main_v342 (addi : (⟨S1048576, .i32⟩ : BufTy).Contents (Elt F) → (⟨S1048576, .i32⟩ : BufTy).Contents (Elt F) → (⟨S1048576, .i32⟩ : BufTy).Contents (Elt F)),
    StableHlo.ternary main_v340 main_v342 main_v284 main_v343 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v338 main_v344 (broadcastInDim S1048576x1 ![0] bcast_S1048576_S1048576x1_0 : (⟨S1048576, .i32⟩ : BufTy).Contents (Elt F) → (⟨S1048576x1, .i32⟩ : BufTy).Contents (Elt F)),
    StableHlo.unary main_v343 main_v345 (broadcastInDim S1048576x1 ![0] bcast_S1048576_S1048576x1_0 : (⟨S1048576, .i32⟩ : BufTy).Contents (Elt F) → (⟨S1048576x1, .i32⟩ : BufTy).Contents (Elt F)),
    StableHlo.binary main_v344 main_v345 main_v346 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v346 main_v347 ((fun x i => Host.gather gather_S32x513x513_S1048576x2_S32x1048576_0_12_n_n_12_1_3211 x i) : (⟨S32x513x513, .f32⟩ : BufTy).Contents (Elt F) → (⟨S1048576x2, .i32⟩ : BufTy).Contents (Elt F) → (⟨S32x1048576, .f32⟩ : BufTy).Contents (Elt F)),
    StableHlo.unary main_v347 main_v348 ((transpose S1048576x32 [1, 0] · transposes_S32x1048576_S1048576x32_1_0) : (⟨S32x1048576, .f32⟩ : BufTy).Contents (Elt F) → (⟨S1048576x32, .f32⟩ : BufTy).Contents (Elt F)) ]
abbrev P3 : List (HloOp τ sig (Elt F)) :=
  [
    StableHlo.unary main_v71 main_v349 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v187 main_v350 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v303 main_v351 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.nary ![main_v349, main_v350, main_v351] main_v352 (fun u => concatenate S1048576x3x32 1 [⟨S1048576x1x32, u 0⟩, ⟨S1048576x1x32, u 1⟩, ⟨S1048576x1x32, u 2⟩] concatenates_S1048576x1x32_S1048576x1x32_S1048576x1x32_S1048576x3x32_d1),
    StableHlo.unary main_v86 main_v353 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v202 main_v354 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v318 main_v355 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.nary ![main_v353, main_v354, main_v355] main_v356 (fun u => concatenate S1048576x3x32 1 [⟨S1048576x1x32, u 0⟩, ⟨S1048576x1x32, u 1⟩, ⟨S1048576x1x32, u 2⟩] concatenates_S1048576x1x32_S1048576x1x32_S1048576x1x32_S1048576x3x32_d1),
    StableHlo.unary main_v101 main_v357 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v217 main_v358 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v333 main_v359 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.nary ![main_v357, main_v358, main_v359] main_v360 (fun u => concatenate S1048576x3x32 1 [⟨S1048576x1x32, u 0⟩, ⟨S1048576x1x32, u 1⟩, ⟨S1048576x1x32, u 2⟩] concatenates_S1048576x1x32_S1048576x1x32_S1048576x1x32_S1048576x3x32_d1),
    StableHlo.unary main_v116 main_v361 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v232 main_v362 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.unary main_v348 main_v363 (broadcastInDim S1048576x1x32 ![0, 2] bcast_S1048576x32_S1048576x1x32_0_2 : (⟨S1048576x32, .f32⟩ : BufTy).Contents (Elt F) → (⟨S1048576x1x32, .f32⟩ : BufTy).Contents (Elt F)),
    StableHlo.nary ![main_v361, main_v362, main_v363] main_v364 (fun u => concatenate S1048576x3x32 1 [⟨S1048576x1x32, u 0⟩, ⟨S1048576x1x32, u 1⟩, ⟨S1048576x1x32, u 2⟩] concatenates_S1048576x1x32_S1048576x1x32_S1048576x1x32_S1048576x3x32_d1),
    StableHlo.unary main_v45 main_v365 (broadcastInDim S1048576x1 ![0] bcast_S1048576_S1048576x1_0 : (⟨S1048576, .f32⟩ : BufTy).Contents (Elt F) → (⟨S1048576x1, .f32⟩ : BufTy).Contents (Elt F)),
    StableHlo.unary main_v161 main_v366 (broadcastInDim S1048576x1 ![0] bcast_S1048576_S1048576x1_0 : (⟨S1048576, .f32⟩ : BufTy).Contents (Elt F) → (⟨S1048576x1, .f32⟩ : BufTy).Contents (Elt F)),
    StableHlo.unary main_v277 main_v367 (broadcastInDim S1048576x1 ![0] bcast_S1048576_S1048576x1_0 : (⟨S1048576, .f32⟩ : BufTy).Contents (Elt F) → (⟨S1048576x1, .f32⟩ : BufTy).Contents (Elt F)),
    StableHlo.nary ![main_v365, main_v366, main_v367] main_v368 (fun u => concatenate S1048576x3 1 [⟨S1048576x1, u 0⟩, ⟨S1048576x1, u 1⟩, ⟨S1048576x1, u 2⟩] concatenates_S1048576x1_S1048576x1_S1048576x1_S1048576x3_d1),
    StableHlo.unary main_v368 main_v369 (broadcastInDim S1048576x3x1 ![0, 1] bcast_S1048576x3_S1048576x3x1_0_1 : (⟨S1048576x3, .f32⟩ : BufTy).Contents (Elt F) → (⟨S1048576x3x1, .f32⟩ : BufTy).Contents (Elt F)),
    StableHlo.unary main_v46 main_v370 (broadcastInDim S1048576x1 ![0] bcast_S1048576_S1048576x1_0 : (⟨S1048576, .f32⟩ : BufTy).Contents (Elt F) → (⟨S1048576x1, .f32⟩ : BufTy).Contents (Elt F)),
    StableHlo.unary main_v162 main_v371 (broadcastInDim S1048576x1 ![0] bcast_S1048576_S1048576x1_0 : (⟨S1048576, .f32⟩ : BufTy).Contents (Elt F) → (⟨S1048576x1, .f32⟩ : BufTy).Contents (Elt F)),
    StableHlo.unary main_v278 main_v372 (broadcastInDim S1048576x1 ![0] bcast_S1048576_S1048576x1_0 : (⟨S1048576, .f32⟩ : BufTy).Contents (Elt F) → (⟨S1048576x1, .f32⟩ : BufTy).Contents (Elt F)),
    StableHlo.nary ![main_v370, main_v371, main_v372] main_v373 (fun u => concatenate S1048576x3 1 [⟨S1048576x1, u 0⟩, ⟨S1048576x1, u 1⟩, ⟨S1048576x1, u 2⟩] concatenates_S1048576x1_S1048576x1_S1048576x1_S1048576x3_d1),
    StableHlo.unary main_v373 main_v374 (broadcastInDim S1048576x3x1 ![0, 1] bcast_S1048576x3_S1048576x3x1_0_1 : (⟨S1048576x3, .f32⟩ : BufTy).Contents (Elt F) → (⟨S1048576x3x1, .f32⟩ : BufTy).Contents (Elt F)) ]

set_option maxHeartbeats 4000000 in
/-- The 25 generated lists, flattened, are the four blocks in order. -/
theorem flatten_eq : (List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17, hostOps0_18,
    hostOps0_19, hostOps0_20, hostOps0_21, hostOps0_22, hostOps0_23, hostOps0_24] : List (HloOp τ sig (Elt F)))
    = P0 ++ (P1 ++ (P2 ++ P3)) := rfl

open Cert.Tri.Lay

/-- The coordinate map of coordinate `c` of every point. -/
abbrev pxl (c : Nat) (hs : S1048576x3.Slices ![0, c] S1048576x1) (x0 : FVec F S1048576x3 .f32) : FVec F S1048576 .f32 :=
  vpix S1048576 bcast_S_S1048576 (vcol c hs shapeCasts_S1048576x1_S1048576 x0)
/-- A corner word wrapped. -/
abbrev wr (k : IVec S1048576 32) : IVec S1048576 32 := vwrap S1048576 bcast_S_S1048576 k
abbrev lo (p : FVec F S1048576 .f32) : IVec S1048576 32 := vloI S1048576 p
abbrev hi (p : FVec F S1048576 .f32) : IVec S1048576 32 := vhiI S1048576 bcast_S_S1048576 p
/-- One corner of every point from a plane. -/
abbrev corner (plane : FVec F S32x513x513 .f32) (ky kx : IVec S1048576 32) : FVec F S1048576x32 .f32 :=
  vcorner bcast_S1048576_S1048576x1_0 concatenates_S1048576x1_S1048576x1_S1048576x2_d1
    gather_S32x513x513_S1048576x2_S32x1048576_0_12_n_n_12_1_3211 transposes_S32x1048576_S1048576x32_1_0 plane ky kx
abbrev st32 (a b c : FVec F S1048576x32 .f32) : FVec F S1048576x3x32 .f32 :=
  stack32 bcast_S1048576x32_S1048576x1x32_0_2 concatenates_S1048576x1x32_S1048576x1x32_S1048576x1x32_S1048576x3x32_d1 a b c
abbrev stW (a b c : FVec F S1048576 .f32) : FVec F S1048576x3x1 .f32 :=
  stackW bcast_S1048576_S1048576x1_0 concatenates_S1048576x1_S1048576x1_S1048576x1_S1048576x3_d1 bcast_S1048576x3_S1048576x3x1_0_1 a b c
abbrev flat (x : FVec F S4x262144x3 .f32) : FVec F S1048576x3 .f32 := vflat shapeCasts_S4x262144x3_S1048576x3 x

/-- An operation over a literal family of three operands leaves its function of the three operands' contents, each at
    its own buffer. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

macro "after_results3" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## Block 0: plane 0 -/

set_option maxHeartbeats 8000000 in
theorem P0_v0 (V : Valuation τ sig (Elt F)) :
    after (P0 (F := F)) V (Proc.devRef .tc main_v0) = flat (V (Proc.devRef .tc main_arg0)) := by
  after_results_simp
  rfl

set_option maxHeartbeats 8000000 in
theorem P0_v45 (V : Valuation τ sig (Elt F)) :
    after (P0 (F := F)) V (Proc.devRef .tc main_v45) = vfrac S1048576 (pxl 1 slices_S1048576x3_S1048576x1_0_1 (flat (V (Proc.devRef .tc main_arg0)))) := by
  after_results_simp
  rfl

set_option maxHeartbeats 8000000 in
theorem P0_v46 (V : Valuation τ sig (Elt F)) :
    after (P0 (F := F)) V (Proc.devRef .tc main_v46) = vfrac S1048576 (pxl 2 slices_S1048576x3_S1048576x1_0_2 (flat (V (Proc.devRef .tc main_arg0)))) := by
  after_results_simp
  rfl

set_option maxHeartbeats 8000000 in
theorem P0_v71 (V : Valuation τ sig (Elt F)) :
    after (P0 (F := F)) V (Proc.devRef .tc main_v71) = corner (V (Proc.devRef .tc main_arg1)) (wr (lo (pxl 2 slices_S1048576x3_S1048576x1_0_2 (flat (V (Proc.devRef .tc main_arg0)))))) (wr (lo (pxl 1 slices_S1048576x3_S1048576x1_0_1 (flat (V (Proc.devRef .tc main_arg0)))))) := by
  after_results_simp
  rfl

set_option maxHeartbeats 8000000 in
theorem P0_v86 (V : Valuation τ sig (Elt F)) :
    after (P0 (F := F)) V (Proc.devRef .tc main_v86) = corner (V (Proc.devRef .tc main_arg1)) (wr (lo (pxl 2 slices_S1048576x3_S1048576x1_0_2 (flat (V (Proc.devRef .tc main_arg0)))))) (wr (hi (pxl 1 slices_S1048576x3_S1048576x1_0_1 (flat (V (Proc.devRef .tc main_arg0)))))) := by
  after_results_simp
  rfl

set_option maxHeartbeats 8000000 in
theorem P0_v101 (V : Valuation τ sig (Elt F)) :
    after (P0 (F := F)) V (Proc.devRef .tc main_v101) = corner (V (Proc.devRef .tc main_arg1)) (wr (hi (pxl 2 slices_S1048576x3_S1048576x1_0_2 (flat (V (Proc.devRef .tc main_arg0)))))) (wr (lo (pxl 1 slices_S1048576x3_S1048576x1_0_1 (flat (V (Proc.devRef .tc main_arg0)))))) := by
  after_results_simp
  rfl

set_option maxHeartbeats 8000000 in
theorem P0_v116 (V : Valuation τ sig (Elt F)) :
    after (P0 (F := F)) V (Proc.devRef .tc main_v116) = corner (V (Proc.devRef .tc main_arg1)) (wr (hi (pxl 2 slices_S1048576x3_S1048576x1_0_2 (flat (V (Proc.devRef .tc main_arg0)))))) (wr (hi (pxl 1 slices_S1048576x3_S1048576x1_0_1 (flat (V (Proc.devRef .tc main_arg0)))))) := by
  after_results_simp
  rfl

set_option maxHeartbeats 8000000 in
theorem P0_fr_arg0 (V : Valuation τ sig (Elt F)) :
    after (P0 (F := F)) V (Proc.devRef .tc main_arg0) = V (Proc.devRef .tc main_arg0) := by
  after_results_simp

set_option maxHeartbeats 8000000 in
theorem P0_fr_arg1 (V : Valuation τ sig (Elt F)) :
    after (P0 (F := F)) V (Proc.devRef .tc main_arg1) = V (Proc.devRef .tc main_arg1) := by
  after_results_simp

set_option maxHeartbeats 8000000 in
theorem P0_fr_arg2 (V : Valuation τ sig (Elt F)) :
    after (P0 (F := F)) V (Proc.devRef .tc main_arg2) = V (Proc.devRef .tc main_arg2) := by
  after_results_simp

set_option maxHeartbeats 8000000 in
theorem P0_fr_arg3 (V : Valuation τ sig (Elt F)) :
    after (P0 (F := F)) V (Proc.devRef .tc main_arg3) = V (Proc.devRef .tc main_arg3) := by
  after_results_simp

/-! ## Block 1: plane 1 -/

set_option maxHeartbeats 8000000 in
theorem P1_v161 (V : Valuation τ sig (Elt F)) :
    after (P1 (F := F)) V (Proc.devRef .tc main_v161) = vfrac S1048576 (pxl 0 slices_S1048576x3_S1048576x1_0_0 (V (Proc.devRef .tc main_v0))) := by
  after_results_simp
  rfl

set_option maxHeartbeats 8000000 in
theorem P1_v162 (V : Valuation τ sig (Elt F)) :
    after (P1 (F := F)) V (Proc.devRef .tc main_v162) = vfrac S1048576 (pxl 2 slices_S1048576x3_S1048576x1_0_2 (V (Proc.devRef .tc main_v0))) := by
  after_results_simp
  rfl

set_option maxHeartbeats 8000000 in
theorem P1_v187 (V : Valuation τ sig (Elt F)) :
    after (P1 (F := F)) V (Proc.devRef .tc main_v187) = corner (V (Proc.devRef .tc main_arg2)) (wr (lo (pxl 2 slices_S1048576x3_S1048576x1_0_2 (V (Proc.devRef .tc main_v0))))) (wr (lo (pxl 0 slices_S1048576x3_S1048576x1_0_0 (V (Proc.devRef .tc main_v0))))) := by
  after_results_simp
  rfl

set_option maxHeartbeats 8000000 in
theorem P1_v202 (V : Valuation τ sig (Elt F)) :
    after (P1 (F := F)) V (Proc.devRef .tc main_v202) = corner (V (Proc.devRef .tc main_arg2)) (wr (lo (pxl 2 slices_S1048576x3_S1048576x1_0_2 (V (Proc.devRef .tc main_v0))))) (wr (hi (pxl 0 slices_S1048576x3_S1048576x1_0_0 (V (Proc.devRef .tc main_v0))))) := by
  after_results_simp
  rfl

set_option maxHeartbeats 8000000 in
theorem P1_v217 (V : Valuation τ sig (Elt F)) :
    after (P1 (F := F)) V (Proc.devRef .tc main_v217) = corner (V (Proc.devRef .tc main_arg2)) (wr (hi (pxl 2 slices_S1048576x3_S1048576x1_0_2 (V (Proc.devRef .tc main_v0))))) (wr (lo (pxl 0 slices_S1048576x3_S1048576x1_0_0 (V (Proc.devRef .tc main_v0))))) := by
  after_results_simp
  rfl

set_option maxHeartbeats 8000000 in
theorem P1_v232 (V : Valuation τ sig (Elt F)) :
    after (P1 (F := F)) V (Proc.devRef .tc main_v232) = corner (V (Proc.devRef .tc main_arg2)) (wr (hi (pxl 2 slices_S1048576x3_S1048576x1_0_2 (V (Proc.devRef .tc main_v0))))) (wr (hi (pxl 0 slices_S1048576x3_S1048576x1_0_0 (V (Proc.devRef .tc main_v0))))) := by
  after_results_simp
  rfl

set_option maxHeartbeats 8000000 in
theorem P1_fr_arg0 (V : Valuation τ sig (Elt F)) :
    after (P1 (F := F)) V (Proc.devRef .tc main_arg0) = V (Proc.devRef .tc main_arg0) := by
  after_results_simp

set_option maxHeartbeats 8000000 in
theorem P1_fr_arg1 (V : Valuation τ sig (Elt F)) :
    after (P1 (F := F)) V (Proc.devRef .tc main_arg1) = V (Proc.devRef .tc main_arg1) := by
  after_results_simp

set_option maxHeartbeats 8000000 in
theorem P1_fr_arg2 (V : Valuation τ sig (Elt F)) :
    after (P1 (F := F)) V (Proc.devRef .tc main_arg2) = V (Proc.devRef .tc main_arg2) := by
  after_results_simp

set_option maxHeartbeats 8000000 in
theorem P1_fr_arg3 (V : Valuation τ sig (Elt F)) :
    after (P1 (F := F)) V (Proc.devRef .tc main_arg3) = V (Proc.devRef .tc main_arg3) := by
  after_results_simp

set_option maxHeartbeats 8000000 in
theorem P1_fr_v0 (V : Valuation τ sig (Elt F)) :
    after (P1 (F := F)) V (Proc.devRef .tc main_v0) = V (Proc.devRef .tc main_v0) := by
  after_results_simp

set_option maxHeartbeats 8000000 in
theorem P1_fr_v45 (V : Valuation τ sig (Elt F)) :
    after (P1 (F := F)) V (Proc.devRef .tc main_v45) = V (Proc.devRef .tc main_v45) := by
  after_results_simp

set_option maxHeartbeats 8000000 in
theorem P1_fr_v46 (V : Valuation τ sig (Elt F)) :
    after (P1 (F := F)) V (Proc.devRef .tc main_v46) = V (Proc.devRef .tc main_v46) := by
  after_results_simp

set_option maxHeartbeats 8000000 in
theorem P1_fr_v71 (V : Valuation τ sig (Elt F)) :
    after (P1 (F := F)) V (Proc.devRef .tc main_v71) = V (Proc.devRef .tc main_v71) := by
  after_results_simp

set_option maxHeartbeats 8000000 in
theorem P1_fr_v86 (V : Valuation τ sig (Elt F)) :
    after (P1 (F := F)) V (Proc.devRef .tc main_v86) = V (Proc.devRef .tc main_v86) := by
  after_results_simp

set_option maxHeartbeats 8000000 in
theorem P1_fr_v101 (V : Valuation τ sig (Elt F)) :
    after (P1 (F := F)) V (Proc.devRef .tc main_v101) = V (Proc.devRef .tc main_v101) := by
  after_results_simp

set_option maxHeartbeats 8000000 in
theorem P1_fr_v116 (V : Valuation τ sig (Elt F)) :
    after (P1 (F := F)) V (Proc.devRef .tc main_v116) = V (Proc.devRef .tc main_v116) := by
  after_results_simp

/-! ## Block 2: plane 2 -/

set_option maxHeartbeats 8000000 in
theorem P2_v277 (V : Valuation τ sig (Elt F)) :
    after (P2 (F := F)) V (Proc.devRef .tc main_v277) = vfrac S1048576 (pxl 0 slices_S1048576x3_S1048576x1_0_0 (V (Proc.devRef .tc main_v0))) := by
  after_results_simp
  rfl

set_option maxHeartbeats 8000000 in
theorem P2_v278 (V : Valuation τ sig (Elt F)) :
    after (P2 (F := F)) V (Proc.devRef .tc main_v278) = vfrac S1048576 (pxl 1 slices_S1048576x3_S1048576x1_0_1 (V (Proc.devRef .tc main_v0))) := by
  after_results_simp
  rfl

set_option maxHeartbeats 8000000 in
theorem P2_v303 (V : Valuation τ sig (Elt F)) :
    after (P2 (F := F)) V (Proc.devRef .tc main_v303) = corner (V (Proc.devRef .tc main_arg3)) (wr (lo (pxl 1 slices_S1048576x3_S1048576x1_0_1 (V (Proc.devRef .tc main_v0))))) (wr (lo (pxl 0 slices_S1048576x3_S1048576x1_0_0 (V (Proc.devRef .tc main_v0))))) := by
  after_results_simp
  rfl

set_option maxHeartbeats 8000000 in
theorem P2_v318 (V : Valuation τ sig (Elt F)) :
    after (P2 (F := F)) V (Proc.devRef .tc main_v318) = corner (V (Proc.devRef .tc main_arg3)) (wr (lo (pxl 1 slices_S1048576x3_S1048576x1_0_1 (V (Proc.devRef .tc main_v0))))) (wr (hi (pxl 0 slices_S1048576x3_S1048576x1_0_0 (V (Proc.devRef .tc main_v0))))) := by
  after_results_simp
  rfl

set_option maxHeartbeats 8000000 in
theorem P2_v333 (V : Valuation τ sig (Elt F)) :
    after (P2 (F := F)) V (Proc.devRef .tc main_v333) = corner (V (Proc.devRef .tc main_arg3)) (wr (hi (pxl 1 slices_S1048576x3_S1048576x1_0_1 (V (Proc.devRef .tc main_v0))))) (wr (lo (pxl 0 slices_S1048576x3_S1048576x1_0_0 (V (Proc.devRef .tc main_v0))))) := by
  after_results_simp
  rfl

set_option maxHeartbeats 8000000 in
theorem P2_v348 (V : Valuation τ sig (Elt F)) :
    after (P2 (F := F)) V (Proc.devRef .tc main_v348) = corner (V (Proc.devRef .tc main_arg3)) (wr (hi (pxl 1 slices_S1048576x3_S1048576x1_0_1 (V (Proc.devRef .tc main_v0))))) (wr (hi (pxl 0 slices_S1048576x3_S1048576x1_0_0 (V (Proc.devRef .tc main_v0))))) := by
  after_results_simp
  rfl

set_option maxHeartbeats 8000000 in
theorem P2_fr_arg0 (V : Valuation τ sig (Elt F)) :
    after (P2 (F := F)) V (Proc.devRef .tc main_arg0) = V (Proc.devRef .tc main_arg0) := by
  after_results_simp

set_option maxHeartbeats 8000000 in
theorem P2_fr_arg1 (V : Valuation τ sig (Elt F)) :
    after (P2 (F := F)) V (Proc.devRef .tc main_arg1) = V (Proc.devRef .tc main_arg1) := by
  after_results_simp

set_option maxHeartbeats 8000000 in
theorem P2_fr_arg2 (V : Valuation τ sig (Elt F)) :
    after (P2 (F := F)) V (Proc.devRef .tc main_arg2) = V (Proc.devRef .tc main_arg2) := by
  after_results_simp

set_option maxHeartbeats 8000000 in
theorem P2_fr_arg3 (V : Valuation τ sig (Elt F)) :
    after (P2 (F := F)) V (Proc.devRef .tc main_arg3) = V (Proc.devRef .tc main_arg3) := by
  after_results_simp

set_option maxHeartbeats 8000000 in
theorem P2_fr_v45 (V : Valuation τ sig (Elt F)) :
    after (P2 (F := F)) V (Proc.devRef .tc main_v45) = V (Proc.devRef .tc main_v45) := by
  after_results_simp

set_option maxHeartbeats 8000000 in
theorem P2_fr_v46 (V : Valuation τ sig (Elt F)) :
    after (P2 (F := F)) V (Proc.devRef .tc main_v46) = V (Proc.devRef .tc main_v46) := by
  after_results_simp

set_option maxHeartbeats 8000000 in
theorem P2_fr_v71 (V : Valuation τ sig (Elt F)) :
    after (P2 (F := F)) V (Proc.devRef .tc main_v71) = V (Proc.devRef .tc main_v71) := by
  after_results_simp

set_option maxHeartbeats 8000000 in
theorem P2_fr_v86 (V : Valuation τ sig (Elt F)) :
    after (P2 (F := F)) V (Proc.devRef .tc main_v86) = V (Proc.devRef .tc main_v86) := by
  after_results_simp

set_option maxHeartbeats 8000000 in
theorem P2_fr_v101 (V : Valuation τ sig (Elt F)) :
    after (P2 (F := F)) V (Proc.devRef .tc main_v101) = V (Proc.devRef .tc main_v101) := by
  after_results_simp

set_option maxHeartbeats 8000000 in
theorem P2_fr_v116 (V : Valuation τ sig (Elt F)) :
    after (P2 (F := F)) V (Proc.devRef .tc main_v116) = V (Proc.devRef .tc main_v116) := by
  after_results_simp

set_option maxHeartbeats 8000000 in
theorem P2_fr_v161 (V : Valuation τ sig (Elt F)) :
    after (P2 (F := F)) V (Proc.devRef .tc main_v161) = V (Proc.devRef .tc main_v161) := by
  after_results_simp

set_option maxHeartbeats 8000000 in
theorem P2_fr_v162 (V : Valuation τ sig (Elt F)) :
    after (P2 (F := F)) V (Proc.devRef .tc main_v162) = V (Proc.devRef .tc main_v162) := by
  after_results_simp

set_option maxHeartbeats 8000000 in
theorem P2_fr_v187 (V : Valuation τ sig (Elt F)) :
    after (P2 (F := F)) V (Proc.devRef .tc main_v187) = V (Proc.devRef .tc main_v187) := by
  after_results_simp

set_option maxHeartbeats 8000000 in
theorem P2_fr_v202 (V : Valuation τ sig (Elt F)) :
    after (P2 (F := F)) V (Proc.devRef .tc main_v202) = V (Proc.devRef .tc main_v202) := by
  after_results_simp

set_option maxHeartbeats 8000000 in
theorem P2_fr_v217 (V : Valuation τ sig (Elt F)) :
    after (P2 (F := F)) V (Proc.devRef .tc main_v217) = V (Proc.devRef .tc main_v217) := by
  after_results_simp

set_option maxHeartbeats 8000000 in
theorem P2_fr_v232 (V : Valuation τ sig (Elt F)) :
    after (P2 (F := F)) V (Proc.devRef .tc main_v232) = V (Proc.devRef .tc main_v232) := by
  after_results_simp

/-! ## Block 3: the three planes' results stacked -/

set_option maxHeartbeats 8000000 in
theorem P3_v352 (V : Valuation τ sig (Elt F)) :
    after (P3 (F := F)) V (Proc.devRef .tc main_v352) = st32 (V (Proc.devRef .tc main_v71)) (V (Proc.devRef .tc main_v187)) (V (Proc.devRef .tc main_v303)) := by
  after_results3
  rfl

set_option maxHeartbeats 8000000 in
theorem P3_v356 (V : Valuation τ sig (Elt F)) :
    after (P3 (F := F)) V (Proc.devRef .tc main_v356) = st32 (V (Proc.devRef .tc main_v86)) (V (Proc.devRef .tc main_v202)) (V (Proc.devRef .tc main_v318)) := by
  after_results3
  rfl

set_option maxHeartbeats 8000000 in
theorem P3_v360 (V : Valuation τ sig (Elt F)) :
    after (P3 (F := F)) V (Proc.devRef .tc main_v360) = st32 (V (Proc.devRef .tc main_v101)) (V (Proc.devRef .tc main_v217)) (V (Proc.devRef .tc main_v333)) := by
  after_results3
  rfl

set_option maxHeartbeats 8000000 in
theorem P3_v364 (V : Valuation τ sig (Elt F)) :
    after (P3 (F := F)) V (Proc.devRef .tc main_v364) = st32 (V (Proc.devRef .tc main_v116)) (V (Proc.devRef .tc main_v232)) (V (Proc.devRef .tc main_v348)) := by
  after_results3
  rfl

set_option maxHeartbeats 8000000 in
theorem P3_v369 (V : Valuation τ sig (Elt F)) :
    after (P3 (F := F)) V (Proc.devRef .tc main_v369) = stW (V (Proc.devRef .tc main_v45)) (V (Proc.devRef .tc main_v161)) (V (Proc.devRef .tc main_v277)) := by
  after_results3
  rfl

set_option maxHeartbeats 8000000 in
theorem P3_v374 (V : Valuation τ sig (Elt F)) :
    after (P3 (F := F)) V (Proc.devRef .tc main_v374) = stW (V (Proc.devRef .tc main_v46)) (V (Proc.devRef .tc main_v162)) (V (Proc.devRef .tc main_v278)) := by
  after_results3
  rfl

set_option maxHeartbeats 8000000 in
theorem P3_fr_arg0 (V : Valuation τ sig (Elt F)) :
    after (P3 (F := F)) V (Proc.devRef .tc main_arg0) = V (Proc.devRef .tc main_arg0) := by
  after_results3

set_option maxHeartbeats 8000000 in
theorem P3_fr_arg1 (V : Valuation τ sig (Elt F)) :
    after (P3 (F := F)) V (Proc.devRef .tc main_arg1) = V (Proc.devRef .tc main_arg1) := by
  after_results3

set_option maxHeartbeats 8000000 in
theorem P3_fr_arg2 (V : Valuation τ sig (Elt F)) :
    after (P3 (F := F)) V (Proc.devRef .tc main_arg2) = V (Proc.devRef .tc main_arg2) := by
  after_results3

set_option maxHeartbeats 8000000 in
theorem P3_fr_arg3 (V : Valuation τ sig (Elt F)) :
    after (P3 (F := F)) V (Proc.devRef .tc main_arg3) = V (Proc.devRef .tc main_arg3) := by
  after_results3

end Cert.KernelIdeal.Host

end
-- ==== Proof.Spec.lean ====
/-
  The mathematics both programs compute, one output element at a time.

  A query point is a row `n` of the flattened batch (`n = b · 262144 + s`), a plane `p` of the three feature planes
  and a channel `ch`. Plane `p` is sampled at the point's two other coordinates (plane 0 at coordinates 1, 2;
  plane 1 at 0, 2; plane 2 at 0, 1): each coordinate `g` is sent to the pixel coordinate `(g + 1) · ½ · 512`, reflected
  into `[0, 512]` (`pix`); its floor is the low corner, low + 1 capped at 512 the high corner, the difference the
  weight. A corner index is read as a signed word, a negative one wrapped by 513, then clamped into `[0, 512]`
  (`pick`). The result is the bilinear combination of the four corners: the kernel multiplies each corner by the
  product of its two weights (`outK`), the reference multiplies it by one weight and then the other (`outR`);
  the two agree because the product of extended reals is associative (`outK_eq_outR`).
-/
import Idealize.ShloMosaic.PureOps.Ideal
import Idealize.ShloMosaic.Lib.ValueIdx

noncomputable section

namespace Cert.Tri

open Idealize.ShloMosaic Idealize.ShloMosaic.ValueIdx

variable {F : FTy → Type} [FloatOps F]

/-- The float constants of the coordinate map: 1, ½, 512, 1024, 0. -/
def one : F .f32 := FloatOps.ofBits .f32 0x3F800000#32
def half : F .f32 := FloatOps.ofBits .f32 0x3F000000#32
def c512 : F .f32 := FloatOps.ofBits .f32 0x44000000#32
def c1024 : F .f32 := FloatOps.ofBits .f32 0x44800000#32
def zero : F .f32 := FloatOps.ofBits .f32 0x00000000#32

/-- A coordinate `g` as a pixel coordinate: `t = (g + 1) · ½ · 512`, `a = |t|`, `r = a − 1024 · ⌊a / 1024⌋`,
    reflected (`1024 − r` when `r > 512`) and clipped into `[0, 512]`. -/
def pix (g : F .f32) : F .f32 :=
  FloatOps.minimumf c512 (FloatOps.maximumf zero
    (Scalar.select
      (FloatOps.cmpf .ogt
        (FloatOps.subf (FloatOps.hostAbsf (FloatOps.mulf (FloatOps.mulf (FloatOps.addf g one) half) c512))
          (FloatOps.mulf c1024 (FloatOps.hostUnary .floor
            (FloatOps.hostDivf (FloatOps.hostAbsf (FloatOps.mulf (FloatOps.mulf (FloatOps.addf g one) half) c512)) c1024))))
        c512)
      (FloatOps.subf c1024
        (FloatOps.subf (FloatOps.hostAbsf (FloatOps.mulf (FloatOps.mulf (FloatOps.addf g one) half) c512))
          (FloatOps.mulf c1024 (FloatOps.hostUnary .floor
            (FloatOps.hostDivf (FloatOps.hostAbsf (FloatOps.mulf (FloatOps.mulf (FloatOps.addf g one) half) c512)) c1024)))))
      (FloatOps.subf (FloatOps.hostAbsf (FloatOps.mulf (FloatOps.mulf (FloatOps.addf g one) half) c512))
        (FloatOps.mulf c1024 (FloatOps.hostUnary .floor
          (FloatOps.hostDivf (FloatOps.hostAbsf (FloatOps.mulf (FloatOps.mulf (FloatOps.addf g one) half) c512)) c1024))))))

/-- The low corner's coordinate as a float, the weight of the high corner, and the two corners as signed words. -/
def lo (g : F .f32) : F .f32 := FloatOps.hostUnary .floor (pix g)
def frac (g : F .f32) : F .f32 := FloatOps.subf (pix g) (lo g)
def loI (g : F .f32) : BitVec 32 := FloatOps.fptosi 32 (lo g)
def hiI (g : F .f32) : BitVec 32 := IntOp.minsi (IntOp.addi (loI g) 1#32) 512#32

/-- A negative index wraps by the axis length 513. -/
def wrap (k : BitVec 32) : BitVec 32 := Scalar.select (IntOp.cmpi .slt k 0#32) (IntOp.addi k 513#32) k

/-- Channel `ch` of a plane at the wrapped, clamped corner `(ky, kx)`. -/
def pick (plane : (⟨3, ![32, 513, 513]⟩ : Shape).Idx → F .f32) (ch : Fin 32) (ky kx : BitVec 32) : F .f32 :=
  plane (ix3 ch ⟨min (wrap ky).toInt.toNat 512, by omega⟩ ⟨min (wrap kx).toInt.toNat 512, by omega⟩)

/-- Which coordinate of a point indexes a plane's width and which its height. -/
def colX : Fin 3 → Fin 3 | 0 => 1 | 1 => 0 | 2 => 0
def colY : Fin 3 → Fin 3 | 0 => 2 | 1 => 2 | 2 => 1

/-- Coordinate `col` of point `n` of the flattened batch, in the unflattened array. -/
def coordAt (x : (⟨3, ![4, 262144, 3]⟩ : Shape).Idx → F .f32) (n : Fin 1048576) (col : Fin 3) : F .f32 :=
  x (ix3 ⟨n.val / 262144, by omega⟩ ⟨n.val % 262144, by omega⟩ col)

section
variable (x : (⟨3, ![4, 262144, 3]⟩ : Shape).Idx → F .f32)
  (f : Fin 3 → (⟨3, ![32, 513, 513]⟩ : Shape).Idx → F .f32) (n : Fin 1048576) (p : Fin 3) (ch : Fin 32)

def gX : F .f32 := coordAt x n (colX p)
def gY : F .f32 := coordAt x n (colY p)
/-- The four corners and the two weights. -/
def v00 : F .f32 := pick (f p) ch (loI (gY x n p)) (loI (gX x n p))
def v01 : F .f32 := pick (f p) ch (loI (gY x n p)) (hiI (gX x n p))
def v10 : F .f32 := pick (f p) ch (hiI (gY x n p)) (loI (gX x n p))
def v11 : F .f32 := pick (f p) ch (hiI (gY x n p)) (hiI (gX x n p))
def wX : F .f32 := frac (gX x n p)
def wY : F .f32 := frac (gY x n p)

/-- Each corner times the product of its two weights, summed left to right. -/
def outK : F .f32 :=
  FloatOps.addf (FloatOps.addf (FloatOps.addf
    (FloatOps.mulf (v00 x f n p ch) (FloatOps.mulf (FloatOps.subf one (wX x n p)) (FloatOps.subf one (wY x n p))))
    (FloatOps.mulf (v01 x f n p ch) (FloatOps.mulf (wX x n p) (FloatOps.subf one (wY x n p)))))
    (FloatOps.mulf (v10 x f n p ch) (FloatOps.mulf (FloatOps.subf one (wX x n p)) (wY x n p))))
    (FloatOps.mulf (v11 x f n p ch) (FloatOps.mulf (wX x n p) (wY x n p)))

/-- Each corner times one weight, then the other, summed left to right. -/
def outR : F .f32 :=
  FloatOps.addf (FloatOps.addf (FloatOps.addf
    (FloatOps.mulf (FloatOps.mulf (v00 x f n p ch) (FloatOps.subf one (wX x n p))) (FloatOps.subf one (wY x n p)))
    (FloatOps.mulf (FloatOps.mulf (v01 x f n p ch) (wX x n p)) (FloatOps.subf one (wY x n p))))
    (FloatOps.mulf (FloatOps.mulf (v10 x f n p ch) (FloatOps.subf one (wX x n p))) (wY x n p)))
    (FloatOps.mulf (FloatOps.mulf (v11 x f n p ch) (wX x n p)) (wY x n p))
end

/-- On the extended reals the two groupings agree: the product is associative. -/
theorem outK_eq_outR (x : (⟨3, ![4, 262144, 3]⟩ : Shape).Idx → Ideal .f32)
    (f : Fin 3 → (⟨3, ![32, 513, 513]⟩ : Shape).Idx → Ideal .f32) (n : Fin 1048576) (p : Fin 3) (ch : Fin 32) :
    outK (F := Ideal) x f n p ch = outR (F := Ideal) x f n p ch := by
  unfold outK outR
  simp only [Ideal.mulf_def, mul_assoc]

end Cert.Tri

end
-- ==== Proof.KernelHost.lean ====
/-
  The host program before the region, read at an index: after its operations, run from any contents `V` of the
  buffers, the six arrays the region reads hold the four corners and the two weights of the shared specification
  (Spec), computed from `V` at the four arguments; and the arguments are not written.
-/
import proofs.«174118_j37812892074356_2_alg».proof.Proof.HostBlocks
import proofs.«174118_j37812892074356_2_alg».proof.Proof.Spec

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.Tri.Lay

variable {F : FTy → Type} [FloatOps F]

/-- The host operations before the region: the 25 generated lists, in order. -/
abbrev hostAll : List (HloOp τ sig (Elt F)) :=
  List.flatten [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17, hostOps0_18,
    hostOps0_19, hostOps0_20, hostOps0_21, hostOps0_22, hostOps0_23, hostOps0_24]

/-- Run block by block. -/
theorem A_eq (V : Valuation τ sig (Elt F)) :
    after (hostAll (F := F)) V = after P3 (after P2 (after P1 (after P0 V))) := by
  show after (List.flatten _) V = _
  rw [flatten_eq, StableHlo.after_append, StableHlo.after_append, StableHlo.after_append]

/-- Coordinate `c` of point `n`, through the flattening and the column cut. -/
theorem coord_apply (c : Nat) (k : Fin 3) (hk : k.val = c) (hs : S1048576x3.Slices ![0, c] S1048576x1)
    (x : FVec F S4x262144x3 .f32) (n : Fin 1048576) :
    vcol c hs shapeCasts_S1048576x1_S1048576 (flat x) (ix1 n) = Cert.Tri.coordAt x n k :=
  (vcol_apply c hs _ _ n k hk).trans (vflat_apply _ x n k)

/-- A weight at point `n`. -/
theorem frac_apply (c : Nat) (k : Fin 3) (hk : k.val = c) (hs : S1048576x3.Slices ![0, c] S1048576x1)
    (x : FVec F S4x262144x3 .f32) (n : Fin 1048576) :
    vfrac S1048576 (pxl c hs (flat x)) (ix1 n) = Cert.Tri.frac (Cert.Tri.coordAt x n k) := by
  show Cert.Tri.frac (vcol c hs shapeCasts_S1048576x1_S1048576 (flat x) (ix1 n)) = _
  rw [coord_apply c k hk hs x n]

theorem corner_ll (plane : FVec F S32x513x513 .f32) (cx cy : Nat) (kx ky : Fin 3) (hkx : kx.val = cx) (hky : ky.val = cy)
    (hsx : S1048576x3.Slices ![0, cx] S1048576x1) (hsy : S1048576x3.Slices ![0, cy] S1048576x1)
    (x : FVec F S4x262144x3 .f32) (n : Fin 1048576) (ch : Fin 32) :
    corner plane (wr (lo (pxl cy hsy (flat x)))) (wr (lo (pxl cx hsx (flat x)))) (ix2 n ch)
      = Cert.Tri.pick plane ch (Cert.Tri.loI (Cert.Tri.coordAt x n ky)) (Cert.Tri.loI (Cert.Tri.coordAt x n kx)) := by
  have hX := coord_apply cx kx hkx hsx x n
  have hY := coord_apply cy ky hky hsy x n
  have k1 : wr (lo (pxl cy hsy (flat x))) (ix1 n) = Cert.Tri.wrap (Cert.Tri.loI (Cert.Tri.coordAt x n ky)) := by
    show Cert.Tri.wrap (Cert.Tri.loI (vcol cy hsy shapeCasts_S1048576x1_S1048576 (flat x) (ix1 n))) = _
    rw [hY]
  have k2 : wr (lo (pxl cx hsx (flat x))) (ix1 n) = Cert.Tri.wrap (Cert.Tri.loI (Cert.Tri.coordAt x n kx)) := by
    show Cert.Tri.wrap (Cert.Tri.loI (vcol cx hsx shapeCasts_S1048576x1_S1048576 (flat x) (ix1 n))) = _
    rw [hX]
  show vcorner _ _ (planeDims 1048576 gather_S32x513x513_S1048576x2_S32x1048576_0_12_n_n_12_1_3211_wf) _ plane _ _ (ix2 n ch) = _
  rw [vcorner_apply]
  unfold Cert.Tri.pick
  simp only [k1, k2]

theorem corner_lh (plane : FVec F S32x513x513 .f32) (cx cy : Nat) (kx ky : Fin 3) (hkx : kx.val = cx) (hky : ky.val = cy)
    (hsx : S1048576x3.Slices ![0, cx] S1048576x1) (hsy : S1048576x3.Slices ![0, cy] S1048576x1)
    (x : FVec F S4x262144x3 .f32) (n : Fin 1048576) (ch : Fin 32) :
    corner plane (wr (lo (pxl cy hsy (flat x)))) (wr (hi (pxl cx hsx (flat x)))) (ix2 n ch)
      = Cert.Tri.pick plane ch (Cert.Tri.loI (Cert.Tri.coordAt x n ky)) (Cert.Tri.hiI (Cert.Tri.coordAt x n kx)) := by
  have hX := coord_apply cx kx hkx hsx x n
  have hY := coord_apply cy ky hky hsy x n
  have k1 : wr (lo (pxl cy hsy (flat x))) (ix1 n) = Cert.Tri.wrap (Cert.Tri.loI (Cert.Tri.coordAt x n ky)) := by
    show Cert.Tri.wrap (Cert.Tri.loI (vcol cy hsy shapeCasts_S1048576x1_S1048576 (flat x) (ix1 n))) = _
    rw [hY]
  have k2 : wr (hi (pxl cx hsx (flat x))) (ix1 n) = Cert.Tri.wrap (Cert.Tri.hiI (Cert.Tri.coordAt x n kx)) := by
    show Cert.Tri.wrap (Cert.Tri.hiI (vcol cx hsx shapeCasts_S1048576x1_S1048576 (flat x) (ix1 n))) = _
    rw [hX]
  show vcorner _ _ (planeDims 1048576 gather_S32x513x513_S1048576x2_S32x1048576_0_12_n_n_12_1_3211_wf) _ plane _ _ (ix2 n ch) = _
  rw [vcorner_apply]
  unfold Cert.Tri.pick
  simp only [k1, k2]

theorem corner_hl (plane : FVec F S32x513x513 .f32) (cx cy : Nat) (kx ky : Fin 3) (hkx : kx.val = cx) (hky : ky.val = cy)
    (hsx : S1048576x3.Slices ![0, cx] S1048576x1) (hsy : S1048576x3.Slices ![0, cy] S1048576x1)
    (x : FVec F S4x262144x3 .f32) (n : Fin 1048576) (ch : Fin 32) :
    corner plane (wr (hi (pxl cy hsy (flat x)))) (wr (lo (pxl cx hsx (flat x)))) (ix2 n ch)
      = Cert.Tri.pick plane ch (Cert.Tri.hiI (Cert.Tri.coordAt x n ky)) (Cert.Tri.loI (Cert.Tri.coordAt x n kx)) := by
  have hX := coord_apply cx kx hkx hsx x n
  have hY := coord_apply cy ky hky hsy x n
  have k1 : wr (hi (pxl cy hsy (flat x))) (ix1 n) = Cert.Tri.wrap (Cert.Tri.hiI (Cert.Tri.coordAt x n ky)) := by
    show Cert.Tri.wrap (Cert.Tri.hiI (vcol cy hsy shapeCasts_S1048576x1_S1048576 (flat x) (ix1 n))) = _
    rw [hY]
  have k2 : wr (lo (pxl cx hsx (flat x))) (ix1 n) = Cert.Tri.wrap (Cert.Tri.loI (Cert.Tri.coordAt x n kx)) := by
    show Cert.Tri.wrap (Cert.Tri.loI (vcol cx hsx shapeCasts_S1048576x1_S1048576 (flat x) (ix1 n))) = _
    rw [hX]
  show vcorner _ _ (planeDims 1048576 gather_S32x513x513_S1048576x2_S32x1048576_0_12_n_n_12_1_3211_wf) _ plane _ _ (ix2 n ch) = _
  rw [vcorner_apply]
  unfold Cert.Tri.pick
  simp only [k1, k2]

theorem corner_hh (plane : FVec F S32x513x513 .f32) (cx cy : Nat) (kx ky : Fin 3) (hkx : kx.val = cx) (hky : ky.val = cy)
    (hsx : S1048576x3.Slices ![0, cx] S1048576x1) (hsy : S1048576x3.Slices ![0, cy] S1048576x1)
    (x : FVec F S4x262144x3 .f32) (n : Fin 1048576) (ch : Fin 32) :
    corner plane (wr (hi (pxl cy hsy (flat x)))) (wr (hi (pxl cx hsx (flat x)))) (ix2 n ch)
      = Cert.Tri.pick plane ch (Cert.Tri.hiI (Cert.Tri.coordAt x n ky)) (Cert.Tri.hiI (Cert.Tri.coordAt x n kx)) := by
  have hX := coord_apply cx kx hkx hsx x n
  have hY := coord_apply cy ky hky hsy x n
  have k1 : wr (hi (pxl cy hsy (flat x))) (ix1 n) = Cert.Tri.wrap (Cert.Tri.hiI (Cert.Tri.coordAt x n ky)) := by
    show Cert.Tri.wrap (Cert.Tri.hiI (vcol cy hsy shapeCasts_S1048576x1_S1048576 (flat x) (ix1 n))) = _
    rw [hY]
  have k2 : wr (hi (pxl cx hsx (flat x))) (ix1 n) = Cert.Tri.wrap (Cert.Tri.hiI (Cert.Tri.coordAt x n kx)) := by
    show Cert.Tri.wrap (Cert.Tri.hiI (vcol cx hsx shapeCasts_S1048576x1_S1048576 (flat x) (ix1 n))) = _
    rw [hX]
  show vcorner _ _ (planeDims 1048576 gather_S32x513x513_S1048576x2_S32x1048576_0_12_n_n_12_1_3211_wf) _ plane _ _ (ix2 n ch) = _
  rw [vcorner_apply]
  unfold Cert.Tri.pick
  simp only [k1, k2]

/-- Buffer `v352` after the host operations: the three planes' lo/lo corners, stacked. -/
theorem A_v352 (V : Valuation τ sig (Elt F)) :
    after (hostAll (F := F)) V (Proc.devRef .tc main_v352)
      = st32 (corner (V (Proc.devRef .tc main_arg1)) (wr (lo (pxl 2 slices_S1048576x3_S1048576x1_0_2 (flat (V (Proc.devRef .tc main_arg0)))))) (wr (lo (pxl 1 slices_S1048576x3_S1048576x1_0_1 (flat (V (Proc.devRef .tc main_arg0)))))))
          (corner (V (Proc.devRef .tc main_arg2)) (wr (lo (pxl 2 slices_S1048576x3_S1048576x1_0_2 (flat (V (Proc.devRef .tc main_arg0)))))) (wr (lo (pxl 0 slices_S1048576x3_S1048576x1_0_0 (flat (V (Proc.devRef .tc main_arg0)))))))
          (corner (V (Proc.devRef .tc main_arg3)) (wr (lo (pxl 1 slices_S1048576x3_S1048576x1_0_1 (flat (V (Proc.devRef .tc main_arg0)))))) (wr (lo (pxl 0 slices_S1048576x3_S1048576x1_0_0 (flat (V (Proc.devRef .tc main_arg0))))))) := by
  rw [A_eq, P3_v352,
    P2_fr_v71, P1_fr_v71, P0_v71,
    P2_fr_v187, P1_v187, P0_fr_arg2, P0_v0,
    P2_v303, P1_fr_arg3, P0_fr_arg3, P1_fr_v0, P0_v0]

/-- Buffer `v356` after the host operations: the three planes' lo/hi corners, stacked. -/
theorem A_v356 (V : Valuation τ sig (Elt F)) :
    after (hostAll (F := F)) V (Proc.devRef .tc main_v356)
      = st32 (corner (V (Proc.devRef .tc main_arg1)) (wr (lo (pxl 2 slices_S1048576x3_S1048576x1_0_2 (flat (V (Proc.devRef .tc main_arg0)))))) (wr (hi (pxl 1 slices_S1048576x3_S1048576x1_0_1 (flat (V (Proc.devRef .tc main_arg0)))))))
          (corner (V (Proc.devRef .tc main_arg2)) (wr (lo (pxl 2 slices_S1048576x3_S1048576x1_0_2 (flat (V (Proc.devRef .tc main_arg0)))))) (wr (hi (pxl 0 slices_S1048576x3_S1048576x1_0_0 (flat (V (Proc.devRef .tc main_arg0)))))))
          (corner (V (Proc.devRef .tc main_arg3)) (wr (lo (pxl 1 slices_S1048576x3_S1048576x1_0_1 (flat (V (Proc.devRef .tc main_arg0)))))) (wr (hi (pxl 0 slices_S1048576x3_S1048576x1_0_0 (flat (V (Proc.devRef .tc main_arg0))))))) := by
  rw [A_eq, P3_v356,
    P2_fr_v86, P1_fr_v86, P0_v86,
    P2_fr_v202, P1_v202, P0_fr_arg2, P0_v0,
    P2_v318, P1_fr_arg3, P0_fr_arg3, P1_fr_v0, P0_v0]

/-- Buffer `v360` after the host operations: the three planes' hi/lo corners, stacked. -/
theorem A_v360 (V : Valuation τ sig (Elt F)) :
    after (hostAll (F := F)) V (Proc.devRef .tc main_v360)
      = st32 (corner (V (Proc.devRef .tc main_arg1)) (wr (hi (pxl 2 slices_S1048576x3_S1048576x1_0_2 (flat (V (Proc.devRef .tc main_arg0)))))) (wr (lo (pxl 1 slices_S1048576x3_S1048576x1_0_1 (flat (V (Proc.devRef .tc main_arg0)))))))
          (corner (V (Proc.devRef .tc main_arg2)) (wr (hi (pxl 2 slices_S1048576x3_S1048576x1_0_2 (flat (V (Proc.devRef .tc main_arg0)))))) (wr (lo (pxl 0 slices_S1048576x3_S1048576x1_0_0 (flat (V (Proc.devRef .tc main_arg0)))))))
          (corner (V (Proc.devRef .tc main_arg3)) (wr (hi (pxl 1 slices_S1048576x3_S1048576x1_0_1 (flat (V (Proc.devRef .tc main_arg0)))))) (wr (lo (pxl 0 slices_S1048576x3_S1048576x1_0_0 (flat (V (Proc.devRef .tc main_arg0))))))) := by
  rw [A_eq, P3_v360,
    P2_fr_v101, P1_fr_v101, P0_v101,
    P2_fr_v217, P1_v217, P0_fr_arg2, P0_v0,
    P2_v333, P1_fr_arg3, P0_fr_arg3, P1_fr_v0, P0_v0]

/-- Buffer `v364` after the host operations: the three planes' hi/hi corners, stacked. -/
theorem A_v364 (V : Valuation τ sig (Elt F)) :
    after (hostAll (F := F)) V (Proc.devRef .tc main_v364)
      = st32 (corner (V (Proc.devRef .tc main_arg1)) (wr (hi (pxl 2 slices_S1048576x3_S1048576x1_0_2 (flat (V (Proc.devRef .tc main_arg0)))))) (wr (hi (pxl 1 slices_S1048576x3_S1048576x1_0_1 (flat (V (Proc.devRef .tc main_arg0)))))))
          (corner (V (Proc.devRef .tc main_arg2)) (wr (hi (pxl 2 slices_S1048576x3_S1048576x1_0_2 (flat (V (Proc.devRef .tc main_arg0)))))) (wr (hi (pxl 0 slices_S1048576x3_S1048576x1_0_0 (flat (V (Proc.devRef .tc main_arg0)))))))
          (corner (V (Proc.devRef .tc main_arg3)) (wr (hi (pxl 1 slices_S1048576x3_S1048576x1_0_1 (flat (V (Proc.devRef .tc main_arg0)))))) (wr (hi (pxl 0 slices_S1048576x3_S1048576x1_0_0 (flat (V (Proc.devRef .tc main_arg0))))))) := by
  rw [A_eq, P3_v364,
    P2_fr_v116, P1_fr_v116, P0_v116,
    P2_fr_v232, P1_v232, P0_fr_arg2, P0_v0,
    P2_v348, P1_fr_arg3, P0_fr_arg3, P1_fr_v0, P0_v0]

/-- Buffer `v369` after the host operations: the three planes' weights along the width, stacked. -/
theorem A_v369 (V : Valuation τ sig (Elt F)) :
    after (hostAll (F := F)) V (Proc.devRef .tc main_v369)
      = stW (vfrac S1048576 (pxl 1 slices_S1048576x3_S1048576x1_0_1 (flat (V (Proc.devRef .tc main_arg0)))))
          (vfrac S1048576 (pxl 0 slices_S1048576x3_S1048576x1_0_0 (flat (V (Proc.devRef .tc main_arg0)))))
          (vfrac S1048576 (pxl 0 slices_S1048576x3_S1048576x1_0_0 (flat (V (Proc.devRef .tc main_arg0))))) := by
  rw [A_eq, P3_v369,
    P2_fr_v45, P1_fr_v45, P0_v45,
    P2_fr_v161, P1_v161, P0_v0,
    P2_v277, P1_fr_v0, P0_v0]

/-- Buffer `v374` after the host operations: the three planes' weights along the height, stacked. -/
theorem A_v374 (V : Valuation τ sig (Elt F)) :
    after (hostAll (F := F)) V (Proc.devRef .tc main_v374)
      = stW (vfrac S1048576 (pxl 2 slices_S1048576x3_S1048576x1_0_2 (flat (V (Proc.devRef .tc main_arg0)))))
          (vfrac S1048576 (pxl 2 slices_S1048576x3_S1048576x1_0_2 (flat (V (Proc.devRef .tc main_arg0)))))
          (vfrac S1048576 (pxl 1 slices_S1048576x3_S1048576x1_0_1 (flat (V (Proc.devRef .tc main_arg0))))) := by
  rw [A_eq, P3_v374,
    P2_fr_v46, P1_fr_v46, P0_v46,
    P2_fr_v162, P1_v162, P0_v0,
    P2_v278, P1_fr_v0, P0_v0]

/-- Argument 0 is not written. -/
theorem A_arg0 (V : Valuation τ sig (Elt F)) :
    after (hostAll (F := F)) V (Proc.devRef .tc main_arg0) = V (Proc.devRef .tc main_arg0) := by
  rw [A_eq, P3_fr_arg0, P2_fr_arg0, P1_fr_arg0, P0_fr_arg0]

/-- Argument 1 is not written. -/
theorem A_arg1 (V : Valuation τ sig (Elt F)) :
    after (hostAll (F := F)) V (Proc.devRef .tc main_arg1) = V (Proc.devRef .tc main_arg1) := by
  rw [A_eq, P3_fr_arg1, P2_fr_arg1, P1_fr_arg1, P0_fr_arg1]

/-- Argument 2 is not written. -/
theorem A_arg2 (V : Valuation τ sig (Elt F)) :
    after (hostAll (F := F)) V (Proc.devRef .tc main_arg2) = V (Proc.devRef .tc main_arg2) := by
  rw [A_eq, P3_fr_arg2, P2_fr_arg2, P1_fr_arg2, P0_fr_arg2]

/-- Argument 3 is not written. -/
theorem A_arg3 (V : Valuation τ sig (Elt F)) :
    after (hostAll (F := F)) V (Proc.devRef .tc main_arg3) = V (Proc.devRef .tc main_arg3) := by
  rw [A_eq, P3_fr_arg3, P2_fr_arg3, P1_fr_arg3, P0_fr_arg3]

/-- `v352` holds `v00`. -/
theorem read_v352 (V : Valuation τ sig (Elt F)) (n : Fin 1048576) (p : Fin 3) (ch : Fin 32) :
    after (hostAll (F := F)) V (Proc.devRef .tc main_v352) (ix3 n p ch)
      = Cert.Tri.v00 (V (Proc.devRef .tc main_arg0))
          (![V (Proc.devRef .tc main_arg1), V (Proc.devRef .tc main_arg2), V (Proc.devRef .tc main_arg3)] : Fin 3 → FVec F S32x513x513 .f32) n p ch := by
  rw [A_v352]
  show stack32 _ _ _ _ _ (ix3 n p ch) = _
  rw [stack32_apply]
  match p with
  | 0 => exact corner_ll _ 1 2 1 2 rfl rfl _ _ _ n ch
  | 1 => exact corner_ll _ 0 2 0 2 rfl rfl _ _ _ n ch
  | 2 => exact corner_ll _ 0 1 0 1 rfl rfl _ _ _ n ch

/-- `v356` holds `v01`. -/
theorem read_v356 (V : Valuation τ sig (Elt F)) (n : Fin 1048576) (p : Fin 3) (ch : Fin 32) :
    after (hostAll (F := F)) V (Proc.devRef .tc main_v356) (ix3 n p ch)
      = Cert.Tri.v01 (V (Proc.devRef .tc main_arg0))
          (![V (Proc.devRef .tc main_arg1), V (Proc.devRef .tc main_arg2), V (Proc.devRef .tc main_arg3)] : Fin 3 → FVec F S32x513x513 .f32) n p ch := by
  rw [A_v356]
  show stack32 _ _ _ _ _ (ix3 n p ch) = _
  rw [stack32_apply]
  match p with
  | 0 => exact corner_lh _ 1 2 1 2 rfl rfl _ _ _ n ch
  | 1 => exact corner_lh _ 0 2 0 2 rfl rfl _ _ _ n ch
  | 2 => exact corner_lh _ 0 1 0 1 rfl rfl _ _ _ n ch

/-- `v360` holds `v10`. -/
theorem read_v360 (V : Valuation τ sig (Elt F)) (n : Fin 1048576) (p : Fin 3) (ch : Fin 32) :
    after (hostAll (F := F)) V (Proc.devRef .tc main_v360) (ix3 n p ch)
      = Cert.Tri.v10 (V (Proc.devRef .tc main_arg0))
          (![V (Proc.devRef .tc main_arg1), V (Proc.devRef .tc main_arg2), V (Proc.devRef .tc main_arg3)] : Fin 3 → FVec F S32x513x513 .f32) n p ch := by
  rw [A_v360]
  show stack32 _ _ _ _ _ (ix3 n p ch) = _
  rw [stack32_apply]
  match p with
  | 0 => exact corner_hl _ 1 2 1 2 rfl rfl _ _ _ n ch
  | 1 => exact corner_hl _ 0 2 0 2 rfl rfl _ _ _ n ch
  | 2 => exact corner_hl _ 0 1 0 1 rfl rfl _ _ _ n ch

/-- `v364` holds `v11`. -/
theorem read_v364 (V : Valuation τ sig (Elt F)) (n : Fin 1048576) (p : Fin 3) (ch : Fin 32) :
    after (hostAll (F := F)) V (Proc.devRef .tc main_v364) (ix3 n p ch)
      = Cert.Tri.v11 (V (Proc.devRef .tc main_arg0))
          (![V (Proc.devRef .tc main_arg1), V (Proc.devRef .tc main_arg2), V (Proc.devRef .tc main_arg3)] : Fin 3 → FVec F S32x513x513 .f32) n p ch := by
  rw [A_v364]
  show stack32 _ _ _ _ _ (ix3 n p ch) = _
  rw [stack32_apply]
  match p with
  | 0 => exact corner_hh _ 1 2 1 2 rfl rfl _ _ _ n ch
  | 1 => exact corner_hh _ 0 2 0 2 rfl rfl _ _ _ n ch
  | 2 => exact corner_hh _ 0 1 0 1 rfl rfl _ _ _ n ch

/-- `v369` holds `wX`. -/
theorem read_v369 (V : Valuation τ sig (Elt F)) (n : Fin 1048576) (p : Fin 3) (u : Fin 1) :
    after (hostAll (F := F)) V (Proc.devRef .tc main_v369) (ix3 n p u) = Cert.Tri.wX (V (Proc.devRef .tc main_arg0)) n p := by
  rw [A_v369]
  show stackW _ _ _ _ _ _ (ix3 n p u) = _
  rw [stackW_apply]
  match p with
  | 0 => exact frac_apply 1 1 rfl _ _ n
  | 1 => exact frac_apply 0 0 rfl _ _ n
  | 2 => exact frac_apply 0 0 rfl _ _ n

/-- `v374` holds `wY`. -/
theorem read_v374 (V : Valuation τ sig (Elt F)) (n : Fin 1048576) (p : Fin 3) (u : Fin 1) :
    after (hostAll (F := F)) V (Proc.devRef .tc main_v374) (ix3 n p u) = Cert.Tri.wY (V (Proc.devRef .tc main_arg0)) n p := by
  rw [A_v374]
  show stackW _ _ _ _ _ _ (ix3 n p u) = _
  rw [stackW_apply]
  match p with
  | 0 => exact frac_apply 2 2 rfl _ _ n
  | 1 => exact frac_apply 2 2 rfl _ _ n
  | 2 => exact frac_apply 1 1 rfl _ _ n

end Cert.KernelIdeal.Host

end
-- ==== Proof.KIBridge.lean ====
/-
  The kernel program's result, index by index, in the terms of the specification: the six arrays the region reads
  are, at (n, p, ch), the four bilinear corners and the two weights of point `n` on plane `p` (the host operations
  read at an index), so the region's result there is the specification's corner-times-weight-product sum.
-/
import proofs.«174118_j37812892074356_2_alg».proof.Proof.KIRun
import proofs.«174118_j37812892074356_2_alg».proof.Proof.KernelHost
import proofs.«174118_j37812892074356_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Under the corner index (n, p, ch) the weight index is (n, p, 0). -/
theorem lowA_ix3 (n : Fin 1048576) (p : Fin 3) (ch : Fin 32) : lowA (ix3 n p ch) = ix3 n p (0 : Fin 1) := by
  funext a
  match a with
  | ⟨0, _⟩ => rfl
  | ⟨1, _⟩ => rfl
  | ⟨2, _⟩ => rfl

/-- The region's result at (n, p, ch) is the specification's kernel-side sum of the launch arguments. -/
theorem G_at (c : Dev nD) (n : Fin 1048576) (p : Fin 3) (ch : Fin 32) :
    G (V m c main_v352) (V m c main_v356) (V m c main_v360) (V m c main_v364) (V m c main_v369) (V m c main_v374) (ix3 n p ch)
      = Cert.Tri.outK (m ((c : Thread nD τ).loc main_arg0))
          ![m ((c : Thread nD τ).loc main_arg1), m ((c : Thread nD τ).loc main_arg2), m ((c : Thread nD τ).loc main_arg3)] n p ch := by
  show comb (V m c main_v352 (ix3 n p ch)) (V m c main_v356 (ix3 n p ch)) (V m c main_v360 (ix3 n p ch)) (V m c main_v364 (ix3 n p ch))
      (V m c main_v369 (lowA (ix3 n p ch))) (V m c main_v374 (lowA (ix3 n p ch))) = _
  rw [lowA_ix3]
  rw [show V m c main_v352 (ix3 n p ch) = _ from Cert.KernelIdeal.Host.read_v352 (fun b => m (c, b)) n p ch,
    show V m c main_v356 (ix3 n p ch) = _ from Cert.KernelIdeal.Host.read_v356 (fun b => m (c, b)) n p ch,
    show V m c main_v360 (ix3 n p ch) = _ from Cert.KernelIdeal.Host.read_v360 (fun b => m (c, b)) n p ch,
    show V m c main_v364 (ix3 n p ch) = _ from Cert.KernelIdeal.Host.read_v364 (fun b => m (c, b)) n p ch,
    show V m c main_v369 (ix3 n p (0 : Fin 1)) = _ from Cert.KernelIdeal.Host.read_v369 (fun b => m (c, b)) n p 0,
    show V m c main_v374 (ix3 n p (0 : Fin 1)) = _ from Cert.KernelIdeal.Host.read_v374 (fun b => m (c, b)) n p 0]
  rfl

end Cert.KernelIdeal.Hand

end
-- ==== Proof.RefRun.lean ====
/-
  The reference's run: the reference's entry function is a straight line of 604 host operations, so every weakly
  fair execution of it terminates, nothing faulting, with every buffer at the fold of those operations over the
  launch memory.
-/
import proofs.«174118_j37812892074356_2_alg».proof.Proof.RefOps

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 16000000 in
/-- On every device, from any memory with zero counters: every weakly fair execution of the reference's entry function
    terminates with each buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.RefRun

end
-- ==== Proof.RefLib.lean ====
/-
  One plane of the tri-planar bilinear lookup, as the reference program spells it on whole arrays, read one output
  element at a time. The array-level functions below follow the program's operation order exactly; each is read at an
  index once, down to the scalar functions of the specification.
-/
import proofs.«174118_j37812892074356_2_alg».proof.Proof.Spec
import Idealize.ShloMosaic.Lib.Pipeline.Value

noncomputable section

namespace Cert.Tri.RefLib

open Idealize.ShloMosaic Idealize.ShloMosaic.ValueIdx

variable {α : Type}

/-! ## Shapes -/

/-- A plane, the index array of one corner (row, column per query point), and the gathered corner values. -/
abbrev SP : Shape := ⟨3, ![32, 513, 513]⟩
abbrev SI : Shape := ⟨3, ![4, 262144, 2]⟩
abbrev SG : Shape := ⟨3, ![32, 4, 262144]⟩
/-- A scalar, one value per query point, the same as a one-wide column, the same under a leading unit axis,
    and one plane's result. -/
abbrev S0 : Shape := ⟨0, ![]⟩
abbrev S2 : Shape := ⟨2, ![4, 262144]⟩
abbrev S21 : Shape := ⟨3, ![4, 262144, 1]⟩
abbrev S1G : Shape := ⟨3, ![1, 4, 262144]⟩
abbrev ST : Shape := ⟨3, ![4, 262144, 32]⟩
/-- One plane's result as a slab of the output, and the output. -/
abbrev ST1 : Shape := ⟨4, ![4, 262144, 1, 32]⟩
abbrev SO : Shape := ⟨4, ![4, 262144, 3, 32]⟩

theorem bc0 : S0.BroadcastsInDim S2 (![] : Fin 0 → Fin S2.rank) := by decide
theorem bc21 : S2.BroadcastsInDim S21 (![0, 1] : Fin 2 → Fin S21.rank) := by decide
theorem bc1g : S2.BroadcastsInDim S1G (![1, 2] : Fin 2 → Fin S1G.rank) := by decide
theorem bcg : S1G.BroadcastsInDim SG (![0, 1, 2] : Fin 3 → Fin SG.rank) := by decide
theorem bct1 : ST.BroadcastsInDim ST1 (![0, 1, 3] : Fin 3 → Fin ST1.rank) := by decide
theorem cat2 : Shape.Concatenates [S21, S21] SI 2 := by decide
theorem cat3 : Shape.Concatenates [ST1, ST1, ST1] SO 2 := by decide
theorem trp : SG.Transposes [1, 2, 0] ST := by decide
theorem gwf : GatherDims.WF SP SI SG [0] [1, 2] [] [1, 2] [] 2 ![32, 1, 1] := by decide

/-! ## The gather of one plane element per query point -/

/-- The dimension numbers of `plane[:, y, x]`: the channel axis is kept whole, the two spatial axes are indexed by the
    two components of the start index, which sit on the last axis of the index array. -/
abbrev planeDims (wf : GatherDims.WF SP SI SG [0] [1, 2] [] [1, 2] [] 2 ![32, 1, 1]) : GatherDims SP SI SG where
  offsetDims := [0]
  collapsedSliceDims := [1, 2]
  operandBatchingDims := []
  startIndicesBatchingDims := []
  startIndexMap := [1, 2]
  indexVectorDim := 2
  sliceSizes := ![32, 1, 1]
  wf := wf

theorem zero_not_mem : (0 : Fin 3) ∉ ([1, 2] : List (Fin 3)) := by decide
theorem one_mem : (1 : Fin 3) ∈ ([1, 2] : List (Fin 3)) := by decide
theorem two_mem : (2 : Fin 3) ∈ ([1, 2] : List (Fin 3)) := by decide
theorem zero_mem_kept : (0 : Fin 3) ∈ (SP.kept ([1, 2] ++ [] : List (Fin 3))) := by decide

/-- The gather read at `(ch, b, s)`: the plane's channel `ch` at row `idx[b, s, 0]` and column `idx[b, s, 1]`, each read
    signed and clamped into `[0, 512]`. -/
theorem gather_plane_apply {w : Nat} (wf : GatherDims.WF SP SI SG [0] [1, 2] [] [1, 2] [] 2 ![32, 1, 1])
    (x : SP.Idx → α) (idx : IVec SI w) (j : SG.Idx) :
    Host.gather (planeDims wf) x idx j
      = x (ix3 (j 0) ⟨min (idx (ix3 (j 1) (j 2) 0)).toInt.toNat 512, by omega⟩
                     ⟨min (idx (ix3 (j 1) (j 2) 1)).toInt.toNat 512, by omega⟩) := by
  unfold Host.gather
  congr 1
  funext a
  refine Fin.ext ?_
  show (planeDims wf).start j idx a + (planeDims wf).batchCoord j a + (planeDims wf).offCoord j a = _
  rw [GatherDims.batchCoord_eq_zero _ _ _ List.not_mem_nil]
  match a with
  | ⟨0, h0⟩ =>
    have hn : (⟨0, h0⟩ : Fin SP.rank) ∉ (planeDims wf).startIndexMap := zero_not_mem
    have hk : (⟨0, h0⟩ : Fin SP.rank) ∈ (planeDims wf).sKept := zero_mem_kept
    unfold GatherDims.start GatherDims.offCoord
    rw [dif_neg hn, dif_pos hk]
    simp only [Nat.add_zero, Nat.zero_add]
    rfl
  | ⟨1, h1⟩ =>
    have hm : (⟨1, h1⟩ : Fin SP.rank) ∈ (planeDims wf).startIndexMap := one_mem
    rw [GatherDims.offCoord_eq_zero _ _ _ (fun h => ((GatherDims.mem_sKept _ _).mp h).1 one_mem)]
    unfold GatherDims.start
    rw [dif_pos hm]
    have hsi : (planeDims wf).siIdx j ⟨List.idxOf (⟨1, h1⟩ : Fin SP.rank) (planeDims wf).startIndexMap,
        List.idxOf_lt_length_iff.2 hm⟩ = ix3 (j 1) (j 2) 0 := by
      funext b; refine Fin.ext ?_
      match b with
      | ⟨0, _⟩ => rfl
      | ⟨1, _⟩ => rfl
      | ⟨2, _⟩ => rfl
    rw [hsi]
    rfl
  | ⟨2, h2⟩ =>
    have hm : (⟨2, h2⟩ : Fin SP.rank) ∈ (planeDims wf).startIndexMap := two_mem
    rw [GatherDims.offCoord_eq_zero _ _ _ (fun h => ((GatherDims.mem_sKept _ _).mp h).1 two_mem)]
    unfold GatherDims.start
    rw [dif_pos hm]
    have hsi : (planeDims wf).siIdx j ⟨List.idxOf (⟨2, h2⟩ : Fin SP.rank) (planeDims wf).startIndexMap,
        List.idxOf_lt_length_iff.2 hm⟩ = ix3 (j 1) (j 2) 1 := by
      funext b; refine Fin.ext ?_
      match b with
      | ⟨0, _⟩ => rfl
      | ⟨1, _⟩ => rfl
      | ⟨2, _⟩ => rfl
    rw [hsi]
    rfl

/-! ## The two-column index array and the stack of the three planes -/

/-- Column 0 of a two-column array joined from two one-wide columns is the first. -/
theorem cat2_apply_zero (x₁ x₂ : S21.Idx → α) (h : Shape.Concatenates [S21, S21] SI 2) (b : Fin 4) (s : Fin 262144) :
    concatenate SI 2 [⟨S21, x₁⟩, ⟨S21, x₂⟩] h (ix3 b s 0) = x₁ (ix3 b s 0) :=
  concatenate_pair_apply_left 2 x₁ x₂ h (ix3 b s 0) rfl (ix3 b s 0) (fun a => match a with
    | ⟨0, _⟩ => rfl
    | ⟨1, _⟩ => rfl
    | ⟨2, _⟩ => rfl)

/-- Column 1 is the second. -/
theorem cat2_apply_one (x₁ x₂ : S21.Idx → α) (h : Shape.Concatenates [S21, S21] SI 2) (b : Fin 4) (s : Fin 262144) :
    concatenate SI 2 [⟨S21, x₁⟩, ⟨S21, x₂⟩] h (ix3 b s 1) = x₂ (ix3 b s 0) :=
  concatenate_pair_apply_right 2 x₁ x₂ h (ix3 b s 1) rfl rfl (ix3 b s 0) (fun a => match a with
    | ⟨0, _⟩ => fun _ => rfl
    | ⟨1, _⟩ => fun _ => rfl
    | ⟨2, _⟩ => fun hne => absurd rfl hne) rfl

/-- Slab `p` of the stack of three one-thick slabs is the `p`-th. -/
theorem cat3_apply (x₀ x₁ x₂ : ST1.Idx → α) (h : Shape.Concatenates [ST1, ST1, ST1] SO 2)
    (b : Fin 4) (s : Fin 262144) (p : Fin 3) (ch : Fin 32) :
    concatenate SO 2 [⟨ST1, x₀⟩, ⟨ST1, x₁⟩, ⟨ST1, x₂⟩] h (ix4 b s p ch) = (![x₀, x₁, x₂] p) (ix4 b s 0 ch) := by
  have hi : ∀ q : Fin 3, ∀ a : Fin ST1.rank, a.cast (rfl : ST1.rank = SO.rank) ≠ (2 : Fin SO.rank) →
      ((ix4 b s (0 : Fin 1) ch : ST1.Idx) a).val = ((ix4 b s q ch : SO.Idx) (a.cast rfl)).val := fun q a => match a with
    | ⟨0, _⟩ => fun _ => rfl
    | ⟨1, _⟩ => fun _ => rfl
    | ⟨2, _⟩ => fun hne => absurd rfl hne
    | ⟨3, _⟩ => fun _ => rfl
  match p with
  | ⟨0, h0⟩ =>
    exact concatenate_apply_piece (t := SO) 2 [⟨ST1, x₀⟩, ⟨ST1, x₁⟩, ⟨ST1, x₂⟩] h (ix4 b s ⟨0, h0⟩ ch) 0
      (by show (0 : Nat) < 3; omega) ST1 x₀ rfl rfl 0 rfl (ix4 b s 0 ch) (hi ⟨0, h0⟩) rfl
  | ⟨1, h1⟩ =>
    exact concatenate_apply_piece (t := SO) 2 [⟨ST1, x₀⟩, ⟨ST1, x₁⟩, ⟨ST1, x₂⟩] h (ix4 b s ⟨1, h1⟩ ch) 1
      (by show (1 : Nat) < 3; omega) ST1 x₁ rfl rfl 1 rfl (ix4 b s 0 ch) (hi ⟨1, h1⟩) rfl
  | ⟨2, h2⟩ =>
    exact concatenate_apply_piece (t := SO) 2 [⟨ST1, x₀⟩, ⟨ST1, x₁⟩, ⟨ST1, x₂⟩] h (ix4 b s ⟨2, h2⟩ ch) 2
      (by show (2 : Nat) < 3; omega) ST1 x₂ rfl rfl 2 rfl (ix4 b s 0 ch) (hi ⟨2, h2⟩) rfl

/-! ## One plane on whole arrays -/

variable {F : FTy → Type} [FloatOps F]

/-- A float constant at every query point; the same through the clip's change of format, which keeps the format;
    an integer constant at every query point. -/
def cF (c : BitVec 32) : FVec F S2 .f32 := broadcastInDim S2 ![] bc0 (constant S0 .f32 c)
def cF' (c : BitVec 32) : FVec F S2 .f32 := broadcastInDim S2 ![] bc0 (id (constant S0 .f32 c))
def cI (c : BitVec 32) : IVec S2 32 := broadcastInDim S2 ![] bc0 (constantI S0 32 c)

/-- `|(g + 1) · ½ · 512|`, its remainder by 1024, and the pixel coordinate: reflected and clipped. -/
def scaleV (g : FVec F S2 .f32) : FVec F S2 .f32 :=
  Host.absf (mulf (mulf (addf g (cF 0x3F800000#32)) (cF 0x3F000000#32)) (cF 0x44000000#32))
def remV (g : FVec F S2 .f32) : FVec F S2 .f32 :=
  subf (scaleV g) (mulf (cF 0x44800000#32) (Host.floor (Host.divf (scaleV g) (cF 0x44800000#32))))
def pixV (g : FVec F S2 .f32) : FVec F S2 .f32 :=
  minimumf (cF' 0x44000000#32) (maximumf (cF' 0x00000000#32)
    (select (cmpf .ogt (remV g) (cF 0x44000000#32)) (subf (cF 0x44800000#32) (remV g)) (remV g)))

/-- The low corner as a float, the weight of the high corner, the two corners as signed words. -/
def loV (g : FVec F S2 .f32) : FVec F S2 .f32 := Host.floor (pixV g)
def fracV (g : FVec F S2 .f32) : FVec F S2 .f32 := subf (pixV g) (loV g)
def loIV (g : FVec F S2 .f32) : IVec S2 32 := fptosi 32 (loV g)
def hiIV (g : FVec F S2 .f32) : IVec S2 32 := minsi (addi (loIV g) (cI 1#32)) (cI 512#32)

/-- A negative index wrapped by 513; an index array as a one-wide column; the (row, column) index array of a corner. -/
def wrapV (k : IVec S2 32) : IVec S2 32 := select (cmpi .slt k (cI 0#32)) (addi k (cI 513#32)) k
def colV (k : IVec S2 32) : IVec S21 32 := broadcastInDim S21 ![0, 1] bc21 k
def idxV (ky kx : IVec S2 32) : IVec SI 32 :=
  concatenate SI 2 [⟨S21, colV (wrapV ky)⟩, ⟨S21, colV (wrapV kx)⟩] cat2

/-- The plane at a corner, every channel of every query point. -/
def cornerV (plane : FVec F SP .f32) (ky kx : IVec S2 32) : FVec F SG .f32 :=
  Host.gather (planeDims gwf) plane (idxV ky kx)

/-- A per-point weight repeated over the channels, and one minus a weight. -/
def upV (w : FVec F S2 .f32) : FVec F SG .f32 :=
  broadcastInDim SG ![0, 1, 2] bcg (broadcastInDim S1G ![1, 2] bc1g w)
def oneMinusV (w : FVec F S2 .f32) : FVec F S2 .f32 := subf (cF 0x3F800000#32) w

/-- One plane sampled at the coordinate arrays `gx` (width) and `gy` (height): each corner times one weight, then
    the other, summed left to right, channels last. -/
def planeV (plane : FVec F SP .f32) (gx gy : FVec F S2 .f32) : FVec F ST .f32 :=
  transpose ST [1, 2, 0]
    (addf (addf (addf
      (mulf (mulf (cornerV plane (loIV gy) (loIV gx)) (upV (oneMinusV (fracV gx)))) (upV (oneMinusV (fracV gy))))
      (mulf (mulf (cornerV plane (loIV gy) (hiIV gx)) (upV (fracV gx))) (upV (oneMinusV (fracV gy)))))
      (mulf (mulf (cornerV plane (hiIV gy) (loIV gx)) (upV (oneMinusV (fracV gx)))) (upV (fracV gy))))
      (mulf (mulf (cornerV plane (hiIV gy) (hiIV gx)) (upV (fracV gx))) (upV (fracV gy)))) trp

/-- One plane's result as a slab of the output. -/
def slabV (y : FVec F ST .f32) : FVec F ST1 .f32 := broadcastInDim ST1 ![0, 1, 3] bct1 y

/-! ## The same, one element at a time -/

theorem pixV_apply (g : FVec F S2 .f32) (i : S2.Idx) : pixV g i = pix (g i) := rfl
theorem loV_apply (g : FVec F S2 .f32) (i : S2.Idx) : loV g i = lo (g i) := rfl
theorem fracV_apply (g : FVec F S2 .f32) (i : S2.Idx) : fracV g i = frac (g i) := rfl
theorem loIV_apply (g : FVec F S2 .f32) (i : S2.Idx) : loIV g i = loI (g i) := rfl
theorem hiIV_apply (g : FVec F S2 .f32) (i : S2.Idx) : hiIV g i = hiI (g i) := rfl
theorem wrapV_apply (k : IVec S2 32) (i : S2.Idx) : wrapV k i = wrap (k i) := rfl
theorem oneMinusV_apply (w : FVec F S2 .f32) (i : S2.Idx) : oneMinusV w i = FloatOps.subf one (w i) := rfl

theorem colV_apply (k : IVec S2 32) (b : Fin 4) (s : Fin 262144) : colV k (ix3 b s 0) = k (ix2 b s) :=
  broadcastInDim_apply _ bc21 k (ix3 b s 0) (ix2 b s) (fun a => match a with
    | ⟨0, _⟩ => by show b.val = if (4 : Nat) = 1 then 0 else b.val; rw [if_neg (by decide)]
    | ⟨1, _⟩ => by show s.val = if (262144 : Nat) = 1 then 0 else s.val; rw [if_neg (by decide)])

theorem upV_apply (w : FVec F S2 .f32) (ch : Fin 32) (b : Fin 4) (s : Fin 262144) : upV w (ix3 ch b s) = w (ix2 b s) := by
  unfold upV
  rw [broadcastInDim_apply _ bcg _ (ix3 ch b s) (ix3 0 b s) (fun a => match a with
    | ⟨0, _⟩ => by show 0 = if (1 : Nat) = 1 then 0 else ch.val; rw [if_pos rfl]
    | ⟨1, _⟩ => by show b.val = if (4 : Nat) = 1 then 0 else b.val; rw [if_neg (by decide)]
    | ⟨2, _⟩ => by show s.val = if (262144 : Nat) = 1 then 0 else s.val; rw [if_neg (by decide)])]
  exact broadcastInDim_apply _ bc1g w (ix3 0 b s) (ix2 b s) (fun a => match a with
    | ⟨0, _⟩ => by show b.val = if (4 : Nat) = 1 then 0 else b.val; rw [if_neg (by decide)]
    | ⟨1, _⟩ => by show s.val = if (262144 : Nat) = 1 then 0 else s.val; rw [if_neg (by decide)])

/-- A corner read at `(ch, b, s)`: the specification's `pick` at the point's two corner indices. -/
theorem cornerV_apply (plane : FVec F SP .f32) (ky kx : IVec S2 32) (ch : Fin 32) (b : Fin 4) (s : Fin 262144) :
    cornerV plane ky kx (ix3 ch b s) = pick plane ch (ky (ix2 b s)) (kx (ix2 b s)) := by
  unfold cornerV
  rw [gather_plane_apply]
  show plane (ix3 ch ⟨min (idxV ky kx (ix3 b s 0)).toInt.toNat 512, _⟩ ⟨min (idxV ky kx (ix3 b s 1)).toInt.toNat 512, _⟩) = _
  have h0 : idxV ky kx (ix3 b s 0) = wrap (ky (ix2 b s)) := by
    unfold idxV; rw [cat2_apply_zero, colV_apply]; rfl
  have h1 : idxV ky kx (ix3 b s 1) = wrap (kx (ix2 b s)) := by
    unfold idxV; rw [cat2_apply_one, colV_apply]; rfl
  unfold pick
  congr 1
  funext a
  match a with
  | ⟨0, _⟩ => rfl
  | ⟨1, _⟩ => exact Fin.ext (by show min _ 512 = min _ 512; rw [h0])
  | ⟨2, _⟩ => exact Fin.ext (by show min _ 512 = min _ 512; rw [h1])

/-- The bilinear combination of one plane's four corners at the coordinates `gx`, `gy` of one point. -/
def planeAt (plane : FVec F SP .f32) (ch : Fin 32) (gx gy : F .f32) : F .f32 :=
  FloatOps.addf (FloatOps.addf (FloatOps.addf
    (FloatOps.mulf (FloatOps.mulf (pick plane ch (loI gy) (loI gx)) (FloatOps.subf one (frac gx))) (FloatOps.subf one (frac gy)))
    (FloatOps.mulf (FloatOps.mulf (pick plane ch (loI gy) (hiI gx)) (frac gx)) (FloatOps.subf one (frac gy))))
    (FloatOps.mulf (FloatOps.mulf (pick plane ch (hiI gy) (loI gx)) (FloatOps.subf one (frac gx))) (frac gy)))
    (FloatOps.mulf (FloatOps.mulf (pick plane ch (hiI gy) (hiI gx)) (frac gx)) (frac gy))

theorem planeV_apply (plane : FVec F SP .f32) (gx gy : FVec F S2 .f32) (b : Fin 4) (s : Fin 262144) (ch : Fin 32) :
    planeV plane gx gy (ix3 b s ch) = planeAt plane ch (gx (ix2 b s)) (gy (ix2 b s)) := by
  unfold planeV
  rw [transpose_apply [1, 2, 0] _ trp (ix3 b s ch) (ix3 ch b s) (fun a => match a with
    | ⟨0, _⟩ => rfl
    | ⟨1, _⟩ => rfl
    | ⟨2, _⟩ => rfl)]
  show FloatOps.addf (FloatOps.addf (FloatOps.addf
    (FloatOps.mulf (FloatOps.mulf (cornerV plane (loIV gy) (loIV gx) (ix3 ch b s)) (upV (oneMinusV (fracV gx)) (ix3 ch b s))) (upV (oneMinusV (fracV gy)) (ix3 ch b s)))
    (FloatOps.mulf (FloatOps.mulf (cornerV plane (loIV gy) (hiIV gx) (ix3 ch b s)) (upV (fracV gx) (ix3 ch b s))) (upV (oneMinusV (fracV gy)) (ix3 ch b s))))
    (FloatOps.mulf (FloatOps.mulf (cornerV plane (hiIV gy) (loIV gx) (ix3 ch b s)) (upV (oneMinusV (fracV gx)) (ix3 ch b s))) (upV (fracV gy) (ix3 ch b s))))
    (FloatOps.mulf (FloatOps.mulf (cornerV plane (hiIV gy) (hiIV gx) (ix3 ch b s)) (upV (fracV gx) (ix3 ch b s))) (upV (fracV gy) (ix3 ch b s))) = _
  simp only [cornerV_apply, upV_apply]
  rfl

theorem slabV_apply (y : FVec F ST .f32) (b : Fin 4) (s : Fin 262144) (ch : Fin 32) :
    slabV y (ix4 b s 0 ch) = y (ix3 b s ch) :=
  broadcastInDim_apply _ bct1 y (ix4 b s 0 ch) (ix3 b s ch) (fun a => match a with
    | ⟨0, _⟩ => by show b.val = if (4 : Nat) = 1 then 0 else b.val; rw [if_neg (by decide)]
    | ⟨1, _⟩ => by show s.val = if (262144 : Nat) = 1 then 0 else s.val; rw [if_neg (by decide)]
    | ⟨2, _⟩ => by show ch.val = if (32 : Nat) = 1 then 0 else ch.val; rw [if_neg (by decide)])

/-! ## A coordinate column of the query points -/

abbrev SX : Shape := ⟨3, ![4, 262144, 3]⟩
theorem sc21 : S21.ShapeCasts S2 := by decide

/-- Coordinate `k` of every query point: the one-wide slice of the point array at column `k`, without its unit axis. -/
def colArr (k : Nat) (hs : SX.Slices ![0, 0, k] S21) (x : FVec F SX .f32) : FVec F S2 .f32 :=
  shapeCast S2 (extractStridedSlice S21 ![0, 0, k] x hs) sc21

theorem colArr_apply (k : Nat) (hk : k < 3) (hs : SX.Slices ![0, 0, k] S21) (x : FVec F SX .f32) (b : Fin 4) (s : Fin 262144) :
    colArr k hs x (ix2 b s) = x (ix3 b s ⟨k, hk⟩) := by
  unfold colArr
  rw [shapeCast_apply _ sc21 (ix2 b s) (ix3 b s 0) (by
    rewrite [Shape.rowMajor_val_three, Shape.rowMajor_val_two]
    show (b.val * 262144 + s.val) * 1 + 0 = b.val * 262144 + s.val
    omega)]
  exact extractStridedSlice_apply ![0, 0, k] x hs (ix3 b s 0) (ix3 b s ⟨k, hk⟩) (fun a => match a with
    | ⟨0, _⟩ => by show b.val = 0 + b.val; omega
    | ⟨1, _⟩ => by show s.val = 0 + s.val; omega
    | ⟨2, _⟩ => by show k = k + 0; omega)

end Cert.Tri.RefLib

end
-- ==== Proof.RefP0.lean ====
/-
  The first plane's block of the reference program: what it leaves in its result buffer, from any start, and the
  buffers it leaves alone.
-/
import proofs.«174118_j37812892074356_2_alg».proof.Proof.RefOps
import proofs.«174118_j37812892074356_2_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Tri.RefLib Cert.ReferenceIdeal.ValueP

variable {F : FTy → Type} [FloatOps F]

set_option maxRecDepth 8192 in
set_option maxHeartbeats 40000000 in
/-- From any contents, the first operations leave in `main_v147` the array-level lookup of the plane `main_arg1` at the
    coordinate columns 1 (width) and 2 (height) of the points `main_arg0`. -/
theorem opsP0_out (V : Valuation τ sig (Elt F)) :
    after (opsP0 (F := F)) V (Proc.devRef .tc main_v147)
      = planeV (V (Proc.devRef .tc main_arg1))
          (colArr 1 slices_S4x262144x3_S4x262144x1_0_0_1 (V (Proc.devRef .tc main_arg0)))
          (colArr 2 slices_S4x262144x3_S4x262144x1_0_0_2 (V (Proc.devRef .tc main_arg0))) := by
  after_results_simp
  rfl

set_option maxRecDepth 8192 in
set_option maxHeartbeats 40000000 in
/-- The first operations leave `main_arg0` as it was. -/
theorem opsP0_arg0 (V : Valuation τ sig (Elt F)) :
    after (opsP0 (F := F)) V (Proc.devRef .tc main_arg0) = V (Proc.devRef .tc main_arg0) := by
  after_results_simp

set_option maxRecDepth 8192 in
set_option maxHeartbeats 40000000 in
/-- The first operations leave `main_arg1` as it was. -/
theorem opsP0_arg1 (V : Valuation τ sig (Elt F)) :
    after (opsP0 (F := F)) V (Proc.devRef .tc main_arg1) = V (Proc.devRef .tc main_arg1) := by
  after_results_simp

set_option maxRecDepth 8192 in
set_option maxHeartbeats 40000000 in
/-- The first operations leave `main_arg2` as it was. -/
theorem opsP0_arg2 (V : Valuation τ sig (Elt F)) :
    after (opsP0 (F := F)) V (Proc.devRef .tc main_arg2) = V (Proc.devRef .tc main_arg2) := by
  after_results_simp

set_option maxRecDepth 8192 in
set_option maxHeartbeats 40000000 in
/-- The first operations leave `main_arg3` as it was. -/
theorem opsP0_arg3 (V : Valuation τ sig (Elt F)) :
    after (opsP0 (F := F)) V (Proc.devRef .tc main_arg3) = V (Proc.devRef .tc main_arg3) := by
  after_results_simp

end Cert.ReferenceIdeal.RefValue

end
-- ==== Proof.RefP1.lean ====
/-
  The second plane's block of the reference program: what it leaves in its result buffer, from any start, and the
  buffers it leaves alone.
-/
import proofs.«174118_j37812892074356_2_alg».proof.Proof.RefOps
import proofs.«174118_j37812892074356_2_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Tri.RefLib Cert.ReferenceIdeal.ValueP

variable {F : FTy → Type} [FloatOps F]

set_option maxRecDepth 8192 in
set_option maxHeartbeats 40000000 in
/-- From any contents, the second operations leave in `main_v295` the array-level lookup of the plane `main_arg2` at the
    coordinate columns 0 (width) and 2 (height) of the points `main_arg0`. -/
theorem opsP1_out (V : Valuation τ sig (Elt F)) :
    after (opsP1 (F := F)) V (Proc.devRef .tc main_v295)
      = planeV (V (Proc.devRef .tc main_arg2))
          (colArr 0 slices_S4x262144x3_S4x262144x1_0_0_0 (V (Proc.devRef .tc main_arg0)))
          (colArr 2 slices_S4x262144x3_S4x262144x1_0_0_2 (V (Proc.devRef .tc main_arg0))) := by
  after_results_simp
  rfl

set_option maxRecDepth 8192 in
set_option maxHeartbeats 40000000 in
/-- The second operations leave `main_arg0` as it was. -/
theorem opsP1_arg0 (V : Valuation τ sig (Elt F)) :
    after (opsP1 (F := F)) V (Proc.devRef .tc main_arg0) = V (Proc.devRef .tc main_arg0) := by
  after_results_simp

set_option maxRecDepth 8192 in
set_option maxHeartbeats 40000000 in
/-- The second operations leave `main_arg1` as it was. -/
theorem opsP1_arg1 (V : Valuation τ sig (Elt F)) :
    after (opsP1 (F := F)) V (Proc.devRef .tc main_arg1) = V (Proc.devRef .tc main_arg1) := by
  after_results_simp

set_option maxRecDepth 8192 in
set_option maxHeartbeats 40000000 in
/-- The second operations leave `main_arg2` as it was. -/
theorem opsP1_arg2 (V : Valuation τ sig (Elt F)) :
    after (opsP1 (F := F)) V (Proc.devRef .tc main_arg2) = V (Proc.devRef .tc main_arg2) := by
  after_results_simp

set_option maxRecDepth 8192 in
set_option maxHeartbeats 40000000 in
/-- The second operations leave `main_arg3` as it was. -/
theorem opsP1_arg3 (V : Valuation τ sig (Elt F)) :
    after (opsP1 (F := F)) V (Proc.devRef .tc main_arg3) = V (Proc.devRef .tc main_arg3) := by
  after_results_simp

set_option maxRecDepth 8192 in
set_option maxHeartbeats 40000000 in
/-- The second operations leave `main_v147` as it was. -/
theorem opsP1_v147 (V : Valuation τ sig (Elt F)) :
    after (opsP1 (F := F)) V (Proc.devRef .tc main_v147) = V (Proc.devRef .tc main_v147) := by
  after_results_simp

end Cert.ReferenceIdeal.RefValue

end
-- ==== Proof.RefP2.lean ====
/-
  The third plane's block of the reference program: what it leaves in its result buffer, from any start, and the
  buffers it leaves alone.
-/
import proofs.«174118_j37812892074356_2_alg».proof.Proof.RefOps
import proofs.«174118_j37812892074356_2_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Tri.RefLib Cert.ReferenceIdeal.ValueP

variable {F : FTy → Type} [FloatOps F]

set_option maxRecDepth 8192 in
set_option maxHeartbeats 40000000 in
/-- From any contents, the third operations leave in `main_v443` the array-level lookup of the plane `main_arg3` at the
    coordinate columns 0 (width) and 1 (height) of the points `main_arg0`. -/
theorem opsP2_out (V : Valuation τ sig (Elt F)) :
    after (opsP2 (F := F)) V (Proc.devRef .tc main_v443)
      = planeV (V (Proc.devRef .tc main_arg3))
          (colArr 0 slices_S4x262144x3_S4x262144x1_0_0_0 (V (Proc.devRef .tc main_arg0)))
          (colArr 1 slices_S4x262144x3_S4x262144x1_0_0_1 (V (Proc.devRef .tc main_arg0))) := by
  after_results_simp
  rfl

set_option maxRecDepth 8192 in
set_option maxHeartbeats 40000000 in
/-- The third operations leave `main_arg0` as it was. -/
theorem opsP2_arg0 (V : Valuation τ sig (Elt F)) :
    after (opsP2 (F := F)) V (Proc.devRef .tc main_arg0) = V (Proc.devRef .tc main_arg0) := by
  after_results_simp

set_option maxRecDepth 8192 in
set_option maxHeartbeats 40000000 in
/-- The third operations leave `main_arg1` as it was. -/
theorem opsP2_arg1 (V : Valuation τ sig (Elt F)) :
    after (opsP2 (F := F)) V (Proc.devRef .tc main_arg1) = V (Proc.devRef .tc main_arg1) := by
  after_results_simp

set_option maxRecDepth 8192 in
set_option maxHeartbeats 40000000 in
/-- The third operations leave `main_arg2` as it was. -/
theorem opsP2_arg2 (V : Valuation τ sig (Elt F)) :
    after (opsP2 (F := F)) V (Proc.devRef .tc main_arg2) = V (Proc.devRef .tc main_arg2) := by
  after_results_simp

set_option maxRecDepth 8192 in
set_option maxHeartbeats 40000000 in
/-- The third operations leave `main_arg3` as it was. -/
theorem opsP2_arg3 (V : Valuation τ sig (Elt F)) :
    after (opsP2 (F := F)) V (Proc.devRef .tc main_arg3) = V (Proc.devRef .tc main_arg3) := by
  after_results_simp

set_option maxRecDepth 8192 in
set_option maxHeartbeats 40000000 in
/-- The third operations leave `main_v147` as it was. -/
theorem opsP2_v147 (V : Valuation τ sig (Elt F)) :
    after (opsP2 (F := F)) V (Proc.devRef .tc main_v147) = V (Proc.devRef .tc main_v147) := by
  after_results_simp

set_option maxRecDepth 8192 in
set_option maxHeartbeats 40000000 in
/-- The third operations leave `main_v295` as it was. -/
theorem opsP2_v295 (V : Valuation τ sig (Elt F)) :
    after (opsP2 (F := F)) V (Proc.devRef .tc main_v295) = V (Proc.devRef .tc main_v295) := by
  after_results_simp

end Cert.ReferenceIdeal.RefValue

end
-- ==== Proof.RefT.lean ====
/-
  The last four operations of the reference program: each plane's result becomes a slab and the three slabs are stacked.
-/
import proofs.«174118_j37812892074356_2_alg».proof.Proof.RefOps
import proofs.«174118_j37812892074356_2_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Tri.RefLib Cert.ReferenceIdeal.ValueP

variable {F : FTy → Type} [FloatOps F]

set_option maxRecDepth 8192 in
/-- From any contents, the last four operations leave in `main_v447` the stack of the three planes' results. -/
theorem opsT_out (W : Valuation τ sig (Elt F)) :
    after (opsT (F := F)) W (Proc.devRef .tc main_v447)
      = concatenate SO 2 [⟨ST1, slabV (W (Proc.devRef .tc main_v147))⟩, ⟨ST1, slabV (W (Proc.devRef .tc main_v295))⟩,
          ⟨ST1, slabV (W (Proc.devRef .tc main_v443))⟩] cat3 := by
  after_results_simp
  rfl

set_option maxRecDepth 8192 in
set_option maxHeartbeats 40000000 in
/-- The last four operations leave `main_arg0` as it was. -/
theorem opsT_arg0 (V : Valuation τ sig (Elt F)) :
    after (opsT (F := F)) V (Proc.devRef .tc main_arg0) = V (Proc.devRef .tc main_arg0) := by
  after_results_simp

set_option maxRecDepth 8192 in
set_option maxHeartbeats 40000000 in
/-- The last four operations leave `main_arg1` as it was. -/
theorem opsT_arg1 (V : Valuation τ sig (Elt F)) :
    after (opsT (F := F)) V (Proc.devRef .tc main_arg1) = V (Proc.devRef .tc main_arg1) := by
  after_results_simp

set_option maxRecDepth 8192 in
set_option maxHeartbeats 40000000 in
/-- The last four operations leave `main_arg2` as it was. -/
theorem opsT_arg2 (V : Valuation τ sig (Elt F)) :
    after (opsT (F := F)) V (Proc.devRef .tc main_arg2) = V (Proc.devRef .tc main_arg2) := by
  after_results_simp

set_option maxRecDepth 8192 in
set_option maxHeartbeats 40000000 in
/-- The last four operations leave `main_arg3` as it was. -/
theorem opsT_arg3 (V : Valuation τ sig (Elt F)) :
    after (opsT (F := F)) V (Proc.devRef .tc main_arg3) = V (Proc.devRef .tc main_arg3) := by
  after_results_simp

end Cert.ReferenceIdeal.RefValue

end
-- ==== Proof.RefValue.lean ====
/-
  The reference program's result, one output element at a time. Each plane's block of operations computes the
  array-level bilinear lookup of that plane (the three modules imported below), the last four operations stack the
  three planes, and the stack read at (b, s, p, ch) is the specification's value for point b · 262144 + s, plane p,
  channel ch.
-/
import proofs.«174118_j37812892074356_2_alg».proof.Proof.RefP0
import proofs.«174118_j37812892074356_2_alg».proof.Proof.RefP1
import proofs.«174118_j37812892074356_2_alg».proof.Proof.RefP2
import proofs.«174118_j37812892074356_2_alg».proof.Proof.RefT

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Tri.RefLib Cert.ReferenceIdeal.ValueP

variable {F : FTy → Type} [FloatOps F]

/-- Point `b · 262144 + s` of the flattened batch is point `(b, s)`. -/
theorem coordAt_mk (x : FVec F SX .f32) (b : Fin 4) (s : Fin 262144) (col : Fin 3)
    (h : b.val * 262144 + s.val < 1048576) :
    Cert.Tri.coordAt x ⟨b.val * 262144 + s.val, h⟩ col = x (ix3 b s col) := by
  unfold Cert.Tri.coordAt
  congr 1
  funext a
  match a with
  | ⟨0, _⟩ => exact Fin.ext (by show (b.val * 262144 + s.val) / 262144 = b.val; omega)
  | ⟨1, _⟩ => exact Fin.ext (by show (b.val * 262144 + s.val) % 262144 = s.val; omega)
  | ⟨2, _⟩ => rfl

/-- The specification's reference value is the bilinear combination at the plane's two coordinates. -/
theorem outR_eq_planeAt (x : FVec F SX .f32) (f : Fin 3 → FVec F SP .f32) (n : Fin 1048576) (p : Fin 3) (ch : Fin 32) :
    Cert.Tri.outR x f n p ch = planeAt (f p) ch (Cert.Tri.gX x n p) (Cert.Tri.gY x n p) := rfl

/-- The whole list is its four pieces in a row. -/
theorem after_ops (V : Valuation τ sig (Elt F)) :
    after (ops (F := F)) V = after opsT (after opsP2 (after opsP1 (after opsP0 V))) := by
  show after (opsP0 ++ (opsP1 ++ (opsP2 ++ opsT))) V = _
  rw [after_append, after_append, after_append]

/-- THE REFERENCE'S VALUE: from any contents `V`, element `(b, s, p, ch)` of the result buffer is the specification's
    reference value of point `b · 262144 + s`, plane `p`, channel `ch`, over the points and planes that `V` holds in
    the four argument buffers. -/
theorem out_apply (V : Valuation τ sig (Elt F)) (b : Fin 4) (s : Fin 262144) (p : Fin 3) (ch : Fin 32) :
    after (ops (F := F)) V (Proc.devRef .tc main_v447) (ix4 b s p ch)
      = Cert.Tri.outR (V (Proc.devRef .tc main_arg0))
          ![V (Proc.devRef .tc main_arg1), V (Proc.devRef .tc main_arg2), V (Proc.devRef .tc main_arg3)]
          ⟨b.val * 262144 + s.val, by omega⟩ p ch := by
  rw [after_ops, opsT_out, cat3_apply, outR_eq_planeAt]
  match p with
  | ⟨0, _⟩ =>
    show slabV (after opsP2 (after opsP1 (after opsP0 V)) (Proc.devRef .tc main_v147)) (ix4 b s 0 ch) = _
    rw [slabV_apply, opsP2_v147, opsP1_v147, opsP0_out, planeV_apply, colArr_apply 1 (by omega), colArr_apply 2 (by omega)]
    unfold Cert.Tri.gX Cert.Tri.gY
    rw [coordAt_mk, coordAt_mk]
    rfl
  | ⟨1, _⟩ =>
    show slabV (after opsP2 (after opsP1 (after opsP0 V)) (Proc.devRef .tc main_v295)) (ix4 b s 0 ch) = _
    rw [slabV_apply, opsP2_v295, opsP1_out, opsP0_arg0, opsP0_arg2, planeV_apply, colArr_apply 0 (by omega),
      colArr_apply 2 (by omega)]
    unfold Cert.Tri.gX Cert.Tri.gY
    rw [coordAt_mk, coordAt_mk]
    rfl
  | ⟨2, _⟩ =>
    show slabV (after opsP2 (after opsP1 (after opsP0 V)) (Proc.devRef .tc main_v443)) (ix4 b s 0 ch) = _
    rw [slabV_apply, opsP2_out, opsP1_arg0, opsP1_arg3, opsP0_arg0, opsP0_arg3, planeV_apply, colArr_apply 0 (by omega),
      colArr_apply 1 (by omega)]
    unfold Cert.Tri.gX Cert.Tri.gY
    rw [coordAt_mk, coordAt_mk]
    rfl

/-- The reference's frame: the four argument buffers end as they started. -/
theorem arg0_unchanged (V : Valuation τ sig (Elt F)) :
    after (ops (F := F)) V (Proc.devRef .tc main_arg0) = V (Proc.devRef .tc main_arg0) := by
  rw [after_ops, opsT_arg0, opsP2_arg0, opsP1_arg0, opsP0_arg0]
theorem arg1_unchanged (V : Valuation τ sig (Elt F)) :
    after (ops (F := F)) V (Proc.devRef .tc main_arg1) = V (Proc.devRef .tc main_arg1) := by
  rw [after_ops, opsT_arg1, opsP2_arg1, opsP1_arg1, opsP0_arg1]
theorem arg2_unchanged (V : Valuation τ sig (Elt F)) :
    after (ops (F := F)) V (Proc.devRef .tc main_arg2) = V (Proc.devRef .tc main_arg2) := by
  rw [after_ops, opsT_arg2, opsP2_arg2, opsP1_arg2, opsP0_arg2]
theorem arg3_unchanged (V : Valuation τ sig (Elt F)) :
    after (ops (F := F)) V (Proc.devRef .tc main_arg3) = V (Proc.devRef .tc main_arg3) := by
  rw [after_ops, opsT_arg3, opsP2_arg3, opsP1_arg3, opsP0_arg3]

end Cert.ReferenceIdeal.RefValue

end
-- ==== Proof.lean ====
/-
  The certificate's proof. Both programs compute a tri-planar bilinear feature lookup: for each of 4 · 262144 query
  points and each of three feature planes, the point's two other coordinates are mapped to pixel coordinates of
  the 513 × 513 plane (scaled, reflected, clipped), the four neighbouring pixels' 32 channels are gathered, and the
  result is their bilinear combination. The kernel program gathers the corners and the weights with host
  operations, stacks them per plane, and combines them in a kernel region over 2048 blocks of 512 points —
  each corner times the PRODUCT of its two weights —, then reshapes; the reference multiplies each corner by one
  weight and then the other, plane by plane, and stacks the planes. On the extended reals the two agree because
  the product is associative (no finiteness is used).

  The frames of the two kernel programs are the frame run of the region around its host operations (the body run
  once at a symbolic grid point); the reference's frame is the run of its straight line of host operations. The
  ideal pass rewrote nothing, so `preserves` is trivial. For `algebraic`, the kernel program's result array is read
  block by block into one function of the six arrays the region reads, those arrays and the reference's result are
  read at an index from the host operations, and both meet the specification (Proof/Spec.lean).
-/
import proofs.«174118_j37812892074356_2_alg».proof.Defs
import proofs.«174118_j37812892074356_2_alg».proof.Proof.Gen.Kernel
import proofs.«174118_j37812892074356_2_alg».proof.Proof.Gen.KernelIdeal
import proofs.«174118_j37812892074356_2_alg».proof.Proof.Gen.ReferenceIdeal
import proofs.«174118_j37812892074356_2_alg».proof.Proof.Gen.Pre_finite_inputs
import proofs.«174118_j37812892074356_2_alg».proof.Proof.KBFrame
import proofs.«174118_j37812892074356_2_alg».proof.Proof.KIBridge
import proofs.«174118_j37812892074356_2_alg».proof.Proof.RefRun
import proofs.«174118_j37812892074356_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

/-- The reference runs and leaves its arguments as launched: none of its operations writes an argument. -/
theorem frame_ri : Cert.frame_ReferenceIdeal :=
  fun m ρ _ => (θ_run Cert.ReferenceIdeal.defs _ _).mono (fun _ h c =>
      ⟨(h c Cert.ReferenceIdeal.main_arg0).trans (Cert.ReferenceIdeal.RefValue.arg0_unchanged (F := Ideal) (fun b => m (c, b))),
       (h c Cert.ReferenceIdeal.main_arg1).trans (Cert.ReferenceIdeal.RefValue.arg1_unchanged (F := Ideal) (fun b => m (c, b))),
       (h c Cert.ReferenceIdeal.main_arg2).trans (Cert.ReferenceIdeal.RefValue.arg2_unchanged (F := Ideal) (fun b => m (c, b))),
       (h c Cert.ReferenceIdeal.main_arg3).trans (Cert.ReferenceIdeal.RefValue.arg3_unchanged (F := Ideal) (fun b => m (c, b)))⟩)
    (Cert.ReferenceIdeal.RefRun.run (F := Ideal) m ρ)

/-- The flattened row of batch `b`, sample `s`. -/
abbrev rowOf (b : Fin 4) (s : Fin 262144) : Fin 1048576 := ⟨b.val * 262144 + s.val, by omega⟩

/-- At the ideal instance the two programs' results agree element by element: the kernel program's at (b, s, p, ch) is
    the region's result at row b · 262144 + s (the reshape keeps the row-major position), which is the specification's
    corner-times-weight-product sum; the reference's is the corner-times-weight-times-weight sum; the product of
    extended reals is associative. -/
theorem algebraic : Cert.algebraic_KernelIdeal_ReferenceIdeal := by
  intro m ρ m' ρ' _ hagree
  refine ⟨_, Cert.KernelIdeal.Hand.run_val (F := Ideal) m ρ, ?_⟩
  refine (θ_run Cert.ReferenceIdeal.defs _ _).mono (fun _ h c =>
      ⟨(h c Cert.ReferenceIdeal.main_v447).trans ?_,
       (h c Cert.ReferenceIdeal.main_arg0).trans (Cert.ReferenceIdeal.RefValue.arg0_unchanged (F := Ideal) (fun b => m' (c, b))),
       (h c Cert.ReferenceIdeal.main_arg1).trans (Cert.ReferenceIdeal.RefValue.arg1_unchanged (F := Ideal) (fun b => m' (c, b))),
       (h c Cert.ReferenceIdeal.main_arg2).trans (Cert.ReferenceIdeal.RefValue.arg2_unchanged (F := Ideal) (fun b => m' (c, b))),
       (h c Cert.ReferenceIdeal.main_arg3).trans (Cert.ReferenceIdeal.RefValue.arg3_unchanged (F := Ideal) (fun b => m' (c, b)))⟩)
    (Cert.ReferenceIdeal.RefRun.run (F := Ideal) m' ρ')
  funext i
  obtain ⟨b, s, p, ch, rfl⟩ : ∃ (b : Fin 4) (s : Fin 262144) (p : Fin 3) (ch : Fin 32), i = ix4 b s p ch :=
    ⟨i 0, i 1, i 2, i 3, eq_ix4 i⟩
  refine (Cert.ReferenceIdeal.RefValue.out_apply (F := Ideal) (fun b => m' (c, b)) b s p ch).trans ?_
  refine Eq.trans ?_ (shapeCast_apply _ _ (ix4 b s p ch) (ix3 (rowOf b s) p ch) (by
    rw [Shape.rowMajor_val_three, Shape.rowMajor_val_four]; rfl)).symm
  rw [Cert.KernelIdeal.Hand.G_at (F := Ideal) m c (rowOf b s) p ch, Cert.Tri.outK_eq_outR]
  have e0 : m' (c, Proc.devRef .tc Cert.ReferenceIdeal.main_arg0) = m (c, Proc.devRef .tc Cert.KernelIdeal.main_arg0) := (hagree c).1
  have e1 : m' (c, Proc.devRef .tc Cert.ReferenceIdeal.main_arg1) = m (c, Proc.devRef .tc Cert.KernelIdeal.main_arg1) := (hagree c).2.1
  have e2 : m' (c, Proc.devRef .tc Cert.ReferenceIdeal.main_arg2) = m (c, Proc.devRef .tc Cert.KernelIdeal.main_arg2) := (hagree c).2.2.1
  have e3 : m' (c, Proc.devRef .tc Cert.ReferenceIdeal.main_arg3) = m (c, Proc.devRef .tc Cert.KernelIdeal.main_arg3) := (hagree c).2.2.2
  rw [e0, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
